-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1250000 : Shape := ⟨2, ![2, 1250000]⟩
abbrev S128x64 : Shape := ⟨2, ![128, 64]⟩
abbrev S64 : Shape := ⟨1, ![64]⟩
abbrev S64x64 : Shape := ⟨2, ![64, 64]⟩
abbrev S64x47 : Shape := ⟨2, ![64, 47]⟩
abbrev S47 : Shape := ⟨1, ![47]⟩
abbrev S4x64 : Shape := ⟨2, ![4, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x47 : S_.BroadcastsInDim S64x47 (![] : Fin 0 → Fin S64x47.rank)
  reducesTo_S64x47_S_d0_1 : S64x47.ReducesTo [0, 1] S_
  bcast_S_S47 : S_.BroadcastsInDim S47 (![] : Fin 0 → Fin S47.rank)
  reducesTo_S47_S_d0 : S47.ReducesTo [0] S_
  bcast_S_S4x64 : S_.BroadcastsInDim S4x64 (![] : Fin 0 → Fin S4x64.rank)
  reducesTo_S4x64_S_d0_1 : S4x64.ReducesTo [0, 1] S_

variable [Facts]

def fn_part2 {F : FTy → Type} [FloatOps F] (main_arg8 : FVec F S64x47 .f32) (main_arg9 : FVec F S47 .f32) (main_arg10 : FVec F S4x64 .f32) (main_v33 : IVec S_ 1) : IVec S_ 1 :=
  let main_v34 : FVec F S64x47 .f32 := Host.absf main_arg8
  let main_cst_12 : FVec F S_ .f32 := constant S_ .f32 0x7F800000#32
  let main_v35 : FVec F S64x47 .f32 := broadcastInDim S64x47 ![] bcast_S_S64x47 main_cst_12
  let main_v36 : IVec S64x47 1 := cmpf .olt main_v34 main_v35
  let main_c_13 : IVec S_ 1 := constantI S_ 1 1#1
  let main_v37 : IVec S_ 1 := (fun x v => Host.reduce IntOp.andi x v reducesTo_S64x47_S_d0_1 h_S_) main_v36 main_c_13
  let main_v38 : IVec S_ 1 := andi main_v33 main_v37
  let main_v39 : FVec F S47 .f32 := Host.absf main_arg9
  let main_cst_14 : FVec F S_ .f32 := constant S_ .f32 0x7F800000#32
  let main_v40 : FVec F S47 .f32 := broadcastInDim S47 ![] bcast_S_S47 main_cst_14
  let main_v41 : IVec S47 1 := cmpf .olt main_v39 main_v40
  let main_c_15 : IVec S_ 1 := constantI S_ 1 1#1
  let main_v42 : IVec S_ 1 := (fun x v => Host.reduce IntOp.andi x v reducesTo_S47_S_d0 h_S_) main_v41 main_c_15
  let main_v43 : IVec S_ 1 := andi main_v38 main_v42
  let main_v44 : FVec F S4x64 .f32 := Host.absf main_arg10
  let main_cst_16 : FVec F S_ .f32 := constant S_ .f32 0x7F800000#32
  let main_v45 : FVec F S4x64 .f32 := broadcastInDim S4x64 ![] bcast_S_S4x64 main_cst_16
  let main_v46 : IVec S4x64 1 := cmpf .olt main_v44 main_v45
  let main_c_17 : IVec S_ 1 := constantI S_ 1 1#1
  let main_v47 : IVec S_ 1 := (fun x v => Host.reduce IntOp.andi x v reducesTo_S4x64_S_d0_1 h_S_) main_v46 main_c_17
  let main_v48 : IVec S_ 1 := andi main_v43 main_v47
  main_v48

def fn_part1 {F : FTy → Type} [FloatOps F] (main_arg5 : FVec F S64 .f32) (main_arg6 : FVec F S64x64 .f32) (main_arg7 : FVec F S64 .f32) (main_arg8 : FVec F S64x47 .f32) (main_arg9 : FVec F S47 .f32) (main_arg10 : FVec F S4x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x1250000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x47 .f32) (main_arg9 : FVec F S47 .f32) (main_arg10 : FVec F S4x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x1250000 : Shape := ⟨2, ![2, 1250000]⟩
abbrev S128x64 : Shape := ⟨2, ![128, 64]⟩
abbrev S64 : Shape := ⟨1, ![64]⟩
abbrev S64x64 : Shape := ⟨2, ![64, 64]⟩
abbrev S64x47 : Shape := ⟨2, ![64, 47]⟩
abbrev S47 : Shape := ⟨1, ![47]⟩
abbrev S4x64 : Shape := ⟨2, ![4, 64]⟩
abbrev S50000 : Shape := ⟨1, ![50000]⟩
abbrev S1x1250000 : Shape := ⟨2, ![1, 1250000]⟩
abbrev S1250000 : Shape := ⟨1, ![1250000]⟩
abbrev S1300000 : Shape := ⟨1, ![1300000]⟩
abbrev S_ : Shape := ⟨0, ![]⟩
abbrev S1300000x1 : Shape := ⟨2, ![1300000, 1]⟩
abbrev S50000x1 : Shape := ⟨2, ![50000, 1]⟩
abbrev S1x64 : Shape := ⟨2, ![1, 64]⟩
abbrev S1x47 : Shape := ⟨2, ![1, 47]⟩
abbrev S50000x64 : Shape := ⟨2, ![50000, 64]⟩
abbrev S10000x128 : Shape := ⟨2, ![10000, 128]⟩
abbrev S10000x64 : Shape := ⟨2, ![10000, 64]⟩
abbrev S10000x1 : Shape := ⟨2, ![10000, 1]⟩
abbrev S1300000x64 : Shape := ⟨2, ![1300000, 64]⟩
abbrev S50000x47 : Shape := ⟨2, ![50000, 47]⟩
abbrev S10000x47 : Shape := ⟨2, ![10000, 47]⟩

abbrev nBuf : Space → Nat
  | .hbm => 131
  | .vmem => 112
  | .smem => 0
  | _ => 0

abbrev hbmTy0_0 (i : Nat) : BufTy := match i % 128 with
  | 0 => ⟨S50000x128, .f32⟩
  | 1 => ⟨S2x1250000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x47, .f32⟩
  | 9 => ⟨S47, .f32⟩
  | 10 => ⟨S4x64, .f32⟩
  | 11 => ⟨S50000, .i32⟩
  | 12 => ⟨S1x1250000, .i32⟩
  | 13 => ⟨S1250000, .i32⟩
  | 14 => ⟨S1300000, .i32⟩
  | 15 => ⟨S1x1250000, .i32⟩
  | 16 => ⟨S1250000, .i32⟩
  | 17 => ⟨S1300000, .i32⟩
  | 18 => ⟨S_, .f32⟩
  | 19 => ⟨S1300000, .f32⟩
  | 20 => ⟨S_, .f32⟩
  | 21 => ⟨S50000, .f32⟩
  | 22 => ⟨S1300000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S50000x1, .f32⟩
  | 33 => ⟨S1x64, .f32⟩
  | 34 => ⟨S1x64, .f32⟩
  | 35 => ⟨S1x64, .f32⟩
  | 36 => ⟨S1x47, .f32⟩
  | 37 => ⟨S50000x64, .f32⟩
  | 38 => ⟨S50000x64, .f32⟩
  | 39 => ⟨S50000x64, .f32⟩
  | 40 => ⟨S_, .i32⟩
  | 41 => ⟨S1300000, .i32⟩
  | 42 => ⟨S1300000, .i1⟩
  | 43 => ⟨S_, .i32⟩
  | 44 => ⟨S1300000, .i32⟩
  | 45 => ⟨S1300000, .i32⟩
  | 46 => ⟨S1300000, .i32⟩
  | 47 => ⟨S1300000x1, .i32⟩
  | 48 => ⟨S1300000x64, .f32⟩
  | 49 => ⟨S_, .f32⟩
  | 50 => ⟨S50000x64, .f32⟩
  | 51 => ⟨S1300000x1, .i32⟩
  | 52 => ⟨S50000x64, .f32⟩
  | 53 => ⟨S1x64, .f32⟩
  | 54 => ⟨S64, .f32⟩
  | 55 => ⟨S64, .f32⟩
  | 56 => ⟨S_, .f32⟩
  | 57 => ⟨S64, .f32⟩
  | 58 => ⟨S64, .f32⟩
  | 59 => ⟨S1x64, .f32⟩
  | 60 => ⟨S50000x64, .f32⟩
  | 61 => ⟨S50000x64, .f32⟩
  | 62 => ⟨S50000x64, .f32⟩
  | 63 => ⟨S_, .i32⟩
  | 64 => ⟨S1300000, .i32⟩
  | 65 => ⟨S1300000, .i1⟩
  | 66 => ⟨S_, .i32⟩
  | 67 => ⟨S1300000, .i32⟩
  | 68 => ⟨S1300000, .i32⟩
  | 69 => ⟨S1300000, .i32⟩
  | 70 => ⟨S1300000x1, .i32⟩
  | 71 => ⟨S1300000x64, .f32⟩
  | 72 => ⟨S_, .f32⟩
  | 73 => ⟨S50000x64, .f32⟩
  | 74 => ⟨S1300000x1, .i32⟩
  | 75 => ⟨S50000x64, .f32⟩
  | 76 => ⟨S1x64, .f32⟩
  | 77 => ⟨S64, .f32⟩
  | 78 => ⟨S64, .f32⟩
  | 79 => ⟨S_, .f32⟩
  | 80 => ⟨S64, .f32⟩
  | 81 => ⟨S64, .f32⟩
  | 82 => ⟨S1x64, .f32⟩
  | 83 => ⟨S50000x64, .f32⟩
  | 84 => ⟨S50000x64, .f32⟩
  | 85 => ⟨S50000x64, .f32⟩
  | 86 => ⟨S_, .i32⟩
  | 87 => ⟨S1300000, .i32⟩
  | 88 => ⟨S1300000, .i1⟩
  | 89 => ⟨S_, .i32⟩
  | 90 => ⟨S1300000, .i32⟩
  | 91 => ⟨S1300000, .i32⟩
  | 92 => ⟨S1300000, .i32⟩
  | 93 => ⟨S1300000x1, .i32⟩
  | 94 => ⟨S1300000x64, .f32⟩
  | 95 => ⟨S_, .f32⟩
  | 96 => ⟨S50000x64, .f32⟩
  | 97 => ⟨S1300000x1, .i32⟩
  | 98 => ⟨S50000x64, .f32⟩
  | 99 => ⟨S1x64, .f32⟩
  | 100 => ⟨S64, .f32⟩
  | 101 => ⟨S64, .f32⟩
  | 102 => ⟨S_, .f32⟩
  | 103 => ⟨S64, .f32⟩
  | 104 => ⟨S64, .f32⟩
  | 105 => ⟨S1x64, .f32⟩
  | 106 => ⟨S50000x64, .f32⟩
  | 107 => ⟨S50000x64, .f32⟩
  | 108 => ⟨S50000x64, .f32⟩
  | 109 => ⟨S_, .i32⟩
  | 110 => ⟨S1300000, .i32⟩
  | 111 => ⟨S1300000, .i1⟩
  | 112 => ⟨S_, .i32⟩
  | 113 => ⟨S1300000, .i32⟩
  | 114 => ⟨S1300000, .i32⟩
  | 115 => ⟨S1300000, .i32⟩
  | 116 => ⟨S1300000x1, .i32⟩
  | 117 => ⟨S1300000x64, .f32⟩
  | 118 => ⟨S_, .f32⟩
  | 119 => ⟨S50000x64, .f32⟩
  | 120 => ⟨S1300000x1, .i32⟩
  | 121 => ⟨S50000x64, .f32⟩
  | 122 => ⟨S1x64, .f32⟩
  | 123 => ⟨S64, .f32⟩
  | 124 => ⟨S64, .f32⟩
  | 125 => ⟨S_, .f32⟩
  | 126 => ⟨S64, .f32⟩
  | 127 => ⟨S64, .f32⟩
  | _ => ⟨S50000x128, .f32⟩

abbrev hbmTy0_1 (i : Nat) : BufTy := match i % 128 with
  | 0 => ⟨S1x64, .f32⟩
  | 1 => ⟨S50000x64, .f32⟩
  | 2 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S10000x1, .f32⟩
  | .local _ .vmem, ⟨10, _⟩ => ⟨S10000x1, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S1x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S64x64, .f32⟩
  | .local _ .vmem, ⟨34, _⟩ => ⟨S10000x1, .f32⟩
  | .local _ .vmem, ⟨35, _⟩ => ⟨S10000x1, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x1, .f32⟩
  | .local _ .vmem, ⟨49, _⟩ => ⟨S10000x1, .f32⟩
  | .local _ .vmem, ⟨50, _⟩ => ⟨S1x64, .f32⟩
  | .local _ .vmem, ⟨51, _⟩ => ⟨S64x64, .f32⟩
  | .local _ .vmem, ⟨52, _⟩ => ⟨S1x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S64x64, .f32⟩
  | .local _ .vmem, ⟨59, _⟩ => ⟨S10000x1, .f32⟩
  | .local _ .vmem, ⟨60, _⟩ => ⟨S10000x1, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S10000x1, .f32⟩
  | .local _ .vmem, ⟨74, _⟩ => ⟨S10000x1, .f32⟩
  | .local _ .vmem, ⟨75, _⟩ => ⟨S1x64, .f32⟩
  | .local _ .vmem, ⟨76, _⟩ => ⟨S64x64, .f32⟩
  | .local _ .vmem, ⟨77, _⟩ => ⟨S1x64, .f32⟩
  | .local _ .vmem, ⟨78, _⟩ => ⟨S1x64, .f32⟩
  | .local _ .vmem, ⟨79, _⟩ => ⟨S10000x64, .f32⟩
  | .local _ .vmem, ⟨80, _⟩ => ⟨S10000x64, .f32⟩
  | .local _ .vmem, ⟨81, _⟩ => ⟨S10000x64, .f32⟩
  | .local _ .vmem, ⟨82, _⟩ => ⟨S10000x64, .f32⟩
  | .local _ .vmem, ⟨83, _⟩ => ⟨S64x64, .f32⟩
  | .local _ .vmem, ⟨84, _⟩ => ⟨S10000x1, .f32⟩
  | .local _ .vmem, ⟨85, _⟩ => ⟨S10000x1, .f32⟩
  | .local _ .vmem, ⟨86, _⟩ => ⟨S10000x64, .f32⟩
  | .local _ .vmem, ⟨87, _⟩ => ⟨S10000x64, .f32⟩
  | .local _ .vmem, ⟨88, _⟩ => ⟨S10000x64, .f32⟩
  | .local _ .vmem, ⟨89, _⟩ => ⟨S10000x64, .f32⟩
  | .local _ .vmem, ⟨90, _⟩ => ⟨S10000x64, .f32⟩
  | .local _ .vmem, ⟨91, _⟩ => ⟨S10000x64, .f32⟩
  | .local _ .vmem, ⟨92, _⟩ => ⟨S10000x64, .f32⟩
  | .local _ .vmem, ⟨93, _⟩ => ⟨S10000x64, .f32⟩
  | .local _ .vmem, ⟨94, _⟩ => ⟨S10000x64, .f32⟩
  | .local _ .vmem, ⟨95, _⟩ => ⟨S10000x64, .f32⟩
  | .local _ .vmem, ⟨96, _⟩ => ⟨S10000x64, .f32⟩
  | .local _ .vmem, ⟨97, _⟩ => ⟨S10000x64, .f32⟩
  | .local _ .vmem, ⟨98, _⟩ => ⟨S10000x1, .f32⟩
  | .local _ .vmem, ⟨99, _⟩ => ⟨S10000x1, .f32⟩
  | .local _ .vmem, ⟨100, _⟩ => ⟨S1x64, .f32⟩
  | .local _ .vmem, ⟨101, _⟩ => ⟨S64x64, .f32⟩
  | .local _ .vmem, ⟨102, _⟩ => ⟨S1x64, .f32⟩
  | .local _ .vmem, ⟨103, _⟩ => ⟨S1x64, .f32⟩
  | .local _ .vmem, ⟨104, _⟩ => ⟨S10000x64, .f32⟩
  | .local _ .vmem, ⟨105, _⟩ => ⟨S10000x64, .f32⟩
  | .local _ .vmem, ⟨106, _⟩ => ⟨S10000x64, .f32⟩
  | .local _ .vmem, ⟨107, _⟩ => ⟨S10000x64, .f32⟩
  | .local _ .vmem, ⟨108, _⟩ => ⟨S64x47, .f32⟩
  | .local _ .vmem, ⟨109, _⟩ => ⟨S1x47, .f32⟩
  | .local _ .vmem, ⟨110, _⟩ => ⟨S10000x47, .f32⟩
  | .local _ .vmem, ⟨111, _⟩ => ⟨S10000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39_0 : Ref sig .tc := ⟨.hbm, 61, rfl⟩
abbrev main_v39_1 : Ref sig .tc := ⟨.hbm, 62, rfl⟩
abbrev main_c_6 : Ref sig .tc := ⟨.hbm, 63, rfl⟩
abbrev main_v40 : Ref sig .tc := ⟨.hbm, 64, rfl⟩
abbrev main_v41 : Ref sig .tc := ⟨.hbm, 65, rfl⟩
abbrev main_c_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57_0 : Ref sig .tc := ⟨.hbm, 84, rfl⟩
abbrev main_v57_1 : Ref sig .tc := ⟨.hbm, 85, rfl⟩
abbrev main_c_10 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75_0 : Ref sig .tc := ⟨.hbm, 107, rfl⟩
abbrev main_v75_1 : Ref sig .tc := ⟨.hbm, 108, rfl⟩
abbrev main_c_14 : Ref sig .tc := ⟨.hbm, 109, rfl⟩
abbrev main_v76 : Ref sig .tc := ⟨.hbm, 110, rfl⟩
abbrev main_v77 : Ref sig .tc := ⟨.hbm, 111, rfl⟩
abbrev main_c_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_17 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg9_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg8_0 : Ref sig .tc := ⟨.vmem, 53, rfl⟩
abbrev cc4_stg9_0 : Ref sig .tc := ⟨.vmem, 54, rfl⟩
abbrev cc4_stg9_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg3_1 : Ref sig .tc := ⟨.vmem, 62, rfl⟩
abbrev cc5_stg4_0 : Ref sig .tc := ⟨.vmem, 63, rfl⟩
abbrev cc5_stg4_1 : Ref sig .tc := ⟨.vmem, 64, rfl⟩
abbrev cc6_stg0_0 : Ref sig .tc := ⟨.vmem, 65, rfl⟩
abbrev cc6_stg0_1 : Ref sig .tc := ⟨.vmem, 66, rfl⟩
abbrev cc6_stg1_0 : Ref sig .tc := ⟨.vmem, 67, rfl⟩
abbrev cc6_stg1_1 : Ref sig .tc := ⟨.vmem, 68, rfl⟩
abbrev cc6_stg2_0 : Ref sig .tc := ⟨.vmem, 69, rfl⟩
abbrev cc6_stg2_1 : Ref sig .tc := ⟨.vmem, 70, rfl⟩
abbrev cc6_stg3_0 : Ref sig .tc := ⟨.vmem, 71, rfl⟩
abbrev cc6_stg3_1 : Ref sig .tc := ⟨.vmem, 72, rfl⟩
abbrev cc6_stg4_0 : Ref sig .tc := ⟨.vmem, 73, rfl⟩
abbrev cc6_stg4_1 : Ref sig .tc := ⟨.vmem, 74, rfl⟩
abbrev cc6_stg5_0 : Ref sig .tc := ⟨.vmem, 75, rfl⟩
abbrev cc6_stg6_0 : Ref sig .tc := ⟨.vmem, 76, rfl⟩
abbrev cc6_stg7_0 : Ref sig .tc := ⟨.vmem, 77, rfl⟩
abbrev cc6_stg8_0 : Ref sig .tc := ⟨.vmem, 78, rfl⟩
abbrev cc6_stg9_0 : Ref sig .tc := ⟨.vmem, 79, rfl⟩
abbrev cc6_stg9_1 : Ref sig .tc := ⟨.vmem, 80, rfl⟩
abbrev cc7_stg0_0 : Ref sig .tc := ⟨.vmem, 81, rfl⟩
abbrev cc7_stg0_1 : Ref sig .tc := ⟨.vmem, 82, rfl⟩
abbrev cc7_stg1_0 : Ref sig .tc := ⟨.vmem, 83, rfl⟩
abbrev cc7_stg2_0 : Ref sig .tc := ⟨.vmem, 84, rfl⟩
abbrev cc7_stg2_1 : Ref sig .tc := ⟨.vmem, 85, rfl⟩
abbrev cc7_stg3_0 : Ref sig .tc := ⟨.vmem, 86, rfl⟩
abbrev cc7_stg3_1 : Ref sig .tc := ⟨.vmem, 87, rfl⟩
abbrev cc7_stg4_0 : Ref sig .tc := ⟨.vmem, 88, rfl⟩
abbrev cc7_stg4_1 : Ref sig .tc := ⟨.vmem, 89, rfl⟩
abbrev cc8_stg0_0 : Ref sig .tc := ⟨.vmem, 90, rfl⟩
abbrev cc8_stg0_1 : Ref sig .tc := ⟨.vmem, 91, rfl⟩
abbrev cc8_stg1_0 : Ref sig .tc := ⟨.vmem, 92, rfl⟩
abbrev cc8_stg1_1 : Ref sig .tc := ⟨.vmem, 93, rfl⟩
abbrev cc8_stg2_0 : Ref sig .tc := ⟨.vmem, 94, rfl⟩
abbrev cc8_stg2_1 : Ref sig .tc := ⟨.vmem, 95, rfl⟩
abbrev cc8_stg3_0 : Ref sig .tc := ⟨.vmem, 96, rfl⟩
abbrev cc8_stg3_1 : Ref sig .tc := ⟨.vmem, 97, rfl⟩
abbrev cc8_stg4_0 : Ref sig .tc := ⟨.vmem, 98, rfl⟩
abbrev cc8_stg4_1 : Ref sig .tc := ⟨.vmem, 99, rfl⟩
abbrev cc8_stg5_0 : Ref sig .tc := ⟨.vmem, 100, rfl⟩
abbrev cc8_stg6_0 : Ref sig .tc := ⟨.vmem, 101, rfl⟩
abbrev cc8_stg7_0 : Ref sig .tc := ⟨.vmem, 102, rfl⟩
abbrev cc8_stg8_0 : Ref sig .tc := ⟨.vmem, 103, rfl⟩
abbrev cc8_stg9_0 : Ref sig .tc := ⟨.vmem, 104, rfl⟩
abbrev cc8_stg9_1 : Ref sig .tc := ⟨.vmem, 105, rfl⟩
abbrev cc9_stg0_0 : Ref sig .tc := ⟨.vmem, 106, rfl⟩
abbrev cc9_stg0_1 : Ref sig .tc := ⟨.vmem, 107, rfl⟩
abbrev cc9_stg1_0 : Ref sig .tc := ⟨.vmem, 108, rfl⟩
abbrev cc9_stg2_0 : Ref sig .tc := ⟨.vmem, 109, rfl⟩
abbrev cc9_stg3_0 : Ref sig .tc := ⟨.vmem, 110, rfl⟩
abbrev cc9_stg3_1 : Ref sig .tc := ⟨.vmem, 111, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem9_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc4_sem5_0 : DmaSem sig := 50
abbrev cc4_sem6_0 : DmaSem sig := 51
abbrev cc4_sem7_0 : DmaSem sig := 52
abbrev cc4_sem8_0 : DmaSem sig := 53
abbrev cc4_sem9_0 : DmaSem sig := 54
abbrev cc4_sem9_1 : DmaSem sig := 55
abbrev cc5_sem0_0 : DmaSem sig := 56
abbrev cc5_sem0_1 : DmaSem sig := 57
abbrev cc5_sem1_0 : DmaSem sig := 58
abbrev cc5_sem2_0 : DmaSem sig := 59
abbrev cc5_sem2_1 : DmaSem sig := 60
abbrev cc5_sem3_0 : DmaSem sig := 61
abbrev cc5_sem3_1 : DmaSem sig := 62
abbrev cc5_sem4_0 : DmaSem sig := 63
abbrev cc5_sem4_1 : DmaSem sig := 64
abbrev cc6_sem0_0 : DmaSem sig := 65
abbrev cc6_sem0_1 : DmaSem sig := 66
abbrev cc6_sem1_0 : DmaSem sig := 67
abbrev cc6_sem1_1 : DmaSem sig := 68
abbrev cc6_sem2_0 : DmaSem sig := 69
abbrev cc6_sem2_1 : DmaSem sig := 70
abbrev cc6_sem3_0 : DmaSem sig := 71
abbrev cc6_sem3_1 : DmaSem sig := 72
abbrev cc6_sem4_0 : DmaSem sig := 73
abbrev cc6_sem4_1 : DmaSem sig := 74
abbrev cc6_sem5_0 : DmaSem sig := 75
abbrev cc6_sem6_0 : DmaSem sig := 76
abbrev cc6_sem7_0 : DmaSem sig := 77
abbrev cc6_sem8_0 : DmaSem sig := 78
abbrev cc6_sem9_0 : DmaSem sig := 79
abbrev cc6_sem9_1 : DmaSem sig := 80
abbrev cc7_sem0_0 : DmaSem sig := 81
abbrev cc7_sem0_1 : DmaSem sig := 82
abbrev cc7_sem1_0 : DmaSem sig := 83
abbrev cc7_sem2_0 : DmaSem sig := 84
abbrev cc7_sem2_1 : DmaSem sig := 85
abbrev cc7_sem3_0 : DmaSem sig := 86
abbrev cc7_sem3_1 : DmaSem sig := 87
abbrev cc7_sem4_0 : DmaSem sig := 88
abbrev cc7_sem4_1 : DmaSem sig := 89
abbrev cc8_sem0_0 : DmaSem sig := 90
abbrev cc8_sem0_1 : DmaSem sig := 91
abbrev cc8_sem1_0 : DmaSem sig := 92
abbrev cc8_sem1_1 : DmaSem sig := 93
abbrev cc8_sem2_0 : DmaSem sig := 94
abbrev cc8_sem2_1 : DmaSem sig := 95
abbrev cc8_sem3_0 : DmaSem sig := 96
abbrev cc8_sem3_1 : DmaSem sig := 97
abbrev cc8_sem4_0 : DmaSem sig := 98
abbrev cc8_sem4_1 : DmaSem sig := 99
abbrev cc8_sem5_0 : DmaSem sig := 100
abbrev cc8_sem6_0 : DmaSem sig := 101
abbrev cc8_sem7_0 : DmaSem sig := 102
abbrev cc8_sem8_0 : DmaSem sig := 103
abbrev cc8_sem9_0 : DmaSem sig := 104
abbrev cc8_sem9_1 : DmaSem sig := 105
abbrev cc9_sem0_0 : DmaSem sig := 106
abbrev cc9_sem0_1 : DmaSem sig := 107
abbrev cc9_sem1_0 : DmaSem sig := 108
abbrev cc9_sem2_0 : DmaSem sig := 109
abbrev cc9_sem3_0 : DmaSem sig := 110
abbrev cc9_sem3_1 : DmaSem sig := 111

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S10000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S10000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S10000x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S10000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S10000x64 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S10000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S10000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S10000x1 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S64x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x64 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S10000x64 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x47 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x47 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x47 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S50000_S1300000_d0 : Shape.Concatenates [S1250000, S50000] S1300000 0
  slices_S2x1250000_S1x1250000_1_0 : S2x1250000.Slices ![1, 0] S1x1250000
  bcast_S_S1300000 : S_.BroadcastsInDim S1300000 (![] : Fin 0 → Fin S1300000.rank)
  bcast_S_S50000 : S_.BroadcastsInDim S50000 (![] : Fin 0 → Fin S50000.rank)
  bcast_S1300000_S1300000x1_0 : S1300000.BroadcastsInDim S1300000x1 (![0] : Fin 1 → Fin S1300000x1.rank)
  bcast_S50000_S50000x1_0 : S50000.BroadcastsInDim S50000x1 (![0] : Fin 1 → Fin S50000x1.rank)
  shapeCasts_S64_S1x64 : S64.ShapeCasts S1x64
  shapeCasts_S47_S1x47 : S47.ShapeCasts S1x47
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S50000x64 : S_.BroadcastsInDim S50000x64 (![] : Fin 0 → Fin S50000x64.rank)
  slices_S4x64_S1x64_0_0 : S4x64.Slices ![0, 0] S1x64
  shapeCasts_S1x64_S64 : S1x64.ShapeCasts S64
  bcast_S_S64 : S_.BroadcastsInDim S64 (![] : Fin 0 → Fin S64.rank)
  slices_S4x64_S1x64_1_0 : S4x64.Slices ![1, 0] S1x64
  slices_S4x64_S1x64_2_0 : S4x64.Slices ![2, 0] S1x64
  slices_S4x64_S1x64_3_0 : S4x64.Slices ![3, 0] S1x64
  inb_S64x47_S64x47_0_0 : ∀ a, (![0, 0] : Fin 2 → Nat) a + S64x47.size a ≤ S64x47.size a
  h_S64x47 : 0 < S64x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S10000x47 : S1x47.Broadcasts S10000x47
  inb_S10000x47_S10000x47_0_0 : ∀ a, (![0, 0] : Fin 2 → Nat) a + S10000x47.size a ≤ S10000x47.size a
  h_S10000x47 : 0 < S10000x47.numel
  scatter_S50000_S1300000x1_S1300000_n_0_0_1_wf : ScatterDims.WF S50000 S1300000x1 S1300000 [] [0] [0] 1
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  gather_S50000x64_S1300000x1_S1300000x64_1_0_n_n_0_1_164_wf : GatherDims.WF S50000x64 S1300000x1 S1300000x64 [1] [0] [] [0] [] 1 ![1, 64]
  scatter_S50000x64_S1300000x1_S1300000x64_1_0_0_1_wf : ScatterDims.WF S50000x64 S1300000x1 S1300000x64 [1] [0] [0] 1
  dot_S10000x64_S64x47_S10000x47_1_0_0_1_n_n_wf : DotDims.WF S10000x64 S64x47 S10000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S50000x1.size a
  hwx2_4 : ∀ i : grid2.Coords, EltTy.bits .f32 = 32 ∨ (Rect.block (s := S50000x1) S10000x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S10000x64.size a ≤ S50000x64.size a
  hwx2_9 : ∀ i : grid2.Coords, EltTy.bits .f32 = 32 ∨ (Rect.block (s := S50000x64) S10000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S50000x1.size a
  hwx3_2 : ∀ i : grid3.Coords, EltTy.bits .f32 = 32 ∨ (Rect.block (s := S50000x1) S10000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S50000x64.size a
  hwx3_4 : ∀ i : grid3.Coords, EltTy.bits .f32 = 32 ∨ (Rect.block (s := S50000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S50000x64.size a
  hwx4_1 : ∀ i : grid4.Coords, EltTy.bits .f32 = 32 ∨ (Rect.block (s := S50000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S50000x64.size a
  hwx4_2 : ∀ i : grid4.Coords, EltTy.bits .f32 = 32 ∨ (Rect.block (s := S50000x64) S10000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S50000x64.size a
  hwx4_3 : ∀ i : grid4.Coords, EltTy.bits .f32 = 32 ∨ (Rect.block (s := S50000x64) S10000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x1.size a ≤ S50000x1.size a
  hwx4_4 : ∀ i : grid4.Coords, EltTy.bits .f32 = 32 ∨ (Rect.block (s := S50000x1) S10000x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S10000x64.size a ≤ S50000x64.size a
  hwx4_9 : ∀ i : grid4.Coords, EltTy.bits .f32 = 32 ∨ (Rect.block (s := S50000x64) S10000x64.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S50000x1.size a
  hwx5_2 : ∀ i : grid5.Coords, EltTy.bits .f32 = 32 ∨ (Rect.block (s := S50000x1) S10000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S50000x64.size a
  hwx5_3 : ∀ i : grid5.Coords, EltTy.bits .f32 = 32 ∨ (Rect.block (s := S50000x64) S10000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S50000x64.size a
  hwx5_4 : ∀ i : grid5.Coords, EltTy.bits .f32 = 32 ∨ (Rect.block (s := S50000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S50000x64.size a
  hwx6_1 : ∀ i : grid6.Coords, EltTy.bits .f32 = 32 ∨ (Rect.block (s := S50000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S50000x64.size a
  hwx6_2 : ∀ i : grid6.Coords, EltTy.bits .f32 = 32 ∨ (Rect.block (s := S50000x64) S10000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S50000x64.size a
  hwx6_3 : ∀ i : grid6.Coords, EltTy.bits .f32 = 32 ∨ (Rect.block (s := S50000x64) S10000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x1.size a ≤ S50000x1.size a
  hwx6_4 : ∀ i : grid6.Coords, EltTy.bits .f32 = 32 ∨ (Rect.block (s := S50000x1) S10000x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x64.size a ≤ S64x64.size a
  hwx6_6 : ∀ i : grid6.Coords, EltTy.bits .f32 = 32 ∨ (Rect.block (s := S64x64) S64x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x64.size a ≤ S1x64.size a
  hwx6_8 : ∀ i : grid6.Coords, EltTy.bits .f32 = 32 ∨ (Rect.block (s := S1x64) S1x64.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S10000x64.size a ≤ S50000x64.size a
  hwx6_9 : ∀ i : grid6.Coords, EltTy.bits .f32 = 32 ∨ (Rect.block (s := S50000x64) S10000x64.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x1.size a ≤ S50000x1.size a
  hwx7_2 : ∀ i : grid7.Coords, EltTy.bits .f32 = 32 ∨ (Rect.block (s := S50000x1) S10000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S50000x64.size a
  hwx7_3 : ∀ i : grid7.Coords, EltTy.bits .f32 = 32 ∨ (Rect.block (s := S50000x64) S10000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x64.size a ≤ S50000x64.size a
  hwx7_4 : ∀ i : grid7.Coords, EltTy.bits .f32 = 32 ∨ (Rect.block (s := S50000x64) S10000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S50000x64.size a
  hwx8_1 : ∀ i : grid8.Coords, EltTy.bits .f32 = 32 ∨ (Rect.block (s := S50000x64) S10000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S50000x64.size a
  hwx8_2 : ∀ i : grid8.Coords, EltTy.bits .f32 = 32 ∨ (Rect.block (s := S50000x64) S10000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x64.size a ≤ S50000x64.size a
  hwx8_3 : ∀ i : grid8.Coords, EltTy.bits .f32 = 32 ∨ (Rect.block (s := S50000x64) S10000x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S10000x1.size a ≤ S50000x1.size a
  hwx8_4 : ∀ i : grid8.Coords, EltTy.bits .f32 = 32 ∨ (Rect.block (s := S50000x1) S10000x1.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S64x64.size a ≤ S64x64.size a
  hwx8_6 : ∀ i : grid8.Coords, EltTy.bits .f32 = 32 ∨ (Rect.block (s := S64x64) S64x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x64.size a ≤ S1x64.size a
  hwx8_7 : ∀ i : grid8.Coords, EltTy.bits .f32 = 32 ∨ (Rect.block (s := S1x64) S1x64.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x64.size a ≤ S1x64.size a
  hwx8_8 : ∀ i : grid8.Coords, EltTy.bits .f32 = 32 ∨ (Rect.block (s := S1x64) S1x64.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S10000x64.size a ≤ S50000x64.size a
  hwx8_9 : ∀ i : grid8.Coords, EltTy.bits .f32 = 32 ∨ (Rect.block (s := S50000x64) S10000x64.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S50000x64.size a
  hwx9_0 : ∀ i : grid9.Coords, EltTy.bits .f32 = 32 ∨ (Rect.block (s := S50000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x47.size a ≤ S64x47.size a
  hwx9_1 : ∀ i : grid9.Coords, EltTy.bits .f32 = 32 ∨ (Rect.block (s := S64x47) S64x47.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x47.size a ≤ S1x47.size a
  hwx9_2 : ∀ i : grid9.Coords, EltTy.bits .f32 = 32 ∨ (Rect.block (s := S1x47) S1x47.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x47.size a ≤ S50000x47.size a
  hwx9_3 : ∀ i : grid9.Coords, EltTy.bits .f32 = 32 ∨ (Rect.block (s := S50000x47) S10000x47.size (cc9_transform_3 i) (hinb9_3 i)).WholeWords (EltTy.packing .f32)

variable [Facts₀]

def scatter_S50000_S1300000x1_S1300000_n_0_0_1 : ScatterDims S50000 S1300000x1 S1300000 where
  updateWindowDims := []
  insertedWindowDims := [0]
  scatterDimsToOperandDims := [0]
  indexVectorDim := 1
  wf := scatter_S50000_S1300000x1_S1300000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S1300000x1_S1300000x64_1_0_n_n_0_1_164 : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := gather_S50000x64_S1300000x1_S1300000x64_1_0_n_n_0_1_164_wf
def scatter_S50000x64_S1300000x1_S1300000x64_1_0_0_1 : ScatterDims S50000x64 S1300000x1 S1300000x64 where
  updateWindowDims := [1]
  insertedWindowDims := [0]
  scatterDimsToOperandDims := [0]
  indexVectorDim := 1
  wf := scatter_S50000x64_S1300000x1_S1300000x64_1_0_0_1_wf
def dot_S10000x64_S64x47_S10000x47_1_0_0_1_n_n : DotDims S10000x64 S64x47 S10000x47 where
  lhsContracting := [1]
  rhsContracting := [0]
  lhsNonContracting := [0]
  rhsNonContracting := [1]
  lhsBatch := []
  rhsBatch := []
  wf := dot_S10000x64_S64x47_S10000x47_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21_0) S10000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21_1) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v20) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21_0) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S10000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15) S10000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v17) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v37) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v38) S10000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v38) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39_0) S10000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v39_1) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v38) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v38) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39_0) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v49) S10000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v15) S10000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v17) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg6) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v18) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v55) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v56) S10000x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v56) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg4) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v15) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v57_0) S10000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v57_1) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v56) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v57_0) S10000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v67) S10000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v15) S10000x1.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v17) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg6) S64x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v18) S1x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v73) S1x64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v74) S10000x64.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v74) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg4) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v15) S10000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v75_0) S10000x64.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v75_1) S10000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v74) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v74) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v75_0) S10000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v85) S10000x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v15) S10000x1.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v17) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg6) S64x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v18) S1x64.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v91) S1x64.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v92) S10000x64.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v92) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg8) S64x47.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v19) S1x47.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v93) S10000x47.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x1250000 : Shape := ⟨2, ![2, 1250000]⟩
abbrev S128x64 : Shape := ⟨2, ![128, 64]⟩
abbrev S64 : Shape := ⟨1, ![64]⟩
abbrev S64x64 : Shape := ⟨2, ![64, 64]⟩
abbrev S64x47 : Shape := ⟨2, ![64, 47]⟩
abbrev S47 : Shape := ⟨1, ![47]⟩
abbrev S4x64 : Shape := ⟨2, ![4, 64]⟩
abbrev S50000 : Shape := ⟨1, ![50000]⟩
abbrev S1x1250000 : Shape := ⟨2, ![1, 1250000]⟩
abbrev S1250000 : Shape := ⟨1, ![1250000]⟩
abbrev S1300000 : Shape := ⟨1, ![1300000]⟩
abbrev S_ : Shape := ⟨0, ![]⟩
abbrev S1300000x1 : Shape := ⟨2, ![1300000, 1]⟩
abbrev S50000x64 : Shape := ⟨2, ![50000, 64]⟩
abbrev S1x64 : Shape := ⟨2, ![1, 64]⟩
abbrev S1300000x64 : Shape := ⟨2, ![1300000, 64]⟩
abbrev S50000x47 : Shape := ⟨2, ![50000, 47]⟩
abbrev S1x47 : Shape := ⟨2, ![1, 47]⟩

abbrev nBuf : Space → Nat
  | .hbm => 246
  | .vmem => 0
  | .smem => 0
  | _ => 0

abbrev hbmTy0_0 (i : Nat) : BufTy := match i % 128 with
  | 0 => ⟨S50000x128, .f32⟩
  | 1 => ⟨S2x1250000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x47, .f32⟩
  | 9 => ⟨S47, .f32⟩
  | 10 => ⟨S4x64, .f32⟩
  | 11 => ⟨S50000, .i32⟩
  | 12 => ⟨S1x1250000, .i32⟩
  | 13 => ⟨S1250000, .i32⟩
  | 14 => ⟨S1300000, .i32⟩
  | 15 => ⟨S1x1250000, .i32⟩
  | 16 => ⟨S1250000, .i32⟩
  | 17 => ⟨S1300000, .i32⟩
  | 18 => ⟨S_, .f32⟩
  | 19 => ⟨S1300000, .f32⟩
  | 20 => ⟨S_, .f32⟩
  | 21 => ⟨S50000, .f32⟩
  | 22 => ⟨S1300000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S1300000, .i32⟩
  | 34 => ⟨S1300000, .i1⟩
  | 35 => ⟨S_, .i32⟩
  | 36 => ⟨S1300000, .i32⟩
  | 37 => ⟨S1300000, .i32⟩
  | 38 => ⟨S1300000, .i32⟩
  | 39 => ⟨S1300000x1, .i32⟩
  | 40 => ⟨S1300000, .f32⟩
  | 41 => ⟨S_, .i32⟩
  | 42 => ⟨S1300000, .i32⟩
  | 43 => ⟨S1300000, .i1⟩
  | 44 => ⟨S_, .i32⟩
  | 45 => ⟨S1300000, .i32⟩
  | 46 => ⟨S1300000, .i32⟩
  | 47 => ⟨S1300000, .i32⟩
  | 48 => ⟨S1300000x1, .i32⟩
  | 49 => ⟨S1300000, .f32⟩
  | 50 => ⟨S1300000, .f32⟩
  | 51 => ⟨S50000x64, .f32⟩
  | 52 => ⟨S1x64, .f32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S50000x64, .f32⟩
  | 59 => ⟨S_, .i32⟩
  | 60 => ⟨S1300000, .i32⟩
  | 61 => ⟨S1300000, .i1⟩
  | 62 => ⟨S_, .i32⟩
  | 63 => ⟨S1300000, .i32⟩
  | 64 => ⟨S1300000, .i32⟩
  | 65 => ⟨S1300000, .i32⟩
  | 66 => ⟨S1300000x1, .i32⟩
  | 67 => ⟨S1300000x64, .f32⟩
  | 68 => ⟨S1300000x1, .f32⟩
  | 69 => ⟨S1300000x64, .f32⟩
  | 70 => ⟨S1300000x64, .f32⟩
  | 71 => ⟨S_, .f32⟩
  | 72 => ⟨S50000x64, .f32⟩
  | 73 => ⟨S1300000x1, .i32⟩
  | 74 => ⟨S50000x64, .f32⟩
  | 75 => ⟨S1x64, .f32⟩
  | 76 => ⟨S50000x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S50000x64, .f32⟩
  | 83 => ⟨S1x64, .f32⟩
  | 84 => ⟨S64, .f32⟩
  | 85 => ⟨S64, .f32⟩
  | 86 => ⟨S1x64, .f32⟩
  | 87 => ⟨S_, .f32⟩
  | 88 => ⟨S1x64, .f32⟩
  | 89 => ⟨S1x64, .f32⟩
  | 90 => ⟨S50000x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S50000x64, .f32⟩
  | 104 => ⟨S50000x64, .f32⟩
  | 105 => ⟨S_, .i32⟩
  | 106 => ⟨S1300000, .i32⟩
  | 107 => ⟨S1300000, .i1⟩
  | 108 => ⟨S_, .i32⟩
  | 109 => ⟨S1300000, .i32⟩
  | 110 => ⟨S1300000, .i32⟩
  | 111 => ⟨S1300000, .i32⟩
  | 112 => ⟨S1300000x1, .i32⟩
  | 113 => ⟨S1300000x64, .f32⟩
  | 114 => ⟨S1300000x1, .f32⟩
  | 115 => ⟨S1300000x64, .f32⟩
  | 116 => ⟨S1300000x64, .f32⟩
  | 117 => ⟨S_, .f32⟩
  | 118 => ⟨S50000x64, .f32⟩
  | 119 => ⟨S1300000x1, .i32⟩
  | 120 => ⟨S50000x64, .f32⟩
  | 121 => ⟨S1x64, .f32⟩
  | 122 => ⟨S50000x64, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_1 (i : Nat) : BufTy := match i % 128 with
  | 0 => ⟨S50000x64, .f32⟩
  | 1 => ⟨S1x64, .f32⟩
  | 2 => ⟨S64, .f32⟩
  | 3 => ⟨S64, .f32⟩
  | 4 => ⟨S1x64, .f32⟩
  | 5 => ⟨S_, .f32⟩
  | 6 => ⟨S1x64, .f32⟩
  | 7 => ⟨S1x64, .f32⟩
  | 8 => ⟨S50000x64, .f32⟩
  | 9 => ⟨S50000x64, .f32⟩
  | 10 => ⟨S50000x64, .f32⟩
  | 11 => ⟨S_, .f32⟩
  | 12 => ⟨S50000x64, .f32⟩
  | 13 => ⟨S50000x64, .f32⟩
  | 14 => ⟨S_, .f32⟩
  | 15 => ⟨S50000x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | 22 => ⟨S50000x64, .f32⟩
  | 23 => ⟨S_, .i32⟩
  | 24 => ⟨S1300000, .i32⟩
  | 25 => ⟨S1300000, .i1⟩
  | 26 => ⟨S_, .i32⟩
  | 27 => ⟨S1300000, .i32⟩
  | 28 => ⟨S1300000, .i32⟩
  | 29 => ⟨S1300000, .i32⟩
  | 30 => ⟨S1300000x1, .i32⟩
  | 31 => ⟨S1300000x64, .f32⟩
  | 32 => ⟨S1300000x1, .f32⟩
  | 33 => ⟨S1300000x64, .f32⟩
  | 34 => ⟨S1300000x64, .f32⟩
  | 35 => ⟨S_, .f32⟩
  | 36 => ⟨S50000x64, .f32⟩
  | 37 => ⟨S1300000x1, .i32⟩
  | 38 => ⟨S50000x64, .f32⟩
  | 39 => ⟨S1x64, .f32⟩
  | 40 => ⟨S50000x64, .f32⟩
  | 41 => ⟨S50000x64, .f32⟩
  | 42 => ⟨S50000x64, .f32⟩
  | 43 => ⟨S1x64, .f32⟩
  | 44 => ⟨S50000x64, .f32⟩
  | 45 => ⟨S50000x64, .f32⟩
  | 46 => ⟨S50000x64, .f32⟩
  | 47 => ⟨S1x64, .f32⟩
  | 48 => ⟨S64, .f32⟩
  | 49 => ⟨S64, .f32⟩
  | 50 => ⟨S1x64, .f32⟩
  | 51 => ⟨S_, .f32⟩
  | 52 => ⟨S1x64, .f32⟩
  | 53 => ⟨S1x64, .f32⟩
  | 54 => ⟨S50000x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S_, .f32⟩
  | 61 => ⟨S50000x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S50000x64, .f32⟩
  | 68 => ⟨S50000x64, .f32⟩
  | 69 => ⟨S_, .i32⟩
  | 70 => ⟨S1300000, .i32⟩
  | 71 => ⟨S1300000, .i1⟩
  | 72 => ⟨S_, .i32⟩
  | 73 => ⟨S1300000, .i32⟩
  | 74 => ⟨S1300000, .i32⟩
  | 75 => ⟨S1300000, .i32⟩
  | 76 => ⟨S1300000x1, .i32⟩
  | 77 => ⟨S1300000x64, .f32⟩
  | 78 => ⟨S1300000x1, .f32⟩
  | 79 => ⟨S1300000x64, .f32⟩
  | 80 => ⟨S1300000x64, .f32⟩
  | 81 => ⟨S_, .f32⟩
  | 82 => ⟨S50000x64, .f32⟩
  | 83 => ⟨S1300000x1, .i32⟩
  | 84 => ⟨S50000x64, .f32⟩
  | 85 => ⟨S1x64, .f32⟩
  | 86 => ⟨S50000x64, .f32⟩
  | 87 => ⟨S50000x64, .f32⟩
  | 88 => ⟨S50000x64, .f32⟩
  | 89 => ⟨S1x64, .f32⟩
  | 90 => ⟨S50000x64, .f32⟩
  | 91 => ⟨S50000x64, .f32⟩
  | 92 => ⟨S50000x64, .f32⟩
  | 93 => ⟨S1x64, .f32⟩
  | 94 => ⟨S64, .f32⟩
  | 95 => ⟨S64, .f32⟩
  | 96 => ⟨S1x64, .f32⟩
  | 97 => ⟨S_, .f32⟩
  | 98 => ⟨S1x64, .f32⟩
  | 99 => ⟨S1x64, .f32⟩
  | 100 => ⟨S50000x64, .f32⟩
  | 101 => ⟨S50000x64, .f32⟩
  | 102 => ⟨S50000x64, .f32⟩
  | 103 => ⟨S_, .f32⟩
  | 104 => ⟨S50000x64, .f32⟩
  | 105 => ⟨S50000x64, .f32⟩
  | 106 => ⟨S_, .f32⟩
  | 107 => ⟨S50000x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x64, .f32⟩
  | 114 => ⟨S50000x47, .f32⟩
  | 115 => ⟨S1x47, .f32⟩
  | 116 => ⟨S50000x47, .f32⟩
  | 117 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_12 : Ref sig .tc := ⟨.hbm, 105, rfl⟩
abbrev main_v74 : Ref sig .tc := ⟨.hbm, 106, rfl⟩
abbrev main_v75 : Ref sig .tc := ⟨.hbm, 107, rfl⟩
abbrev main_c_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_14 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_15 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_call3_cst : Ref sig .tc := ⟨.hbm, 139, rfl⟩
abbrev main_call3_v0 : Ref sig .tc := ⟨.hbm, 140, rfl⟩
abbrev main_v104 : Ref sig .tc := ⟨.hbm, 141, rfl⟩
abbrev main_cst_16 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_17 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_18 : Ref sig .tc := ⟨.hbm, 151, rfl⟩
abbrev main_v112 : Ref sig .tc := ⟨.hbm, 152, rfl⟩
abbrev main_v113 : Ref sig .tc := ⟨.hbm, 153, rfl⟩
abbrev main_c_19 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_20 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_21 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_call4_cst : Ref sig .tc := ⟨.hbm, 185, rfl⟩
abbrev main_call4_v0 : Ref sig .tc := ⟨.hbm, 186, rfl⟩
abbrev main_v142 : Ref sig .tc := ⟨.hbm, 187, rfl⟩
abbrev main_cst_22 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_23 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_c_24 : Ref sig .tc := ⟨.hbm, 197, rfl⟩
abbrev main_v150 : Ref sig .tc := ⟨.hbm, 198, rfl⟩
abbrev main_v151 : Ref sig .tc := ⟨.hbm, 199, rfl⟩
abbrev main_c_25 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_cst_26 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_cst_27 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_call5_cst : Ref sig .tc := ⟨.hbm, 231, rfl⟩
abbrev main_call5_v0 : Ref sig .tc := ⟨.hbm, 232, rfl⟩
abbrev main_v180 : Ref sig .tc := ⟨.hbm, 233, rfl⟩
abbrev main_cst_28 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_cst_29 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S50000_S1300000_d0 : Shape.Concatenates [S1250000, S50000] S1300000 0
  slices_S2x1250000_S1x1250000_1_0 : S2x1250000.Slices ![1, 0] S1x1250000
  bcast_S_S1300000 : S_.BroadcastsInDim S1300000 (![] : Fin 0 → Fin S1300000.rank)
  bcast_S_S50000 : S_.BroadcastsInDim S50000 (![] : Fin 0 → Fin S50000.rank)
  bcast_S1300000_S1300000x1_0 : S1300000.BroadcastsInDim S1300000x1 (![0] : Fin 1 → Fin S1300000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1300000x1_S1300000x64_0_1 : S1300000x1.BroadcastsInDim S1300000x64 (![0, 1] : Fin 2 → Fin S1300000x64.rank)
  slices_S4x64_S1x64_0_0 : S4x64.Slices ![0, 0] S1x64
  shapeCasts_S1x64_S64 : S1x64.ShapeCasts S64
  bcast_S_S1x64 : S_.BroadcastsInDim S1x64 (![] : Fin 0 → Fin S1x64.rank)
  slices_S4x64_S1x64_1_0 : S4x64.Slices ![1, 0] S1x64
  slices_S4x64_S1x64_2_0 : S4x64.Slices ![2, 0] S1x64
  slices_S4x64_S1x64_3_0 : S4x64.Slices ![3, 0] S1x64
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  scatter_S50000_S1300000x1_S1300000_n_0_0_1_wf : ScatterDims.WF S50000 S1300000x1 S1300000 [] [0] [0] 1
  gather_S50000_S1300000x1_S1300000_n_0_n_n_0_1_1_wf : GatherDims.WF S50000 S1300000x1 S1300000 [] [0] [] [0] [] 1 ![1]
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S1300000x1_S1300000x64_1_0_n_n_0_1_164_wf : GatherDims.WF S50000x64 S1300000x1 S1300000x64 [1] [0] [] [0] [] 1 ![1, 64]
  scatter_S50000x64_S1300000x1_S1300000x64_1_0_0_1_wf : ScatterDims.WF S50000x64 S1300000x1 S1300000x64 [1] [0] [0] 1
  dot_S50000x64_S64x47_S50000x47_1_0_0_1_n_n_wf : DotDims.WF S50000x64 S64x47 S50000x47 [1] [0] [0] [1] [] []

variable [Facts₀]

def scatter_S50000_S1300000x1_S1300000_n_0_0_1 : ScatterDims S50000 S1300000x1 S1300000 where
  updateWindowDims := []
  insertedWindowDims := [0]
  scatterDimsToOperandDims := [0]
  indexVectorDim := 1
  wf := scatter_S50000_S1300000x1_S1300000_n_0_0_1_wf
def gather_S50000_S1300000x1_S1300000_n_0_n_n_0_1_1 : GatherDims S50000 S1300000x1 S1300000 where
  offsetDims := []
  collapsedSliceDims := [0]
  operandBatchingDims := []
  startIndicesBatchingDims := []
  startIndexMap := [0]
  indexVectorDim := 1
  sliceSizes := ![1]
  wf := gather_S50000_S1300000x1_S1300000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1300000x1_S1300000x64_1_0_n_n_0_1_164 : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := gather_S50000x64_S1300000x1_S1300000x64_1_0_n_n_0_1_164_wf
def scatter_S50000x64_S1300000x1_S1300000x64_1_0_0_1 : ScatterDims S50000x64 S1300000x1 S1300000x64 where
  updateWindowDims := [1]
  insertedWindowDims := [0]
  scatterDimsToOperandDims := [0]
  indexVectorDim := 1
  wf := scatter_S50000x64_S1300000x1_S1300000x64_1_0_0_1_wf
def dot_S50000x64_S64x47_S50000x47_1_0_0_1_n_n : DotDims S50000x64 S64x47 S50000x47 where
  lhsContracting := [1]
  rhsContracting := [0]
  lhsNonContracting := [0]
  rhsNonContracting := [1]
  lhsBatch := []
  rhsBatch := []
  wf := dot_S50000x64_S64x47_S50000x47_1_0_0_1_n_n_wf

class Facts : Prop extends Facts₀ where

variable [Facts]
-- ==== Proof.KB.Region0.lean ====
/-
  Region 0 of @main (the encoder: one matrix product, a bias row and a maximum with zero) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.Kernel.Launch
import proofs.«121059_j18107582120780_2_alg».proof.Proof.Gen.Kernel.Skeleton
import proofs.«121059_j18107582120780_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

/-- Window 3's staging buffer after the body, from the input windows' blocks: its one store of the whole block. -/
def out0_3 (x0 : Vec F S10000x128 .f32) (x1 : Vec F S128x64 .f32) (x2 : Vec F S1x64 .f32) : Vec F S10000x64 .f32 :=
  View.canon [⟨(Rect.unit (s := S10000x64) ![0, 0] S10000x64.size inb_S10000x64_S10000x64_0_0), k0_pay1 (View.ld x0 (Rect.unit (s := S10000x128) ![0, 0] S10000x128.size inb_S10000x128_S10000x128_0_0)) (View.ld x1 (Rect.unit (s := S128x64) ![0, 0] S128x64.size inb_S128x64_S128x64_0_0)) (View.ld x2 (Rect.unit (s := S1x64) ![0, 0] S1x64.size inb_S1x64_S1x64_0_0))⟩]

/-- The store's rectangle is the whole buffer, so it covers every index. -/
theorem cover0_3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out0_W` of the inputs'. -/
theorem sound_kernel0 (c : Dev nD) (E : Set ℕ) (i : grid0.Coords) (arg0 : Memref sig .tc .vmem S10000x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x128 .f32) (x1 : Vec F S128x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and each output's at `out0_W` of the input blocks; the scoped rest and the
    generator register ride untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KB.Region1.lean ====
/-
  Region 1 of @main (the projection: h = X times the convolution's weights, and h with each row scaled) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.Kernel.Launch
import proofs.«121059_j18107582120780_2_alg».proof.Proof.Gen.Kernel.Skeleton
import proofs.«121059_j18107582120780_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in each output window's buffer -/

/-- Window 3's staging buffer after the body, from the input windows' blocks: its one store of the whole block. -/
def out1_3 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k1_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The store's rectangle is the whole buffer, so it covers every index. -/
theorem cover1_3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- Window 4's staging buffer after the body, from the input windows' blocks: its one store of the whole block. -/
def out1_4 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k1_pay2 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S10000x1) ![0, 0] S10000x1.size inb_S10000x1_S10000x1_0_0))⟩]

/-- The store's rectangle is the whole buffer, so it covers every index. -/
theorem cover1_4 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out1_W` of the inputs'. -/
theorem sound_kernel1 (c : Dev nD) (E : Set ℕ) (i : grid1.Coords) (arg0 : Memref sig .tc .vmem S10000x64 .f32) (harg0 : arg0.IsWhole) (arg1 : Memref sig .tc .vmem S64x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S10000x64 .f32) (harg4 : arg4.IsWhole)
    (x0 : Vec F S10000x64 .f32) (x1 : Vec F S64x64 .f32) (x2 : Vec F S10000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2) ∗ owns (c : Thread nD τ) arg4 fullShare (out1_4 x0 x1 x2)) -∗ K ⟨⟩))
      ⊢ wp frame (wpE (defs₀ (F := F)) Variants.none c none) E (cc1__conv_proj_kernel i arg0 harg0 arg1 harg1 arg2 harg2 arg3 harg3 arg4 harg4) K := by
  simp only [cc1__conv_proj_kernel_eq_skeleton]; unfold cc1__conv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and each output's at `out1_W` of the input blocks; the scoped rest and the
    generator register ride untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KB.Region2.lean ====
/-
  Region 2 of @main (the layer update: the gated residual step from the state, the projected features and the aggregated messages) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.Kernel.Launch
import proofs.«121059_j18107582120780_2_alg».proof.Proof.Gen.Kernel.Skeleton
import proofs.«121059_j18107582120780_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s and whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof
    data whose array is `V`'s and whose body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in each output window's buffer -/

/-- Window 9's staging buffer after the body, from the input windows' blocks: its one store of the whole block. -/
def out2_9 (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) : Vec F S10000x64 .f32 :=
  View.canon [⟨(Rect.unit (s := S10000x64) ![0, 0] S10000x64.size inb_S10000x64_S10000x64_0_0), k2_pay1 (k2_pay2 (View.ld x0 (Rect.unit (s := S10000x64) ![0, 0] S10000x64.size inb_S10000x64_S10000x64_0_0)) (View.ld x8 (Rect.unit (s := S1x64) ![0, 0] S1x64.size inb_S1x64_S1x64_0_0))) (k2_pay3 (View.ld x3 (Rect.unit (s := S10000x64) ![0, 0] S10000x64.size inb_S10000x64_S10000x64_0_0)) (View.ld x4 (Rect.unit (s := S10000x1) ![0, 0] S10000x1.size inb_S10000x1_S10000x1_0_0)) (View.ld x5 (Rect.unit (s := S1x64) ![0, 0] S1x64.size inb_S1x64_S1x64_0_0)) (View.ld x2 (Rect.unit (s := S10000x64) ![0, 0] S10000x64.size inb_S10000x64_S10000x64_0_0)) (View.ld x6 (Rect.unit (s := S64x64) ![0, 0] S64x64.size inb_S64x64_S64x64_0_0)) (View.ld x7 (Rect.unit (s := S1x64) ![0, 0] S1x64.size inb_S1x64_S1x64_0_0)) (View.ld x1 (Rect.unit (s := S10000x64) ![0, 0] S10000x64.size inb_S10000x64_S10000x64_0_0)))⟩]

/-- The store's rectangle is the whole buffer, so it covers every index. -/
theorem cover2_9 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out2_W` of the inputs'. -/
theorem sound_kernel2 (c : Dev nD) (E : Set ℕ) (i : grid2.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x1 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S10000x64 .f32) (harg9 : arg9.IsWhole)
    (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8)) -∗ K ⟨⟩))
      ⊢ wp frame (wpE (defs₀ (F := F)) Variants.none c none) E (cc2__combine_kernel i arg0 harg0 arg1 harg1 arg2 harg2 arg3 harg3 arg4 harg4 arg5 harg5 arg6 harg6 arg7 harg7 arg8 harg8 arg9 harg9) K := by
  simp only [cc2__combine_kernel_eq_skeleton]; unfold cc2__combine_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

variable (qq : Fin cfg2.W → PosShare TreeShare)

/-- The proof data of pipeline 2 on core `c`: the arrays as the region finds them (`V`); after the body at point `t`
    each input's buffer at its block and each output's at `out2_W` of the input blocks; the scoped rest and the
    generator register ride untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q w := qq w
  owed _ := 0

/-- The proof data's arrays are the region-entry contents. -/
theorem A_eq2 (c : Dev nD) (w : Fin cfg2.W) : (dat2 V qq c).A w = V c (Pipeline.arrRef spec2 w) := by
  dsimp only [dat2]

/-- What the body leaves, window by window. -/
theorem after2_0 (c : Dev nD) (t : Fin cfg2.N) : (dat2 V qq c).after 0 t = iblk2 V c 0 t := by dsimp only [dat2]
theorem after2_1 (c : Dev nD) (t : Fin cfg2.N) : (dat2 V qq c).after 1 t = iblk2 V c 1 t := by dsimp only [dat2]
theorem after2_2 (c : Dev nD) (t : Fin cfg2.N) : (dat2 V qq c).after 2 t = iblk2 V c 2 t := by dsimp only [dat2]
theorem after2_3 (c : Dev nD) (t : Fin cfg2.N) : (dat2 V qq c).after 3 t = iblk2 V c 3 t := by dsimp only [dat2]
theorem after2_4 (c : Dev nD) (t : Fin cfg2.N) : (dat2 V qq c).after 4 t = iblk2 V c 4 t := by dsimp only [dat2]
theorem after2_5 (c : Dev nD) (t : Fin cfg2.N) : (dat2 V qq c).after 5 t = iblk2 V c 5 t := by dsimp only [dat2]
theorem after2_6 (c : Dev nD) (t : Fin cfg2.N) : (dat2 V qq c).after 6 t = iblk2 V c 6 t := by dsimp only [dat2]
theorem after2_7 (c : Dev nD) (t : Fin cfg2.N) : (dat2 V qq c).after 7 t = iblk2 V c 7 t := by dsimp only [dat2]
theorem after2_8 (c : Dev nD) (t : Fin cfg2.N) : (dat2 V qq c).after 8 t = iblk2 V c 8 t := by dsimp only [dat2]
theorem after2_9 (c : Dev nD) (t : Fin cfg2.N) : (dat2 V qq c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point, fetched there or not. -/
theorem before2_0 (c : Dev nD) (t : Fin cfg2.N) (d) : (dat2 V qq c).before 0 t d = iblk2 V c 0 t :=
  before2_0_of V (dat2 V qq c) (A_eq2 V qq c 0) (after2_0 V qq c) t d
theorem before2_1 (c : Dev nD) (t : Fin cfg2.N) (d) : (dat2 V qq c).before 1 t d = iblk2 V c 1 t :=
  before2_1_of V (dat2 V qq c) (A_eq2 V qq c 1) (after2_1 V qq c) t d
theorem before2_2 (c : Dev nD) (t : Fin cfg2.N) (d) : (dat2 V qq c).before 2 t d = iblk2 V c 2 t :=
  before2_2_of V (dat2 V qq c) (A_eq2 V qq c 2) (after2_2 V qq c) t d
theorem before2_3 (c : Dev nD) (t : Fin cfg2.N) (d) : (dat2 V qq c).before 3 t d = iblk2 V c 3 t :=
  before2_3_of V (dat2 V qq c) (A_eq2 V qq c 3) (after2_3 V qq c) t d
theorem before2_4 (c : Dev nD) (t : Fin cfg2.N) (d) : (dat2 V qq c).before 4 t d = iblk2 V c 4 t :=
  before2_4_of V (dat2 V qq c) (A_eq2 V qq c 4) (after2_4 V qq c) t d
theorem before2_5 (c : Dev nD) (t : Fin cfg2.N) (d) : (dat2 V qq c).before 5 t d = iblk2 V c 5 t :=
  before2_5_of V (dat2 V qq c) (A_eq2 V qq c 5) (after2_5 V qq c) t d
theorem before2_6 (c : Dev nD) (t : Fin cfg2.N) (d) : (dat2 V qq c).before 6 t d = iblk2 V c 6 t :=
  before2_6_of V (dat2 V qq c) (A_eq2 V qq c 6) (after2_6 V qq c) t d
theorem before2_7 (c : Dev nD) (t : Fin cfg2.N) (d) : (dat2 V qq c).before 7 t d = iblk2 V c 7 t :=
  before2_7_of V (dat2 V qq c) (A_eq2 V qq c 7) (after2_7 V qq c) t d
theorem before2_8 (c : Dev nD) (t : Fin cfg2.N) (d) : (dat2 V qq c).before 8 t d = iblk2 V c 8 t :=
  before2_8_of V (dat2 V qq c) (A_eq2 V qq c 8) (after2_8 V qq c) t d

/-! ## The body obligation, at a generic point -/

/-- What the body is called with at point `t`, the windows one by one, -/
def bodyPre2 (c : Dev nD) (t : Fin cfg2.N) : sProp 𝕄 :=
  iprop((dat2 V qq c).Φ t.castSucc ∗ (dat2 V qq c).owesAt () t.castSucc
    ∗ (∃ d, owns (c : Thread nD τ) (st2_0 t) fullShare ((dat2 V qq c).before 0 t d))
    ∗ (∃ d, owns (c : Thread nD τ) (st2_1 t) fullShare ((dat2 V qq c).before 1 t d))
    ∗ (∃ d, owns (c : Thread nD τ) (st2_2 t) fullShare ((dat2 V qq c).before 2 t d))
    ∗ (∃ d, owns (c : Thread nD τ) (st2_3 t) fullShare ((dat2 V qq c).before 3 t d))
    ∗ (∃ d, owns (c : Thread nD τ) (st2_4 t) fullShare ((dat2 V qq c).before 4 t d))
    ∗ (∃ d, owns (c : Thread nD τ) (st2_5 t) fullShare ((dat2 V qq c).before 5 t d))
    ∗ (∃ d, owns (c : Thread nD τ) (st2_6 t) fullShare ((dat2 V qq c).before 6 t d))
    ∗ (∃ d, owns (c : Thread nD τ) (st2_7 t) fullShare ((dat2 V qq c).before 7 t d))
    ∗ (∃ d, owns (c : Thread nD τ) (st2_8 t) fullShare ((dat2 V qq c).before 8 t d))
    ∗ (∃ d, owns (c : Thread nD τ) (st2_9 t) fullShare ((dat2 V qq c).before 9 t d)))

/-- and what it returns. -/
def bodyPost2 (c : Dev nD) (t : Fin cfg2.N) : sProp 𝕄 :=
  iprop((dat2 V qq c).Φ t.succ ∗ (dat2 V qq c).owesAt () t.succ
    ∗ owns (c : Thread nD τ) (st2_0 t) fullShare ((dat2 V qq c).after 0 t)
    ∗ owns (c : Thread nD τ) (st2_1 t) fullShare ((dat2 V qq c).after 1 t)
    ∗ owns (c : Thread nD τ) (st2_2 t) fullShare ((dat2 V qq c).after 2 t)
    ∗ owns (c : Thread nD τ) (st2_3 t) fullShare ((dat2 V qq c).after 3 t)
    ∗ owns (c : Thread nD τ) (st2_4 t) fullShare ((dat2 V qq c).after 4 t)
    ∗ owns (c : Thread nD τ) (st2_5 t) fullShare ((dat2 V qq c).after 5 t)
    ∗ owns (c : Thread nD τ) (st2_6 t) fullShare ((dat2 V qq c).after 6 t)
    ∗ owns (c : Thread nD τ) (st2_7 t) fullShare ((dat2 V qq c).after 7 t)
    ∗ owns (c : Thread nD τ) (st2_8 t) fullShare ((dat2 V qq c).after 8 t)
    ∗ owns (c : Thread nD τ) (st2_9 t) fullShare ((dat2 V qq c).after 9 t))

/-- The body at any point: the inputs' memrefs hold their blocks, so `sound_kernel2` applies; the invariant and the core's
    `owes` pass through unread. -/
theorem sound_body2 (c : Dev nD) (t : Fin cfg2.N) :
    bodyPre2 V qq c t ⊢ wp frame (wpE (defs₀ (F := F)) Variants.none c none) Set.univ (bodyAt2 t) (fun _ => bodyPost2 V qq c t) := by
  unfold bodyPre2 bodyPost2 bodyAt2
  simp only [before2_0, before2_1, before2_2, before2_3, before2_4, before2_5, before2_6, before2_7, before2_8]
  rw [show (dat2 V qq c).Φ t.succ = (dat2 V qq c).Φ t.castSucc from rfl,
    show (dat2 V qq c).owesAt () t.succ = (dat2 V qq c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V qq c) (defs₀ (F := F)) Variants.none () Set.univ := fun t => by
  rw [bigSep_W2, bigSep_W2]
  exact sound_body2 V qq c t

end Cert.Kernel.Gen

end
-- ==== Proof.KB.Region3.lean ====
/-
  Region 3 of @main (the projection: h = X times the convolution's weights, and h with each row scaled) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.Kernel.Launch
import proofs.«121059_j18107582120780_2_alg».proof.Proof.Gen.Kernel.Skeleton
import proofs.«121059_j18107582120780_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in each output window's buffer -/

/-- Window 3's staging buffer after the body, from the input windows' blocks: its one store of the whole block. -/
def out3_3 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k3_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The store's rectangle is the whole buffer, so it covers every index. -/
theorem cover3_3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- Window 4's staging buffer after the body, from the input windows' blocks: its one store of the whole block. -/
def out3_4 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k3_pay2 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S10000x1) ![0, 0] S10000x1.size inb_S10000x1_S10000x1_0_0))⟩]

/-- The store's rectangle is the whole buffer, so it covers every index. -/
theorem cover3_4 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out3_W` of the inputs'. -/
theorem sound_kernel3 (c : Dev nD) (E : Set ℕ) (i : grid3.Coords) (arg0 : Memref sig .tc .vmem S10000x64 .f32) (harg0 : arg0.IsWhole) (arg1 : Memref sig .tc .vmem S64x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S10000x64 .f32) (harg4 : arg4.IsWhole)
    (x0 : Vec F S10000x64 .f32) (x1 : Vec F S64x64 .f32) (x2 : Vec F S10000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2) ∗ owns (c : Thread nD τ) arg4 fullShare (out3_4 x0 x1 x2)) -∗ K ⟨⟩))
      ⊢ wp frame (wpE (defs₀ (F := F)) Variants.none c none) E (cc3__conv_proj_kernel i arg0 harg0 arg1 harg1 arg2 harg2 arg3 harg3 arg4 harg4) K := by
  simp only [cc3__conv_proj_kernel_eq_skeleton]; unfold cc3__conv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The pipeline's proof data -/

/-- The proof data of pipeline 3 on core `c`: the arrays as the region finds them (`V`); after the body at point `t`
    each input's buffer at its block and each output's at `out3_W` of the input blocks; the scoped rest and the
    generator register ride untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => out3_4 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem after3_4 (c : Dev nD) (t : Fin cfg3.N) : (dat3 V c).after 4 t = out3_4 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the core's
    `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.KB.Region4.lean ====
/-
  Region 4 of @main (the layer update: the gated residual step from the state, the projected features and the aggregated messages) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.Kernel.Launch
import proofs.«121059_j18107582120780_2_alg».proof.Proof.Gen.Kernel.Skeleton
import proofs.«121059_j18107582120780_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s and whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s and whose body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for any proof
    data whose array is `V`'s and whose body leaves the block in place. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not, for any proof
    data whose array is `V`'s and whose body leaves the block in place. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in each output window's buffer -/

/-- Window 9's staging buffer after the body, from the input windows' blocks: its one store of the whole block. -/
def out4_9 (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) : Vec F S10000x64 .f32 :=
  View.canon [⟨(Rect.unit (s := S10000x64) ![0, 0] S10000x64.size inb_S10000x64_S10000x64_0_0), k4_pay1 (k4_pay2 (View.ld x0 (Rect.unit (s := S10000x64) ![0, 0] S10000x64.size inb_S10000x64_S10000x64_0_0)) (View.ld x8 (Rect.unit (s := S1x64) ![0, 0] S1x64.size inb_S1x64_S1x64_0_0))) (k4_pay3 (View.ld x3 (Rect.unit (s := S10000x64) ![0, 0] S10000x64.size inb_S10000x64_S10000x64_0_0)) (View.ld x4 (Rect.unit (s := S10000x1) ![0, 0] S10000x1.size inb_S10000x1_S10000x1_0_0)) (View.ld x5 (Rect.unit (s := S1x64) ![0, 0] S1x64.size inb_S1x64_S1x64_0_0)) (View.ld x2 (Rect.unit (s := S10000x64) ![0, 0] S10000x64.size inb_S10000x64_S10000x64_0_0)) (View.ld x6 (Rect.unit (s := S64x64) ![0, 0] S64x64.size inb_S64x64_S64x64_0_0)) (View.ld x7 (Rect.unit (s := S1x64) ![0, 0] S1x64.size inb_S1x64_S1x64_0_0)) (View.ld x1 (Rect.unit (s := S10000x64) ![0, 0] S10000x64.size inb_S10000x64_S10000x64_0_0)))⟩]

/-- The store's rectangle is the whole buffer, so it covers every index. -/
theorem cover4_9 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out4_W` of the inputs'. -/
theorem sound_kernel4 (c : Dev nD) (E : Set ℕ) (i : grid4.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x1 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S10000x64 .f32) (harg9 : arg9.IsWhole)
    (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out4_9 x0 x1 x2 x3 x4 x5 x6 x7 x8)) -∗ K ⟨⟩))
      ⊢ wp frame (wpE (defs₀ (F := F)) Variants.none c none) E (cc4__combine_kernel i arg0 harg0 arg1 harg1 arg2 harg2 arg3 harg3 arg4 harg4 arg5 harg5 arg6 harg6 arg7 harg7 arg8 harg8 arg9 harg9) K := by
  simp only [cc4__combine_kernel_eq_skeleton]; unfold cc4__combine_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover4_9 _)

/-! ## The pipeline's proof data -/

variable (qq : Fin cfg4.W → PosShare TreeShare)

/-- The proof data of pipeline 4 on core `c`: the arrays as the region finds them (`V`); after the body at point `t`
    each input's buffer at its block and each output's at `out4_W` of the input blocks; the scoped rest and the
    generator register ride untouched; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q w := qq w
  owed _ := 0

/-- The proof data's arrays are the region-entry contents. -/
theorem A_eq4 (c : Dev nD) (w : Fin cfg4.W) : (dat4 V qq c).A w = V c (Pipeline.arrRef spec4 w) := by
  dsimp only [dat4]

/-- What the body leaves, window by window. -/
theorem after4_0 (c : Dev nD) (t : Fin cfg4.N) : (dat4 V qq c).after 0 t = iblk4 V c 0 t := by dsimp only [dat4]
theorem after4_1 (c : Dev nD) (t : Fin cfg4.N) : (dat4 V qq c).after 1 t = iblk4 V c 1 t := by dsimp only [dat4]
theorem after4_2 (c : Dev nD) (t : Fin cfg4.N) : (dat4 V qq c).after 2 t = iblk4 V c 2 t := by dsimp only [dat4]
theorem after4_3 (c : Dev nD) (t : Fin cfg4.N) : (dat4 V qq c).after 3 t = iblk4 V c 3 t := by dsimp only [dat4]
theorem after4_4 (c : Dev nD) (t : Fin cfg4.N) : (dat4 V qq c).after 4 t = iblk4 V c 4 t := by dsimp only [dat4]
theorem after4_5 (c : Dev nD) (t : Fin cfg4.N) : (dat4 V qq c).after 5 t = iblk4 V c 5 t := by dsimp only [dat4]
theorem after4_6 (c : Dev nD) (t : Fin cfg4.N) : (dat4 V qq c).after 6 t = iblk4 V c 6 t := by dsimp only [dat4]
theorem after4_7 (c : Dev nD) (t : Fin cfg4.N) : (dat4 V qq c).after 7 t = iblk4 V c 7 t := by dsimp only [dat4]
theorem after4_8 (c : Dev nD) (t : Fin cfg4.N) : (dat4 V qq c).after 8 t = iblk4 V c 8 t := by dsimp only [dat4]
theorem after4_9 (c : Dev nD) (t : Fin cfg4.N) : (dat4 V qq c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

/-- Each input's current staging buffer holds its block at every point, fetched there or not. -/
theorem before4_0 (c : Dev nD) (t : Fin cfg4.N) (d) : (dat4 V qq c).before 0 t d = iblk4 V c 0 t :=
  before4_0_of V (dat4 V qq c) (A_eq4 V qq c 0) (after4_0 V qq c) t d
theorem before4_1 (c : Dev nD) (t : Fin cfg4.N) (d) : (dat4 V qq c).before 1 t d = iblk4 V c 1 t :=
  before4_1_of V (dat4 V qq c) (A_eq4 V qq c 1) (after4_1 V qq c) t d
theorem before4_2 (c : Dev nD) (t : Fin cfg4.N) (d) : (dat4 V qq c).before 2 t d = iblk4 V c 2 t :=
  before4_2_of V (dat4 V qq c) (A_eq4 V qq c 2) (after4_2 V qq c) t d
theorem before4_3 (c : Dev nD) (t : Fin cfg4.N) (d) : (dat4 V qq c).before 3 t d = iblk4 V c 3 t :=
  before4_3_of V (dat4 V qq c) (A_eq4 V qq c 3) (after4_3 V qq c) t d
theorem before4_4 (c : Dev nD) (t : Fin cfg4.N) (d) : (dat4 V qq c).before 4 t d = iblk4 V c 4 t :=
  before4_4_of V (dat4 V qq c) (A_eq4 V qq c 4) (after4_4 V qq c) t d
theorem before4_5 (c : Dev nD) (t : Fin cfg4.N) (d) : (dat4 V qq c).before 5 t d = iblk4 V c 5 t :=
  before4_5_of V (dat4 V qq c) (A_eq4 V qq c 5) (after4_5 V qq c) t d
theorem before4_6 (c : Dev nD) (t : Fin cfg4.N) (d) : (dat4 V qq c).before 6 t d = iblk4 V c 6 t :=
  before4_6_of V (dat4 V qq c) (A_eq4 V qq c 6) (after4_6 V qq c) t d
theorem before4_7 (c : Dev nD) (t : Fin cfg4.N) (d) : (dat4 V qq c).before 7 t d = iblk4 V c 7 t :=
  before4_7_of V (dat4 V qq c) (A_eq4 V qq c 7) (after4_7 V qq c) t d
theorem before4_8 (c : Dev nD) (t : Fin cfg4.N) (d) : (dat4 V qq c).before 8 t d = iblk4 V c 8 t :=
  before4_8_of V (dat4 V qq c) (A_eq4 V qq c 8) (after4_8 V qq c) t d

/-! ## The body obligation, at a generic point -/

/-- What the body is called with at point `t`, the windows one by one, -/
def bodyPre4 (c : Dev nD) (t : Fin cfg4.N) : sProp 𝕄 :=
  iprop((dat4 V qq c).Φ t.castSucc ∗ (dat4 V qq c).owesAt () t.castSucc
    ∗ (∃ d, owns (c : Thread nD τ) (st4_0 t) fullShare ((dat4 V qq c).before 0 t d))
    ∗ (∃ d, owns (c : Thread nD τ) (st4_1 t) fullShare ((dat4 V qq c).before 1 t d))
    ∗ (∃ d, owns (c : Thread nD τ) (st4_2 t) fullShare ((dat4 V qq c).before 2 t d))
    ∗ (∃ d, owns (c : Thread nD τ) (st4_3 t) fullShare ((dat4 V qq c).before 3 t d))
    ∗ (∃ d, owns (c : Thread nD τ) (st4_4 t) fullShare ((dat4 V qq c).before 4 t d))
    ∗ (∃ d, owns (c : Thread nD τ) (st4_5 t) fullShare ((dat4 V qq c).before 5 t d))
    ∗ (∃ d, owns (c : Thread nD τ) (st4_6 t) fullShare ((dat4 V qq c).before 6 t d))
    ∗ (∃ d, owns (c : Thread nD τ) (st4_7 t) fullShare ((dat4 V qq c).before 7 t d))
    ∗ (∃ d, owns (c : Thread nD τ) (st4_8 t) fullShare ((dat4 V qq c).before 8 t d))
    ∗ (∃ d, owns (c : Thread nD τ) (st4_9 t) fullShare ((dat4 V qq c).before 9 t d)))

/-- and what it returns. -/
def bodyPost4 (c : Dev nD) (t : Fin cfg4.N) : sProp 𝕄 :=
  iprop((dat4 V qq c).Φ t.succ ∗ (dat4 V qq c).owesAt () t.succ
    ∗ owns (c : Thread nD τ) (st4_0 t) fullShare ((dat4 V qq c).after 0 t)
    ∗ owns (c : Thread nD τ) (st4_1 t) fullShare ((dat4 V qq c).after 1 t)
    ∗ owns (c : Thread nD τ) (st4_2 t) fullShare ((dat4 V qq c).after 2 t)
    ∗ owns (c : Thread nD τ) (st4_3 t) fullShare ((dat4 V qq c).after 3 t)
    ∗ owns (c : Thread nD τ) (st4_4 t) fullShare ((dat4 V qq c).after 4 t)
    ∗ owns (c : Thread nD τ) (st4_5 t) fullShare ((dat4 V qq c).after 5 t)
    ∗ owns (c : Thread nD τ) (st4_6 t) fullShare ((dat4 V qq c).after 6 t)
    ∗ owns (c : Thread nD τ) (st4_7 t) fullShare ((dat4 V qq c).after 7 t)
    ∗ owns (c : Thread nD τ) (st4_8 t) fullShare ((dat4 V qq c).after 8 t)
    ∗ owns (c : Thread nD τ) (st4_9 t) fullShare ((dat4 V qq c).after 9 t))

/-- The body at any point: the inputs' memrefs hold their blocks, so `sound_kernel4` applies; the invariant and the core's
    `owes` pass through unread. -/
theorem sound_body4 (c : Dev nD) (t : Fin cfg4.N) :
    bodyPre4 V qq c t ⊢ wp frame (wpE (defs₀ (F := F)) Variants.none c none) Set.univ (bodyAt4 t) (fun _ => bodyPost4 V qq c t) := by
  unfold bodyPre4 bodyPost4 bodyAt4
  simp only [before4_0, before4_1, before4_2, before4_3, before4_4, before4_5, before4_6, before4_7, before4_8]
  rw [show (dat4 V qq c).Φ t.succ = (dat4 V qq c).Φ t.castSucc from rfl,
    show (dat4 V qq c).owesAt () t.succ = (dat4 V qq c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V qq c) (defs₀ (F := F)) Variants.none () Set.univ := fun t => by
  rw [bigSep_W4, bigSep_W4]
  exact sound_body4 V qq c t

end Cert.Kernel.Gen

end
-- ==== Proof.KB.Region5.lean ====
/-
  Region 5 of @main (the projection: h = X times the convolution's weights, and h with each row scaled) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.Kernel.Launch
import proofs.«121059_j18107582120780_2_alg».proof.Proof.Gen.Kernel.Skeleton
import proofs.«121059_j18107582120780_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## What the body leaves in each output window's buffer -/

/-- Window 3's staging buffer after the body, from the input windows' blocks: its one store of the whole block. -/
def out5_3 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k5_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The store's rectangle is the whole buffer, so it covers every index. -/
theorem cover5_3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- Window 4's staging buffer after the body, from the input windows' blocks: its one store of the whole block. -/
def out5_4 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k5_pay2 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S10000x1) ![0, 0] S10000x1.size inb_S10000x1_S10000x1_0_0))⟩]

/-- The store's rectangle is the whole buffer, so it covers every index. -/
theorem cover5_4 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out5_W` of the inputs'. -/
theorem sound_kernel5 (c : Dev nD) (E : Set ℕ) (i : grid5.Coords) (arg0 : Memref sig .tc .vmem S10000x64 .f32) (harg0 : arg0.IsWhole) (arg1 : Memref sig .tc .vmem S64x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S10000x64 .f32) (harg4 : arg4.IsWhole)
    (x0 : Vec F S10000x64 .f32) (x1 : Vec F S64x64 .f32) (x2 : Vec F S10000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2) ∗ owns (c : Thread nD τ) arg4 fullShare (out5_4 x0 x1 x2)) -∗ K ⟨⟩))
      ⊢ wp frame (wpE (defs₀ (F := F)) Variants.none c none) E (cc5__conv_proj_kernel i arg0 harg0 arg1 harg1 arg2 harg2 arg3 harg3 arg4 harg4) K := by
  simp only [cc5__conv_proj_kernel_eq_skeleton]; unfold cc5__conv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 _)
  iexists _; isplitr
  swap; · iexact H4
  ipureintro
  exact View.read_writes_eq_canon _ _ _ (cover5_4 _)

/-! ## The pipeline's proof data -/

/-- The proof data of pipeline 5 on core `c`: the arrays as the region finds them (`V`); after the body at point `t`
    each input's buffer at its block and each output's at `out5_W` of the input blocks; the scoped rest and the
    generator register ride untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
    | ⟨4, _⟩ => out5_4 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem after5_4 (c : Dev nD) (t : Fin cfg5.N) : (dat5 V c).after 4 t = out5_4 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so `sound_kernel5` applies; the invariant and the core's
    `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.KB.Region6.lean ====
/-
  Region 6 of @main (the layer update: the gated residual step from the state, the projected features and the aggregated messages) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.Kernel.Launch
import proofs.«121059_j18107582120780_2_alg».proof.Proof.Gen.Kernel.Skeleton
import proofs.«121059_j18107582120780_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s and whose body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not, for any proof
    data whose array is `V`'s and whose body leaves the block in place. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, fetched there or not, for any proof
    data whose array is `V`'s and whose body leaves the block in place. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-! ## What the body leaves in each output window's buffer -/

/-- Window 9's staging buffer after the body, from the input windows' blocks: its one store of the whole block. -/
def out6_9 (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) : Vec F S10000x64 .f32 :=
  View.canon [⟨(Rect.unit (s := S10000x64) ![0, 0] S10000x64.size inb_S10000x64_S10000x64_0_0), k6_pay1 (k6_pay2 (View.ld x0 (Rect.unit (s := S10000x64) ![0, 0] S10000x64.size inb_S10000x64_S10000x64_0_0)) (View.ld x8 (Rect.unit (s := S1x64) ![0, 0] S1x64.size inb_S1x64_S1x64_0_0))) (k6_pay3 (View.ld x3 (Rect.unit (s := S10000x64) ![0, 0] S10000x64.size inb_S10000x64_S10000x64_0_0)) (View.ld x4 (Rect.unit (s := S10000x1) ![0, 0] S10000x1.size inb_S10000x1_S10000x1_0_0)) (View.ld x5 (Rect.unit (s := S1x64) ![0, 0] S1x64.size inb_S1x64_S1x64_0_0)) (View.ld x2 (Rect.unit (s := S10000x64) ![0, 0] S10000x64.size inb_S10000x64_S10000x64_0_0)) (View.ld x6 (Rect.unit (s := S64x64) ![0, 0] S64x64.size inb_S64x64_S64x64_0_0)) (View.ld x7 (Rect.unit (s := S1x64) ![0, 0] S1x64.size inb_S1x64_S1x64_0_0)) (View.ld x1 (Rect.unit (s := S10000x64) ![0, 0] S10000x64.size inb_S10000x64_S10000x64_0_0)))⟩]

/-- The store's rectangle is the whole buffer, so it covers every index. -/
theorem cover6_9 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out6_W` of the inputs'. -/
theorem sound_kernel6 (c : Dev nD) (E : Set ℕ) (i : grid6.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x1 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S10000x64 .f32) (harg9 : arg9.IsWhole)
    (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out6_9 x0 x1 x2 x3 x4 x5 x6 x7 x8)) -∗ K ⟨⟩))
      ⊢ wp frame (wpE (defs₀ (F := F)) Variants.none c none) E (cc6__combine_kernel i arg0 harg0 arg1 harg1 arg2 harg2 arg3 harg3 arg4 harg4 arg5 harg5 arg6 harg6 arg7 harg7 arg8 harg8 arg9 harg9) K := by
  simp only [cc6__combine_kernel_eq_skeleton]; unfold cc6__combine_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover6_9 _)

/-! ## The pipeline's proof data -/

variable (qq : Fin cfg6.W → PosShare TreeShare)

/-- The proof data of pipeline 6 on core `c`: the arrays as the region finds them (`V`); after the body at point `t`
    each input's buffer at its block and each output's at `out6_W` of the input blocks; the scoped rest and the
    generator register ride untouched; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q w := qq w
  owed _ := 0

/-- The proof data's arrays are the region-entry contents. -/
theorem A_eq6 (c : Dev nD) (w : Fin cfg6.W) : (dat6 V qq c).A w = V c (Pipeline.arrRef spec6 w) := by
  dsimp only [dat6]

/-- What the body leaves, window by window. -/
theorem after6_0 (c : Dev nD) (t : Fin cfg6.N) : (dat6 V qq c).after 0 t = iblk6 V c 0 t := by dsimp only [dat6]
theorem after6_1 (c : Dev nD) (t : Fin cfg6.N) : (dat6 V qq c).after 1 t = iblk6 V c 1 t := by dsimp only [dat6]
theorem after6_2 (c : Dev nD) (t : Fin cfg6.N) : (dat6 V qq c).after 2 t = iblk6 V c 2 t := by dsimp only [dat6]
theorem after6_3 (c : Dev nD) (t : Fin cfg6.N) : (dat6 V qq c).after 3 t = iblk6 V c 3 t := by dsimp only [dat6]
theorem after6_4 (c : Dev nD) (t : Fin cfg6.N) : (dat6 V qq c).after 4 t = iblk6 V c 4 t := by dsimp only [dat6]
theorem after6_5 (c : Dev nD) (t : Fin cfg6.N) : (dat6 V qq c).after 5 t = iblk6 V c 5 t := by dsimp only [dat6]
theorem after6_6 (c : Dev nD) (t : Fin cfg6.N) : (dat6 V qq c).after 6 t = iblk6 V c 6 t := by dsimp only [dat6]
theorem after6_7 (c : Dev nD) (t : Fin cfg6.N) : (dat6 V qq c).after 7 t = iblk6 V c 7 t := by dsimp only [dat6]
theorem after6_8 (c : Dev nD) (t : Fin cfg6.N) : (dat6 V qq c).after 8 t = iblk6 V c 8 t := by dsimp only [dat6]
theorem after6_9 (c : Dev nD) (t : Fin cfg6.N) : (dat6 V qq c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

/-- Each input's current staging buffer holds its block at every point, fetched there or not. -/
theorem before6_0 (c : Dev nD) (t : Fin cfg6.N) (d) : (dat6 V qq c).before 0 t d = iblk6 V c 0 t :=
  before6_0_of V (dat6 V qq c) (A_eq6 V qq c 0) (after6_0 V qq c) t d
theorem before6_1 (c : Dev nD) (t : Fin cfg6.N) (d) : (dat6 V qq c).before 1 t d = iblk6 V c 1 t :=
  before6_1_of V (dat6 V qq c) (A_eq6 V qq c 1) (after6_1 V qq c) t d
theorem before6_2 (c : Dev nD) (t : Fin cfg6.N) (d) : (dat6 V qq c).before 2 t d = iblk6 V c 2 t :=
  before6_2_of V (dat6 V qq c) (A_eq6 V qq c 2) (after6_2 V qq c) t d
theorem before6_3 (c : Dev nD) (t : Fin cfg6.N) (d) : (dat6 V qq c).before 3 t d = iblk6 V c 3 t :=
  before6_3_of V (dat6 V qq c) (A_eq6 V qq c 3) (after6_3 V qq c) t d
theorem before6_4 (c : Dev nD) (t : Fin cfg6.N) (d) : (dat6 V qq c).before 4 t d = iblk6 V c 4 t :=
  before6_4_of V (dat6 V qq c) (A_eq6 V qq c 4) (after6_4 V qq c) t d
theorem before6_5 (c : Dev nD) (t : Fin cfg6.N) (d) : (dat6 V qq c).before 5 t d = iblk6 V c 5 t :=
  before6_5_of V (dat6 V qq c) (A_eq6 V qq c 5) (after6_5 V qq c) t d
theorem before6_6 (c : Dev nD) (t : Fin cfg6.N) (d) : (dat6 V qq c).before 6 t d = iblk6 V c 6 t :=
  before6_6_of V (dat6 V qq c) (A_eq6 V qq c 6) (after6_6 V qq c) t d
theorem before6_7 (c : Dev nD) (t : Fin cfg6.N) (d) : (dat6 V qq c).before 7 t d = iblk6 V c 7 t :=
  before6_7_of V (dat6 V qq c) (A_eq6 V qq c 7) (after6_7 V qq c) t d
theorem before6_8 (c : Dev nD) (t : Fin cfg6.N) (d) : (dat6 V qq c).before 8 t d = iblk6 V c 8 t :=
  before6_8_of V (dat6 V qq c) (A_eq6 V qq c 8) (after6_8 V qq c) t d

/-! ## The body obligation, at a generic point -/

/-- What the body is called with at point `t`, the windows one by one, -/
def bodyPre6 (c : Dev nD) (t : Fin cfg6.N) : sProp 𝕄 :=
  iprop((dat6 V qq c).Φ t.castSucc ∗ (dat6 V qq c).owesAt () t.castSucc
    ∗ (∃ d, owns (c : Thread nD τ) (st6_0 t) fullShare ((dat6 V qq c).before 0 t d))
    ∗ (∃ d, owns (c : Thread nD τ) (st6_1 t) fullShare ((dat6 V qq c).before 1 t d))
    ∗ (∃ d, owns (c : Thread nD τ) (st6_2 t) fullShare ((dat6 V qq c).before 2 t d))
    ∗ (∃ d, owns (c : Thread nD τ) (st6_3 t) fullShare ((dat6 V qq c).before 3 t d))
    ∗ (∃ d, owns (c : Thread nD τ) (st6_4 t) fullShare ((dat6 V qq c).before 4 t d))
    ∗ (∃ d, owns (c : Thread nD τ) (st6_5 t) fullShare ((dat6 V qq c).before 5 t d))
    ∗ (∃ d, owns (c : Thread nD τ) (st6_6 t) fullShare ((dat6 V qq c).before 6 t d))
    ∗ (∃ d, owns (c : Thread nD τ) (st6_7 t) fullShare ((dat6 V qq c).before 7 t d))
    ∗ (∃ d, owns (c : Thread nD τ) (st6_8 t) fullShare ((dat6 V qq c).before 8 t d))
    ∗ (∃ d, owns (c : Thread nD τ) (st6_9 t) fullShare ((dat6 V qq c).before 9 t d)))

/-- and what it returns. -/
def bodyPost6 (c : Dev nD) (t : Fin cfg6.N) : sProp 𝕄 :=
  iprop((dat6 V qq c).Φ t.succ ∗ (dat6 V qq c).owesAt () t.succ
    ∗ owns (c : Thread nD τ) (st6_0 t) fullShare ((dat6 V qq c).after 0 t)
    ∗ owns (c : Thread nD τ) (st6_1 t) fullShare ((dat6 V qq c).after 1 t)
    ∗ owns (c : Thread nD τ) (st6_2 t) fullShare ((dat6 V qq c).after 2 t)
    ∗ owns (c : Thread nD τ) (st6_3 t) fullShare ((dat6 V qq c).after 3 t)
    ∗ owns (c : Thread nD τ) (st6_4 t) fullShare ((dat6 V qq c).after 4 t)
    ∗ owns (c : Thread nD τ) (st6_5 t) fullShare ((dat6 V qq c).after 5 t)
    ∗ owns (c : Thread nD τ) (st6_6 t) fullShare ((dat6 V qq c).after 6 t)
    ∗ owns (c : Thread nD τ) (st6_7 t) fullShare ((dat6 V qq c).after 7 t)
    ∗ owns (c : Thread nD τ) (st6_8 t) fullShare ((dat6 V qq c).after 8 t)
    ∗ owns (c : Thread nD τ) (st6_9 t) fullShare ((dat6 V qq c).after 9 t))

/-- The body at any point: the inputs' memrefs hold their blocks, so `sound_kernel6` applies; the invariant and the core's
    `owes` pass through unread. -/
theorem sound_body6 (c : Dev nD) (t : Fin cfg6.N) :
    bodyPre6 V qq c t ⊢ wp frame (wpE (defs₀ (F := F)) Variants.none c none) Set.univ (bodyAt6 t) (fun _ => bodyPost6 V qq c t) := by
  unfold bodyPre6 bodyPost6 bodyAt6
  simp only [before6_0, before6_1, before6_2, before6_3, before6_4, before6_5, before6_6, before6_7, before6_8]
  rw [show (dat6 V qq c).Φ t.succ = (dat6 V qq c).Φ t.castSucc from rfl,
    show (dat6 V qq c).owesAt () t.succ = (dat6 V qq c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation6 (c : Dev nD) : BodyObligation (dat6 (F := F) V qq c) (defs₀ (F := F)) Variants.none () Set.univ := fun t => by
  rw [bigSep_W6, bigSep_W6]
  exact sound_body6 V qq c t

end Cert.Kernel.Gen

end
-- ==== Proof.KB.Region7.lean ====
/-
  Region 7 of @main (the projection: h = X times the convolution's weights, and h with each row scaled) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.Kernel.Launch
import proofs.«121059_j18107582120780_2_alg».proof.Proof.Gen.Kernel.Skeleton
import proofs.«121059_j18107582120780_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## What the body leaves in each output window's buffer -/

/-- Window 3's staging buffer after the body, from the input windows' blocks: its one store of the whole block. -/
def out7_3 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k7_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The store's rectangle is the whole buffer, so it covers every index. -/
theorem cover7_3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- Window 4's staging buffer after the body, from the input windows' blocks: its one store of the whole block. -/
def out7_4 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k7_pay2 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S10000x1) ![0, 0] S10000x1.size inb_S10000x1_S10000x1_0_0))⟩]

/-- The store's rectangle is the whole buffer, so it covers every index. -/
theorem cover7_4 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out7_W` of the inputs'. -/
theorem sound_kernel7 (c : Dev nD) (E : Set ℕ) (i : grid7.Coords) (arg0 : Memref sig .tc .vmem S10000x64 .f32) (harg0 : arg0.IsWhole) (arg1 : Memref sig .tc .vmem S64x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S10000x64 .f32) (harg4 : arg4.IsWhole)
    (x0 : Vec F S10000x64 .f32) (x1 : Vec F S64x64 .f32) (x2 : Vec F S10000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out7_3 x0 x1 x2) ∗ owns (c : Thread nD τ) arg4 fullShare (out7_4 x0 x1 x2)) -∗ K ⟨⟩))
      ⊢ wp frame (wpE (defs₀ (F := F)) Variants.none c none) E (cc7__conv_proj_kernel i arg0 harg0 arg1 harg1 arg2 harg2 arg3 harg3 arg4 harg4) K := by
  simp only [cc7__conv_proj_kernel_eq_skeleton]; unfold cc7__conv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_3 _)
  iexists _; isplitr
  swap; · iexact H4
  ipureintro
  exact View.read_writes_eq_canon _ _ _ (cover7_4 _)

/-! ## The pipeline's proof data -/

/-- The proof data of pipeline 7 on core `c`: the arrays as the region finds them (`V`); after the body at point `t`
    each input's buffer at its block and each output's at `out7_W` of the input blocks; the scoped rest and the
    generator register ride untouched; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
    | ⟨4, _⟩ => out7_4 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]
theorem after7_4 (c : Dev nD) (t : Fin cfg7.N) : (dat7 V c).after 4 t = out7_4 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks, so `sound_kernel7` applies; the invariant and the core's
    `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Gen

end
-- ==== Proof.KB.Region8.lean ====
/-
  Region 8 of @main (the layer update: the gated residual step from the state, the projected features and the aggregated messages) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.Kernel.Launch
import proofs.«121059_j18107582120780_2_alg».proof.Proof.Gen.Kernel.Skeleton
import proofs.«121059_j18107582120780_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not, for any proof
    data whose array is `V`'s and whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, fetched there or not, for any proof
    data whose array is `V`'s and whose body leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's current staging buffer holds its block at every point, fetched there or not, for any proof
    data whose array is `V`'s and whose body leaves the block in place. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's current staging buffer holds its block at every point, fetched there or not, for any proof
    data whose array is `V`'s and whose body leaves the block in place. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-! ## What the body leaves in each output window's buffer -/

/-- Window 9's staging buffer after the body, from the input windows' blocks: its one store of the whole block. -/
def out8_9 (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) : Vec F S10000x64 .f32 :=
  View.canon [⟨(Rect.unit (s := S10000x64) ![0, 0] S10000x64.size inb_S10000x64_S10000x64_0_0), k8_pay1 (k8_pay2 (View.ld x0 (Rect.unit (s := S10000x64) ![0, 0] S10000x64.size inb_S10000x64_S10000x64_0_0)) (View.ld x8 (Rect.unit (s := S1x64) ![0, 0] S1x64.size inb_S1x64_S1x64_0_0))) (k8_pay3 (View.ld x3 (Rect.unit (s := S10000x64) ![0, 0] S10000x64.size inb_S10000x64_S10000x64_0_0)) (View.ld x4 (Rect.unit (s := S10000x1) ![0, 0] S10000x1.size inb_S10000x1_S10000x1_0_0)) (View.ld x5 (Rect.unit (s := S1x64) ![0, 0] S1x64.size inb_S1x64_S1x64_0_0)) (View.ld x2 (Rect.unit (s := S10000x64) ![0, 0] S10000x64.size inb_S10000x64_S10000x64_0_0)) (View.ld x6 (Rect.unit (s := S64x64) ![0, 0] S64x64.size inb_S64x64_S64x64_0_0)) (View.ld x7 (Rect.unit (s := S1x64) ![0, 0] S1x64.size inb_S1x64_S1x64_0_0)) (View.ld x1 (Rect.unit (s := S10000x64) ![0, 0] S10000x64.size inb_S10000x64_S10000x64_0_0)))⟩]

/-- The store's rectangle is the whole buffer, so it covers every index. -/
theorem cover8_9 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out8_W` of the inputs'. -/
theorem sound_kernel8 (c : Dev nD) (E : Set ℕ) (i : grid8.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x1 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S10000x64 .f32) (harg9 : arg9.IsWhole)
    (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out8_9 x0 x1 x2 x3 x4 x5 x6 x7 x8)) -∗ K ⟨⟩))
      ⊢ wp frame (wpE (defs₀ (F := F)) Variants.none c none) E (cc8__combine_kernel i arg0 harg0 arg1 harg1 arg2 harg2 arg3 harg3 arg4 harg4 arg5 harg5 arg6 harg6 arg7 harg7 arg8 harg8 arg9 harg9) K := by
  simp only [cc8__combine_kernel_eq_skeleton]; unfold cc8__combine_kernel_skel
  simp only [k8_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover8_9 _)

/-! ## The pipeline's proof data -/

variable (qq : Fin cfg8.W → PosShare TreeShare)

/-- The proof data of pipeline 8 on core `c`: the arrays as the region finds them (`V`); after the body at point `t`
    each input's buffer at its block and each output's at `out8_W` of the input blocks; the scoped rest and the
    generator register ride untouched; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q w := qq w
  owed _ := 0

/-- The proof data's arrays are the region-entry contents. -/
theorem A_eq8 (c : Dev nD) (w : Fin cfg8.W) : (dat8 V qq c).A w = V c (Pipeline.arrRef spec8 w) := by
  dsimp only [dat8]

/-- What the body leaves, window by window. -/
theorem after8_0 (c : Dev nD) (t : Fin cfg8.N) : (dat8 V qq c).after 0 t = iblk8 V c 0 t := by dsimp only [dat8]
theorem after8_1 (c : Dev nD) (t : Fin cfg8.N) : (dat8 V qq c).after 1 t = iblk8 V c 1 t := by dsimp only [dat8]
theorem after8_2 (c : Dev nD) (t : Fin cfg8.N) : (dat8 V qq c).after 2 t = iblk8 V c 2 t := by dsimp only [dat8]
theorem after8_3 (c : Dev nD) (t : Fin cfg8.N) : (dat8 V qq c).after 3 t = iblk8 V c 3 t := by dsimp only [dat8]
theorem after8_4 (c : Dev nD) (t : Fin cfg8.N) : (dat8 V qq c).after 4 t = iblk8 V c 4 t := by dsimp only [dat8]
theorem after8_5 (c : Dev nD) (t : Fin cfg8.N) : (dat8 V qq c).after 5 t = iblk8 V c 5 t := by dsimp only [dat8]
theorem after8_6 (c : Dev nD) (t : Fin cfg8.N) : (dat8 V qq c).after 6 t = iblk8 V c 6 t := by dsimp only [dat8]
theorem after8_7 (c : Dev nD) (t : Fin cfg8.N) : (dat8 V qq c).after 7 t = iblk8 V c 7 t := by dsimp only [dat8]
theorem after8_8 (c : Dev nD) (t : Fin cfg8.N) : (dat8 V qq c).after 8 t = iblk8 V c 8 t := by dsimp only [dat8]
theorem after8_9 (c : Dev nD) (t : Fin cfg8.N) : (dat8 V qq c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

/-- Each input's current staging buffer holds its block at every point, fetched there or not. -/
theorem before8_0 (c : Dev nD) (t : Fin cfg8.N) (d) : (dat8 V qq c).before 0 t d = iblk8 V c 0 t :=
  before8_0_of V (dat8 V qq c) (A_eq8 V qq c 0) (after8_0 V qq c) t d
theorem before8_1 (c : Dev nD) (t : Fin cfg8.N) (d) : (dat8 V qq c).before 1 t d = iblk8 V c 1 t :=
  before8_1_of V (dat8 V qq c) (A_eq8 V qq c 1) (after8_1 V qq c) t d
theorem before8_2 (c : Dev nD) (t : Fin cfg8.N) (d) : (dat8 V qq c).before 2 t d = iblk8 V c 2 t :=
  before8_2_of V (dat8 V qq c) (A_eq8 V qq c 2) (after8_2 V qq c) t d
theorem before8_3 (c : Dev nD) (t : Fin cfg8.N) (d) : (dat8 V qq c).before 3 t d = iblk8 V c 3 t :=
  before8_3_of V (dat8 V qq c) (A_eq8 V qq c 3) (after8_3 V qq c) t d
theorem before8_4 (c : Dev nD) (t : Fin cfg8.N) (d) : (dat8 V qq c).before 4 t d = iblk8 V c 4 t :=
  before8_4_of V (dat8 V qq c) (A_eq8 V qq c 4) (after8_4 V qq c) t d
theorem before8_5 (c : Dev nD) (t : Fin cfg8.N) (d) : (dat8 V qq c).before 5 t d = iblk8 V c 5 t :=
  before8_5_of V (dat8 V qq c) (A_eq8 V qq c 5) (after8_5 V qq c) t d
theorem before8_6 (c : Dev nD) (t : Fin cfg8.N) (d) : (dat8 V qq c).before 6 t d = iblk8 V c 6 t :=
  before8_6_of V (dat8 V qq c) (A_eq8 V qq c 6) (after8_6 V qq c) t d
theorem before8_7 (c : Dev nD) (t : Fin cfg8.N) (d) : (dat8 V qq c).before 7 t d = iblk8 V c 7 t :=
  before8_7_of V (dat8 V qq c) (A_eq8 V qq c 7) (after8_7 V qq c) t d
theorem before8_8 (c : Dev nD) (t : Fin cfg8.N) (d) : (dat8 V qq c).before 8 t d = iblk8 V c 8 t :=
  before8_8_of V (dat8 V qq c) (A_eq8 V qq c 8) (after8_8 V qq c) t d

/-! ## The body obligation, at a generic point -/

/-- What the body is called with at point `t`, the windows one by one, -/
def bodyPre8 (c : Dev nD) (t : Fin cfg8.N) : sProp 𝕄 :=
  iprop((dat8 V qq c).Φ t.castSucc ∗ (dat8 V qq c).owesAt () t.castSucc
    ∗ (∃ d, owns (c : Thread nD τ) (st8_0 t) fullShare ((dat8 V qq c).before 0 t d))
    ∗ (∃ d, owns (c : Thread nD τ) (st8_1 t) fullShare ((dat8 V qq c).before 1 t d))
    ∗ (∃ d, owns (c : Thread nD τ) (st8_2 t) fullShare ((dat8 V qq c).before 2 t d))
    ∗ (∃ d, owns (c : Thread nD τ) (st8_3 t) fullShare ((dat8 V qq c).before 3 t d))
    ∗ (∃ d, owns (c : Thread nD τ) (st8_4 t) fullShare ((dat8 V qq c).before 4 t d))
    ∗ (∃ d, owns (c : Thread nD τ) (st8_5 t) fullShare ((dat8 V qq c).before 5 t d))
    ∗ (∃ d, owns (c : Thread nD τ) (st8_6 t) fullShare ((dat8 V qq c).before 6 t d))
    ∗ (∃ d, owns (c : Thread nD τ) (st8_7 t) fullShare ((dat8 V qq c).before 7 t d))
    ∗ (∃ d, owns (c : Thread nD τ) (st8_8 t) fullShare ((dat8 V qq c).before 8 t d))
    ∗ (∃ d, owns (c : Thread nD τ) (st8_9 t) fullShare ((dat8 V qq c).before 9 t d)))

/-- and what it returns. -/
def bodyPost8 (c : Dev nD) (t : Fin cfg8.N) : sProp 𝕄 :=
  iprop((dat8 V qq c).Φ t.succ ∗ (dat8 V qq c).owesAt () t.succ
    ∗ owns (c : Thread nD τ) (st8_0 t) fullShare ((dat8 V qq c).after 0 t)
    ∗ owns (c : Thread nD τ) (st8_1 t) fullShare ((dat8 V qq c).after 1 t)
    ∗ owns (c : Thread nD τ) (st8_2 t) fullShare ((dat8 V qq c).after 2 t)
    ∗ owns (c : Thread nD τ) (st8_3 t) fullShare ((dat8 V qq c).after 3 t)
    ∗ owns (c : Thread nD τ) (st8_4 t) fullShare ((dat8 V qq c).after 4 t)
    ∗ owns (c : Thread nD τ) (st8_5 t) fullShare ((dat8 V qq c).after 5 t)
    ∗ owns (c : Thread nD τ) (st8_6 t) fullShare ((dat8 V qq c).after 6 t)
    ∗ owns (c : Thread nD τ) (st8_7 t) fullShare ((dat8 V qq c).after 7 t)
    ∗ owns (c : Thread nD τ) (st8_8 t) fullShare ((dat8 V qq c).after 8 t)
    ∗ owns (c : Thread nD τ) (st8_9 t) fullShare ((dat8 V qq c).after 9 t))

/-- The body at any point: the inputs' memrefs hold their blocks, so `sound_kernel8` applies; the invariant and the core's
    `owes` pass through unread. -/
theorem sound_body8 (c : Dev nD) (t : Fin cfg8.N) :
    bodyPre8 V qq c t ⊢ wp frame (wpE (defs₀ (F := F)) Variants.none c none) Set.univ (bodyAt8 t) (fun _ => bodyPost8 V qq c t) := by
  unfold bodyPre8 bodyPost8 bodyAt8
  simp only [before8_0, before8_1, before8_2, before8_3, before8_4, before8_5, before8_6, before8_7, before8_8]
  rw [show (dat8 V qq c).Φ t.succ = (dat8 V qq c).Φ t.castSucc from rfl,
    show (dat8 V qq c).owesAt () t.succ = (dat8 V qq c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V qq c) (defs₀ (F := F)) Variants.none () Set.univ := fun t => by
  rw [bigSep_W8, bigSep_W8]
  exact sound_body8 V qq c t

end Cert.Kernel.Gen

end
-- ==== Proof.KB.Region9.lean ====
/-
  Region 9 of @main (the decoder: one matrix product and a bias row) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.Kernel.Launch
import proofs.«121059_j18107582120780_2_alg».proof.Proof.Gen.Kernel.Skeleton
import proofs.«121059_j18107582120780_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s and whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s and whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## What the body leaves in each output window's buffer -/

/-- Window 3's staging buffer after the body, from the input windows' blocks: its one store of the whole block. -/
def out9_3 (x0 : Vec F S10000x64 .f32) (x1 : Vec F S64x47 .f32) (x2 : Vec F S1x47 .f32) : Vec F S10000x47 .f32 :=
  View.canon [⟨(Rect.unit (s := S10000x47) ![0, 0] S10000x47.size inb_S10000x47_S10000x47_0_0), k9_pay1 (View.ld x0 (Rect.unit (s := S10000x64) ![0, 0] S10000x64.size inb_S10000x64_S10000x64_0_0)) (View.ld x1 (Rect.unit (s := S64x47) ![0, 0] S64x47.size inb_S64x47_S64x47_0_0)) (View.ld x2 (Rect.unit (s := S1x47) ![0, 0] S1x47.size inb_S1x47_S1x47_0_0))⟩]

/-- The store's rectangle is the whole buffer, so it covers every index. -/
theorem cover9_3 (p0 : Vec F S10000x47 .f32) (y : S10000x47.Idx) :
    ∃ pc ∈ ([⟨(Rect.unit (s := S10000x47) ![0, 0] S10000x47.size inb_S10000x47_S10000x47_0_0), p0⟩] : List (View.Piece (Elt F) S10000x47 .f32)), y ∈ pc.1.set :=
  View.cover_of_tiled [⟨(Rect.unit (s := S10000x47) ![0, 0] S10000x47.size inb_S10000x47_S10000x47_0_0), p0⟩] S10000x47.size (by rfl) y

/-! ## The body's triple -/

set_option maxHeartbeats 4000000 in
/-- The kernel body on whole staging memrefs, the inputs' at contents `xW` and the outputs' at anything, runs to the
    continuation holding the inputs' as they were and each output's at `out9_W` of the inputs'. -/
theorem sound_kernel9 (c : Dev nD) (E : Set ℕ) (i : grid9.Coords) (arg0 : Memref sig .tc .vmem S10000x64 .f32) (harg0 : arg0.IsWhole) (arg1 : Memref sig .tc .vmem S64x47 .f32) (harg1 : arg1.IsWhole) (arg2 : Memref sig .tc .vmem S1x47 .f32) (harg2 : arg2.IsWhole) (arg3 : Memref sig .tc .vmem S10000x47 .f32) (harg3 : arg3.IsWhole)
    (x0 : Vec F S10000x64 .f32) (x1 : Vec F S64x47 .f32) (x2 : Vec F S1x47 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out9_3 x0 x1 x2)) -∗ K ⟨⟩))
      ⊢ wp frame (wpE (defs₀ (F := F)) Variants.none c none) E (cc9__linear_kernel i arg0 harg0 arg1 harg1 arg2 harg2 arg3 harg3) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them (`V`); after the body at point `t`
    each input's buffer at its block and each output's at `out9_W` of the input blocks; the scoped rest and the
    generator register ride untouched; nothing owed. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so `sound_kernel9` applies; the invariant and the core's
    `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Gen

end
-- ==== Proof.KB.Shares.lean ====
/-
  How the four layer-update regions deal an array's full share among their windows: their first two input windows read the
  same array, so each takes one half of its full share; every other window has an array of its own, at the full share.
-/
import proofs.«121059_j18107582120780_2_alg».proof.Proof.Gen.Kernel.Launch

noncomputable section

namespace Cert.Kernel.Gen

open Idealize.ShloMosaic Idealize.SL Idealize.SL.RA

/-- The windows' shares of their arrays in a layer-update region (ten windows; windows 0 and 1 on one array). -/
def qsh : Fin 10 → PosShare TreeShare := fun
  | 0 => fullShare.left
  | 1 => fullShare.right
  | _ => fullShare

end Cert.Kernel.Gen

end
-- ==== Proof.KB.Chain.lean ====
/-
  The buffer contents between @main's items, with what each region leaves filled in.

  Between two items every unscoped buffer of a core holds a definite array: the launch contents, then each host
  stretch's operations applied, then, after a region, that region's output arrays at what its pipeline's write-backs
  leave (the fold of the flushed blocks over the grid, `Dat.arrAt … N`).  `WJ` is that valuation after item J−1;
  `outs` collects the regions' outputs in the form the conditional frame of @main is stated over, and `VJ_eq` says its
  valuations are these.  `pdats` is every pipeline's proof data at its region's entry contents.
-/
import proofs.«121059_j18107582120780_2_alg».proof.Proof.KB.Region0
import proofs.«121059_j18107582120780_2_alg».proof.Proof.KB.Region1
import proofs.«121059_j18107582120780_2_alg».proof.Proof.KB.Region2
import proofs.«121059_j18107582120780_2_alg».proof.Proof.KB.Region3
import proofs.«121059_j18107582120780_2_alg».proof.Proof.KB.Region4
import proofs.«121059_j18107582120780_2_alg».proof.Proof.KB.Region5
import proofs.«121059_j18107582120780_2_alg».proof.Proof.KB.Region6
import proofs.«121059_j18107582120780_2_alg».proof.Proof.KB.Region7
import proofs.«121059_j18107582120780_2_alg».proof.Proof.KB.Region8
import proofs.«121059_j18107582120780_2_alg».proof.Proof.KB.Region9
import proofs.«121059_j18107582120780_2_alg».proof.Proof.KB.Shares
import proofs.«121059_j18107582120780_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core waits for another: no level is assigned. -/
abbrev 𝒱₀ : Variants := Variants.none
abbrev L : GSem nD τ sig → Finset Unit := fun _ => ∅
abbrev lv : GSem nD τ sig → Unit → ℕ := fun _ _ => 0
/-- What rides beside the buffers through every item: the core's generator register at some state and its debt, at nothing. -/
abbrev R (c : Dev nD) : sProp 𝕄 := iprop((∃ r, prngReg c r) ∗ ∃ W, owes (c : Thread nD τ) (0 : CellTallies nD τ sig Unit) W)

/-- A valuation read at the TensorCore's references: the form the regions' proof data take their entry contents in. -/
abbrev Vr (W : Dev nD → Valuation τ sig (Elt F)) : (c : Dev nD) → (b : Ref sig .tc) → Buf (Elt F) ((c : Thread nD τ).loc b) :=
  fun c b => W c b

/-! ## The contents after each item -/

/-- After the three leading host stretches: what region 0 is entered with. -/
abbrev W3 : Dev nD → Valuation τ sig (Elt F) := fun c => V3 m c
/-- After region 0: its output array at what the pipeline leaves, every other buffer as entered. -/
def W4 (c : Dev nD) : Valuation τ sig (Elt F) :=
  Function.update (W3 m c) main_v20 ((dat0 (Vr (W3 m)) c).arrAt 3 cfg0.N)
/-- After region 1: its output arrays at what the pipeline leaves, every other buffer as entered. -/
def W5 (c : Dev nD) : Valuation τ sig (Elt F) :=
  Function.update (Function.update (W4 m c) main_v21_0 ((dat1 (Vr (W4 m)) c).arrAt 3 cfg1.N)) main_v21_1 ((dat1 (Vr (W4 m)) c).arrAt 4 cfg1.N)
/-- After the host stretch `hostOps2`. -/
def W6 (c : Dev nD) : Valuation τ sig (Elt F) := StableHlo.after hostOps2 (W5 m c)
/-- After region 2: its output array at what the pipeline leaves, every other buffer as entered. -/
def W7 (c : Dev nD) : Valuation τ sig (Elt F) :=
  Function.update (W6 m c) main_v38 ((dat2 (Vr (W6 m)) qsh c).arrAt 9 cfg2.N)
/-- After region 3: its output arrays at what the pipeline leaves, every other buffer as entered. -/
def W8 (c : Dev nD) : Valuation τ sig (Elt F) :=
  Function.update (Function.update (W7 m c) main_v39_0 ((dat3 (Vr (W7 m)) c).arrAt 3 cfg3.N)) main_v39_1 ((dat3 (Vr (W7 m)) c).arrAt 4 cfg3.N)
/-- After the host stretch `hostOps4`. -/
def W9 (c : Dev nD) : Valuation τ sig (Elt F) := StableHlo.after hostOps4 (W8 m c)
/-- After region 4: its output array at what the pipeline leaves, every other buffer as entered. -/
def W10 (c : Dev nD) : Valuation τ sig (Elt F) :=
  Function.update (W9 m c) main_v56 ((dat4 (Vr (W9 m)) qsh c).arrAt 9 cfg4.N)
/-- After region 5: its output arrays at what the pipeline leaves, every other buffer as entered. -/
def W11 (c : Dev nD) : Valuation τ sig (Elt F) :=
  Function.update (Function.update (W10 m c) main_v57_0 ((dat5 (Vr (W10 m)) c).arrAt 3 cfg5.N)) main_v57_1 ((dat5 (Vr (W10 m)) c).arrAt 4 cfg5.N)
/-- After the host stretch `hostOps6`. -/
def W12 (c : Dev nD) : Valuation τ sig (Elt F) := StableHlo.after hostOps6 (W11 m c)
/-- After region 6: its output array at what the pipeline leaves, every other buffer as entered. -/
def W13 (c : Dev nD) : Valuation τ sig (Elt F) :=
  Function.update (W12 m c) main_v74 ((dat6 (Vr (W12 m)) qsh c).arrAt 9 cfg6.N)
/-- After region 7: its output arrays at what the pipeline leaves, every other buffer as entered. -/
def W14 (c : Dev nD) : Valuation τ sig (Elt F) :=
  Function.update (Function.update (W13 m c) main_v75_0 ((dat7 (Vr (W13 m)) c).arrAt 3 cfg7.N)) main_v75_1 ((dat7 (Vr (W13 m)) c).arrAt 4 cfg7.N)
/-- After the host stretch `hostOps8`. -/
def W15 (c : Dev nD) : Valuation τ sig (Elt F) := StableHlo.after hostOps8 (W14 m c)
/-- After region 8: its output array at what the pipeline leaves, every other buffer as entered. -/
def W16 (c : Dev nD) : Valuation τ sig (Elt F) :=
  Function.update (W15 m c) main_v92 ((dat8 (Vr (W15 m)) qsh c).arrAt 9 cfg8.N)
/-- After region 9: its output array at what the pipeline leaves, every other buffer as entered. -/
def W17 (c : Dev nD) : Valuation τ sig (Elt F) :=
  Function.update (W16 m c) main_v93 ((dat9 (Vr (W16 m)) c).arrAt 3 cfg9.N)

/-! ## The regions' outputs, as the conditional frame names them -/

/-- What each region leaves, read off the valuations above (any other reading is the launch memory: never used). -/
def outs : Outs (F := F) := fun J r c =>
  match J with
  | 4 => W4 m c r
  | 5 => W5 m c r
  | 7 => W7 m c r
  | 8 => W8 m c r
  | 10 => W10 m c r
  | 11 => W11 m c r
  | 13 => W13 m c r
  | 14 => W14 m c r
  | 16 => W16 m c r
  | 17 => W17 m c r
  | _ => m ((c : Thread nD τ).loc r)

/-! ## The conditional frame's valuations are these -/

theorem V4_eq (c : Dev nD) : V4 m (outs m) c = W4 m c := by
  show Function.update (V3 m c) main_v20 (W4 m c main_v20) = W4 m c
  unfold W4; rw [Function.update_self]
theorem V5_eq (c : Dev nD) : V5 m (outs m) c = W5 m c := by
  show Function.update (Function.update (V4 m (outs m) c) main_v21_0 (W5 m c main_v21_0)) main_v21_1 (W5 m c main_v21_1) = W5 m c
  rw [V4_eq m c]
  unfold W5
  rw [Function.update_self, Function.update_of_ne (StableHlo.devRef_ne_of_ne (by decide) : (Proc.devRef .tc main_v21_0 : DevRef τ sig) ≠ Proc.devRef .tc main_v21_1), Function.update_self]
theorem V6_eq (c : Dev nD) : V6 m (outs m) c = W6 m c := by
  show StableHlo.after hostOps2 (V5 m (outs m) c) = W6 m c
  rw [V5_eq m c]; rfl
theorem V7_eq (c : Dev nD) : V7 m (outs m) c = W7 m c := by
  show Function.update (V6 m (outs m) c) main_v38 (W7 m c main_v38) = W7 m c
  rw [V6_eq m c]
  unfold W7; rw [Function.update_self]
theorem V8_eq (c : Dev nD) : V8 m (outs m) c = W8 m c := by
  show Function.update (Function.update (V7 m (outs m) c) main_v39_0 (W8 m c main_v39_0)) main_v39_1 (W8 m c main_v39_1) = W8 m c
  rw [V7_eq m c]
  unfold W8
  rw [Function.update_self, Function.update_of_ne (StableHlo.devRef_ne_of_ne (by decide) : (Proc.devRef .tc main_v39_0 : DevRef τ sig) ≠ Proc.devRef .tc main_v39_1), Function.update_self]
theorem V9_eq (c : Dev nD) : V9 m (outs m) c = W9 m c := by
  show StableHlo.after hostOps4 (V8 m (outs m) c) = W9 m c
  rw [V8_eq m c]; rfl
theorem V10_eq (c : Dev nD) : V10 m (outs m) c = W10 m c := by
  show Function.update (V9 m (outs m) c) main_v56 (W10 m c main_v56) = W10 m c
  rw [V9_eq m c]
  unfold W10; rw [Function.update_self]
theorem V11_eq (c : Dev nD) : V11 m (outs m) c = W11 m c := by
  show Function.update (Function.update (V10 m (outs m) c) main_v57_0 (W11 m c main_v57_0)) main_v57_1 (W11 m c main_v57_1) = W11 m c
  rw [V10_eq m c]
  unfold W11
  rw [Function.update_self, Function.update_of_ne (StableHlo.devRef_ne_of_ne (by decide) : (Proc.devRef .tc main_v57_0 : DevRef τ sig) ≠ Proc.devRef .tc main_v57_1), Function.update_self]
theorem V12_eq (c : Dev nD) : V12 m (outs m) c = W12 m c := by
  show StableHlo.after hostOps6 (V11 m (outs m) c) = W12 m c
  rw [V11_eq m c]; rfl
theorem V13_eq (c : Dev nD) : V13 m (outs m) c = W13 m c := by
  show Function.update (V12 m (outs m) c) main_v74 (W13 m c main_v74) = W13 m c
  rw [V12_eq m c]
  unfold W13; rw [Function.update_self]
theorem V14_eq (c : Dev nD) : V14 m (outs m) c = W14 m c := by
  show Function.update (Function.update (V13 m (outs m) c) main_v75_0 (W14 m c main_v75_0)) main_v75_1 (W14 m c main_v75_1) = W14 m c
  rw [V13_eq m c]
  unfold W14
  rw [Function.update_self, Function.update_of_ne (StableHlo.devRef_ne_of_ne (by decide) : (Proc.devRef .tc main_v75_0 : DevRef τ sig) ≠ Proc.devRef .tc main_v75_1), Function.update_self]
theorem V15_eq (c : Dev nD) : V15 m (outs m) c = W15 m c := by
  show StableHlo.after hostOps8 (V14 m (outs m) c) = W15 m c
  rw [V14_eq m c]; rfl
theorem V16_eq (c : Dev nD) : V16 m (outs m) c = W16 m c := by
  show Function.update (V15 m (outs m) c) main_v92 (W16 m c main_v92) = W16 m c
  rw [V15_eq m c]
  unfold W16; rw [Function.update_self]
theorem V17_eq (c : Dev nD) : V17 m (outs m) c = W17 m c := by
  show Function.update (V16 m (outs m) c) main_v93 (W17 m c main_v93) = W17 m c
  rw [V16_eq m c]
  unfold W17; rw [Function.update_self]

/-! ## The proof data family -/

/-- Every pipeline's proof data, each at its region's entry contents — a literal match on the pipeline's number. -/
def pdats : (p : Fin 10) → (c : Dev nD) → Dat τ (Elt F) Unit ℕ (UR sig nD τ) ℕ (cfgs p) c
  | ⟨0, _⟩ => fun c => dat0 (Vr (W3 m)) c
  | ⟨1, _⟩ => fun c => dat1 (Vr (W4 m)) c
  | ⟨2, _⟩ => fun c => dat2 (Vr (W6 m)) qsh c
  | ⟨3, _⟩ => fun c => dat3 (Vr (W7 m)) c
  | ⟨4, _⟩ => fun c => dat4 (Vr (W9 m)) qsh c
  | ⟨5, _⟩ => fun c => dat5 (Vr (W10 m)) c
  | ⟨6, _⟩ => fun c => dat6 (Vr (W12 m)) qsh c
  | ⟨7, _⟩ => fun c => dat7 (Vr (W13 m)) c
  | ⟨8, _⟩ => fun c => dat8 (Vr (W15 m)) qsh c
  | ⟨9, _⟩ => fun c => dat9 (Vr (W16 m)) c

/-! ## What an item does not write it leaves: a buffer read after the item is the buffer read before it -/

theorem W4_of (c : Dev nD) (r : Ref sig .tc) (h : r ∉ ([main_v20] : List (Ref sig .tc))) : W4 m c r = V3 m c r :=
  (congrFun (V4_eq m c).symm _).trans ((V4_of m (outs m) c r h))
theorem W5_of (c : Dev nD) (r : Ref sig .tc) (h : r ∉ ([main_v21_0, main_v21_1] : List (Ref sig .tc))) : W5 m c r = W4 m c r :=
  (congrFun (V5_eq m c).symm _).trans ((V5_of m (outs m) c r h).trans (congrFun (V4_eq m c) _))
theorem W6_of (c : Dev nD) (r : Ref sig .tc) (h : r ∉ hostOps2_W) : W6 m c r = W5 m c r :=
  (congrFun (V6_eq m c).symm _).trans ((V6_of m (outs m) c r h).trans (congrFun (V5_eq m c) _))
theorem W7_of (c : Dev nD) (r : Ref sig .tc) (h : r ∉ ([main_v38] : List (Ref sig .tc))) : W7 m c r = W6 m c r :=
  (congrFun (V7_eq m c).symm _).trans ((V7_of m (outs m) c r h).trans (congrFun (V6_eq m c) _))
theorem W8_of (c : Dev nD) (r : Ref sig .tc) (h : r ∉ ([main_v39_0, main_v39_1] : List (Ref sig .tc))) : W8 m c r = W7 m c r :=
  (congrFun (V8_eq m c).symm _).trans ((V8_of m (outs m) c r h).trans (congrFun (V7_eq m c) _))
theorem W9_of (c : Dev nD) (r : Ref sig .tc) (h : r ∉ hostOps4_W) : W9 m c r = W8 m c r :=
  (congrFun (V9_eq m c).symm _).trans ((V9_of m (outs m) c r h).trans (congrFun (V8_eq m c) _))
theorem W10_of (c : Dev nD) (r : Ref sig .tc) (h : r ∉ ([main_v56] : List (Ref sig .tc))) : W10 m c r = W9 m c r :=
  (congrFun (V10_eq m c).symm _).trans ((V10_of m (outs m) c r h).trans (congrFun (V9_eq m c) _))
theorem W11_of (c : Dev nD) (r : Ref sig .tc) (h : r ∉ ([main_v57_0, main_v57_1] : List (Ref sig .tc))) : W11 m c r = W10 m c r :=
  (congrFun (V11_eq m c).symm _).trans ((V11_of m (outs m) c r h).trans (congrFun (V10_eq m c) _))
theorem W12_of (c : Dev nD) (r : Ref sig .tc) (h : r ∉ hostOps6_W) : W12 m c r = W11 m c r :=
  (congrFun (V12_eq m c).symm _).trans ((V12_of m (outs m) c r h).trans (congrFun (V11_eq m c) _))
theorem W13_of (c : Dev nD) (r : Ref sig .tc) (h : r ∉ ([main_v74] : List (Ref sig .tc))) : W13 m c r = W12 m c r :=
  (congrFun (V13_eq m c).symm _).trans ((V13_of m (outs m) c r h).trans (congrFun (V12_eq m c) _))
theorem W14_of (c : Dev nD) (r : Ref sig .tc) (h : r ∉ ([main_v75_0, main_v75_1] : List (Ref sig .tc))) : W14 m c r = W13 m c r :=
  (congrFun (V14_eq m c).symm _).trans ((V14_of m (outs m) c r h).trans (congrFun (V13_eq m c) _))
theorem W15_of (c : Dev nD) (r : Ref sig .tc) (h : r ∉ hostOps8_W) : W15 m c r = W14 m c r :=
  (congrFun (V15_eq m c).symm _).trans ((V15_of m (outs m) c r h).trans (congrFun (V14_eq m c) _))
theorem W16_of (c : Dev nD) (r : Ref sig .tc) (h : r ∉ ([main_v92] : List (Ref sig .tc))) : W16 m c r = W15 m c r :=
  (congrFun (V16_eq m c).symm _).trans ((V16_of m (outs m) c r h).trans (congrFun (V15_eq m c) _))
theorem W17_of (c : Dev nD) (r : Ref sig .tc) (h : r ∉ ([main_v93] : List (Ref sig .tc))) : W17 m c r = W16 m c r :=
  (congrFun (V17_eq m c).symm _).trans ((V17_of m (outs m) c r h).trans (congrFun (V16_eq m c) _))
theorem V3_launch (c : Dev nD) (r : Ref sig .tc) (h0 : r ∉ hostOps0_W) (h1 : r ∉ hostOps0_1_W) (h2 : r ∉ hostOps0_2_W) :
    V3 m c r = m ((c : Thread nD τ).loc r) :=
  (V3_of m c r h2).trans ((V2_of m c r h1).trans ((V1_of m c r h0).trans rfl))

/-! ## What a region's output array holds after it -/

theorem W4_out (c : Dev nD) : W4 m c main_v20 = (dat0 (Vr (W3 m)) c).arrAt 3 cfg0.N := by
  unfold W4; rw [Function.update_self]
theorem W5_out0 (c : Dev nD) : W5 m c main_v21_0 = (dat1 (Vr (W4 m)) c).arrAt 3 cfg1.N := by
  unfold W5; rw [Function.update_of_ne (StableHlo.devRef_ne_of_ne (by decide) : (Proc.devRef .tc main_v21_0 : DevRef τ sig) ≠ Proc.devRef .tc main_v21_1), Function.update_self]
theorem W5_out1 (c : Dev nD) : W5 m c main_v21_1 = (dat1 (Vr (W4 m)) c).arrAt 4 cfg1.N := by
  unfold W5; rw [Function.update_self]
theorem W7_out (c : Dev nD) : W7 m c main_v38 = (dat2 (Vr (W6 m)) qsh c).arrAt 9 cfg2.N := by
  unfold W7; rw [Function.update_self]
theorem W8_out0 (c : Dev nD) : W8 m c main_v39_0 = (dat3 (Vr (W7 m)) c).arrAt 3 cfg3.N := by
  unfold W8; rw [Function.update_of_ne (StableHlo.devRef_ne_of_ne (by decide) : (Proc.devRef .tc main_v39_0 : DevRef τ sig) ≠ Proc.devRef .tc main_v39_1), Function.update_self]
theorem W8_out1 (c : Dev nD) : W8 m c main_v39_1 = (dat3 (Vr (W7 m)) c).arrAt 4 cfg3.N := by
  unfold W8; rw [Function.update_self]
theorem W10_out (c : Dev nD) : W10 m c main_v56 = (dat4 (Vr (W9 m)) qsh c).arrAt 9 cfg4.N := by
  unfold W10; rw [Function.update_self]
theorem W11_out0 (c : Dev nD) : W11 m c main_v57_0 = (dat5 (Vr (W10 m)) c).arrAt 3 cfg5.N := by
  unfold W11; rw [Function.update_of_ne (StableHlo.devRef_ne_of_ne (by decide) : (Proc.devRef .tc main_v57_0 : DevRef τ sig) ≠ Proc.devRef .tc main_v57_1), Function.update_self]
theorem W11_out1 (c : Dev nD) : W11 m c main_v57_1 = (dat5 (Vr (W10 m)) c).arrAt 4 cfg5.N := by
  unfold W11; rw [Function.update_self]
theorem W13_out (c : Dev nD) : W13 m c main_v74 = (dat6 (Vr (W12 m)) qsh c).arrAt 9 cfg6.N := by
  unfold W13; rw [Function.update_self]
theorem W14_out0 (c : Dev nD) : W14 m c main_v75_0 = (dat7 (Vr (W13 m)) c).arrAt 3 cfg7.N := by
  unfold W14; rw [Function.update_of_ne (StableHlo.devRef_ne_of_ne (by decide) : (Proc.devRef .tc main_v75_0 : DevRef τ sig) ≠ Proc.devRef .tc main_v75_1), Function.update_self]
theorem W14_out1 (c : Dev nD) : W14 m c main_v75_1 = (dat7 (Vr (W13 m)) c).arrAt 4 cfg7.N := by
  unfold W14; rw [Function.update_self]
theorem W16_out (c : Dev nD) : W16 m c main_v92 = (dat8 (Vr (W15 m)) qsh c).arrAt 9 cfg8.N := by
  unfold W16; rw [Function.update_self]
theorem W17_out (c : Dev nD) : W17 m c main_v93 = (dat9 (Vr (W16 m)) c).arrAt 3 cfg9.N := by
  unfold W17; rw [Function.update_self]

/-! ## The host stretches' valuations, and the valuations sealed

From here on a valuation `WJ` is used only through the lemmas above (what an item leaves unchanged, what a region's output
holds) and the host stretches' defining equations below, never by unfolding. -/

theorem W6_host (c : Dev nD) : W6 m c = StableHlo.after hostOps2 (W5 m c) := rfl
theorem W9_host (c : Dev nD) : W9 m c = StableHlo.after hostOps4 (W8 m c) := rfl
theorem W12_host (c : Dev nD) : W12 m c = StableHlo.after hostOps6 (W11 m c) := rfl
theorem W15_host (c : Dev nD) : W15 m c = StableHlo.after hostOps8 (W14 m c) := rfl

attribute [irreducible] W4 W5 W6 W7 W8 W9 W10 W11 W12 W13 W14 W15 W16 W17

/-! ## At a region's exit each of its arrays holds what the pipeline leaves, every other buffer what it held -/

set_option maxHeartbeats 2000000 in
theorem hF0 (c : Dev nD) (w : Fin cfg0.W) : (pdats m 0 c).arrAt w cfg0.N = Vr (W4 m) c (Pipeline.arrRef spec0 w) :=
  match w with
  | ⟨0, _⟩ => ((pdats m 0 c).arrAt_in 0 rfl _).trans (W4_of m c (Pipeline.arrRef spec0 0) (by decide)).symm
  | ⟨1, _⟩ => ((pdats m 0 c).arrAt_in 1 rfl _).trans (W4_of m c (Pipeline.arrRef spec0 1) (by decide)).symm
  | ⟨2, _⟩ => ((pdats m 0 c).arrAt_in 2 rfl _).trans (W4_of m c (Pipeline.arrRef spec0 2) (by decide)).symm
  | ⟨3, _⟩ => (W4_out m c).symm
theorem hrest0 (c : Dev nD) : ∀ b, b ∉ Finset.univ.image (Pipeline.arrRef spec0) → Vr (W4 m) c b = Vr (W3 m) c b := fun b hb =>
  W4_of m c b (fun h => hb (by
    rw [List.mem_singleton.mp h]; exact Finset.mem_image.mpr ⟨3, Finset.mem_univ _, rfl⟩))
set_option maxHeartbeats 2000000 in
theorem hF1 (c : Dev nD) (w : Fin cfg1.W) : (pdats m 1 c).arrAt w cfg1.N = Vr (W5 m) c (Pipeline.arrRef spec1 w) :=
  match w with
  | ⟨0, _⟩ => ((pdats m 1 c).arrAt_in 0 rfl _).trans (W5_of m c (Pipeline.arrRef spec1 0) (by decide)).symm
  | ⟨1, _⟩ => ((pdats m 1 c).arrAt_in 1 rfl _).trans (W5_of m c (Pipeline.arrRef spec1 1) (by decide)).symm
  | ⟨2, _⟩ => ((pdats m 1 c).arrAt_in 2 rfl _).trans (W5_of m c (Pipeline.arrRef spec1 2) (by decide)).symm
  | ⟨3, _⟩ => (W5_out0 m c).symm
  | ⟨4, _⟩ => (W5_out1 m c).symm
theorem hrest1 (c : Dev nD) : ∀ b, b ∉ Finset.univ.image (Pipeline.arrRef spec1) → Vr (W5 m) c b = Vr (W4 m) c b := fun b hb =>
  W5_of m c b (fun h => hb (by
    rcases List.mem_cons.mp h with h | h
    · rw [h]; exact Finset.mem_image.mpr ⟨3, Finset.mem_univ _, rfl⟩
    · rw [List.mem_singleton.mp h]; exact Finset.mem_image.mpr ⟨4, Finset.mem_univ _, rfl⟩))
set_option maxHeartbeats 2000000 in
theorem hF2 (c : Dev nD) (w : Fin cfg2.W) : (pdats m 2 c).arrAt w cfg2.N = Vr (W7 m) c (Pipeline.arrRef spec2 w) :=
  match w with
  | ⟨0, _⟩ => ((pdats m 2 c).arrAt_in 0 rfl _).trans (W7_of m c (Pipeline.arrRef spec2 0) (by decide)).symm
  | ⟨1, _⟩ => ((pdats m 2 c).arrAt_in 1 rfl _).trans (W7_of m c (Pipeline.arrRef spec2 1) (by decide)).symm
  | ⟨2, _⟩ => ((pdats m 2 c).arrAt_in 2 rfl _).trans (W7_of m c (Pipeline.arrRef spec2 2) (by decide)).symm
  | ⟨3, _⟩ => ((pdats m 2 c).arrAt_in 3 rfl _).trans (W7_of m c (Pipeline.arrRef spec2 3) (by decide)).symm
  | ⟨4, _⟩ => ((pdats m 2 c).arrAt_in 4 rfl _).trans (W7_of m c (Pipeline.arrRef spec2 4) (by decide)).symm
  | ⟨5, _⟩ => ((pdats m 2 c).arrAt_in 5 rfl _).trans (W7_of m c (Pipeline.arrRef spec2 5) (by decide)).symm
  | ⟨6, _⟩ => ((pdats m 2 c).arrAt_in 6 rfl _).trans (W7_of m c (Pipeline.arrRef spec2 6) (by decide)).symm
  | ⟨7, _⟩ => ((pdats m 2 c).arrAt_in 7 rfl _).trans (W7_of m c (Pipeline.arrRef spec2 7) (by decide)).symm
  | ⟨8, _⟩ => ((pdats m 2 c).arrAt_in 8 rfl _).trans (W7_of m c (Pipeline.arrRef spec2 8) (by decide)).symm
  | ⟨9, _⟩ => (W7_out m c).symm
theorem hrest2 (c : Dev nD) : ∀ b, b ∉ Finset.univ.image (Pipeline.arrRef spec2) → Vr (W7 m) c b = Vr (W6 m) c b := fun b hb =>
  W7_of m c b (fun h => hb (by
    rw [List.mem_singleton.mp h]; exact Finset.mem_image.mpr ⟨9, Finset.mem_univ _, rfl⟩))
set_option maxHeartbeats 2000000 in
theorem hF3 (c : Dev nD) (w : Fin cfg3.W) : (pdats m 3 c).arrAt w cfg3.N = Vr (W8 m) c (Pipeline.arrRef spec3 w) :=
  match w with
  | ⟨0, _⟩ => ((pdats m 3 c).arrAt_in 0 rfl _).trans (W8_of m c (Pipeline.arrRef spec3 0) (by decide)).symm
  | ⟨1, _⟩ => ((pdats m 3 c).arrAt_in 1 rfl _).trans (W8_of m c (Pipeline.arrRef spec3 1) (by decide)).symm
  | ⟨2, _⟩ => ((pdats m 3 c).arrAt_in 2 rfl _).trans (W8_of m c (Pipeline.arrRef spec3 2) (by decide)).symm
  | ⟨3, _⟩ => (W8_out0 m c).symm
  | ⟨4, _⟩ => (W8_out1 m c).symm
theorem hrest3 (c : Dev nD) : ∀ b, b ∉ Finset.univ.image (Pipeline.arrRef spec3) → Vr (W8 m) c b = Vr (W7 m) c b := fun b hb =>
  W8_of m c b (fun h => hb (by
    rcases List.mem_cons.mp h with h | h
    · rw [h]; exact Finset.mem_image.mpr ⟨3, Finset.mem_univ _, rfl⟩
    · rw [List.mem_singleton.mp h]; exact Finset.mem_image.mpr ⟨4, Finset.mem_univ _, rfl⟩))
set_option maxHeartbeats 2000000 in
theorem hF4 (c : Dev nD) (w : Fin cfg4.W) : (pdats m 4 c).arrAt w cfg4.N = Vr (W10 m) c (Pipeline.arrRef spec4 w) :=
  match w with
  | ⟨0, _⟩ => ((pdats m 4 c).arrAt_in 0 rfl _).trans (W10_of m c (Pipeline.arrRef spec4 0) (by decide)).symm
  | ⟨1, _⟩ => ((pdats m 4 c).arrAt_in 1 rfl _).trans (W10_of m c (Pipeline.arrRef spec4 1) (by decide)).symm
  | ⟨2, _⟩ => ((pdats m 4 c).arrAt_in 2 rfl _).trans (W10_of m c (Pipeline.arrRef spec4 2) (by decide)).symm
  | ⟨3, _⟩ => ((pdats m 4 c).arrAt_in 3 rfl _).trans (W10_of m c (Pipeline.arrRef spec4 3) (by decide)).symm
  | ⟨4, _⟩ => ((pdats m 4 c).arrAt_in 4 rfl _).trans (W10_of m c (Pipeline.arrRef spec4 4) (by decide)).symm
  | ⟨5, _⟩ => ((pdats m 4 c).arrAt_in 5 rfl _).trans (W10_of m c (Pipeline.arrRef spec4 5) (by decide)).symm
  | ⟨6, _⟩ => ((pdats m 4 c).arrAt_in 6 rfl _).trans (W10_of m c (Pipeline.arrRef spec4 6) (by decide)).symm
  | ⟨7, _⟩ => ((pdats m 4 c).arrAt_in 7 rfl _).trans (W10_of m c (Pipeline.arrRef spec4 7) (by decide)).symm
  | ⟨8, _⟩ => ((pdats m 4 c).arrAt_in 8 rfl _).trans (W10_of m c (Pipeline.arrRef spec4 8) (by decide)).symm
  | ⟨9, _⟩ => (W10_out m c).symm
theorem hrest4 (c : Dev nD) : ∀ b, b ∉ Finset.univ.image (Pipeline.arrRef spec4) → Vr (W10 m) c b = Vr (W9 m) c b := fun b hb =>
  W10_of m c b (fun h => hb (by
    rw [List.mem_singleton.mp h]; exact Finset.mem_image.mpr ⟨9, Finset.mem_univ _, rfl⟩))
set_option maxHeartbeats 2000000 in
theorem hF5 (c : Dev nD) (w : Fin cfg5.W) : (pdats m 5 c).arrAt w cfg5.N = Vr (W11 m) c (Pipeline.arrRef spec5 w) :=
  match w with
  | ⟨0, _⟩ => ((pdats m 5 c).arrAt_in 0 rfl _).trans (W11_of m c (Pipeline.arrRef spec5 0) (by decide)).symm
  | ⟨1, _⟩ => ((pdats m 5 c).arrAt_in 1 rfl _).trans (W11_of m c (Pipeline.arrRef spec5 1) (by decide)).symm
  | ⟨2, _⟩ => ((pdats m 5 c).arrAt_in 2 rfl _).trans (W11_of m c (Pipeline.arrRef spec5 2) (by decide)).symm
  | ⟨3, _⟩ => (W11_out0 m c).symm
  | ⟨4, _⟩ => (W11_out1 m c).symm
theorem hrest5 (c : Dev nD) : ∀ b, b ∉ Finset.univ.image (Pipeline.arrRef spec5) → Vr (W11 m) c b = Vr (W10 m) c b := fun b hb =>
  W11_of m c b (fun h => hb (by
    rcases List.mem_cons.mp h with h | h
    · rw [h]; exact Finset.mem_image.mpr ⟨3, Finset.mem_univ _, rfl⟩
    · rw [List.mem_singleton.mp h]; exact Finset.mem_image.mpr ⟨4, Finset.mem_univ _, rfl⟩))
set_option maxHeartbeats 2000000 in
theorem hF6 (c : Dev nD) (w : Fin cfg6.W) : (pdats m 6 c).arrAt w cfg6.N = Vr (W13 m) c (Pipeline.arrRef spec6 w) :=
  match w with
  | ⟨0, _⟩ => ((pdats m 6 c).arrAt_in 0 rfl _).trans (W13_of m c (Pipeline.arrRef spec6 0) (by decide)).symm
  | ⟨1, _⟩ => ((pdats m 6 c).arrAt_in 1 rfl _).trans (W13_of m c (Pipeline.arrRef spec6 1) (by decide)).symm
  | ⟨2, _⟩ => ((pdats m 6 c).arrAt_in 2 rfl _).trans (W13_of m c (Pipeline.arrRef spec6 2) (by decide)).symm
  | ⟨3, _⟩ => ((pdats m 6 c).arrAt_in 3 rfl _).trans (W13_of m c (Pipeline.arrRef spec6 3) (by decide)).symm
  | ⟨4, _⟩ => ((pdats m 6 c).arrAt_in 4 rfl _).trans (W13_of m c (Pipeline.arrRef spec6 4) (by decide)).symm
  | ⟨5, _⟩ => ((pdats m 6 c).arrAt_in 5 rfl _).trans (W13_of m c (Pipeline.arrRef spec6 5) (by decide)).symm
  | ⟨6, _⟩ => ((pdats m 6 c).arrAt_in 6 rfl _).trans (W13_of m c (Pipeline.arrRef spec6 6) (by decide)).symm
  | ⟨7, _⟩ => ((pdats m 6 c).arrAt_in 7 rfl _).trans (W13_of m c (Pipeline.arrRef spec6 7) (by decide)).symm
  | ⟨8, _⟩ => ((pdats m 6 c).arrAt_in 8 rfl _).trans (W13_of m c (Pipeline.arrRef spec6 8) (by decide)).symm
  | ⟨9, _⟩ => (W13_out m c).symm
theorem hrest6 (c : Dev nD) : ∀ b, b ∉ Finset.univ.image (Pipeline.arrRef spec6) → Vr (W13 m) c b = Vr (W12 m) c b := fun b hb =>
  W13_of m c b (fun h => hb (by
    rw [List.mem_singleton.mp h]; exact Finset.mem_image.mpr ⟨9, Finset.mem_univ _, rfl⟩))
set_option maxHeartbeats 2000000 in
theorem hF7 (c : Dev nD) (w : Fin cfg7.W) : (pdats m 7 c).arrAt w cfg7.N = Vr (W14 m) c (Pipeline.arrRef spec7 w) :=
  match w with
  | ⟨0, _⟩ => ((pdats m 7 c).arrAt_in 0 rfl _).trans (W14_of m c (Pipeline.arrRef spec7 0) (by decide)).symm
  | ⟨1, _⟩ => ((pdats m 7 c).arrAt_in 1 rfl _).trans (W14_of m c (Pipeline.arrRef spec7 1) (by decide)).symm
  | ⟨2, _⟩ => ((pdats m 7 c).arrAt_in 2 rfl _).trans (W14_of m c (Pipeline.arrRef spec7 2) (by decide)).symm
  | ⟨3, _⟩ => (W14_out0 m c).symm
  | ⟨4, _⟩ => (W14_out1 m c).symm
theorem hrest7 (c : Dev nD) : ∀ b, b ∉ Finset.univ.image (Pipeline.arrRef spec7) → Vr (W14 m) c b = Vr (W13 m) c b := fun b hb =>
  W14_of m c b (fun h => hb (by
    rcases List.mem_cons.mp h with h | h
    · rw [h]; exact Finset.mem_image.mpr ⟨3, Finset.mem_univ _, rfl⟩
    · rw [List.mem_singleton.mp h]; exact Finset.mem_image.mpr ⟨4, Finset.mem_univ _, rfl⟩))
set_option maxHeartbeats 2000000 in
theorem hF8 (c : Dev nD) (w : Fin cfg8.W) : (pdats m 8 c).arrAt w cfg8.N = Vr (W16 m) c (Pipeline.arrRef spec8 w) :=
  match w with
  | ⟨0, _⟩ => ((pdats m 8 c).arrAt_in 0 rfl _).trans (W16_of m c (Pipeline.arrRef spec8 0) (by decide)).symm
  | ⟨1, _⟩ => ((pdats m 8 c).arrAt_in 1 rfl _).trans (W16_of m c (Pipeline.arrRef spec8 1) (by decide)).symm
  | ⟨2, _⟩ => ((pdats m 8 c).arrAt_in 2 rfl _).trans (W16_of m c (Pipeline.arrRef spec8 2) (by decide)).symm
  | ⟨3, _⟩ => ((pdats m 8 c).arrAt_in 3 rfl _).trans (W16_of m c (Pipeline.arrRef spec8 3) (by decide)).symm
  | ⟨4, _⟩ => ((pdats m 8 c).arrAt_in 4 rfl _).trans (W16_of m c (Pipeline.arrRef spec8 4) (by decide)).symm
  | ⟨5, _⟩ => ((pdats m 8 c).arrAt_in 5 rfl _).trans (W16_of m c (Pipeline.arrRef spec8 5) (by decide)).symm
  | ⟨6, _⟩ => ((pdats m 8 c).arrAt_in 6 rfl _).trans (W16_of m c (Pipeline.arrRef spec8 6) (by decide)).symm
  | ⟨7, _⟩ => ((pdats m 8 c).arrAt_in 7 rfl _).trans (W16_of m c (Pipeline.arrRef spec8 7) (by decide)).symm
  | ⟨8, _⟩ => ((pdats m 8 c).arrAt_in 8 rfl _).trans (W16_of m c (Pipeline.arrRef spec8 8) (by decide)).symm
  | ⟨9, _⟩ => (W16_out m c).symm
theorem hrest8 (c : Dev nD) : ∀ b, b ∉ Finset.univ.image (Pipeline.arrRef spec8) → Vr (W16 m) c b = Vr (W15 m) c b := fun b hb =>
  W16_of m c b (fun h => hb (by
    rw [List.mem_singleton.mp h]; exact Finset.mem_image.mpr ⟨9, Finset.mem_univ _, rfl⟩))
set_option maxHeartbeats 2000000 in
theorem hF9 (c : Dev nD) (w : Fin cfg9.W) : (pdats m 9 c).arrAt w cfg9.N = Vr (W17 m) c (Pipeline.arrRef spec9 w) :=
  match w with
  | ⟨0, _⟩ => ((pdats m 9 c).arrAt_in 0 rfl _).trans (W17_of m c (Pipeline.arrRef spec9 0) (by decide)).symm
  | ⟨1, _⟩ => ((pdats m 9 c).arrAt_in 1 rfl _).trans (W17_of m c (Pipeline.arrRef spec9 1) (by decide)).symm
  | ⟨2, _⟩ => ((pdats m 9 c).arrAt_in 2 rfl _).trans (W17_of m c (Pipeline.arrRef spec9 2) (by decide)).symm
  | ⟨3, _⟩ => (W17_out m c).symm
theorem hrest9 (c : Dev nD) : ∀ b, b ∉ Finset.univ.image (Pipeline.arrRef spec9) → Vr (W17 m) c b = Vr (W16 m) c b := fun b hb =>
  W17_of m c b (fun h => hb (by
    rw [List.mem_singleton.mp h]; exact Finset.mem_image.mpr ⟨3, Finset.mem_univ _, rfl⟩))

end Cert.Kernel.Gen

end
-- ==== Proof.KB.Reg0.lean ====
/-
  Region 0 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KB.Chain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered with every unscoped buffer at the contents before it, left with them at the
    contents after it. Its arrays are split out of the unscoped buffers and put back at what the pipeline leaves; the
    generator register passes through the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr (W3 m)) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (Vr (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr (W3 m) c) (Vr (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Reg1.lean ====
/-
  Region 1 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KB.Chain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state: entered with every unscoped buffer at the contents before it, left with them at the
    contents after it. Its arrays are split out of the unscoped buffers and put back at what the pipeline leaves; the
    generator register passes through the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr (W4 m)) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (Vr (W4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr (W4 m) c) (Vr (W5 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Shared.lean ====
/-
  The four layer-update regions read one array through two input windows. The launch deals a core's unscoped buffers
  whole, one points-to per distinct buffer at the full share, while a pipeline's arrays are one points-to per window at
  the window's share. With two windows on one buffer the two readings agree once that buffer's full share is cut in its
  left and right halves, one per window: splitting a points-to along complementary shares keeps its contents, and two
  halves at the same contents join back. This file proves that equality for any pipeline with exactly one such pair of
  windows, derives from it how a region's arrays leave the core's unscoped buffers at entry and return to them at exit,
  and instantiates both for regions 2, 4, 6 and 8.
-/
import proofs.«121059_j18107582120780_2_alg».proof.Proof.Gen.Kernel.Launch
import proofs.«121059_j18107582120780_2_alg».proof.Proof.KB.Shares
import Idealize.ShloMosaic.Lib.Pipeline.Regions
import Idealize.ShloMosaic.Lib.Pipeline.RegionsLoop

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-! ## Two input windows on one array

When two input windows `w₀ ≠ w₁` of a pipeline read the same array and the windows' arrays are otherwise pairwise
distinct buffers, the distinct buffers behind the arrays, each whole at the full share, are the pipeline's `arrays`
once the shared buffer's full share is cut in its two halves: `w₀` holds the left half, `w₁` the right half, every
other window its array at the full share. Both readings name the same contents of the shared buffer, so the two
halves join back to the full share; the statement is an equality of propositions. -/

section SharedArray

/-- Rotating the second of three separated propositions to the front. -/
theorem sep_rotate {M : Type} [URA M] (A B R : sProp M) : iprop((A ∗ B) ∗ R) = iprop(B ∗ A ∗ R) := by
  have e₁ : iprop((A ∗ B) ∗ R) ⊢ iprop(B ∗ A ∗ R) := by
    iintro ⟨⟨HA, HB⟩, HR⟩
    isplitl [HB]; · iexact HB
    isplitl [HA]; · iexact HA
    iexact HR
  have e₂ : iprop(B ∗ A ∗ R) ⊢ iprop((A ∗ B) ∗ R) := by
    iintro ⟨HB, HA, HR⟩
    isplitr [HR]
    · isplitl [HA]; · iexact HA
      iexact HB
    iexact HR
  exact BI.equiv_iff.mp ⟨e₁, e₂⟩

variable {cfg : Cfg sig Λ₀} {c : Dev nD} (dat : Dat τ (Elt F) Unit ℕ (UR sig nD τ) ℕ cfg c)
  (w₀ w₁ : Fin cfg.W) (hne : w₀ ≠ w₁)
  (hsame : Pipeline.arrRef cfg.spec w₁ = Pipeline.arrRef cfg.spec w₀)
  (hinj : ∀ w w', w ≠ w₁ → w' ≠ w₁ → Pipeline.arrRef cfg.spec w = Pipeline.arrRef cfg.spec w' → w = w')
  (harr : ∀ w, (cfg.spec w).arr.IsWhole)
  (h₀ : dat.share w₀ = fullShare.left) (h₁ : dat.share w₁ = fullShare.right)
  (hfull : ∀ w, w ≠ w₀ → w ≠ w₁ → dat.share w = fullShare)

include hne hsame hinj harr h₀ h₁ hfull in
theorem arrBufs_eq_arrays (V : (b : Ref sig .tc) → Buf (Elt F) ((c : Thread nD τ).loc b))
    (G : (w : Fin cfg.W) → Buf (Elt F) ((cfg.win w).arr.view.loc (c : Thread nD τ)))
    (hG : ∀ w, G w = V (Pipeline.arrRef cfg.spec w)) :
    (Pipeline.arrBufs cfg.spec c V : sProp 𝕄) = dat.arrays G := by
  classical
  -- the pipeline's arrays, window by window: each a whole buffer at the window's share
  have hQ : dat.arrays G = bigSep Finset.univ fun w : Fin cfg.W =>
      (((c : Thread nD τ).loc (Pipeline.arrRef cfg.spec w)) ↦{dat.share w} V (Pipeline.arrRef cfg.spec w) : sProp 𝕄) := by
    unfold Dat.arrays
    exact bigSep_congr fun w _ => by rw [(harr w).set_eq_univ, hG w]
  -- the distinct buffers are those of the windows other than `w₁`, which name them one to one
  have himg : Finset.univ.image (Pipeline.arrRef cfg.spec) = (Finset.univ.erase w₁).image (Pipeline.arrRef cfg.spec) := by
    ext b
    constructor
    · intro hb
      obtain ⟨w, -, rfl⟩ := Finset.mem_image.mp hb
      by_cases h : w = w₁
      · exact Finset.mem_image.mpr ⟨w₀, Finset.mem_erase.mpr ⟨hne, Finset.mem_univ _⟩, by rw [h, hsame]⟩
      · exact Finset.mem_image.mpr ⟨w, Finset.mem_erase.mpr ⟨h, Finset.mem_univ _⟩, rfl⟩
    · intro hb
      obtain ⟨w, -, rfl⟩ := Finset.mem_image.mp hb
      exact Finset.mem_image.mpr ⟨w, Finset.mem_univ _, rfl⟩
  have hP : (Pipeline.arrBufs cfg.spec c V : sProp 𝕄) = bigSep (Finset.univ.erase w₁) fun w : Fin cfg.W =>
      (((c : Thread nD τ).loc (Pipeline.arrRef cfg.spec w)) ↦{fullShare} V (Pipeline.arrRef cfg.spec w) : sProp 𝕄) := by
    unfold Pipeline.arrBufs
    rw [himg]
    exact Finset.fold_image fun w hw w' hw' e => hinj w w' (Finset.ne_of_mem_erase hw) (Finset.ne_of_mem_erase hw') e
  have hmem₀ : w₀ ∈ Finset.univ.erase w₁ := Finset.mem_erase.mpr ⟨hne, Finset.mem_univ _⟩
  -- off the two windows every share is the full one
  have hrest : bigSep ((Finset.univ.erase w₁).erase w₀) (fun w : Fin cfg.W =>
        (((c : Thread nD τ).loc (Pipeline.arrRef cfg.spec w)) ↦{dat.share w} V (Pipeline.arrRef cfg.spec w) : sProp 𝕄))
      = bigSep ((Finset.univ.erase w₁).erase w₀) (fun w : Fin cfg.W =>
        (((c : Thread nD τ).loc (Pipeline.arrRef cfg.spec w)) ↦{fullShare} V (Pipeline.arrRef cfg.spec w) : sProp 𝕄)) :=
    bigSep_congr fun w hw => by
      have hw' := Finset.mem_erase.mp hw
      rw [hfull w hw'.1 (Finset.ne_of_mem_erase hw'.2)]
  -- the shared buffer's full share is its two halves, at the same contents
  have hsplit : (((c : Thread nD τ).loc (Pipeline.arrRef cfg.spec w₀)) ↦{fullShare} V (Pipeline.arrRef cfg.spec w₀) : sProp 𝕄)
      = iprop((((c : Thread nD τ).loc (Pipeline.arrRef cfg.spec w₀)) ↦{fullShare.left} V (Pipeline.arrRef cfg.spec w₀))
          ∗ (((c : Thread nD τ).loc (Pipeline.arrRef cfg.spec w₀)) ↦{fullShare.right} V (Pipeline.arrRef cfg.spec w₀))) :=
    BI.equiv_iff.mp ⟨(pointsTo_share (PosShare.mem_left_op_right fullShare)).1, (pointsTo_share (PosShare.mem_left_op_right fullShare)).2⟩
  have hw₁ : (((c : Thread nD τ).loc (Pipeline.arrRef cfg.spec w₁)) ↦{dat.share w₁} V (Pipeline.arrRef cfg.spec w₁) : sProp 𝕄)
      = (((c : Thread nD τ).loc (Pipeline.arrRef cfg.spec w₀)) ↦{fullShare.right} V (Pipeline.arrRef cfg.spec w₀)) := by
    rw [h₁]
    exact congrArg (fun b => (((c : Thread nD τ).loc b) ↦{fullShare.right} V b : sProp 𝕄)) hsame
  rw [hP, hQ, bigSep_erase (Finset.mem_univ w₁), bigSep_erase hmem₀, bigSep_erase hmem₀, hrest, h₀, hw₁, hsplit]
  exact sep_rotate _ _ _

include hne hsame hinj harr h₀ h₁ hfull in
/-- ENTRY, the arrays' part: a core's unscoped buffers at contents `V` are the pipeline's arrays at the proof data's
    entry contents — those read off `V` (`hA`), the shared buffer's full share dealt to the two windows on it — and
    the unscoped rest. -/
theorem arrays_of_unscopedBufs_shared (hunscoped : ∀ w, (Pipeline.arrRef cfg.spec w).isScoped = false)
    (V : (b : Ref sig .tc) → Buf (Elt F) ((c : Thread nD τ).loc b))
    (hA : ∀ w, dat.A w = V (Pipeline.arrRef cfg.spec w)) :
    (unscopedBufs c V : sProp 𝕄) ⊢ iprop(dat.arrays (dat.arrAt · 0) ∗ Pipeline.unscopedRest cfg.spec c V) := by
  rw [Pipeline.unscopedBufs_split₀ (fun _ : Unit => cfg) () hunscoped c V,
    arrBufs_eq_arrays dat w₀ w₁ hne hsame hinj harr h₀ h₁ hfull V (dat.arrAt · 0) hA]

include hne hsame hinj harr h₀ h₁ hfull in
/-- EXIT, the arrays' part: the pipeline's arrays at contents `G` — the two windows on the shared buffer holding the
    same contents of it, so that their halves join — and the unscoped rest at `V` are the core's unscoped buffers at
    any valuation `V'` that has the arrays at `G` and agrees with `V` off them. -/
theorem unscopedBufs_of_arrays_shared (hunscoped : ∀ w, (Pipeline.arrRef cfg.spec w).isScoped = false)
    (V V' : (b : Ref sig .tc) → Buf (Elt F) ((c : Thread nD τ).loc b))
    (G : (w : Fin cfg.W) → Buf (Elt F) ((cfg.win w).arr.view.loc (c : Thread nD τ)))
    (hG : ∀ w, G w = V' (Pipeline.arrRef cfg.spec w))
    (hrest : ∀ b, b ∉ Finset.univ.image (Pipeline.arrRef cfg.spec) → V' b = V b) :
    iprop(dat.arrays G ∗ Pipeline.unscopedRest cfg.spec c V) ⊢ (unscopedBufs c V' : sProp 𝕄) := by
  rw [Pipeline.unscopedBufs_split₀ (fun _ : Unit => cfg) () hunscoped c V',
    arrBufs_eq_arrays dat w₀ w₁ hne hsame hinj harr h₀ h₁ hfull V' G hG]
  refine sep_mono .rfl (Entails.of_eq ?_)
  unfold Pipeline.unscopedRest
  exact bigSep_congr fun b hb => by rw [hrest b (Finset.mem_sdiff.mp hb).2]

end SharedArray

/-! ## Region 2 (custom_call 2): windows 0 and 1 read one array -/

section K2
variable (c : Dev nD) (dat : Dat τ (Elt F) Unit ℕ (UR sig nD τ) ℕ cfg2 c) (hq : dat.q = qsh)

include hq in
theorem share2_0 : dat.share (0 : Fin 10) = fullShare.left := by
  unfold Dat.share; rw [hq]; rfl
include hq in
theorem share2_1 : dat.share (1 : Fin 10) = fullShare.right := by
  unfold Dat.share; rw [hq]; rfl
include hq in
theorem share2_full : ∀ w : Fin 10, w ≠ 0 → w ≠ 1 → dat.share w = fullShare := by
  intro w h0 h1
  unfold Dat.share; rw [hq]
  match w, h0, h1 with
  | 0, h0, _ => exact absurd rfl h0
  | 1, _, h1 => exact absurd rfl h1
  | 2, _, _ => rfl | 3, _, _ => rfl | 4, _, _ => rfl | 5, _, _ => rfl | 6, _, _ => rfl | 7, _, _ => rfl | 8, _, _ => rfl | 9, _, _ => rfl

include hq in
/-- ENTRY of region 2: its arrays, the shared one dealt in halves to windows 0 and 1, out of the core's unscoped buffers. -/
theorem arrays_of_unscopedBufs2 (V : (b : Ref sig .tc) → Buf (Elt F) ((c : Thread nD τ).loc b))
    (hA : ∀ w, dat.A w = V (Pipeline.arrRef spec2 w)) :
    (unscopedBufs c V : sProp 𝕄) ⊢ iprop(dat.arrays (dat.arrAt · 0) ∗ Pipeline.unscopedRest spec2 c V) :=
  arrays_of_unscopedBufs_shared dat (0 : Fin 10) (1 : Fin 10) (by decide) (by decide) (by decide) arr_whole2
    (share2_0 c dat hq) (share2_1 c dat hq) (share2_full c dat hq) winFacts₀2.arr_unscoped V hA

include hq in
/-- EXIT of region 2: its arrays back among the core's unscoped buffers, the two halves of the shared one joined. -/
theorem unscopedBufs_of_arrays2 (V V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w))
    (hrest : ∀ b, b ∉ Finset.univ.image (Pipeline.arrRef spec2) → V' b = V b) :
    iprop(dat.arrays G ∗ Pipeline.unscopedRest spec2 c V) ⊢ (unscopedBufs c V' : sProp 𝕄) :=
  unscopedBufs_of_arrays_shared dat (0 : Fin 10) (1 : Fin 10) (by decide) (by decide) (by decide) arr_whole2
    (share2_0 c dat hq) (share2_1 c dat hq) (share2_full c dat hq) winFacts₀2.arr_unscoped V V' G hG hrest

end K2

/-! ## Region 4 (custom_call 4): windows 0 and 1 read one array -/

section K4
variable (c : Dev nD) (dat : Dat τ (Elt F) Unit ℕ (UR sig nD τ) ℕ cfg4 c) (hq : dat.q = qsh)

include hq in
theorem share4_0 : dat.share (0 : Fin 10) = fullShare.left := by
  unfold Dat.share; rw [hq]; rfl
include hq in
theorem share4_1 : dat.share (1 : Fin 10) = fullShare.right := by
  unfold Dat.share; rw [hq]; rfl
include hq in
theorem share4_full : ∀ w : Fin 10, w ≠ 0 → w ≠ 1 → dat.share w = fullShare := by
  intro w h0 h1
  unfold Dat.share; rw [hq]
  match w, h0, h1 with
  | 0, h0, _ => exact absurd rfl h0
  | 1, _, h1 => exact absurd rfl h1
  | 2, _, _ => rfl | 3, _, _ => rfl | 4, _, _ => rfl | 5, _, _ => rfl | 6, _, _ => rfl | 7, _, _ => rfl | 8, _, _ => rfl | 9, _, _ => rfl

include hq in
/-- ENTRY of region 4: its arrays, the shared one dealt in halves to windows 0 and 1, out of the core's unscoped buffers. -/
theorem arrays_of_unscopedBufs4 (V : (b : Ref sig .tc) → Buf (Elt F) ((c : Thread nD τ).loc b))
    (hA : ∀ w, dat.A w = V (Pipeline.arrRef spec4 w)) :
    (unscopedBufs c V : sProp 𝕄) ⊢ iprop(dat.arrays (dat.arrAt · 0) ∗ Pipeline.unscopedRest spec4 c V) :=
  arrays_of_unscopedBufs_shared dat (0 : Fin 10) (1 : Fin 10) (by decide) (by decide) (by decide) arr_whole4
    (share4_0 c dat hq) (share4_1 c dat hq) (share4_full c dat hq) winFacts₀4.arr_unscoped V hA

include hq in
/-- EXIT of region 4: its arrays back among the core's unscoped buffers, the two halves of the shared one joined. -/
theorem unscopedBufs_of_arrays4 (V V' : (b : Ref sig .tc) → Buf (Elt F) ((c : Thread nD τ).loc b))
    (G : (w : Fin cfg4.W) → Buf (Elt F) ((cfg4.win w).arr.view.loc (c : Thread nD τ)))
    (hG : ∀ w, G w = V' (Pipeline.arrRef spec4 w))
    (hrest : ∀ b, b ∉ Finset.univ.image (Pipeline.arrRef spec4) → V' b = V b) :
    iprop(dat.arrays G ∗ Pipeline.unscopedRest spec4 c V) ⊢ (unscopedBufs c V' : sProp 𝕄) :=
  unscopedBufs_of_arrays_shared dat (0 : Fin 10) (1 : Fin 10) (by decide) (by decide) (by decide) arr_whole4
    (share4_0 c dat hq) (share4_1 c dat hq) (share4_full c dat hq) winFacts₀4.arr_unscoped V V' G hG hrest

end K4

/-! ## Region 6 (custom_call 6): windows 0 and 1 read one array -/

section K6
variable (c : Dev nD) (dat : Dat τ (Elt F) Unit ℕ (UR sig nD τ) ℕ cfg6 c) (hq : dat.q = qsh)

include hq in
theorem share6_0 : dat.share (0 : Fin 10) = fullShare.left := by
  unfold Dat.share; rw [hq]; rfl
include hq in
theorem share6_1 : dat.share (1 : Fin 10) = fullShare.right := by
  unfold Dat.share; rw [hq]; rfl
include hq in
theorem share6_full : ∀ w : Fin 10, w ≠ 0 → w ≠ 1 → dat.share w = fullShare := by
  intro w h0 h1
  unfold Dat.share; rw [hq]
  match w, h0, h1 with
  | 0, h0, _ => exact absurd rfl h0
  | 1, _, h1 => exact absurd rfl h1
  | 2, _, _ => rfl | 3, _, _ => rfl | 4, _, _ => rfl | 5, _, _ => rfl | 6, _, _ => rfl | 7, _, _ => rfl | 8, _, _ => rfl | 9, _, _ => rfl

include hq in
/-- ENTRY of region 6: its arrays, the shared one dealt in halves to windows 0 and 1, out of the core's unscoped buffers. -/
theorem arrays_of_unscopedBufs6 (V : (b : Ref sig .tc) → Buf (Elt F) ((c : Thread nD τ).loc b))
    (hA : ∀ w, dat.A w = V (Pipeline.arrRef spec6 w)) :
    (unscopedBufs c V : sProp 𝕄) ⊢ iprop(dat.arrays (dat.arrAt · 0) ∗ Pipeline.unscopedRest spec6 c V) :=
  arrays_of_unscopedBufs_shared dat (0 : Fin 10) (1 : Fin 10) (by decide) (by decide) (by decide) arr_whole6
    (share6_0 c dat hq) (share6_1 c dat hq) (share6_full c dat hq) winFacts₀6.arr_unscoped V hA

include hq in
/-- EXIT of region 6: its arrays back among the core's unscoped buffers, the two halves of the shared one joined. -/
theorem unscopedBufs_of_arrays6 (V V' : (b : Ref sig .tc) → Buf (Elt F) ((c : Thread nD τ).loc b))
    (G : (w : Fin cfg6.W) → Buf (Elt F) ((cfg6.win w).arr.view.loc (c : Thread nD τ)))
    (hG : ∀ w, G w = V' (Pipeline.arrRef spec6 w))
    (hrest : ∀ b, b ∉ Finset.univ.image (Pipeline.arrRef spec6) → V' b = V b) :
    iprop(dat.arrays G ∗ Pipeline.unscopedRest spec6 c V) ⊢ (unscopedBufs c V' : sProp 𝕄) :=
  unscopedBufs_of_arrays_shared dat (0 : Fin 10) (1 : Fin 10) (by decide) (by decide) (by decide) arr_whole6
    (share6_0 c dat hq) (share6_1 c dat hq) (share6_full c dat hq) winFacts₀6.arr_unscoped V V' G hG hrest

end K6

/-! ## Region 8 (custom_call 8): windows 0 and 1 read one array -/

section K8
variable (c : Dev nD) (dat : Dat τ (Elt F) Unit ℕ (UR sig nD τ) ℕ cfg8 c) (hq : dat.q = qsh)

include hq in
theorem share8_0 : dat.share (0 : Fin 10) = fullShare.left := by
  unfold Dat.share; rw [hq]; rfl
include hq in
theorem share8_1 : dat.share (1 : Fin 10) = fullShare.right := by
  unfold Dat.share; rw [hq]; rfl
include hq in
theorem share8_full : ∀ w : Fin 10, w ≠ 0 → w ≠ 1 → dat.share w = fullShare := by
  intro w h0 h1
  unfold Dat.share; rw [hq]
  match w, h0, h1 with
  | 0, h0, _ => exact absurd rfl h0
  | 1, _, h1 => exact absurd rfl h1
  | 2, _, _ => rfl | 3, _, _ => rfl | 4, _, _ => rfl | 5, _, _ => rfl | 6, _, _ => rfl | 7, _, _ => rfl | 8, _, _ => rfl | 9, _, _ => rfl

include hq in
/-- ENTRY of region 8: its arrays, the shared one dealt in halves to windows 0 and 1, out of the core's unscoped buffers. -/
theorem arrays_of_unscopedBufs8 (V : (b : Ref sig .tc) → Buf (Elt F) ((c : Thread nD τ).loc b))
    (hA : ∀ w, dat.A w = V (Pipeline.arrRef spec8 w)) :
    (unscopedBufs c V : sProp 𝕄) ⊢ iprop(dat.arrays (dat.arrAt · 0) ∗ Pipeline.unscopedRest spec8 c V) :=
  arrays_of_unscopedBufs_shared dat (0 : Fin 10) (1 : Fin 10) (by decide) (by decide) (by decide) arr_whole8
    (share8_0 c dat hq) (share8_1 c dat hq) (share8_full c dat hq) winFacts₀8.arr_unscoped V hA

include hq in
/-- EXIT of region 8: its arrays back among the core's unscoped buffers, the two halves of the shared one joined. -/
theorem unscopedBufs_of_arrays8 (V V' : (b : Ref sig .tc) → Buf (Elt F) ((c : Thread nD τ).loc b))
    (G : (w : Fin cfg8.W) → Buf (Elt F) ((cfg8.win w).arr.view.loc (c : Thread nD τ)))
    (hG : ∀ w, G w = V' (Pipeline.arrRef spec8 w))
    (hrest : ∀ b, b ∉ Finset.univ.image (Pipeline.arrRef spec8) → V' b = V b) :
    iprop(dat.arrays G ∗ Pipeline.unscopedRest spec8 c V) ⊢ (unscopedBufs c V' : sProp 𝕄) :=
  unscopedBufs_of_arrays_shared dat (0 : Fin 10) (1 : Fin 10) (by decide) (by decide) (by decide) arr_whole8
    (share8_0 c dat hq) (share8_1 c dat hq) (share8_full c dat hq) winFacts₀8.arr_unscoped V V' G hG hrest

end K8

end Cert.Kernel.Gen
-- ==== Proof.KB.Reg2.lean ====
/-
  Region 2 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KB.Chain
import proofs.«121059_j18107582120780_2_alg».proof.Proof.KB.Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state: entered with every unscoped buffer at the contents before it, left with them at the
    contents after it. Its arrays are split out of the unscoped buffers and put back at what the pipeline leaves; the
    generator register passes through the invariant; nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vr (W6 m)) qsh c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (Vr (W6 m) c)
  hentry c := by
    rw [Pipeline.ownSems0_none]
    have hsplit := arrays_of_unscopedBufs2 c (pdats m 2 c) rfl (Vr (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 c (pdats m 2 c) rfl (Vr (W6 m) c) (Vr (W7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Reg3.lean ====
/-
  Region 3 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KB.Chain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state: entered with every unscoped buffer at the contents before it, left with them at the
    contents after it. Its arrays are split out of the unscoped buffers and put back at what the pipeline leaves; the
    generator register passes through the invariant; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr (W7 m)) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (Vr (W7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vr (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vr (W7 m) c) (Vr (W8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Reg4.lean ====
/-
  Region 4 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KB.Chain
import proofs.«121059_j18107582120780_2_alg».proof.Proof.KB.Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state: entered with every unscoped buffer at the contents before it, left with them at the
    contents after it. Its arrays are split out of the unscoped buffers and put back at what the pipeline leaves; the
    generator register passes through the invariant; nothing is owed; the kernel has no semaphore of its own. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (Vr (W9 m)) qsh c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (Vr (W9 m) c)
  hentry c := by
    rw [Pipeline.ownSems0_none]
    have hsplit := arrays_of_unscopedBufs4 c (pdats m 4 c) rfl (Vr (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := unscopedBufs_of_arrays4 c (pdats m 4 c) rfl (Vr (W9 m) c) (Vr (W10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Reg5.lean ====
/-
  Region 5 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KB.Chain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state: entered with every unscoped buffer at the contents before it, left with them at the
    contents after it. Its arrays are split out of the unscoped buffers and put back at what the pipeline leaves; the
    generator register passes through the invariant; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vr (W10 m)) c).loose
  hwaits := Pipeline.hwaits_of_owed_zero _ _ _ _ L lv 5 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec5 c (Vr (W10 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vr (W10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vr (W10 m) c) (Vr (W11 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Reg6.lean ====
/-
  Region 6 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KB.Chain
import proofs.«121059_j18107582120780_2_alg».proof.Proof.KB.Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 6 over the thread state: entered with every unscoped buffer at the contents before it, left with them at the
    contents after it. Its arrays are split out of the unscoped buffers and put back at what the pipeline leaves; the
    generator register passes through the invariant; nothing is owed; the kernel has no semaphore of its own. -/
def reg6 : Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (Vr (W12 m)) qsh c).loose
  hwaits := Pipeline.hwaits_of_owed_zero _ _ _ _ L lv 6 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec6 c (Vr (W12 m) c)
  hentry c := by
    rw [Pipeline.ownSems0_none]
    have hsplit := arrays_of_unscopedBufs6 c (pdats m 6 c) rfl (Vr (W12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := unscopedBufs_of_arrays6 c (pdats m 6 c) rfl (Vr (W12 m) c) (Vr (W13 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Reg7.lean ====
/-
  Region 7 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KB.Chain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 7 over the thread state: entered with every unscoped buffer at the contents before it, left with them at the
    contents after it. Its arrays are split out of the unscoped buffers and put back at what the pipeline leaves; the
    generator register passes through the invariant; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vr (W13 m)) c).loose
  hwaits := Pipeline.hwaits_of_owed_zero _ _ _ _ L lv 7 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec7 c (Vr (W13 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vr (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vr (W13 m) c) (Vr (W14 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Reg8.lean ====
/-
  Region 8 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KB.Chain
import proofs.«121059_j18107582120780_2_alg».proof.Proof.KB.Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8 over the thread state: entered with every unscoped buffer at the contents before it, left with them at the
    contents after it. Its arrays are split out of the unscoped buffers and put back at what the pipeline leaves; the
    generator register passes through the invariant; nothing is owed; the kernel has no semaphore of its own. -/
def reg8 : Pipeline.RegionSeg (pcfgs (F := F)) adm (pdats m) () defs₀ 𝒱₀ L lv 8 where
  win := winFacts₀8
  block_pos := block_pos8
  stage_whole := stage_whole8
  K := PEmpty
  osem k := k.elim
  ho := Pipeline.OwnSemFacts.none _
  hbody c := (body_obligation8 (Vr (W15 m)) qsh c).loose
  hwaits := Pipeline.hwaits_of_owed_zero _ _ _ _ L lv 8 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec8 c (Vr (W15 m) c)
  hentry c := by
    rw [Pipeline.ownSems0_none]
    have hsplit := arrays_of_unscopedBufs8 c (pdats m 8 c) rfl (Vr (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := unscopedBufs_of_arrays8 c (pdats m 8 c) rfl (Vr (W15 m) c) (Vr (W16 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Reg9.lean ====
/-
  Region 9 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KB.Chain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 9 over the thread state: entered with every unscoped buffer at the contents before it, left with them at the
    contents after it. Its arrays are split out of the unscoped buffers and put back at what the pipeline leaves; the
    generator register passes through the invariant; nothing is owed; the kernel has no semaphore of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vr (W16 m)) c).loose
  hwaits := Pipeline.hwaits_of_owed_zero _ _ _ _ L lv 9 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec9 c (Vr (W16 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vr (W16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vr (W16 m) c) (Vr (W17 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Run.lean ====
/-
  THE RUN of @main: every weakly fair execution from a memory with zero counters terminates, nothing faulting, and the final
  memory holds every unscoped buffer of every core at the last valuation of the chain (`W17`): the launch contents, each host
  stretch applied, each region's outputs at what its pipeline leaves.  The frame claim (the arguments end as launched) and the
  result's final contents are read off it.  The library's theorem for a program of several regions does the work, from one segment
  per item of @main: the host stretches' (generated) and the ten regions' records.
-/
import proofs.«121059_j18107582120780_2_alg».proof.Proof.KB.Reg0
import proofs.«121059_j18107582120780_2_alg».proof.Proof.KB.Reg1
import proofs.«121059_j18107582120780_2_alg».proof.Proof.KB.Reg2
import proofs.«121059_j18107582120780_2_alg».proof.Proof.KB.Reg3
import proofs.«121059_j18107582120780_2_alg».proof.Proof.KB.Reg4
import proofs.«121059_j18107582120780_2_alg».proof.Proof.KB.Reg5
import proofs.«121059_j18107582120780_2_alg».proof.Proof.KB.Reg6
import proofs.«121059_j18107582120780_2_alg».proof.Proof.KB.Reg7
import proofs.«121059_j18107582120780_2_alg».proof.Proof.KB.Reg8
import proofs.«121059_j18107582120780_2_alg».proof.Proof.KB.Reg9

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four later host stretches as segments, each from the chain's valuation before it. -/
def hseg5 : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W5 m) R
def hseg8 : HostSeg (Ix := Unit) (Name := ℕ) (U := UR sig nD τ) (Lvl := ℕ) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W8 m) R
def hseg11 : HostSeg (Ix := Unit) (Name := ℕ) (U := UR sig nD τ) (Lvl := ℕ) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (W11 m) R
def hseg14 : HostSeg (Ix := Unit) (Name := ℕ) (U := UR sig nD τ) (Lvl := ℕ) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (W14 m) R

/-- What rides beside the buffers ends owing nothing. -/
theorem R_owes (c : Dev nD) : (R c : sProp 𝕄) ⊢ iprop(∃ W, owes (c : Thread nD τ) (0 : CellTallies nD τ sig Unit) W) := by
  iintro ⟨-, HO⟩; iexact HO

/-- @main's seventeen items as segments: the host stretches from the chain's valuations, the regions' records. -/
abbrev allSegs (c : Dev nD) : List (Seg (pcfgs (F := F)) adm (pdats m) () defs₀ 𝒱₀ L lv) :=
  [.host (seg0 m 𝒱₀ L lv (fun _ => R)), .host (seg1 m 𝒱₀ L lv (fun _ => R)), .host (seg2 m 𝒱₀ L lv (fun _ => R)), .region (reg0 m), .region (reg1 m), .host (hseg5 m), .region (reg2 m), .region (reg3 m), .host (hseg8 m), .region (reg4 m), .region (reg5 m), .host (hseg11 m), .region (reg6 m), .region (reg7 m), .host (hseg14 m), .region (reg8 m), .region (reg9 m)]

set_option backward.isDefEq.respectTransparency.types false in
set_option maxHeartbeats 4000000 in
/-- Every execution of @main terminates without a fault, and at the end every unscoped buffer of every core holds the chain's
    last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m c b) := by
  refine Pipeline.θ_run_regions_kit_dev (pcfgs (F := F)) adm (pdats m) () cellOf_inj emb₁ defs₀ 𝒱₀ L lv m ρ main
    (allSegs m)
    (fun c Q => by
      rewrite [main_chain c, Seg.run_eq_chain,
        show (allSegs m c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          Prog.lift (.customCall (Pipeline.entry 7) ()),
          StableHlo.seq hostOps8,
          Prog.lift (.customCall (Pipeline.entry 8) ()),
          Prog.lift (.customCall (Pipeline.entry 9) ()) ] from rfl]
      exact .rfl)
    (fun c => by simp only [allSegs, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (W17 m c))
    (hch := fun c => ⟨.rfl, .rfl, .rfl, .rfl, .rfl, .rfl, (by
        have e := W6_host m c
        show (_ : sProp 𝕄) ⊢ iprop(StableHlo.held (c : Thread nD τ) (Pipeline.ucRefs τ sig) (W6 m c) ∗ R c)
        rw [e]; exact .rfl), .rfl, .rfl, (by
        have e := W9_host m c
        show (_ : sProp 𝕄) ⊢ iprop(StableHlo.held (c : Thread nD τ) (Pipeline.ucRefs τ sig) (W9 m c) ∗ R c)
        rw [e]; exact .rfl), .rfl, .rfl, (by
        have e := W12_host m c
        show (_ : sProp 𝕄) ⊢ iprop(StableHlo.held (c : Thread nD τ) (Pipeline.ucRefs τ sig) (W12 m c) ∗ R c)
        rw [e]; exact .rfl), .rfl, .rfl, (by
        have e := W15_host m c
        show (_ : sProp 𝕄) ⊢ iprop(StableHlo.held (c : Thread nD τ) (Pipeline.ucRefs τ sig) (W15 m c) ∗ R c)
        rw [e]; exact .rfl), .rfl, sep_mono .rfl (R_owes c)⟩)
    (hinit := ?_) (QY := fun c s => ∀ b ∈ Pipeline.ucRefs τ sig, s.mem (((c : Thread nD τ)).1, b) = W17 m c b)
    (hfin := fun c s' => ?_) (hQ := fun _ h => h)
  · -- the launch: the unscoped buffers are held at the launch contents; the generator register and the empty debt ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    imodintro
    iapply (pointsTo_read_all (Pipeline.ucRefs τ sig) (fun b => (((c : Thread nD τ)).1, b)) (W17 m c) s')
    isplitl [Hh] <;> iassumption

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the argument arrays end as launched — no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans ((congrFun (V17_eq m c).symm _).trans (V17_main_arg0 m (outs m) c)),
    (h c _ (mem_uc main_arg1 (by decide))).trans ((congrFun (V17_eq m c).symm _).trans (V17_main_arg1 m (outs m) c)),
    (h c _ (mem_uc main_arg2 (by decide))).trans ((congrFun (V17_eq m c).symm _).trans (V17_main_arg2 m (outs m) c)),
    (h c _ (mem_uc main_arg3 (by decide))).trans ((congrFun (V17_eq m c).symm _).trans (V17_main_arg3 m (outs m) c)),
    (h c _ (mem_uc main_arg4 (by decide))).trans ((congrFun (V17_eq m c).symm _).trans (V17_main_arg4 m (outs m) c)),
    (h c _ (mem_uc main_arg5 (by decide))).trans ((congrFun (V17_eq m c).symm _).trans (V17_main_arg5 m (outs m) c)),
    (h c _ (mem_uc main_arg6 (by decide))).trans ((congrFun (V17_eq m c).symm _).trans (V17_main_arg6 m (outs m) c)),
    (h c _ (mem_uc main_arg7 (by decide))).trans ((congrFun (V17_eq m c).symm _).trans (V17_main_arg7 m (outs m) c)),
    (h c _ (mem_uc main_arg8 (by decide))).trans ((congrFun (V17_eq m c).symm _).trans (V17_main_arg8 m (outs m) c)),
    (h c _ (mem_uc main_arg9 (by decide))).trans ((congrFun (V17_eq m c).symm _).trans (V17_main_arg9 m (outs m) c)),
    (h c _ (mem_uc main_arg10 (by decide))).trans ((congrFun (V17_eq m c).symm _).trans (V17_main_arg10 m (outs m) c))⟩)
    (run_all m ρ)

/-- THE RESULT AND THE FRAME together: the result array ends at what the last region's pipeline leaves in it. -/
theorem run_result : θ_run defs (onTc (τ := τ) (main (F := F))) ⟨m, fun _ => 0, ρ⟩ (fun r => ∀ c : Dev nD,
      r.2.mem ((c.tc : Thread nD τ).loc main_v93) = (dat9 (Vr (W16 m)) c).arrAt 3 cfg9.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v93 (by decide))).trans (W17_out m c),
    (h c _ (mem_uc main_arg0 (by decide))).trans ((congrFun (V17_eq m c).symm _).trans (V17_main_arg0 m (outs m) c)),
    (h c _ (mem_uc main_arg1 (by decide))).trans ((congrFun (V17_eq m c).symm _).trans (V17_main_arg1 m (outs m) c)),
    (h c _ (mem_uc main_arg2 (by decide))).trans ((congrFun (V17_eq m c).symm _).trans (V17_main_arg2 m (outs m) c)),
    (h c _ (mem_uc main_arg3 (by decide))).trans ((congrFun (V17_eq m c).symm _).trans (V17_main_arg3 m (outs m) c)),
    (h c _ (mem_uc main_arg4 (by decide))).trans ((congrFun (V17_eq m c).symm _).trans (V17_main_arg4 m (outs m) c)),
    (h c _ (mem_uc main_arg5 (by decide))).trans ((congrFun (V17_eq m c).symm _).trans (V17_main_arg5 m (outs m) c)),
    (h c _ (mem_uc main_arg6 (by decide))).trans ((congrFun (V17_eq m c).symm _).trans (V17_main_arg6 m (outs m) c)),
    (h c _ (mem_uc main_arg7 (by decide))).trans ((congrFun (V17_eq m c).symm _).trans (V17_main_arg7 m (outs m) c)),
    (h c _ (mem_uc main_arg8 (by decide))).trans ((congrFun (V17_eq m c).symm _).trans (V17_main_arg8 m (outs m) c)),
    (h c _ (mem_uc main_arg9 (by decide))).trans ((congrFun (V17_eq m c).symm _).trans (V17_main_arg9 m (outs m) c)),
    (h c _ (mem_uc main_arg10 (by decide))).trans ((congrFun (V17_eq m c).symm _).trans (V17_main_arg10 m (outs m) c))⟩)
    (run_all m ρ)

end Cert.Kernel.Gen

end
-- ==== Proof.KI.Region0.lean ====
/-
  Region 0 of @main (the encoder: one matrix product, a bias row and a maximum with zero) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.KernelIdeal.Launch
import proofs.«121059_j18107582120780_2_alg».proof.Proof.Gen.KernelIdeal.Skeleton
import proofs.«121059_j18107582120780_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

/-- Window 3's staging buffer after the body, from the input windows' blocks: its one store of the whole block. -/
def out0_3 (x0 : Vec F S10000x128 .f32) (x1 : Vec F S128x64 .f32) (x2 : Vec F S1x64 .f32) : Vec F S10000x64 .f32 :=
  View.canon [⟨(Rect.unit (s := S10000x64) ![0, 0] S10000x64.size inb_S10000x64_S10000x64_0_0), k0_pay1 (View.ld x0 (Rect.unit (s := S10000x128) ![0, 0] S10000x128.size inb_S10000x128_S10000x128_0_0)) (View.ld x1 (Rect.unit (s := S128x64) ![0, 0] S128x64.size inb_S128x64_S128x64_0_0)) (View.ld x2 (Rect.unit (s := S1x64) ![0, 0] S1x64.size inb_S1x64_S1x64_0_0))⟩]

/-- The store's rectangle is the whole buffer, so it covers every index. -/
theorem cover0_3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out0_W` of the inputs'. -/
theorem sound_kernel0 (c : Dev nD) (E : Set ℕ) (i : grid0.Coords) (arg0 : Memref sig .tc .vmem S10000x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x128 .f32) (x1 : Vec F S128x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and each output's at `out0_W` of the input blocks; the scoped rest and the
    generator register ride untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Region1.lean ====
/-
  Region 1 of @main (the projection: h = X times the convolution's weights, and h with each row scaled) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.KernelIdeal.Launch
import proofs.«121059_j18107582120780_2_alg».proof.Proof.Gen.KernelIdeal.Skeleton
import proofs.«121059_j18107582120780_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in each output window's buffer -/

/-- Window 3's staging buffer after the body, from the input windows' blocks: its one store of the whole block. -/
def out1_3 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k1_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The store's rectangle is the whole buffer, so it covers every index. -/
theorem cover1_3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- Window 4's staging buffer after the body, from the input windows' blocks: its one store of the whole block. -/
def out1_4 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k1_pay2 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S10000x1) ![0, 0] S10000x1.size inb_S10000x1_S10000x1_0_0))⟩]

/-- The store's rectangle is the whole buffer, so it covers every index. -/
theorem cover1_4 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out1_W` of the inputs'. -/
theorem sound_kernel1 (c : Dev nD) (E : Set ℕ) (i : grid1.Coords) (arg0 : Memref sig .tc .vmem S10000x64 .f32) (harg0 : arg0.IsWhole) (arg1 : Memref sig .tc .vmem S64x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S10000x64 .f32) (harg4 : arg4.IsWhole)
    (x0 : Vec F S10000x64 .f32) (x1 : Vec F S64x64 .f32) (x2 : Vec F S10000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2) ∗ owns (c : Thread nD τ) arg4 fullShare (out1_4 x0 x1 x2)) -∗ K ⟨⟩))
      ⊢ wp frame (wpE (defs₀ (F := F)) Variants.none c none) E (cc1__conv_proj_kernel i arg0 harg0 arg1 harg1 arg2 harg2 arg3 harg3 arg4 harg4) K := by
  simp only [cc1__conv_proj_kernel_eq_skeleton]; unfold cc1__conv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and each output's at `out1_W` of the input blocks; the scoped rest and the
    generator register ride untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Region2.lean ====
/-
  Region 2 of @main (the layer update: the gated residual step from the state, the projected features and the aggregated messages) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.KernelIdeal.Launch
import proofs.«121059_j18107582120780_2_alg».proof.Proof.Gen.KernelIdeal.Skeleton
import proofs.«121059_j18107582120780_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s and whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof
    data whose array is `V`'s and whose body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in each output window's buffer -/

/-- Window 9's staging buffer after the body, from the input windows' blocks: its one store of the whole block. -/
def out2_9 (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) : Vec F S10000x64 .f32 :=
  View.canon [⟨(Rect.unit (s := S10000x64) ![0, 0] S10000x64.size inb_S10000x64_S10000x64_0_0), k2_pay1 (k2_pay2 (View.ld x0 (Rect.unit (s := S10000x64) ![0, 0] S10000x64.size inb_S10000x64_S10000x64_0_0)) (View.ld x8 (Rect.unit (s := S1x64) ![0, 0] S1x64.size inb_S1x64_S1x64_0_0))) (k2_pay3 (View.ld x3 (Rect.unit (s := S10000x64) ![0, 0] S10000x64.size inb_S10000x64_S10000x64_0_0)) (View.ld x4 (Rect.unit (s := S10000x1) ![0, 0] S10000x1.size inb_S10000x1_S10000x1_0_0)) (View.ld x5 (Rect.unit (s := S1x64) ![0, 0] S1x64.size inb_S1x64_S1x64_0_0)) (View.ld x2 (Rect.unit (s := S10000x64) ![0, 0] S10000x64.size inb_S10000x64_S10000x64_0_0)) (View.ld x6 (Rect.unit (s := S64x64) ![0, 0] S64x64.size inb_S64x64_S64x64_0_0)) (View.ld x7 (Rect.unit (s := S1x64) ![0, 0] S1x64.size inb_S1x64_S1x64_0_0)) (View.ld x1 (Rect.unit (s := S10000x64) ![0, 0] S10000x64.size inb_S10000x64_S10000x64_0_0)))⟩]

/-- The store's rectangle is the whole buffer, so it covers every index. -/
theorem cover2_9 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out2_W` of the inputs'. -/
theorem sound_kernel2 (c : Dev nD) (E : Set ℕ) (i : grid2.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x1 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S10000x64 .f32) (harg9 : arg9.IsWhole)
    (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8)) -∗ K ⟨⟩))
      ⊢ wp frame (wpE (defs₀ (F := F)) Variants.none c none) E (cc2__combine_kernel i arg0 harg0 arg1 harg1 arg2 harg2 arg3 harg3 arg4 harg4 arg5 harg5 arg6 harg6 arg7 harg7 arg8 harg8 arg9 harg9) K := by
  simp only [cc2__combine_kernel_eq_skeleton]; unfold cc2__combine_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

variable (qq : Fin cfg2.W → PosShare TreeShare)

/-- The proof data of pipeline 2 on core `c`: the arrays as the region finds them (`V`); after the body at point `t`
    each input's buffer at its block and each output's at `out2_W` of the input blocks; the scoped rest and the
    generator register ride untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q w := qq w
  owed _ := 0

/-- The proof data's arrays are the region-entry contents. -/
theorem A_eq2 (c : Dev nD) (w : Fin cfg2.W) : (dat2 V qq c).A w = V c (Pipeline.arrRef spec2 w) := by
  dsimp only [dat2]

/-- What the body leaves, window by window. -/
theorem after2_0 (c : Dev nD) (t : Fin cfg2.N) : (dat2 V qq c).after 0 t = iblk2 V c 0 t := by dsimp only [dat2]
theorem after2_1 (c : Dev nD) (t : Fin cfg2.N) : (dat2 V qq c).after 1 t = iblk2 V c 1 t := by dsimp only [dat2]
theorem after2_2 (c : Dev nD) (t : Fin cfg2.N) : (dat2 V qq c).after 2 t = iblk2 V c 2 t := by dsimp only [dat2]
theorem after2_3 (c : Dev nD) (t : Fin cfg2.N) : (dat2 V qq c).after 3 t = iblk2 V c 3 t := by dsimp only [dat2]
theorem after2_4 (c : Dev nD) (t : Fin cfg2.N) : (dat2 V qq c).after 4 t = iblk2 V c 4 t := by dsimp only [dat2]
theorem after2_5 (c : Dev nD) (t : Fin cfg2.N) : (dat2 V qq c).after 5 t = iblk2 V c 5 t := by dsimp only [dat2]
theorem after2_6 (c : Dev nD) (t : Fin cfg2.N) : (dat2 V qq c).after 6 t = iblk2 V c 6 t := by dsimp only [dat2]
theorem after2_7 (c : Dev nD) (t : Fin cfg2.N) : (dat2 V qq c).after 7 t = iblk2 V c 7 t := by dsimp only [dat2]
theorem after2_8 (c : Dev nD) (t : Fin cfg2.N) : (dat2 V qq c).after 8 t = iblk2 V c 8 t := by dsimp only [dat2]
theorem after2_9 (c : Dev nD) (t : Fin cfg2.N) : (dat2 V qq c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point, fetched there or not. -/
theorem before2_0 (c : Dev nD) (t : Fin cfg2.N) (d) : (dat2 V qq c).before 0 t d = iblk2 V c 0 t :=
  before2_0_of V (dat2 V qq c) (A_eq2 V qq c 0) (after2_0 V qq c) t d
theorem before2_1 (c : Dev nD) (t : Fin cfg2.N) (d) : (dat2 V qq c).before 1 t d = iblk2 V c 1 t :=
  before2_1_of V (dat2 V qq c) (A_eq2 V qq c 1) (after2_1 V qq c) t d
theorem before2_2 (c : Dev nD) (t : Fin cfg2.N) (d) : (dat2 V qq c).before 2 t d = iblk2 V c 2 t :=
  before2_2_of V (dat2 V qq c) (A_eq2 V qq c 2) (after2_2 V qq c) t d
theorem before2_3 (c : Dev nD) (t : Fin cfg2.N) (d) : (dat2 V qq c).before 3 t d = iblk2 V c 3 t :=
  before2_3_of V (dat2 V qq c) (A_eq2 V qq c 3) (after2_3 V qq c) t d
theorem before2_4 (c : Dev nD) (t : Fin cfg2.N) (d) : (dat2 V qq c).before 4 t d = iblk2 V c 4 t :=
  before2_4_of V (dat2 V qq c) (A_eq2 V qq c 4) (after2_4 V qq c) t d
theorem before2_5 (c : Dev nD) (t : Fin cfg2.N) (d) : (dat2 V qq c).before 5 t d = iblk2 V c 5 t :=
  before2_5_of V (dat2 V qq c) (A_eq2 V qq c 5) (after2_5 V qq c) t d
theorem before2_6 (c : Dev nD) (t : Fin cfg2.N) (d) : (dat2 V qq c).before 6 t d = iblk2 V c 6 t :=
  before2_6_of V (dat2 V qq c) (A_eq2 V qq c 6) (after2_6 V qq c) t d
theorem before2_7 (c : Dev nD) (t : Fin cfg2.N) (d) : (dat2 V qq c).before 7 t d = iblk2 V c 7 t :=
  before2_7_of V (dat2 V qq c) (A_eq2 V qq c 7) (after2_7 V qq c) t d
theorem before2_8 (c : Dev nD) (t : Fin cfg2.N) (d) : (dat2 V qq c).before 8 t d = iblk2 V c 8 t :=
  before2_8_of V (dat2 V qq c) (A_eq2 V qq c 8) (after2_8 V qq c) t d

/-! ## The body obligation, at a generic point -/

/-- What the body is called with at point `t`, the windows one by one, -/
def bodyPre2 (c : Dev nD) (t : Fin cfg2.N) : sProp 𝕄 :=
  iprop((dat2 V qq c).Φ t.castSucc ∗ (dat2 V qq c).owesAt () t.castSucc
    ∗ (∃ d, owns (c : Thread nD τ) (st2_0 t) fullShare ((dat2 V qq c).before 0 t d))
    ∗ (∃ d, owns (c : Thread nD τ) (st2_1 t) fullShare ((dat2 V qq c).before 1 t d))
    ∗ (∃ d, owns (c : Thread nD τ) (st2_2 t) fullShare ((dat2 V qq c).before 2 t d))
    ∗ (∃ d, owns (c : Thread nD τ) (st2_3 t) fullShare ((dat2 V qq c).before 3 t d))
    ∗ (∃ d, owns (c : Thread nD τ) (st2_4 t) fullShare ((dat2 V qq c).before 4 t d))
    ∗ (∃ d, owns (c : Thread nD τ) (st2_5 t) fullShare ((dat2 V qq c).before 5 t d))
    ∗ (∃ d, owns (c : Thread nD τ) (st2_6 t) fullShare ((dat2 V qq c).before 6 t d))
    ∗ (∃ d, owns (c : Thread nD τ) (st2_7 t) fullShare ((dat2 V qq c).before 7 t d))
    ∗ (∃ d, owns (c : Thread nD τ) (st2_8 t) fullShare ((dat2 V qq c).before 8 t d))
    ∗ (∃ d, owns (c : Thread nD τ) (st2_9 t) fullShare ((dat2 V qq c).before 9 t d)))

/-- and what it returns. -/
def bodyPost2 (c : Dev nD) (t : Fin cfg2.N) : sProp 𝕄 :=
  iprop((dat2 V qq c).Φ t.succ ∗ (dat2 V qq c).owesAt () t.succ
    ∗ owns (c : Thread nD τ) (st2_0 t) fullShare ((dat2 V qq c).after 0 t)
    ∗ owns (c : Thread nD τ) (st2_1 t) fullShare ((dat2 V qq c).after 1 t)
    ∗ owns (c : Thread nD τ) (st2_2 t) fullShare ((dat2 V qq c).after 2 t)
    ∗ owns (c : Thread nD τ) (st2_3 t) fullShare ((dat2 V qq c).after 3 t)
    ∗ owns (c : Thread nD τ) (st2_4 t) fullShare ((dat2 V qq c).after 4 t)
    ∗ owns (c : Thread nD τ) (st2_5 t) fullShare ((dat2 V qq c).after 5 t)
    ∗ owns (c : Thread nD τ) (st2_6 t) fullShare ((dat2 V qq c).after 6 t)
    ∗ owns (c : Thread nD τ) (st2_7 t) fullShare ((dat2 V qq c).after 7 t)
    ∗ owns (c : Thread nD τ) (st2_8 t) fullShare ((dat2 V qq c).after 8 t)
    ∗ owns (c : Thread nD τ) (st2_9 t) fullShare ((dat2 V qq c).after 9 t))

/-- The body at any point: the inputs' memrefs hold their blocks, so `sound_kernel2` applies; the invariant and the core's
    `owes` pass through unread. -/
theorem sound_body2 (c : Dev nD) (t : Fin cfg2.N) :
    bodyPre2 V qq c t ⊢ wp frame (wpE (defs₀ (F := F)) Variants.none c none) Set.univ (bodyAt2 t) (fun _ => bodyPost2 V qq c t) := by
  unfold bodyPre2 bodyPost2 bodyAt2
  simp only [before2_0, before2_1, before2_2, before2_3, before2_4, before2_5, before2_6, before2_7, before2_8]
  rw [show (dat2 V qq c).Φ t.succ = (dat2 V qq c).Φ t.castSucc from rfl,
    show (dat2 V qq c).owesAt () t.succ = (dat2 V qq c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V qq c) (defs₀ (F := F)) Variants.none () Set.univ := fun t => by
  rw [bigSep_W2, bigSep_W2]
  exact sound_body2 V qq c t

end Cert.KernelIdeal.Gen

end
-- ==== Proof.KI.Region3.lean ====
/-
  Region 3 of @main (the projection: h = X times the convolution's weights, and h with each row scaled) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.KernelIdeal.Launch
import proofs.«121059_j18107582120780_2_alg».proof.Proof.Gen.KernelIdeal.Skeleton
import proofs.«121059_j18107582120780_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in each output window's buffer -/

/-- Window 3's staging buffer after the body, from the input windows' blocks: its one store of the whole block. -/
def out3_3 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k3_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The store's rectangle is the whole buffer, so it covers every index. -/
theorem cover3_3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- Window 4's staging buffer after the body, from the input windows' blocks: its one store of the whole block. -/
def out3_4 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k3_pay2 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S10000x1) ![0, 0] S10000x1.size inb_S10000x1_S10000x1_0_0))⟩]

/-- The store's rectangle is the whole buffer, so it covers every index. -/
theorem cover3_4 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out3_W` of the inputs'. -/
theorem sound_kernel3 (c : Dev nD) (E : Set ℕ) (i : grid3.Coords) (arg0 : Memref sig .tc .vmem S10000x64 .f32) (harg0 : arg0.IsWhole) (arg1 : Memref sig .tc .vmem S64x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S10000x64 .f32) (harg4 : arg4.IsWhole)
    (x0 : Vec F S10000x64 .f32) (x1 : Vec F S64x64 .f32) (x2 : Vec F S10000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2) ∗ owns (c : Thread nD τ) arg4 fullShare (out3_4 x0 x1 x2)) -∗ K ⟨⟩))
      ⊢ wp frame (wpE (defs₀ (F := F)) Variants.none c none) E (cc3__conv_proj_kernel i arg0 harg0 arg1 harg1 arg2 harg2 arg3 harg3 arg4 harg4) K := by
  simp only [cc3__conv_proj_kernel_eq_skeleton]; unfold cc3__conv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The pipeline's proof data -/

/-- The proof data of pipeline 3 on core `c`: the arrays as the region finds them (`V`); after the body at point `t`
    each input's buffer at its block and each output's at `out3_W` of the input blocks; the scoped rest and the
    generator register ride untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => out3_4 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem after3_4 (c : Dev nD) (t : Fin cfg3.N) : (dat3 V c).after 4 t = out3_4 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the core's
    `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Region4.lean ====
/-
  Region 4 of @main (the layer update: the gated residual step from the state, the projected features and the aggregated messages) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.KernelIdeal.Launch
import proofs.«121059_j18107582120780_2_alg».proof.Proof.Gen.KernelIdeal.Skeleton
import proofs.«121059_j18107582120780_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s and whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s and whose body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for any proof
    data whose array is `V`'s and whose body leaves the block in place. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not, for any proof
    data whose array is `V`'s and whose body leaves the block in place. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in each output window's buffer -/

/-- Window 9's staging buffer after the body, from the input windows' blocks: its one store of the whole block. -/
def out4_9 (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) : Vec F S10000x64 .f32 :=
  View.canon [⟨(Rect.unit (s := S10000x64) ![0, 0] S10000x64.size inb_S10000x64_S10000x64_0_0), k4_pay1 (k4_pay2 (View.ld x0 (Rect.unit (s := S10000x64) ![0, 0] S10000x64.size inb_S10000x64_S10000x64_0_0)) (View.ld x8 (Rect.unit (s := S1x64) ![0, 0] S1x64.size inb_S1x64_S1x64_0_0))) (k4_pay3 (View.ld x3 (Rect.unit (s := S10000x64) ![0, 0] S10000x64.size inb_S10000x64_S10000x64_0_0)) (View.ld x4 (Rect.unit (s := S10000x1) ![0, 0] S10000x1.size inb_S10000x1_S10000x1_0_0)) (View.ld x5 (Rect.unit (s := S1x64) ![0, 0] S1x64.size inb_S1x64_S1x64_0_0)) (View.ld x2 (Rect.unit (s := S10000x64) ![0, 0] S10000x64.size inb_S10000x64_S10000x64_0_0)) (View.ld x6 (Rect.unit (s := S64x64) ![0, 0] S64x64.size inb_S64x64_S64x64_0_0)) (View.ld x7 (Rect.unit (s := S1x64) ![0, 0] S1x64.size inb_S1x64_S1x64_0_0)) (View.ld x1 (Rect.unit (s := S10000x64) ![0, 0] S10000x64.size inb_S10000x64_S10000x64_0_0)))⟩]

/-- The store's rectangle is the whole buffer, so it covers every index. -/
theorem cover4_9 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out4_W` of the inputs'. -/
theorem sound_kernel4 (c : Dev nD) (E : Set ℕ) (i : grid4.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x1 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S10000x64 .f32) (harg9 : arg9.IsWhole)
    (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out4_9 x0 x1 x2 x3 x4 x5 x6 x7 x8)) -∗ K ⟨⟩))
      ⊢ wp frame (wpE (defs₀ (F := F)) Variants.none c none) E (cc4__combine_kernel i arg0 harg0 arg1 harg1 arg2 harg2 arg3 harg3 arg4 harg4 arg5 harg5 arg6 harg6 arg7 harg7 arg8 harg8 arg9 harg9) K := by
  simp only [cc4__combine_kernel_eq_skeleton]; unfold cc4__combine_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover4_9 _)

/-! ## The pipeline's proof data -/

variable (qq : Fin cfg4.W → PosShare TreeShare)

/-- The proof data of pipeline 4 on core `c`: the arrays as the region finds them (`V`); after the body at point `t`
    each input's buffer at its block and each output's at `out4_W` of the input blocks; the scoped rest and the
    generator register ride untouched; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q w := qq w
  owed _ := 0

/-- The proof data's arrays are the region-entry contents. -/
theorem A_eq4 (c : Dev nD) (w : Fin cfg4.W) : (dat4 V qq c).A w = V c (Pipeline.arrRef spec4 w) := by
  dsimp only [dat4]

/-- What the body leaves, window by window. -/
theorem after4_0 (c : Dev nD) (t : Fin cfg4.N) : (dat4 V qq c).after 0 t = iblk4 V c 0 t := by dsimp only [dat4]
theorem after4_1 (c : Dev nD) (t : Fin cfg4.N) : (dat4 V qq c).after 1 t = iblk4 V c 1 t := by dsimp only [dat4]
theorem after4_2 (c : Dev nD) (t : Fin cfg4.N) : (dat4 V qq c).after 2 t = iblk4 V c 2 t := by dsimp only [dat4]
theorem after4_3 (c : Dev nD) (t : Fin cfg4.N) : (dat4 V qq c).after 3 t = iblk4 V c 3 t := by dsimp only [dat4]
theorem after4_4 (c : Dev nD) (t : Fin cfg4.N) : (dat4 V qq c).after 4 t = iblk4 V c 4 t := by dsimp only [dat4]
theorem after4_5 (c : Dev nD) (t : Fin cfg4.N) : (dat4 V qq c).after 5 t = iblk4 V c 5 t := by dsimp only [dat4]
theorem after4_6 (c : Dev nD) (t : Fin cfg4.N) : (dat4 V qq c).after 6 t = iblk4 V c 6 t := by dsimp only [dat4]
theorem after4_7 (c : Dev nD) (t : Fin cfg4.N) : (dat4 V qq c).after 7 t = iblk4 V c 7 t := by dsimp only [dat4]
theorem after4_8 (c : Dev nD) (t : Fin cfg4.N) : (dat4 V qq c).after 8 t = iblk4 V c 8 t := by dsimp only [dat4]
theorem after4_9 (c : Dev nD) (t : Fin cfg4.N) : (dat4 V qq c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

/-- Each input's current staging buffer holds its block at every point, fetched there or not. -/
theorem before4_0 (c : Dev nD) (t : Fin cfg4.N) (d) : (dat4 V qq c).before 0 t d = iblk4 V c 0 t :=
  before4_0_of V (dat4 V qq c) (A_eq4 V qq c 0) (after4_0 V qq c) t d
theorem before4_1 (c : Dev nD) (t : Fin cfg4.N) (d) : (dat4 V qq c).before 1 t d = iblk4 V c 1 t :=
  before4_1_of V (dat4 V qq c) (A_eq4 V qq c 1) (after4_1 V qq c) t d
theorem before4_2 (c : Dev nD) (t : Fin cfg4.N) (d) : (dat4 V qq c).before 2 t d = iblk4 V c 2 t :=
  before4_2_of V (dat4 V qq c) (A_eq4 V qq c 2) (after4_2 V qq c) t d
theorem before4_3 (c : Dev nD) (t : Fin cfg4.N) (d) : (dat4 V qq c).before 3 t d = iblk4 V c 3 t :=
  before4_3_of V (dat4 V qq c) (A_eq4 V qq c 3) (after4_3 V qq c) t d
theorem before4_4 (c : Dev nD) (t : Fin cfg4.N) (d) : (dat4 V qq c).before 4 t d = iblk4 V c 4 t :=
  before4_4_of V (dat4 V qq c) (A_eq4 V qq c 4) (after4_4 V qq c) t d
theorem before4_5 (c : Dev nD) (t : Fin cfg4.N) (d) : (dat4 V qq c).before 5 t d = iblk4 V c 5 t :=
  before4_5_of V (dat4 V qq c) (A_eq4 V qq c 5) (after4_5 V qq c) t d
theorem before4_6 (c : Dev nD) (t : Fin cfg4.N) (d) : (dat4 V qq c).before 6 t d = iblk4 V c 6 t :=
  before4_6_of V (dat4 V qq c) (A_eq4 V qq c 6) (after4_6 V qq c) t d
theorem before4_7 (c : Dev nD) (t : Fin cfg4.N) (d) : (dat4 V qq c).before 7 t d = iblk4 V c 7 t :=
  before4_7_of V (dat4 V qq c) (A_eq4 V qq c 7) (after4_7 V qq c) t d
theorem before4_8 (c : Dev nD) (t : Fin cfg4.N) (d) : (dat4 V qq c).before 8 t d = iblk4 V c 8 t :=
  before4_8_of V (dat4 V qq c) (A_eq4 V qq c 8) (after4_8 V qq c) t d

/-! ## The body obligation, at a generic point -/

/-- What the body is called with at point `t`, the windows one by one, -/
def bodyPre4 (c : Dev nD) (t : Fin cfg4.N) : sProp 𝕄 :=
  iprop((dat4 V qq c).Φ t.castSucc ∗ (dat4 V qq c).owesAt () t.castSucc
    ∗ (∃ d, owns (c : Thread nD τ) (st4_0 t) fullShare ((dat4 V qq c).before 0 t d))
    ∗ (∃ d, owns (c : Thread nD τ) (st4_1 t) fullShare ((dat4 V qq c).before 1 t d))
    ∗ (∃ d, owns (c : Thread nD τ) (st4_2 t) fullShare ((dat4 V qq c).before 2 t d))
    ∗ (∃ d, owns (c : Thread nD τ) (st4_3 t) fullShare ((dat4 V qq c).before 3 t d))
    ∗ (∃ d, owns (c : Thread nD τ) (st4_4 t) fullShare ((dat4 V qq c).before 4 t d))
    ∗ (∃ d, owns (c : Thread nD τ) (st4_5 t) fullShare ((dat4 V qq c).before 5 t d))
    ∗ (∃ d, owns (c : Thread nD τ) (st4_6 t) fullShare ((dat4 V qq c).before 6 t d))
    ∗ (∃ d, owns (c : Thread nD τ) (st4_7 t) fullShare ((dat4 V qq c).before 7 t d))
    ∗ (∃ d, owns (c : Thread nD τ) (st4_8 t) fullShare ((dat4 V qq c).before 8 t d))
    ∗ (∃ d, owns (c : Thread nD τ) (st4_9 t) fullShare ((dat4 V qq c).before 9 t d)))

/-- and what it returns. -/
def bodyPost4 (c : Dev nD) (t : Fin cfg4.N) : sProp 𝕄 :=
  iprop((dat4 V qq c).Φ t.succ ∗ (dat4 V qq c).owesAt () t.succ
    ∗ owns (c : Thread nD τ) (st4_0 t) fullShare ((dat4 V qq c).after 0 t)
    ∗ owns (c : Thread nD τ) (st4_1 t) fullShare ((dat4 V qq c).after 1 t)
    ∗ owns (c : Thread nD τ) (st4_2 t) fullShare ((dat4 V qq c).after 2 t)
    ∗ owns (c : Thread nD τ) (st4_3 t) fullShare ((dat4 V qq c).after 3 t)
    ∗ owns (c : Thread nD τ) (st4_4 t) fullShare ((dat4 V qq c).after 4 t)
    ∗ owns (c : Thread nD τ) (st4_5 t) fullShare ((dat4 V qq c).after 5 t)
    ∗ owns (c : Thread nD τ) (st4_6 t) fullShare ((dat4 V qq c).after 6 t)
    ∗ owns (c : Thread nD τ) (st4_7 t) fullShare ((dat4 V qq c).after 7 t)
    ∗ owns (c : Thread nD τ) (st4_8 t) fullShare ((dat4 V qq c).after 8 t)
    ∗ owns (c : Thread nD τ) (st4_9 t) fullShare ((dat4 V qq c).after 9 t))

/-- The body at any point: the inputs' memrefs hold their blocks, so `sound_kernel4` applies; the invariant and the core's
    `owes` pass through unread. -/
theorem sound_body4 (c : Dev nD) (t : Fin cfg4.N) :
    bodyPre4 V qq c t ⊢ wp frame (wpE (defs₀ (F := F)) Variants.none c none) Set.univ (bodyAt4 t) (fun _ => bodyPost4 V qq c t) := by
  unfold bodyPre4 bodyPost4 bodyAt4
  simp only [before4_0, before4_1, before4_2, before4_3, before4_4, before4_5, before4_6, before4_7, before4_8]
  rw [show (dat4 V qq c).Φ t.succ = (dat4 V qq c).Φ t.castSucc from rfl,
    show (dat4 V qq c).owesAt () t.succ = (dat4 V qq c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V qq c) (defs₀ (F := F)) Variants.none () Set.univ := fun t => by
  rw [bigSep_W4, bigSep_W4]
  exact sound_body4 V qq c t

end Cert.KernelIdeal.Gen

end
-- ==== Proof.KI.Region5.lean ====
/-
  Region 5 of @main (the projection: h = X times the convolution's weights, and h with each row scaled) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.KernelIdeal.Launch
import proofs.«121059_j18107582120780_2_alg».proof.Proof.Gen.KernelIdeal.Skeleton
import proofs.«121059_j18107582120780_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## What the body leaves in each output window's buffer -/

/-- Window 3's staging buffer after the body, from the input windows' blocks: its one store of the whole block. -/
def out5_3 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k5_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The store's rectangle is the whole buffer, so it covers every index. -/
theorem cover5_3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- Window 4's staging buffer after the body, from the input windows' blocks: its one store of the whole block. -/
def out5_4 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k5_pay2 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S10000x1) ![0, 0] S10000x1.size inb_S10000x1_S10000x1_0_0))⟩]

/-- The store's rectangle is the whole buffer, so it covers every index. -/
theorem cover5_4 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out5_W` of the inputs'. -/
theorem sound_kernel5 (c : Dev nD) (E : Set ℕ) (i : grid5.Coords) (arg0 : Memref sig .tc .vmem S10000x64 .f32) (harg0 : arg0.IsWhole) (arg1 : Memref sig .tc .vmem S64x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S10000x64 .f32) (harg4 : arg4.IsWhole)
    (x0 : Vec F S10000x64 .f32) (x1 : Vec F S64x64 .f32) (x2 : Vec F S10000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2) ∗ owns (c : Thread nD τ) arg4 fullShare (out5_4 x0 x1 x2)) -∗ K ⟨⟩))
      ⊢ wp frame (wpE (defs₀ (F := F)) Variants.none c none) E (cc5__conv_proj_kernel i arg0 harg0 arg1 harg1 arg2 harg2 arg3 harg3 arg4 harg4) K := by
  simp only [cc5__conv_proj_kernel_eq_skeleton]; unfold cc5__conv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 _)
  iexists _; isplitr
  swap; · iexact H4
  ipureintro
  exact View.read_writes_eq_canon _ _ _ (cover5_4 _)

/-! ## The pipeline's proof data -/

/-- The proof data of pipeline 5 on core `c`: the arrays as the region finds them (`V`); after the body at point `t`
    each input's buffer at its block and each output's at `out5_W` of the input blocks; the scoped rest and the
    generator register ride untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
    | ⟨4, _⟩ => out5_4 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem after5_4 (c : Dev nD) (t : Fin cfg5.N) : (dat5 V c).after 4 t = out5_4 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so `sound_kernel5` applies; the invariant and the core's
    `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.KI.Region6.lean ====
/-
  Region 6 of @main (the layer update: the gated residual step from the state, the projected features and the aggregated messages) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.KernelIdeal.Launch
import proofs.«121059_j18107582120780_2_alg».proof.Proof.Gen.KernelIdeal.Skeleton
import proofs.«121059_j18107582120780_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s and whose body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not, for any proof
    data whose array is `V`'s and whose body leaves the block in place. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, fetched there or not, for any proof
    data whose array is `V`'s and whose body leaves the block in place. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-! ## What the body leaves in each output window's buffer -/

/-- Window 9's staging buffer after the body, from the input windows' blocks: its one store of the whole block. -/
def out6_9 (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) : Vec F S10000x64 .f32 :=
  View.canon [⟨(Rect.unit (s := S10000x64) ![0, 0] S10000x64.size inb_S10000x64_S10000x64_0_0), k6_pay1 (k6_pay2 (View.ld x0 (Rect.unit (s := S10000x64) ![0, 0] S10000x64.size inb_S10000x64_S10000x64_0_0)) (View.ld x8 (Rect.unit (s := S1x64) ![0, 0] S1x64.size inb_S1x64_S1x64_0_0))) (k6_pay3 (View.ld x3 (Rect.unit (s := S10000x64) ![0, 0] S10000x64.size inb_S10000x64_S10000x64_0_0)) (View.ld x4 (Rect.unit (s := S10000x1) ![0, 0] S10000x1.size inb_S10000x1_S10000x1_0_0)) (View.ld x5 (Rect.unit (s := S1x64) ![0, 0] S1x64.size inb_S1x64_S1x64_0_0)) (View.ld x2 (Rect.unit (s := S10000x64) ![0, 0] S10000x64.size inb_S10000x64_S10000x64_0_0)) (View.ld x6 (Rect.unit (s := S64x64) ![0, 0] S64x64.size inb_S64x64_S64x64_0_0)) (View.ld x7 (Rect.unit (s := S1x64) ![0, 0] S1x64.size inb_S1x64_S1x64_0_0)) (View.ld x1 (Rect.unit (s := S10000x64) ![0, 0] S10000x64.size inb_S10000x64_S10000x64_0_0)))⟩]

/-- The store's rectangle is the whole buffer, so it covers every index. -/
theorem cover6_9 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out6_W` of the inputs'. -/
theorem sound_kernel6 (c : Dev nD) (E : Set ℕ) (i : grid6.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x1 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S10000x64 .f32) (harg9 : arg9.IsWhole)
    (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out6_9 x0 x1 x2 x3 x4 x5 x6 x7 x8)) -∗ K ⟨⟩))
      ⊢ wp frame (wpE (defs₀ (F := F)) Variants.none c none) E (cc6__combine_kernel i arg0 harg0 arg1 harg1 arg2 harg2 arg3 harg3 arg4 harg4 arg5 harg5 arg6 harg6 arg7 harg7 arg8 harg8 arg9 harg9) K := by
  simp only [cc6__combine_kernel_eq_skeleton]; unfold cc6__combine_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover6_9 _)

/-! ## The pipeline's proof data -/

variable (qq : Fin cfg6.W → PosShare TreeShare)

/-- The proof data of pipeline 6 on core `c`: the arrays as the region finds them (`V`); after the body at point `t`
    each input's buffer at its block and each output's at `out6_W` of the input blocks; the scoped rest and the
    generator register ride untouched; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q w := qq w
  owed _ := 0

/-- The proof data's arrays are the region-entry contents. -/
theorem A_eq6 (c : Dev nD) (w : Fin cfg6.W) : (dat6 V qq c).A w = V c (Pipeline.arrRef spec6 w) := by
  dsimp only [dat6]

/-- What the body leaves, window by window. -/
theorem after6_0 (c : Dev nD) (t : Fin cfg6.N) : (dat6 V qq c).after 0 t = iblk6 V c 0 t := by dsimp only [dat6]
theorem after6_1 (c : Dev nD) (t : Fin cfg6.N) : (dat6 V qq c).after 1 t = iblk6 V c 1 t := by dsimp only [dat6]
theorem after6_2 (c : Dev nD) (t : Fin cfg6.N) : (dat6 V qq c).after 2 t = iblk6 V c 2 t := by dsimp only [dat6]
theorem after6_3 (c : Dev nD) (t : Fin cfg6.N) : (dat6 V qq c).after 3 t = iblk6 V c 3 t := by dsimp only [dat6]
theorem after6_4 (c : Dev nD) (t : Fin cfg6.N) : (dat6 V qq c).after 4 t = iblk6 V c 4 t := by dsimp only [dat6]
theorem after6_5 (c : Dev nD) (t : Fin cfg6.N) : (dat6 V qq c).after 5 t = iblk6 V c 5 t := by dsimp only [dat6]
theorem after6_6 (c : Dev nD) (t : Fin cfg6.N) : (dat6 V qq c).after 6 t = iblk6 V c 6 t := by dsimp only [dat6]
theorem after6_7 (c : Dev nD) (t : Fin cfg6.N) : (dat6 V qq c).after 7 t = iblk6 V c 7 t := by dsimp only [dat6]
theorem after6_8 (c : Dev nD) (t : Fin cfg6.N) : (dat6 V qq c).after 8 t = iblk6 V c 8 t := by dsimp only [dat6]
theorem after6_9 (c : Dev nD) (t : Fin cfg6.N) : (dat6 V qq c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

/-- Each input's current staging buffer holds its block at every point, fetched there or not. -/
theorem before6_0 (c : Dev nD) (t : Fin cfg6.N) (d) : (dat6 V qq c).before 0 t d = iblk6 V c 0 t :=
  before6_0_of V (dat6 V qq c) (A_eq6 V qq c 0) (after6_0 V qq c) t d
theorem before6_1 (c : Dev nD) (t : Fin cfg6.N) (d) : (dat6 V qq c).before 1 t d = iblk6 V c 1 t :=
  before6_1_of V (dat6 V qq c) (A_eq6 V qq c 1) (after6_1 V qq c) t d
theorem before6_2 (c : Dev nD) (t : Fin cfg6.N) (d) : (dat6 V qq c).before 2 t d = iblk6 V c 2 t :=
  before6_2_of V (dat6 V qq c) (A_eq6 V qq c 2) (after6_2 V qq c) t d
theorem before6_3 (c : Dev nD) (t : Fin cfg6.N) (d) : (dat6 V qq c).before 3 t d = iblk6 V c 3 t :=
  before6_3_of V (dat6 V qq c) (A_eq6 V qq c 3) (after6_3 V qq c) t d
theorem before6_4 (c : Dev nD) (t : Fin cfg6.N) (d) : (dat6 V qq c).before 4 t d = iblk6 V c 4 t :=
  before6_4_of V (dat6 V qq c) (A_eq6 V qq c 4) (after6_4 V qq c) t d
theorem before6_5 (c : Dev nD) (t : Fin cfg6.N) (d) : (dat6 V qq c).before 5 t d = iblk6 V c 5 t :=
  before6_5_of V (dat6 V qq c) (A_eq6 V qq c 5) (after6_5 V qq c) t d
theorem before6_6 (c : Dev nD) (t : Fin cfg6.N) (d) : (dat6 V qq c).before 6 t d = iblk6 V c 6 t :=
  before6_6_of V (dat6 V qq c) (A_eq6 V qq c 6) (after6_6 V qq c) t d
theorem before6_7 (c : Dev nD) (t : Fin cfg6.N) (d) : (dat6 V qq c).before 7 t d = iblk6 V c 7 t :=
  before6_7_of V (dat6 V qq c) (A_eq6 V qq c 7) (after6_7 V qq c) t d
theorem before6_8 (c : Dev nD) (t : Fin cfg6.N) (d) : (dat6 V qq c).before 8 t d = iblk6 V c 8 t :=
  before6_8_of V (dat6 V qq c) (A_eq6 V qq c 8) (after6_8 V qq c) t d

/-! ## The body obligation, at a generic point -/

/-- What the body is called with at point `t`, the windows one by one, -/
def bodyPre6 (c : Dev nD) (t : Fin cfg6.N) : sProp 𝕄 :=
  iprop((dat6 V qq c).Φ t.castSucc ∗ (dat6 V qq c).owesAt () t.castSucc
    ∗ (∃ d, owns (c : Thread nD τ) (st6_0 t) fullShare ((dat6 V qq c).before 0 t d))
    ∗ (∃ d, owns (c : Thread nD τ) (st6_1 t) fullShare ((dat6 V qq c).before 1 t d))
    ∗ (∃ d, owns (c : Thread nD τ) (st6_2 t) fullShare ((dat6 V qq c).before 2 t d))
    ∗ (∃ d, owns (c : Thread nD τ) (st6_3 t) fullShare ((dat6 V qq c).before 3 t d))
    ∗ (∃ d, owns (c : Thread nD τ) (st6_4 t) fullShare ((dat6 V qq c).before 4 t d))
    ∗ (∃ d, owns (c : Thread nD τ) (st6_5 t) fullShare ((dat6 V qq c).before 5 t d))
    ∗ (∃ d, owns (c : Thread nD τ) (st6_6 t) fullShare ((dat6 V qq c).before 6 t d))
    ∗ (∃ d, owns (c : Thread nD τ) (st6_7 t) fullShare ((dat6 V qq c).before 7 t d))
    ∗ (∃ d, owns (c : Thread nD τ) (st6_8 t) fullShare ((dat6 V qq c).before 8 t d))
    ∗ (∃ d, owns (c : Thread nD τ) (st6_9 t) fullShare ((dat6 V qq c).before 9 t d)))

/-- and what it returns. -/
def bodyPost6 (c : Dev nD) (t : Fin cfg6.N) : sProp 𝕄 :=
  iprop((dat6 V qq c).Φ t.succ ∗ (dat6 V qq c).owesAt () t.succ
    ∗ owns (c : Thread nD τ) (st6_0 t) fullShare ((dat6 V qq c).after 0 t)
    ∗ owns (c : Thread nD τ) (st6_1 t) fullShare ((dat6 V qq c).after 1 t)
    ∗ owns (c : Thread nD τ) (st6_2 t) fullShare ((dat6 V qq c).after 2 t)
    ∗ owns (c : Thread nD τ) (st6_3 t) fullShare ((dat6 V qq c).after 3 t)
    ∗ owns (c : Thread nD τ) (st6_4 t) fullShare ((dat6 V qq c).after 4 t)
    ∗ owns (c : Thread nD τ) (st6_5 t) fullShare ((dat6 V qq c).after 5 t)
    ∗ owns (c : Thread nD τ) (st6_6 t) fullShare ((dat6 V qq c).after 6 t)
    ∗ owns (c : Thread nD τ) (st6_7 t) fullShare ((dat6 V qq c).after 7 t)
    ∗ owns (c : Thread nD τ) (st6_8 t) fullShare ((dat6 V qq c).after 8 t)
    ∗ owns (c : Thread nD τ) (st6_9 t) fullShare ((dat6 V qq c).after 9 t))

/-- The body at any point: the inputs' memrefs hold their blocks, so `sound_kernel6` applies; the invariant and the core's
    `owes` pass through unread. -/
theorem sound_body6 (c : Dev nD) (t : Fin cfg6.N) :
    bodyPre6 V qq c t ⊢ wp frame (wpE (defs₀ (F := F)) Variants.none c none) Set.univ (bodyAt6 t) (fun _ => bodyPost6 V qq c t) := by
  unfold bodyPre6 bodyPost6 bodyAt6
  simp only [before6_0, before6_1, before6_2, before6_3, before6_4, before6_5, before6_6, before6_7, before6_8]
  rw [show (dat6 V qq c).Φ t.succ = (dat6 V qq c).Φ t.castSucc from rfl,
    show (dat6 V qq c).owesAt () t.succ = (dat6 V qq c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation6 (c : Dev nD) : BodyObligation (dat6 (F := F) V qq c) (defs₀ (F := F)) Variants.none () Set.univ := fun t => by
  rw [bigSep_W6, bigSep_W6]
  exact sound_body6 V qq c t

end Cert.KernelIdeal.Gen

end
-- ==== Proof.KI.Region7.lean ====
/-
  Region 7 of @main (the projection: h = X times the convolution's weights, and h with each row scaled) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.KernelIdeal.Launch
import proofs.«121059_j18107582120780_2_alg».proof.Proof.Gen.KernelIdeal.Skeleton
import proofs.«121059_j18107582120780_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## What the body leaves in each output window's buffer -/

/-- Window 3's staging buffer after the body, from the input windows' blocks: its one store of the whole block. -/
def out7_3 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k7_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The store's rectangle is the whole buffer, so it covers every index. -/
theorem cover7_3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- Window 4's staging buffer after the body, from the input windows' blocks: its one store of the whole block. -/
def out7_4 (x0 : Vec F S10000x64 .f32) (x1 : Vec F S64x64 .f32) (x2 : Vec F S10000x1 .f32) : Vec F S10000x64 .f32 :=
  View.canon [⟨(Rect.unit (s := S10000x64) ![0, 0] S10000x64.size inb_S10000x64_S10000x64_0_0), k7_pay2 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S10000x1) ![0, 0] S10000x1.size inb_S10000x1_S10000x1_0_0))⟩]

/-- The store's rectangle is the whole buffer, so it covers every index. -/
theorem cover7_4 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out7_W` of the inputs'. -/
theorem sound_kernel7 (c : Dev nD) (E : Set ℕ) (i : grid7.Coords) (arg0 : Memref sig .tc .vmem S10000x64 .f32) (harg0 : arg0.IsWhole) (arg1 : Memref sig .tc .vmem S64x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S10000x64 .f32) (harg4 : arg4.IsWhole)
    (x0 : Vec F S10000x64 .f32) (x1 : Vec F S64x64 .f32) (x2 : Vec F S10000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out7_3 x0 x1 x2) ∗ owns (c : Thread nD τ) arg4 fullShare (out7_4 x0 x1 x2)) -∗ K ⟨⟩))
      ⊢ wp frame (wpE (defs₀ (F := F)) Variants.none c none) E (cc7__conv_proj_kernel i arg0 harg0 arg1 harg1 arg2 harg2 arg3 harg3 arg4 harg4) K := by
  simp only [cc7__conv_proj_kernel_eq_skeleton]; unfold cc7__conv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_3 _)
  iexists _; isplitr
  swap; · iexact H4
  ipureintro
  exact View.read_writes_eq_canon _ _ _ (cover7_4 _)

/-! ## The pipeline's proof data -/

/-- The proof data of pipeline 7 on core `c`: the arrays as the region finds them (`V`); after the body at point `t`
    each input's buffer at its block and each output's at `out7_W` of the input blocks; the scoped rest and the
    generator register ride untouched; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
    | ⟨4, _⟩ => out7_4 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]
theorem after7_4 (c : Dev nD) (t : Fin cfg7.N) : (dat7 V c).after 4 t = out7_4 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks, so `sound_kernel7` applies; the invariant and the core's
    `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Gen

end
-- ==== Proof.KI.Region8.lean ====
/-
  Region 8 of @main (the layer update: the gated residual step from the state, the projected features and the aggregated messages) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.KernelIdeal.Launch
import proofs.«121059_j18107582120780_2_alg».proof.Proof.Gen.KernelIdeal.Skeleton
import proofs.«121059_j18107582120780_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not, for any proof
    data whose array is `V`'s and whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, fetched there or not, for any proof
    data whose array is `V`'s and whose body leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's current staging buffer holds its block at every point, fetched there or not, for any proof
    data whose array is `V`'s and whose body leaves the block in place. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's current staging buffer holds its block at every point, fetched there or not, for any proof
    data whose array is `V`'s and whose body leaves the block in place. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-! ## What the body leaves in each output window's buffer -/

/-- Window 9's staging buffer after the body, from the input windows' blocks: its one store of the whole block. -/
def out8_9 (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) : Vec F S10000x64 .f32 :=
  View.canon [⟨(Rect.unit (s := S10000x64) ![0, 0] S10000x64.size inb_S10000x64_S10000x64_0_0), k8_pay1 (k8_pay2 (View.ld x0 (Rect.unit (s := S10000x64) ![0, 0] S10000x64.size inb_S10000x64_S10000x64_0_0)) (View.ld x8 (Rect.unit (s := S1x64) ![0, 0] S1x64.size inb_S1x64_S1x64_0_0))) (k8_pay3 (View.ld x3 (Rect.unit (s := S10000x64) ![0, 0] S10000x64.size inb_S10000x64_S10000x64_0_0)) (View.ld x4 (Rect.unit (s := S10000x1) ![0, 0] S10000x1.size inb_S10000x1_S10000x1_0_0)) (View.ld x5 (Rect.unit (s := S1x64) ![0, 0] S1x64.size inb_S1x64_S1x64_0_0)) (View.ld x2 (Rect.unit (s := S10000x64) ![0, 0] S10000x64.size inb_S10000x64_S10000x64_0_0)) (View.ld x6 (Rect.unit (s := S64x64) ![0, 0] S64x64.size inb_S64x64_S64x64_0_0)) (View.ld x7 (Rect.unit (s := S1x64) ![0, 0] S1x64.size inb_S1x64_S1x64_0_0)) (View.ld x1 (Rect.unit (s := S10000x64) ![0, 0] S10000x64.size inb_S10000x64_S10000x64_0_0)))⟩]

/-- The store's rectangle is the whole buffer, so it covers every index. -/
theorem cover8_9 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-! ## The body's triple -/

set_option maxHeartbeats 4000000 in
/-- The kernel body on whole staging memrefs, the inputs' at contents `xW` and the outputs' at anything, runs to the
    continuation holding the inputs' as they were and each output's at `out8_W` of the inputs'. -/
theorem sound_kernel8 (c : Dev nD) (E : Set ℕ) (i : grid8.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x1 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S10000x64 .f32) (harg9 : arg9.IsWhole)
    (x0 : Vec F S10000x64 .f32) (x1 : Vec F S10000x64 .f32) (x2 : Vec F S10000x64 .f32) (x3 : Vec F S10000x64 .f32) (x4 : Vec F S10000x1 .f32) (x5 : Vec F S1x64 .f32) (x6 : Vec F S64x64 .f32) (x7 : Vec F S1x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out8_9 x0 x1 x2 x3 x4 x5 x6 x7 x8)) -∗ K ⟨⟩))
      ⊢ wp frame (wpE (defs₀ (F := F)) Variants.none c none) E (cc8__combine_kernel i arg0 harg0 arg1 harg1 arg2 harg2 arg3 harg3 arg4 harg4 arg5 harg5 arg6 harg6 arg7 harg7 arg8 harg8 arg9 harg9) K := by
  simp only [cc8__combine_kernel_eq_skeleton]; unfold cc8__combine_kernel_skel
  simp only [k8_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover8_9 _)

/-! ## The pipeline's proof data -/

variable (qq : Fin cfg8.W → PosShare TreeShare)

/-- The proof data of pipeline 8 on core `c`: the arrays as the region finds them (`V`); after the body at point `t`
    each input's buffer at its block and each output's at `out8_W` of the input blocks; the scoped rest and the
    generator register ride untouched; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q w := qq w
  owed _ := 0

/-- The proof data's arrays are the region-entry contents. -/
theorem A_eq8 (c : Dev nD) (w : Fin cfg8.W) : (dat8 V qq c).A w = V c (Pipeline.arrRef spec8 w) := by
  dsimp only [dat8]

/-- What the body leaves, window by window. -/
theorem after8_0 (c : Dev nD) (t : Fin cfg8.N) : (dat8 V qq c).after 0 t = iblk8 V c 0 t := by dsimp only [dat8]
theorem after8_1 (c : Dev nD) (t : Fin cfg8.N) : (dat8 V qq c).after 1 t = iblk8 V c 1 t := by dsimp only [dat8]
theorem after8_2 (c : Dev nD) (t : Fin cfg8.N) : (dat8 V qq c).after 2 t = iblk8 V c 2 t := by dsimp only [dat8]
theorem after8_3 (c : Dev nD) (t : Fin cfg8.N) : (dat8 V qq c).after 3 t = iblk8 V c 3 t := by dsimp only [dat8]
theorem after8_4 (c : Dev nD) (t : Fin cfg8.N) : (dat8 V qq c).after 4 t = iblk8 V c 4 t := by dsimp only [dat8]
theorem after8_5 (c : Dev nD) (t : Fin cfg8.N) : (dat8 V qq c).after 5 t = iblk8 V c 5 t := by dsimp only [dat8]
theorem after8_6 (c : Dev nD) (t : Fin cfg8.N) : (dat8 V qq c).after 6 t = iblk8 V c 6 t := by dsimp only [dat8]
theorem after8_7 (c : Dev nD) (t : Fin cfg8.N) : (dat8 V qq c).after 7 t = iblk8 V c 7 t := by dsimp only [dat8]
theorem after8_8 (c : Dev nD) (t : Fin cfg8.N) : (dat8 V qq c).after 8 t = iblk8 V c 8 t := by dsimp only [dat8]
theorem after8_9 (c : Dev nD) (t : Fin cfg8.N) : (dat8 V qq c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

/-- Each input's current staging buffer holds its block at every point, fetched there or not. -/
theorem before8_0 (c : Dev nD) (t : Fin cfg8.N) (d) : (dat8 V qq c).before 0 t d = iblk8 V c 0 t :=
  before8_0_of V (dat8 V qq c) (A_eq8 V qq c 0) (after8_0 V qq c) t d
theorem before8_1 (c : Dev nD) (t : Fin cfg8.N) (d) : (dat8 V qq c).before 1 t d = iblk8 V c 1 t :=
  before8_1_of V (dat8 V qq c) (A_eq8 V qq c 1) (after8_1 V qq c) t d
theorem before8_2 (c : Dev nD) (t : Fin cfg8.N) (d) : (dat8 V qq c).before 2 t d = iblk8 V c 2 t :=
  before8_2_of V (dat8 V qq c) (A_eq8 V qq c 2) (after8_2 V qq c) t d
theorem before8_3 (c : Dev nD) (t : Fin cfg8.N) (d) : (dat8 V qq c).before 3 t d = iblk8 V c 3 t :=
  before8_3_of V (dat8 V qq c) (A_eq8 V qq c 3) (after8_3 V qq c) t d
theorem before8_4 (c : Dev nD) (t : Fin cfg8.N) (d) : (dat8 V qq c).before 4 t d = iblk8 V c 4 t :=
  before8_4_of V (dat8 V qq c) (A_eq8 V qq c 4) (after8_4 V qq c) t d
theorem before8_5 (c : Dev nD) (t : Fin cfg8.N) (d) : (dat8 V qq c).before 5 t d = iblk8 V c 5 t :=
  before8_5_of V (dat8 V qq c) (A_eq8 V qq c 5) (after8_5 V qq c) t d
theorem before8_6 (c : Dev nD) (t : Fin cfg8.N) (d) : (dat8 V qq c).before 6 t d = iblk8 V c 6 t :=
  before8_6_of V (dat8 V qq c) (A_eq8 V qq c 6) (after8_6 V qq c) t d
theorem before8_7 (c : Dev nD) (t : Fin cfg8.N) (d) : (dat8 V qq c).before 7 t d = iblk8 V c 7 t :=
  before8_7_of V (dat8 V qq c) (A_eq8 V qq c 7) (after8_7 V qq c) t d
theorem before8_8 (c : Dev nD) (t : Fin cfg8.N) (d) : (dat8 V qq c).before 8 t d = iblk8 V c 8 t :=
  before8_8_of V (dat8 V qq c) (A_eq8 V qq c 8) (after8_8 V qq c) t d

/-! ## The body obligation, at a generic point -/

/-- What the body is called with at point `t`, the windows one by one, -/
def bodyPre8 (c : Dev nD) (t : Fin cfg8.N) : sProp 𝕄 :=
  iprop((dat8 V qq c).Φ t.castSucc ∗ (dat8 V qq c).owesAt () t.castSucc
    ∗ (∃ d, owns (c : Thread nD τ) (st8_0 t) fullShare ((dat8 V qq c).before 0 t d))
    ∗ (∃ d, owns (c : Thread nD τ) (st8_1 t) fullShare ((dat8 V qq c).before 1 t d))
    ∗ (∃ d, owns (c : Thread nD τ) (st8_2 t) fullShare ((dat8 V qq c).before 2 t d))
    ∗ (∃ d, owns (c : Thread nD τ) (st8_3 t) fullShare ((dat8 V qq c).before 3 t d))
    ∗ (∃ d, owns (c : Thread nD τ) (st8_4 t) fullShare ((dat8 V qq c).before 4 t d))
    ∗ (∃ d, owns (c : Thread nD τ) (st8_5 t) fullShare ((dat8 V qq c).before 5 t d))
    ∗ (∃ d, owns (c : Thread nD τ) (st8_6 t) fullShare ((dat8 V qq c).before 6 t d))
    ∗ (∃ d, owns (c : Thread nD τ) (st8_7 t) fullShare ((dat8 V qq c).before 7 t d))
    ∗ (∃ d, owns (c : Thread nD τ) (st8_8 t) fullShare ((dat8 V qq c).before 8 t d))
    ∗ (∃ d, owns (c : Thread nD τ) (st8_9 t) fullShare ((dat8 V qq c).before 9 t d)))

/-- and what it returns. -/
def bodyPost8 (c : Dev nD) (t : Fin cfg8.N) : sProp 𝕄 :=
  iprop((dat8 V qq c).Φ t.succ ∗ (dat8 V qq c).owesAt () t.succ
    ∗ owns (c : Thread nD τ) (st8_0 t) fullShare ((dat8 V qq c).after 0 t)
    ∗ owns (c : Thread nD τ) (st8_1 t) fullShare ((dat8 V qq c).after 1 t)
    ∗ owns (c : Thread nD τ) (st8_2 t) fullShare ((dat8 V qq c).after 2 t)
    ∗ owns (c : Thread nD τ) (st8_3 t) fullShare ((dat8 V qq c).after 3 t)
    ∗ owns (c : Thread nD τ) (st8_4 t) fullShare ((dat8 V qq c).after 4 t)
    ∗ owns (c : Thread nD τ) (st8_5 t) fullShare ((dat8 V qq c).after 5 t)
    ∗ owns (c : Thread nD τ) (st8_6 t) fullShare ((dat8 V qq c).after 6 t)
    ∗ owns (c : Thread nD τ) (st8_7 t) fullShare ((dat8 V qq c).after 7 t)
    ∗ owns (c : Thread nD τ) (st8_8 t) fullShare ((dat8 V qq c).after 8 t)
    ∗ owns (c : Thread nD τ) (st8_9 t) fullShare ((dat8 V qq c).after 9 t))

/-- The body at any point: the inputs' memrefs hold their blocks, so `sound_kernel8` applies; the invariant and the core's
    `owes` pass through unread. -/
theorem sound_body8 (c : Dev nD) (t : Fin cfg8.N) :
    bodyPre8 V qq c t ⊢ wp frame (wpE (defs₀ (F := F)) Variants.none c none) Set.univ (bodyAt8 t) (fun _ => bodyPost8 V qq c t) := by
  unfold bodyPre8 bodyPost8 bodyAt8
  simp only [before8_0, before8_1, before8_2, before8_3, before8_4, before8_5, before8_6, before8_7, before8_8]
  rw [show (dat8 V qq c).Φ t.succ = (dat8 V qq c).Φ t.castSucc from rfl,
    show (dat8 V qq c).owesAt () t.succ = (dat8 V qq c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V qq c) (defs₀ (F := F)) Variants.none () Set.univ := fun t => by
  rw [bigSep_W8, bigSep_W8]
  exact sound_body8 V qq c t

end Cert.KernelIdeal.Gen

end
-- ==== Proof.KI.Region9.lean ====
/-
  Region 9 of @main (the decoder: one matrix product and a bias row) at a parameter `V`, the TensorCore's buffer contents when the region is entered:
  each window's block at a grid point, what the body leaves in each output window's staging buffer as a function of the
  input blocks, the body's Hoare triple (the symbolic executor runs the body's loads and its one store per output), the
  pipeline's proof data and the library's body obligation at every point.  Nothing here depends on the float instance.
-/
import proofs.«121059_j18107582120780_2_alg».proof.Proof.Gen.KernelIdeal.Launch
import proofs.«121059_j18107582120780_2_alg».proof.Proof.Gen.KernelIdeal.Skeleton
import proofs.«121059_j18107582120780_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s and whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s and whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## What the body leaves in each output window's buffer -/

/-- Window 3's staging buffer after the body, from the input windows' blocks: its one store of the whole block. -/
def out9_3 (x0 : Vec F S10000x64 .f32) (x1 : Vec F S64x47 .f32) (x2 : Vec F S1x47 .f32) : Vec F S10000x47 .f32 :=
  View.canon [⟨(Rect.unit (s := S10000x47) ![0, 0] S10000x47.size inb_S10000x47_S10000x47_0_0), k9_pay1 (View.ld x0 (Rect.unit (s := S10000x64) ![0, 0] S10000x64.size inb_S10000x64_S10000x64_0_0)) (View.ld x1 (Rect.unit (s := S64x47) ![0, 0] S64x47.size inb_S64x47_S64x47_0_0)) (View.ld x2 (Rect.unit (s := S1x47) ![0, 0] S1x47.size inb_S1x47_S1x47_0_0))⟩]

/-- The store's rectangle is the whole buffer, so it covers every index. -/
theorem cover9_3 (p0 : Vec F S10000x47 .f32) (y : S10000x47.Idx) :
    ∃ pc ∈ ([⟨(Rect.unit (s := S10000x47) ![0, 0] S10000x47.size inb_S10000x47_S10000x47_0_0), p0⟩] : List (View.Piece (Elt F) S10000x47 .f32)), y ∈ pc.1.set :=
  View.cover_of_tiled [⟨(Rect.unit (s := S10000x47) ![0, 0] S10000x47.size inb_S10000x47_S10000x47_0_0), p0⟩] S10000x47.size (by rfl) y

/-! ## The body's triple -/

set_option maxHeartbeats 4000000 in
/-- The kernel body on whole staging memrefs, the inputs' at contents `xW` and the outputs' at anything, runs to the
    continuation holding the inputs' as they were and each output's at `out9_W` of the inputs'. -/
theorem sound_kernel9 (c : Dev nD) (E : Set ℕ) (i : grid9.Coords) (arg0 : Memref sig .tc .vmem S10000x64 .f32) (harg0 : arg0.IsWhole) (arg1 : Memref sig .tc .vmem S64x47 .f32) (harg1 : arg1.IsWhole) (arg2 : Memref sig .tc .vmem S1x47 .f32) (harg2 : arg2.IsWhole) (arg3 : Memref sig .tc .vmem S10000x47 .f32) (harg3 : arg3.IsWhole)
    (x0 : Vec F S10000x64 .f32) (x1 : Vec F S64x47 .f32) (x2 : Vec F S1x47 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out9_3 x0 x1 x2)) -∗ K ⟨⟩))
      ⊢ wp frame (wpE (defs₀ (F := F)) Variants.none c none) E (cc9__linear_kernel i arg0 harg0 arg1 harg1 arg2 harg2 arg3 harg3) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them (`V`); after the body at point `t`
    each input's buffer at its block and each output's at `out9_W` of the input blocks; the scoped rest and the
    generator register ride untouched; nothing owed. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so `sound_kernel9` applies; the invariant and the core's
    `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Gen

end
-- ==== Proof.KI.Shares.lean ====
/-
  How the four layer-update regions deal an array's full share among their windows: their first two input windows read the
  same array, so each takes one half of its full share; every other window has an array of its own, at the full share.
-/
import proofs.«121059_j18107582120780_2_alg».proof.Proof.Gen.KernelIdeal.Launch

noncomputable section

namespace Cert.KernelIdeal.Gen

open Idealize.ShloMosaic Idealize.SL Idealize.SL.RA

/-- The windows' shares of their arrays in a layer-update region (ten windows; windows 0 and 1 on one array). -/
def qsh : Fin 10 → PosShare TreeShare := fun
  | 0 => fullShare.left
  | 1 => fullShare.right
  | _ => fullShare

end Cert.KernelIdeal.Gen

end
-- ==== Proof.KI.Chain.lean ====
/-
  The buffer contents between @main's items, with what each region leaves filled in.

  Between two items every unscoped buffer of a core holds a definite array: the launch contents, then each host
  stretch's operations applied, then, after a region, that region's output arrays at what its pipeline's write-backs
  leave (the fold of the flushed blocks over the grid, `Dat.arrAt … N`).  `WJ` is that valuation after item J−1;
  `outs` collects the regions' outputs in the form the conditional frame of @main is stated over, and `VJ_eq` says its
  valuations are these.  `pdats` is every pipeline's proof data at its region's entry contents.
-/
import proofs.«121059_j18107582120780_2_alg».proof.Proof.KI.Region0
import proofs.«121059_j18107582120780_2_alg».proof.Proof.KI.Region1
import proofs.«121059_j18107582120780_2_alg».proof.Proof.KI.Region2
import proofs.«121059_j18107582120780_2_alg».proof.Proof.KI.Region3
import proofs.«121059_j18107582120780_2_alg».proof.Proof.KI.Region4
import proofs.«121059_j18107582120780_2_alg».proof.Proof.KI.Region5
import proofs.«121059_j18107582120780_2_alg».proof.Proof.KI.Region6
import proofs.«121059_j18107582120780_2_alg».proof.Proof.KI.Region7
import proofs.«121059_j18107582120780_2_alg».proof.Proof.KI.Region8
import proofs.«121059_j18107582120780_2_alg».proof.Proof.KI.Region9
import proofs.«121059_j18107582120780_2_alg».proof.Proof.KI.Shares
import proofs.«121059_j18107582120780_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core waits for another: no level is assigned. -/
abbrev 𝒱₀ : Variants := Variants.none
abbrev L : GSem nD τ sig → Finset Unit := fun _ => ∅
abbrev lv : GSem nD τ sig → Unit → ℕ := fun _ _ => 0
/-- What rides beside the buffers through every item: the core's generator register at some state and its debt, at nothing. -/
abbrev R (c : Dev nD) : sProp 𝕄 := iprop((∃ r, prngReg c r) ∗ ∃ W, owes (c : Thread nD τ) (0 : CellTallies nD τ sig Unit) W)

/-- A valuation read at the TensorCore's references: the form the regions' proof data take their entry contents in. -/
abbrev Vr (W : Dev nD → Valuation τ sig (Elt F)) : (c : Dev nD) → (b : Ref sig .tc) → Buf (Elt F) ((c : Thread nD τ).loc b) :=
  fun c b => W c b

/-! ## The contents after each item -/

/-- After the three leading host stretches: what region 0 is entered with. -/
abbrev W3 : Dev nD → Valuation τ sig (Elt F) := fun c => V3 m c
/-- After region 0: its output array at what the pipeline leaves, every other buffer as entered. -/
def W4 (c : Dev nD) : Valuation τ sig (Elt F) :=
  Function.update (W3 m c) main_v20 ((dat0 (Vr (W3 m)) c).arrAt 3 cfg0.N)
/-- After region 1: its output arrays at what the pipeline leaves, every other buffer as entered. -/
def W5 (c : Dev nD) : Valuation τ sig (Elt F) :=
  Function.update (Function.update (W4 m c) main_v21_0 ((dat1 (Vr (W4 m)) c).arrAt 3 cfg1.N)) main_v21_1 ((dat1 (Vr (W4 m)) c).arrAt 4 cfg1.N)
/-- After the host stretch `hostOps2`. -/
def W6 (c : Dev nD) : Valuation τ sig (Elt F) := StableHlo.after hostOps2 (W5 m c)
/-- After region 2: its output array at what the pipeline leaves, every other buffer as entered. -/
def W7 (c : Dev nD) : Valuation τ sig (Elt F) :=
  Function.update (W6 m c) main_v38 ((dat2 (Vr (W6 m)) qsh c).arrAt 9 cfg2.N)
/-- After region 3: its output arrays at what the pipeline leaves, every other buffer as entered. -/
def W8 (c : Dev nD) : Valuation τ sig (Elt F) :=
  Function.update (Function.update (W7 m c) main_v39_0 ((dat3 (Vr (W7 m)) c).arrAt 3 cfg3.N)) main_v39_1 ((dat3 (Vr (W7 m)) c).arrAt 4 cfg3.N)
/-- After the host stretch `hostOps4`. -/
def W9 (c : Dev nD) : Valuation τ sig (Elt F) := StableHlo.after hostOps4 (W8 m c)
/-- After region 4: its output array at what the pipeline leaves, every other buffer as entered. -/
def W10 (c : Dev nD) : Valuation τ sig (Elt F) :=
  Function.update (W9 m c) main_v56 ((dat4 (Vr (W9 m)) qsh c).arrAt 9 cfg4.N)
/-- After region 5: its output arrays at what the pipeline leaves, every other buffer as entered. -/
def W11 (c : Dev nD) : Valuation τ sig (Elt F) :=
  Function.update (Function.update (W10 m c) main_v57_0 ((dat5 (Vr (W10 m)) c).arrAt 3 cfg5.N)) main_v57_1 ((dat5 (Vr (W10 m)) c).arrAt 4 cfg5.N)
/-- After the host stretch `hostOps6`. -/
def W12 (c : Dev nD) : Valuation τ sig (Elt F) := StableHlo.after hostOps6 (W11 m c)
/-- After region 6: its output array at what the pipeline leaves, every other buffer as entered. -/
def W13 (c : Dev nD) : Valuation τ sig (Elt F) :=
  Function.update (W12 m c) main_v74 ((dat6 (Vr (W12 m)) qsh c).arrAt 9 cfg6.N)
/-- After region 7: its output arrays at what the pipeline leaves, every other buffer as entered. -/
def W14 (c : Dev nD) : Valuation τ sig (Elt F) :=
  Function.update (Function.update (W13 m c) main_v75_0 ((dat7 (Vr (W13 m)) c).arrAt 3 cfg7.N)) main_v75_1 ((dat7 (Vr (W13 m)) c).arrAt 4 cfg7.N)
/-- After the host stretch `hostOps8`. -/
def W15 (c : Dev nD) : Valuation τ sig (Elt F) := StableHlo.after hostOps8 (W14 m c)
/-- After region 8: its output array at what the pipeline leaves, every other buffer as entered. -/
def W16 (c : Dev nD) : Valuation τ sig (Elt F) :=
  Function.update (W15 m c) main_v92 ((dat8 (Vr (W15 m)) qsh c).arrAt 9 cfg8.N)
/-- After region 9: its output array at what the pipeline leaves, every other buffer as entered. -/
def W17 (c : Dev nD) : Valuation τ sig (Elt F) :=
  Function.update (W16 m c) main_v93 ((dat9 (Vr (W16 m)) c).arrAt 3 cfg9.N)

/-! ## The regions' outputs, as the conditional frame names them -/

/-- What each region leaves, read off the valuations above (any other reading is the launch memory: never used). -/
def outs : Outs (F := F) := fun J r c =>
  match J with
  | 4 => W4 m c r
  | 5 => W5 m c r
  | 7 => W7 m c r
  | 8 => W8 m c r
  | 10 => W10 m c r
  | 11 => W11 m c r
  | 13 => W13 m c r
  | 14 => W14 m c r
  | 16 => W16 m c r
  | 17 => W17 m c r
  | _ => m ((c : Thread nD τ).loc r)

/-! ## The conditional frame's valuations are these -/

theorem V4_eq (c : Dev nD) : V4 m (outs m) c = W4 m c := by
  show Function.update (V3 m c) main_v20 (W4 m c main_v20) = W4 m c
  unfold W4; rw [Function.update_self]
theorem V5_eq (c : Dev nD) : V5 m (outs m) c = W5 m c := by
  show Function.update (Function.update (V4 m (outs m) c) main_v21_0 (W5 m c main_v21_0)) main_v21_1 (W5 m c main_v21_1) = W5 m c
  rw [V4_eq m c]
  unfold W5
  rw [Function.update_self, Function.update_of_ne (StableHlo.devRef_ne_of_ne (by decide) : (Proc.devRef .tc main_v21_0 : DevRef τ sig) ≠ Proc.devRef .tc main_v21_1), Function.update_self]
theorem V6_eq (c : Dev nD) : V6 m (outs m) c = W6 m c := by
  show StableHlo.after hostOps2 (V5 m (outs m) c) = W6 m c
  rw [V5_eq m c]; rfl
theorem V7_eq (c : Dev nD) : V7 m (outs m) c = W7 m c := by
  show Function.update (V6 m (outs m) c) main_v38 (W7 m c main_v38) = W7 m c
  rw [V6_eq m c]
  unfold W7; rw [Function.update_self]
theorem V8_eq (c : Dev nD) : V8 m (outs m) c = W8 m c := by
  show Function.update (Function.update (V7 m (outs m) c) main_v39_0 (W8 m c main_v39_0)) main_v39_1 (W8 m c main_v39_1) = W8 m c
  rw [V7_eq m c]
  unfold W8
  rw [Function.update_self, Function.update_of_ne (StableHlo.devRef_ne_of_ne (by decide) : (Proc.devRef .tc main_v39_0 : DevRef τ sig) ≠ Proc.devRef .tc main_v39_1), Function.update_self]
theorem V9_eq (c : Dev nD) : V9 m (outs m) c = W9 m c := by
  show StableHlo.after hostOps4 (V8 m (outs m) c) = W9 m c
  rw [V8_eq m c]; rfl
theorem V10_eq (c : Dev nD) : V10 m (outs m) c = W10 m c := by
  show Function.update (V9 m (outs m) c) main_v56 (W10 m c main_v56) = W10 m c
  rw [V9_eq m c]
  unfold W10; rw [Function.update_self]
theorem V11_eq (c : Dev nD) : V11 m (outs m) c = W11 m c := by
  show Function.update (Function.update (V10 m (outs m) c) main_v57_0 (W11 m c main_v57_0)) main_v57_1 (W11 m c main_v57_1) = W11 m c
  rw [V10_eq m c]
  unfold W11
  rw [Function.update_self, Function.update_of_ne (StableHlo.devRef_ne_of_ne (by decide) : (Proc.devRef .tc main_v57_0 : DevRef τ sig) ≠ Proc.devRef .tc main_v57_1), Function.update_self]
theorem V12_eq (c : Dev nD) : V12 m (outs m) c = W12 m c := by
  show StableHlo.after hostOps6 (V11 m (outs m) c) = W12 m c
  rw [V11_eq m c]; rfl
theorem V13_eq (c : Dev nD) : V13 m (outs m) c = W13 m c := by
  show Function.update (V12 m (outs m) c) main_v74 (W13 m c main_v74) = W13 m c
  rw [V12_eq m c]
  unfold W13; rw [Function.update_self]
theorem V14_eq (c : Dev nD) : V14 m (outs m) c = W14 m c := by
  show Function.update (Function.update (V13 m (outs m) c) main_v75_0 (W14 m c main_v75_0)) main_v75_1 (W14 m c main_v75_1) = W14 m c
  rw [V13_eq m c]
  unfold W14
  rw [Function.update_self, Function.update_of_ne (StableHlo.devRef_ne_of_ne (by decide) : (Proc.devRef .tc main_v75_0 : DevRef τ sig) ≠ Proc.devRef .tc main_v75_1), Function.update_self]
theorem V15_eq (c : Dev nD) : V15 m (outs m) c = W15 m c := by
  show StableHlo.after hostOps8 (V14 m (outs m) c) = W15 m c
  rw [V14_eq m c]; rfl
theorem V16_eq (c : Dev nD) : V16 m (outs m) c = W16 m c := by
  show Function.update (V15 m (outs m) c) main_v92 (W16 m c main_v92) = W16 m c
  rw [V15_eq m c]
  unfold W16; rw [Function.update_self]
theorem V17_eq (c : Dev nD) : V17 m (outs m) c = W17 m c := by
  show Function.update (V16 m (outs m) c) main_v93 (W17 m c main_v93) = W17 m c
  rw [V16_eq m c]
  unfold W17; rw [Function.update_self]

/-! ## The proof data family -/

/-- Every pipeline's proof data, each at its region's entry contents — a literal match on the pipeline's number. -/
def pdats : (p : Fin 10) → (c : Dev nD) → Dat τ (Elt F) Unit ℕ (UR sig nD τ) ℕ (cfgs p) c
  | ⟨0, _⟩ => fun c => dat0 (Vr (W3 m)) c
  | ⟨1, _⟩ => fun c => dat1 (Vr (W4 m)) c
  | ⟨2, _⟩ => fun c => dat2 (Vr (W6 m)) qsh c
  | ⟨3, _⟩ => fun c => dat3 (Vr (W7 m)) c
  | ⟨4, _⟩ => fun c => dat4 (Vr (W9 m)) qsh c
  | ⟨5, _⟩ => fun c => dat5 (Vr (W10 m)) c
  | ⟨6, _⟩ => fun c => dat6 (Vr (W12 m)) qsh c
  | ⟨7, _⟩ => fun c => dat7 (Vr (W13 m)) c
  | ⟨8, _⟩ => fun c => dat8 (Vr (W15 m)) qsh c
  | ⟨9, _⟩ => fun c => dat9 (Vr (W16 m)) c

/-! ## What an item does not write it leaves: a buffer read after the item is the buffer read before it -/

theorem W4_of (c : Dev nD) (r : Ref sig .tc) (h : r ∉ ([main_v20] : List (Ref sig .tc))) : W4 m c r = V3 m c r :=
  (congrFun (V4_eq m c).symm _).trans ((V4_of m (outs m) c r h))
theorem W5_of (c : Dev nD) (r : Ref sig .tc) (h : r ∉ ([main_v21_0, main_v21_1] : List (Ref sig .tc))) : W5 m c r = W4 m c r :=
  (congrFun (V5_eq m c).symm _).trans ((V5_of m (outs m) c r h).trans (congrFun (V4_eq m c) _))
theorem W6_of (c : Dev nD) (r : Ref sig .tc) (h : r ∉ hostOps2_W) : W6 m c r = W5 m c r :=
  (congrFun (V6_eq m c).symm _).trans ((V6_of m (outs m) c r h).trans (congrFun (V5_eq m c) _))
theorem W7_of (c : Dev nD) (r : Ref sig .tc) (h : r ∉ ([main_v38] : List (Ref sig .tc))) : W7 m c r = W6 m c r :=
  (congrFun (V7_eq m c).symm _).trans ((V7_of m (outs m) c r h).trans (congrFun (V6_eq m c) _))
theorem W8_of (c : Dev nD) (r : Ref sig .tc) (h : r ∉ ([main_v39_0, main_v39_1] : List (Ref sig .tc))) : W8 m c r = W7 m c r :=
  (congrFun (V8_eq m c).symm _).trans ((V8_of m (outs m) c r h).trans (congrFun (V7_eq m c) _))
theorem W9_of (c : Dev nD) (r : Ref sig .tc) (h : r ∉ hostOps4_W) : W9 m c r = W8 m c r :=
  (congrFun (V9_eq m c).symm _).trans ((V9_of m (outs m) c r h).trans (congrFun (V8_eq m c) _))
theorem W10_of (c : Dev nD) (r : Ref sig .tc) (h : r ∉ ([main_v56] : List (Ref sig .tc))) : W10 m c r = W9 m c r :=
  (congrFun (V10_eq m c).symm _).trans ((V10_of m (outs m) c r h).trans (congrFun (V9_eq m c) _))
theorem W11_of (c : Dev nD) (r : Ref sig .tc) (h : r ∉ ([main_v57_0, main_v57_1] : List (Ref sig .tc))) : W11 m c r = W10 m c r :=
  (congrFun (V11_eq m c).symm _).trans ((V11_of m (outs m) c r h).trans (congrFun (V10_eq m c) _))
theorem W12_of (c : Dev nD) (r : Ref sig .tc) (h : r ∉ hostOps6_W) : W12 m c r = W11 m c r :=
  (congrFun (V12_eq m c).symm _).trans ((V12_of m (outs m) c r h).trans (congrFun (V11_eq m c) _))
theorem W13_of (c : Dev nD) (r : Ref sig .tc) (h : r ∉ ([main_v74] : List (Ref sig .tc))) : W13 m c r = W12 m c r :=
  (congrFun (V13_eq m c).symm _).trans ((V13_of m (outs m) c r h).trans (congrFun (V12_eq m c) _))
theorem W14_of (c : Dev nD) (r : Ref sig .tc) (h : r ∉ ([main_v75_0, main_v75_1] : List (Ref sig .tc))) : W14 m c r = W13 m c r :=
  (congrFun (V14_eq m c).symm _).trans ((V14_of m (outs m) c r h).trans (congrFun (V13_eq m c) _))
theorem W15_of (c : Dev nD) (r : Ref sig .tc) (h : r ∉ hostOps8_W) : W15 m c r = W14 m c r :=
  (congrFun (V15_eq m c).symm _).trans ((V15_of m (outs m) c r h).trans (congrFun (V14_eq m c) _))
theorem W16_of (c : Dev nD) (r : Ref sig .tc) (h : r ∉ ([main_v92] : List (Ref sig .tc))) : W16 m c r = W15 m c r :=
  (congrFun (V16_eq m c).symm _).trans ((V16_of m (outs m) c r h).trans (congrFun (V15_eq m c) _))
theorem W17_of (c : Dev nD) (r : Ref sig .tc) (h : r ∉ ([main_v93] : List (Ref sig .tc))) : W17 m c r = W16 m c r :=
  (congrFun (V17_eq m c).symm _).trans ((V17_of m (outs m) c r h).trans (congrFun (V16_eq m c) _))
theorem V3_launch (c : Dev nD) (r : Ref sig .tc) (h0 : r ∉ hostOps0_W) (h1 : r ∉ hostOps0_1_W) (h2 : r ∉ hostOps0_2_W) :
    V3 m c r = m ((c : Thread nD τ).loc r) :=
  (V3_of m c r h2).trans ((V2_of m c r h1).trans ((V1_of m c r h0).trans rfl))

/-! ## What a region's output array holds after it -/

theorem W4_out (c : Dev nD) : W4 m c main_v20 = (dat0 (Vr (W3 m)) c).arrAt 3 cfg0.N := by
  unfold W4; rw [Function.update_self]
theorem W5_out0 (c : Dev nD) : W5 m c main_v21_0 = (dat1 (Vr (W4 m)) c).arrAt 3 cfg1.N := by
  unfold W5; rw [Function.update_of_ne (StableHlo.devRef_ne_of_ne (by decide) : (Proc.devRef .tc main_v21_0 : DevRef τ sig) ≠ Proc.devRef .tc main_v21_1), Function.update_self]
theorem W5_out1 (c : Dev nD) : W5 m c main_v21_1 = (dat1 (Vr (W4 m)) c).arrAt 4 cfg1.N := by
  unfold W5; rw [Function.update_self]
theorem W7_out (c : Dev nD) : W7 m c main_v38 = (dat2 (Vr (W6 m)) qsh c).arrAt 9 cfg2.N := by
  unfold W7; rw [Function.update_self]
theorem W8_out0 (c : Dev nD) : W8 m c main_v39_0 = (dat3 (Vr (W7 m)) c).arrAt 3 cfg3.N := by
  unfold W8; rw [Function.update_of_ne (StableHlo.devRef_ne_of_ne (by decide) : (Proc.devRef .tc main_v39_0 : DevRef τ sig) ≠ Proc.devRef .tc main_v39_1), Function.update_self]
theorem W8_out1 (c : Dev nD) : W8 m c main_v39_1 = (dat3 (Vr (W7 m)) c).arrAt 4 cfg3.N := by
  unfold W8; rw [Function.update_self]
theorem W10_out (c : Dev nD) : W10 m c main_v56 = (dat4 (Vr (W9 m)) qsh c).arrAt 9 cfg4.N := by
  unfold W10; rw [Function.update_self]
theorem W11_out0 (c : Dev nD) : W11 m c main_v57_0 = (dat5 (Vr (W10 m)) c).arrAt 3 cfg5.N := by
  unfold W11; rw [Function.update_of_ne (StableHlo.devRef_ne_of_ne (by decide) : (Proc.devRef .tc main_v57_0 : DevRef τ sig) ≠ Proc.devRef .tc main_v57_1), Function.update_self]
theorem W11_out1 (c : Dev nD) : W11 m c main_v57_1 = (dat5 (Vr (W10 m)) c).arrAt 4 cfg5.N := by
  unfold W11; rw [Function.update_self]
theorem W13_out (c : Dev nD) : W13 m c main_v74 = (dat6 (Vr (W12 m)) qsh c).arrAt 9 cfg6.N := by
  unfold W13; rw [Function.update_self]
theorem W14_out0 (c : Dev nD) : W14 m c main_v75_0 = (dat7 (Vr (W13 m)) c).arrAt 3 cfg7.N := by
  unfold W14; rw [Function.update_of_ne (StableHlo.devRef_ne_of_ne (by decide) : (Proc.devRef .tc main_v75_0 : DevRef τ sig) ≠ Proc.devRef .tc main_v75_1), Function.update_self]
theorem W14_out1 (c : Dev nD) : W14 m c main_v75_1 = (dat7 (Vr (W13 m)) c).arrAt 4 cfg7.N := by
  unfold W14; rw [Function.update_self]
theorem W16_out (c : Dev nD) : W16 m c main_v92 = (dat8 (Vr (W15 m)) qsh c).arrAt 9 cfg8.N := by
  unfold W16; rw [Function.update_self]
theorem W17_out (c : Dev nD) : W17 m c main_v93 = (dat9 (Vr (W16 m)) c).arrAt 3 cfg9.N := by
  unfold W17; rw [Function.update_self]

/-! ## The host stretches' valuations, and the valuations sealed

From here on a valuation `WJ` is used only through the lemmas above (what an item leaves unchanged, what a region's output
holds) and the host stretches' defining equations below, never by unfolding. -/

theorem W6_host (c : Dev nD) : W6 m c = StableHlo.after hostOps2 (W5 m c) := rfl
theorem W9_host (c : Dev nD) : W9 m c = StableHlo.after hostOps4 (W8 m c) := rfl
theorem W12_host (c : Dev nD) : W12 m c = StableHlo.after hostOps6 (W11 m c) := rfl
theorem W15_host (c : Dev nD) : W15 m c = StableHlo.after hostOps8 (W14 m c) := rfl

attribute [irreducible] W4 W5 W6 W7 W8 W9 W10 W11 W12 W13 W14 W15 W16 W17

/-! ## At a region's exit each of its arrays holds what the pipeline leaves, every other buffer what it held -/

set_option maxHeartbeats 2000000 in
theorem hF0 (c : Dev nD) (w : Fin cfg0.W) : (pdats m 0 c).arrAt w cfg0.N = Vr (W4 m) c (Pipeline.arrRef spec0 w) :=
  match w with
  | ⟨0, _⟩ => ((pdats m 0 c).arrAt_in 0 rfl _).trans (W4_of m c (Pipeline.arrRef spec0 0) (by decide)).symm
  | ⟨1, _⟩ => ((pdats m 0 c).arrAt_in 1 rfl _).trans (W4_of m c (Pipeline.arrRef spec0 1) (by decide)).symm
  | ⟨2, _⟩ => ((pdats m 0 c).arrAt_in 2 rfl _).trans (W4_of m c (Pipeline.arrRef spec0 2) (by decide)).symm
  | ⟨3, _⟩ => (W4_out m c).symm
theorem hrest0 (c : Dev nD) : ∀ b, b ∉ Finset.univ.image (Pipeline.arrRef spec0) → Vr (W4 m) c b = Vr (W3 m) c b := fun b hb =>
  W4_of m c b (fun h => hb (by
    rw [List.mem_singleton.mp h]; exact Finset.mem_image.mpr ⟨3, Finset.mem_univ _, rfl⟩))
set_option maxHeartbeats 2000000 in
theorem hF1 (c : Dev nD) (w : Fin cfg1.W) : (pdats m 1 c).arrAt w cfg1.N = Vr (W5 m) c (Pipeline.arrRef spec1 w) :=
  match w with
  | ⟨0, _⟩ => ((pdats m 1 c).arrAt_in 0 rfl _).trans (W5_of m c (Pipeline.arrRef spec1 0) (by decide)).symm
  | ⟨1, _⟩ => ((pdats m 1 c).arrAt_in 1 rfl _).trans (W5_of m c (Pipeline.arrRef spec1 1) (by decide)).symm
  | ⟨2, _⟩ => ((pdats m 1 c).arrAt_in 2 rfl _).trans (W5_of m c (Pipeline.arrRef spec1 2) (by decide)).symm
  | ⟨3, _⟩ => (W5_out0 m c).symm
  | ⟨4, _⟩ => (W5_out1 m c).symm
theorem hrest1 (c : Dev nD) : ∀ b, b ∉ Finset.univ.image (Pipeline.arrRef spec1) → Vr (W5 m) c b = Vr (W4 m) c b := fun b hb =>
  W5_of m c b (fun h => hb (by
    rcases List.mem_cons.mp h with h | h
    · rw [h]; exact Finset.mem_image.mpr ⟨3, Finset.mem_univ _, rfl⟩
    · rw [List.mem_singleton.mp h]; exact Finset.mem_image.mpr ⟨4, Finset.mem_univ _, rfl⟩))
set_option maxHeartbeats 2000000 in
theorem hF2 (c : Dev nD) (w : Fin cfg2.W) : (pdats m 2 c).arrAt w cfg2.N = Vr (W7 m) c (Pipeline.arrRef spec2 w) :=
  match w with
  | ⟨0, _⟩ => ((pdats m 2 c).arrAt_in 0 rfl _).trans (W7_of m c (Pipeline.arrRef spec2 0) (by decide)).symm
  | ⟨1, _⟩ => ((pdats m 2 c).arrAt_in 1 rfl _).trans (W7_of m c (Pipeline.arrRef spec2 1) (by decide)).symm
  | ⟨2, _⟩ => ((pdats m 2 c).arrAt_in 2 rfl _).trans (W7_of m c (Pipeline.arrRef spec2 2) (by decide)).symm
  | ⟨3, _⟩ => ((pdats m 2 c).arrAt_in 3 rfl _).trans (W7_of m c (Pipeline.arrRef spec2 3) (by decide)).symm
  | ⟨4, _⟩ => ((pdats m 2 c).arrAt_in 4 rfl _).trans (W7_of m c (Pipeline.arrRef spec2 4) (by decide)).symm
  | ⟨5, _⟩ => ((pdats m 2 c).arrAt_in 5 rfl _).trans (W7_of m c (Pipeline.arrRef spec2 5) (by decide)).symm
  | ⟨6, _⟩ => ((pdats m 2 c).arrAt_in 6 rfl _).trans (W7_of m c (Pipeline.arrRef spec2 6) (by decide)).symm
  | ⟨7, _⟩ => ((pdats m 2 c).arrAt_in 7 rfl _).trans (W7_of m c (Pipeline.arrRef spec2 7) (by decide)).symm
  | ⟨8, _⟩ => ((pdats m 2 c).arrAt_in 8 rfl _).trans (W7_of m c (Pipeline.arrRef spec2 8) (by decide)).symm
  | ⟨9, _⟩ => (W7_out m c).symm
theorem hrest2 (c : Dev nD) : ∀ b, b ∉ Finset.univ.image (Pipeline.arrRef spec2) → Vr (W7 m) c b = Vr (W6 m) c b := fun b hb =>
  W7_of m c b (fun h => hb (by
    rw [List.mem_singleton.mp h]; exact Finset.mem_image.mpr ⟨9, Finset.mem_univ _, rfl⟩))
set_option maxHeartbeats 2000000 in
theorem hF3 (c : Dev nD) (w : Fin cfg3.W) : (pdats m 3 c).arrAt w cfg3.N = Vr (W8 m) c (Pipeline.arrRef spec3 w) :=
  match w with
  | ⟨0, _⟩ => ((pdats m 3 c).arrAt_in 0 rfl _).trans (W8_of m c (Pipeline.arrRef spec3 0) (by decide)).symm
  | ⟨1, _⟩ => ((pdats m 3 c).arrAt_in 1 rfl _).trans (W8_of m c (Pipeline.arrRef spec3 1) (by decide)).symm
  | ⟨2, _⟩ => ((pdats m 3 c).arrAt_in 2 rfl _).trans (W8_of m c (Pipeline.arrRef spec3 2) (by decide)).symm
  | ⟨3, _⟩ => (W8_out0 m c).symm
  | ⟨4, _⟩ => (W8_out1 m c).symm
theorem hrest3 (c : Dev nD) : ∀ b, b ∉ Finset.univ.image (Pipeline.arrRef spec3) → Vr (W8 m) c b = Vr (W7 m) c b := fun b hb =>
  W8_of m c b (fun h => hb (by
    rcases List.mem_cons.mp h with h | h
    · rw [h]; exact Finset.mem_image.mpr ⟨3, Finset.mem_univ _, rfl⟩
    · rw [List.mem_singleton.mp h]; exact Finset.mem_image.mpr ⟨4, Finset.mem_univ _, rfl⟩))
set_option maxHeartbeats 2000000 in
theorem hF4 (c : Dev nD) (w : Fin cfg4.W) : (pdats m 4 c).arrAt w cfg4.N = Vr (W10 m) c (Pipeline.arrRef spec4 w) :=
  match w with
  | ⟨0, _⟩ => ((pdats m 4 c).arrAt_in 0 rfl _).trans (W10_of m c (Pipeline.arrRef spec4 0) (by decide)).symm
  | ⟨1, _⟩ => ((pdats m 4 c).arrAt_in 1 rfl _).trans (W10_of m c (Pipeline.arrRef spec4 1) (by decide)).symm
  | ⟨2, _⟩ => ((pdats m 4 c).arrAt_in 2 rfl _).trans (W10_of m c (Pipeline.arrRef spec4 2) (by decide)).symm
  | ⟨3, _⟩ => ((pdats m 4 c).arrAt_in 3 rfl _).trans (W10_of m c (Pipeline.arrRef spec4 3) (by decide)).symm
  | ⟨4, _⟩ => ((pdats m 4 c).arrAt_in 4 rfl _).trans (W10_of m c (Pipeline.arrRef spec4 4) (by decide)).symm
  | ⟨5, _⟩ => ((pdats m 4 c).arrAt_in 5 rfl _).trans (W10_of m c (Pipeline.arrRef spec4 5) (by decide)).symm
  | ⟨6, _⟩ => ((pdats m 4 c).arrAt_in 6 rfl _).trans (W10_of m c (Pipeline.arrRef spec4 6) (by decide)).symm
  | ⟨7, _⟩ => ((pdats m 4 c).arrAt_in 7 rfl _).trans (W10_of m c (Pipeline.arrRef spec4 7) (by decide)).symm
  | ⟨8, _⟩ => ((pdats m 4 c).arrAt_in 8 rfl _).trans (W10_of m c (Pipeline.arrRef spec4 8) (by decide)).symm
  | ⟨9, _⟩ => (W10_out m c).symm
theorem hrest4 (c : Dev nD) : ∀ b, b ∉ Finset.univ.image (Pipeline.arrRef spec4) → Vr (W10 m) c b = Vr (W9 m) c b := fun b hb =>
  W10_of m c b (fun h => hb (by
    rw [List.mem_singleton.mp h]; exact Finset.mem_image.mpr ⟨9, Finset.mem_univ _, rfl⟩))
set_option maxHeartbeats 2000000 in
theorem hF5 (c : Dev nD) (w : Fin cfg5.W) : (pdats m 5 c).arrAt w cfg5.N = Vr (W11 m) c (Pipeline.arrRef spec5 w) :=
  match w with
  | ⟨0, _⟩ => ((pdats m 5 c).arrAt_in 0 rfl _).trans (W11_of m c (Pipeline.arrRef spec5 0) (by decide)).symm
  | ⟨1, _⟩ => ((pdats m 5 c).arrAt_in 1 rfl _).trans (W11_of m c (Pipeline.arrRef spec5 1) (by decide)).symm
  | ⟨2, _⟩ => ((pdats m 5 c).arrAt_in 2 rfl _).trans (W11_of m c (Pipeline.arrRef spec5 2) (by decide)).symm
  | ⟨3, _⟩ => (W11_out0 m c).symm
  | ⟨4, _⟩ => (W11_out1 m c).symm
theorem hrest5 (c : Dev nD) : ∀ b, b ∉ Finset.univ.image (Pipeline.arrRef spec5) → Vr (W11 m) c b = Vr (W10 m) c b := fun b hb =>
  W11_of m c b (fun h => hb (by
    rcases List.mem_cons.mp h with h | h
    · rw [h]; exact Finset.mem_image.mpr ⟨3, Finset.mem_univ _, rfl⟩
    · rw [List.mem_singleton.mp h]; exact Finset.mem_image.mpr ⟨4, Finset.mem_univ _, rfl⟩))
set_option maxHeartbeats 2000000 in
theorem hF6 (c : Dev nD) (w : Fin cfg6.W) : (pdats m 6 c).arrAt w cfg6.N = Vr (W13 m) c (Pipeline.arrRef spec6 w) :=
  match w with
  | ⟨0, _⟩ => ((pdats m 6 c).arrAt_in 0 rfl _).trans (W13_of m c (Pipeline.arrRef spec6 0) (by decide)).symm
  | ⟨1, _⟩ => ((pdats m 6 c).arrAt_in 1 rfl _).trans (W13_of m c (Pipeline.arrRef spec6 1) (by decide)).symm
  | ⟨2, _⟩ => ((pdats m 6 c).arrAt_in 2 rfl _).trans (W13_of m c (Pipeline.arrRef spec6 2) (by decide)).symm
  | ⟨3, _⟩ => ((pdats m 6 c).arrAt_in 3 rfl _).trans (W13_of m c (Pipeline.arrRef spec6 3) (by decide)).symm
  | ⟨4, _⟩ => ((pdats m 6 c).arrAt_in 4 rfl _).trans (W13_of m c (Pipeline.arrRef spec6 4) (by decide)).symm
  | ⟨5, _⟩ => ((pdats m 6 c).arrAt_in 5 rfl _).trans (W13_of m c (Pipeline.arrRef spec6 5) (by decide)).symm
  | ⟨6, _⟩ => ((pdats m 6 c).arrAt_in 6 rfl _).trans (W13_of m c (Pipeline.arrRef spec6 6) (by decide)).symm
  | ⟨7, _⟩ => ((pdats m 6 c).arrAt_in 7 rfl _).trans (W13_of m c (Pipeline.arrRef spec6 7) (by decide)).symm
  | ⟨8, _⟩ => ((pdats m 6 c).arrAt_in 8 rfl _).trans (W13_of m c (Pipeline.arrRef spec6 8) (by decide)).symm
  | ⟨9, _⟩ => (W13_out m c).symm
theorem hrest6 (c : Dev nD) : ∀ b, b ∉ Finset.univ.image (Pipeline.arrRef spec6) → Vr (W13 m) c b = Vr (W12 m) c b := fun b hb =>
  W13_of m c b (fun h => hb (by
    rw [List.mem_singleton.mp h]; exact Finset.mem_image.mpr ⟨9, Finset.mem_univ _, rfl⟩))
set_option maxHeartbeats 2000000 in
theorem hF7 (c : Dev nD) (w : Fin cfg7.W) : (pdats m 7 c).arrAt w cfg7.N = Vr (W14 m) c (Pipeline.arrRef spec7 w) :=
  match w with
  | ⟨0, _⟩ => ((pdats m 7 c).arrAt_in 0 rfl _).trans (W14_of m c (Pipeline.arrRef spec7 0) (by decide)).symm
  | ⟨1, _⟩ => ((pdats m 7 c).arrAt_in 1 rfl _).trans (W14_of m c (Pipeline.arrRef spec7 1) (by decide)).symm
  | ⟨2, _⟩ => ((pdats m 7 c).arrAt_in 2 rfl _).trans (W14_of m c (Pipeline.arrRef spec7 2) (by decide)).symm
  | ⟨3, _⟩ => (W14_out0 m c).symm
  | ⟨4, _⟩ => (W14_out1 m c).symm
theorem hrest7 (c : Dev nD) : ∀ b, b ∉ Finset.univ.image (Pipeline.arrRef spec7) → Vr (W14 m) c b = Vr (W13 m) c b := fun b hb =>
  W14_of m c b (fun h => hb (by
    rcases List.mem_cons.mp h with h | h
    · rw [h]; exact Finset.mem_image.mpr ⟨3, Finset.mem_univ _, rfl⟩
    · rw [List.mem_singleton.mp h]; exact Finset.mem_image.mpr ⟨4, Finset.mem_univ _, rfl⟩))
set_option maxHeartbeats 2000000 in
theorem hF8 (c : Dev nD) (w : Fin cfg8.W) : (pdats m 8 c).arrAt w cfg8.N = Vr (W16 m) c (Pipeline.arrRef spec8 w) :=
  match w with
  | ⟨0, _⟩ => ((pdats m 8 c).arrAt_in 0 rfl _).trans (W16_of m c (Pipeline.arrRef spec8 0) (by decide)).symm
  | ⟨1, _⟩ => ((pdats m 8 c).arrAt_in 1 rfl _).trans (W16_of m c (Pipeline.arrRef spec8 1) (by decide)).symm
  | ⟨2, _⟩ => ((pdats m 8 c).arrAt_in 2 rfl _).trans (W16_of m c (Pipeline.arrRef spec8 2) (by decide)).symm
  | ⟨3, _⟩ => ((pdats m 8 c).arrAt_in 3 rfl _).trans (W16_of m c (Pipeline.arrRef spec8 3) (by decide)).symm
  | ⟨4, _⟩ => ((pdats m 8 c).arrAt_in 4 rfl _).trans (W16_of m c (Pipeline.arrRef spec8 4) (by decide)).symm
  | ⟨5, _⟩ => ((pdats m 8 c).arrAt_in 5 rfl _).trans (W16_of m c (Pipeline.arrRef spec8 5) (by decide)).symm
  | ⟨6, _⟩ => ((pdats m 8 c).arrAt_in 6 rfl _).trans (W16_of m c (Pipeline.arrRef spec8 6) (by decide)).symm
  | ⟨7, _⟩ => ((pdats m 8 c).arrAt_in 7 rfl _).trans (W16_of m c (Pipeline.arrRef spec8 7) (by decide)).symm
  | ⟨8, _⟩ => ((pdats m 8 c).arrAt_in 8 rfl _).trans (W16_of m c (Pipeline.arrRef spec8 8) (by decide)).symm
  | ⟨9, _⟩ => (W16_out m c).symm
theorem hrest8 (c : Dev nD) : ∀ b, b ∉ Finset.univ.image (Pipeline.arrRef spec8) → Vr (W16 m) c b = Vr (W15 m) c b := fun b hb =>
  W16_of m c b (fun h => hb (by
    rw [List.mem_singleton.mp h]; exact Finset.mem_image.mpr ⟨9, Finset.mem_univ _, rfl⟩))
set_option maxHeartbeats 2000000 in
theorem hF9 (c : Dev nD) (w : Fin cfg9.W) : (pdats m 9 c).arrAt w cfg9.N = Vr (W17 m) c (Pipeline.arrRef spec9 w) :=
  match w with
  | ⟨0, _⟩ => ((pdats m 9 c).arrAt_in 0 rfl _).trans (W17_of m c (Pipeline.arrRef spec9 0) (by decide)).symm
  | ⟨1, _⟩ => ((pdats m 9 c).arrAt_in 1 rfl _).trans (W17_of m c (Pipeline.arrRef spec9 1) (by decide)).symm
  | ⟨2, _⟩ => ((pdats m 9 c).arrAt_in 2 rfl _).trans (W17_of m c (Pipeline.arrRef spec9 2) (by decide)).symm
  | ⟨3, _⟩ => (W17_out m c).symm
theorem hrest9 (c : Dev nD) : ∀ b, b ∉ Finset.univ.image (Pipeline.arrRef spec9) → Vr (W17 m) c b = Vr (W16 m) c b := fun b hb =>
  W17_of m c b (fun h => hb (by
    rw [List.mem_singleton.mp h]; exact Finset.mem_image.mpr ⟨3, Finset.mem_univ _, rfl⟩))

end Cert.KernelIdeal.Gen

end
-- ==== Proof.KI.Reg0.lean ====
/-
  Region 0 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KI.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered with every unscoped buffer at the contents before it, left with them at the
    contents after it. Its arrays are split out of the unscoped buffers and put back at what the pipeline leaves; the
    generator register passes through the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr (W3 m)) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (Vr (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr (W3 m) c) (Vr (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg1.lean ====
/-
  Region 1 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KI.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state: entered with every unscoped buffer at the contents before it, left with them at the
    contents after it. Its arrays are split out of the unscoped buffers and put back at what the pipeline leaves; the
    generator register passes through the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr (W4 m)) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (Vr (W4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr (W4 m) c) (Vr (W5 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Shared.lean ====
/-
  The four layer-update regions read one array through two input windows. The launch deals a core's unscoped buffers
  whole, one points-to per distinct buffer at the full share, while a pipeline's arrays are one points-to per window at
  the window's share. With two windows on one buffer the two readings agree once that buffer's full share is cut in its
  left and right halves, one per window: splitting a points-to along complementary shares keeps its contents, and two
  halves at the same contents join back. This file proves that equality for any pipeline with exactly one such pair of
  windows, derives from it how a region's arrays leave the core's unscoped buffers at entry and return to them at exit,
  and instantiates both for regions 2, 4, 6 and 8.
-/
import proofs.«121059_j18107582120780_2_alg».proof.Proof.Gen.KernelIdeal.Launch
import proofs.«121059_j18107582120780_2_alg».proof.Proof.KI.Shares
import Idealize.ShloMosaic.Lib.Pipeline.Regions
import Idealize.ShloMosaic.Lib.Pipeline.RegionsLoop

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-! ## Two input windows on one array

When two input windows `w₀ ≠ w₁` of a pipeline read the same array and the windows' arrays are otherwise pairwise
distinct buffers, the distinct buffers behind the arrays, each whole at the full share, are the pipeline's `arrays`
once the shared buffer's full share is cut in its two halves: `w₀` holds the left half, `w₁` the right half, every
other window its array at the full share. Both readings name the same contents of the shared buffer, so the two
halves join back to the full share; the statement is an equality of propositions. -/

section SharedArray

/-- Rotating the second of three separated propositions to the front. -/
theorem sep_rotate {M : Type} [URA M] (A B R : sProp M) : iprop((A ∗ B) ∗ R) = iprop(B ∗ A ∗ R) := by
  have e₁ : iprop((A ∗ B) ∗ R) ⊢ iprop(B ∗ A ∗ R) := by
    iintro ⟨⟨HA, HB⟩, HR⟩
    isplitl [HB]; · iexact HB
    isplitl [HA]; · iexact HA
    iexact HR
  have e₂ : iprop(B ∗ A ∗ R) ⊢ iprop((A ∗ B) ∗ R) := by
    iintro ⟨HB, HA, HR⟩
    isplitr [HR]
    · isplitl [HA]; · iexact HA
      iexact HB
    iexact HR
  exact BI.equiv_iff.mp ⟨e₁, e₂⟩

variable {cfg : Cfg sig Λ₀} {c : Dev nD} (dat : Dat τ (Elt F) Unit ℕ (UR sig nD τ) ℕ cfg c)
  (w₀ w₁ : Fin cfg.W) (hne : w₀ ≠ w₁)
  (hsame : Pipeline.arrRef cfg.spec w₁ = Pipeline.arrRef cfg.spec w₀)
  (hinj : ∀ w w', w ≠ w₁ → w' ≠ w₁ → Pipeline.arrRef cfg.spec w = Pipeline.arrRef cfg.spec w' → w = w')
  (harr : ∀ w, (cfg.spec w).arr.IsWhole)
  (h₀ : dat.share w₀ = fullShare.left) (h₁ : dat.share w₁ = fullShare.right)
  (hfull : ∀ w, w ≠ w₀ → w ≠ w₁ → dat.share w = fullShare)

include hne hsame hinj harr h₀ h₁ hfull in
theorem arrBufs_eq_arrays (V : (b : Ref sig .tc) → Buf (Elt F) ((c : Thread nD τ).loc b))
    (G : (w : Fin cfg.W) → Buf (Elt F) ((cfg.win w).arr.view.loc (c : Thread nD τ)))
    (hG : ∀ w, G w = V (Pipeline.arrRef cfg.spec w)) :
    (Pipeline.arrBufs cfg.spec c V : sProp 𝕄) = dat.arrays G := by
  classical
  -- the pipeline's arrays, window by window: each a whole buffer at the window's share
  have hQ : dat.arrays G = bigSep Finset.univ fun w : Fin cfg.W =>
      (((c : Thread nD τ).loc (Pipeline.arrRef cfg.spec w)) ↦{dat.share w} V (Pipeline.arrRef cfg.spec w) : sProp 𝕄) := by
    unfold Dat.arrays
    exact bigSep_congr fun w _ => by rw [(harr w).set_eq_univ, hG w]
  -- the distinct buffers are those of the windows other than `w₁`, which name them one to one
  have himg : Finset.univ.image (Pipeline.arrRef cfg.spec) = (Finset.univ.erase w₁).image (Pipeline.arrRef cfg.spec) := by
    ext b
    constructor
    · intro hb
      obtain ⟨w, -, rfl⟩ := Finset.mem_image.mp hb
      by_cases h : w = w₁
      · exact Finset.mem_image.mpr ⟨w₀, Finset.mem_erase.mpr ⟨hne, Finset.mem_univ _⟩, by rw [h, hsame]⟩
      · exact Finset.mem_image.mpr ⟨w, Finset.mem_erase.mpr ⟨h, Finset.mem_univ _⟩, rfl⟩
    · intro hb
      obtain ⟨w, -, rfl⟩ := Finset.mem_image.mp hb
      exact Finset.mem_image.mpr ⟨w, Finset.mem_univ _, rfl⟩
  have hP : (Pipeline.arrBufs cfg.spec c V : sProp 𝕄) = bigSep (Finset.univ.erase w₁) fun w : Fin cfg.W =>
      (((c : Thread nD τ).loc (Pipeline.arrRef cfg.spec w)) ↦{fullShare} V (Pipeline.arrRef cfg.spec w) : sProp 𝕄) := by
    unfold Pipeline.arrBufs
    rw [himg]
    exact Finset.fold_image fun w hw w' hw' e => hinj w w' (Finset.ne_of_mem_erase hw) (Finset.ne_of_mem_erase hw') e
  have hmem₀ : w₀ ∈ Finset.univ.erase w₁ := Finset.mem_erase.mpr ⟨hne, Finset.mem_univ _⟩
  -- off the two windows every share is the full one
  have hrest : bigSep ((Finset.univ.erase w₁).erase w₀) (fun w : Fin cfg.W =>
        (((c : Thread nD τ).loc (Pipeline.arrRef cfg.spec w)) ↦{dat.share w} V (Pipeline.arrRef cfg.spec w) : sProp 𝕄))
      = bigSep ((Finset.univ.erase w₁).erase w₀) (fun w : Fin cfg.W =>
        (((c : Thread nD τ).loc (Pipeline.arrRef cfg.spec w)) ↦{fullShare} V (Pipeline.arrRef cfg.spec w) : sProp 𝕄)) :=
    bigSep_congr fun w hw => by
      have hw' := Finset.mem_erase.mp hw
      rw [hfull w hw'.1 (Finset.ne_of_mem_erase hw'.2)]
  -- the shared buffer's full share is its two halves, at the same contents
  have hsplit : (((c : Thread nD τ).loc (Pipeline.arrRef cfg.spec w₀)) ↦{fullShare} V (Pipeline.arrRef cfg.spec w₀) : sProp 𝕄)
      = iprop((((c : Thread nD τ).loc (Pipeline.arrRef cfg.spec w₀)) ↦{fullShare.left} V (Pipeline.arrRef cfg.spec w₀))
          ∗ (((c : Thread nD τ).loc (Pipeline.arrRef cfg.spec w₀)) ↦{fullShare.right} V (Pipeline.arrRef cfg.spec w₀))) :=
    BI.equiv_iff.mp ⟨(pointsTo_share (PosShare.mem_left_op_right fullShare)).1, (pointsTo_share (PosShare.mem_left_op_right fullShare)).2⟩
  have hw₁ : (((c : Thread nD τ).loc (Pipeline.arrRef cfg.spec w₁)) ↦{dat.share w₁} V (Pipeline.arrRef cfg.spec w₁) : sProp 𝕄)
      = (((c : Thread nD τ).loc (Pipeline.arrRef cfg.spec w₀)) ↦{fullShare.right} V (Pipeline.arrRef cfg.spec w₀)) := by
    rw [h₁]
    exact congrArg (fun b => (((c : Thread nD τ).loc b) ↦{fullShare.right} V b : sProp 𝕄)) hsame
  rw [hP, hQ, bigSep_erase (Finset.mem_univ w₁), bigSep_erase hmem₀, bigSep_erase hmem₀, hrest, h₀, hw₁, hsplit]
  exact sep_rotate _ _ _

include hne hsame hinj harr h₀ h₁ hfull in
/-- ENTRY, the arrays' part: a core's unscoped buffers at contents `V` are the pipeline's arrays at the proof data's
    entry contents — those read off `V` (`hA`), the shared buffer's full share dealt to the two windows on it — and
    the unscoped rest. -/
theorem arrays_of_unscopedBufs_shared (hunscoped : ∀ w, (Pipeline.arrRef cfg.spec w).isScoped = false)
    (V : (b : Ref sig .tc) → Buf (Elt F) ((c : Thread nD τ).loc b))
    (hA : ∀ w, dat.A w = V (Pipeline.arrRef cfg.spec w)) :
    (unscopedBufs c V : sProp 𝕄) ⊢ iprop(dat.arrays (dat.arrAt · 0) ∗ Pipeline.unscopedRest cfg.spec c V) := by
  rw [Pipeline.unscopedBufs_split₀ (fun _ : Unit => cfg) () hunscoped c V,
    arrBufs_eq_arrays dat w₀ w₁ hne hsame hinj harr h₀ h₁ hfull V (dat.arrAt · 0) hA]

include hne hsame hinj harr h₀ h₁ hfull in
/-- EXIT, the arrays' part: the pipeline's arrays at contents `G` — the two windows on the shared buffer holding the
    same contents of it, so that their halves join — and the unscoped rest at `V` are the core's unscoped buffers at
    any valuation `V'` that has the arrays at `G` and agrees with `V` off them. -/
theorem unscopedBufs_of_arrays_shared (hunscoped : ∀ w, (Pipeline.arrRef cfg.spec w).isScoped = false)
    (V V' : (b : Ref sig .tc) → Buf (Elt F) ((c : Thread nD τ).loc b))
    (G : (w : Fin cfg.W) → Buf (Elt F) ((cfg.win w).arr.view.loc (c : Thread nD τ)))
    (hG : ∀ w, G w = V' (Pipeline.arrRef cfg.spec w))
    (hrest : ∀ b, b ∉ Finset.univ.image (Pipeline.arrRef cfg.spec) → V' b = V b) :
    iprop(dat.arrays G ∗ Pipeline.unscopedRest cfg.spec c V) ⊢ (unscopedBufs c V' : sProp 𝕄) := by
  rw [Pipeline.unscopedBufs_split₀ (fun _ : Unit => cfg) () hunscoped c V',
    arrBufs_eq_arrays dat w₀ w₁ hne hsame hinj harr h₀ h₁ hfull V' G hG]
  refine sep_mono .rfl (Entails.of_eq ?_)
  unfold Pipeline.unscopedRest
  exact bigSep_congr fun b hb => by rw [hrest b (Finset.mem_sdiff.mp hb).2]

end SharedArray

/-! ## Region 2 (custom_call 2): windows 0 and 1 read one array -/

section K2
variable (c : Dev nD) (dat : Dat τ (Elt F) Unit ℕ (UR sig nD τ) ℕ cfg2 c) (hq : dat.q = qsh)

include hq in
theorem share2_0 : dat.share (0 : Fin 10) = fullShare.left := by
  unfold Dat.share; rw [hq]; rfl
include hq in
theorem share2_1 : dat.share (1 : Fin 10) = fullShare.right := by
  unfold Dat.share; rw [hq]; rfl
include hq in
theorem share2_full : ∀ w : Fin 10, w ≠ 0 → w ≠ 1 → dat.share w = fullShare := by
  intro w h0 h1
  unfold Dat.share; rw [hq]
  match w, h0, h1 with
  | 0, h0, _ => exact absurd rfl h0
  | 1, _, h1 => exact absurd rfl h1
  | 2, _, _ => rfl | 3, _, _ => rfl | 4, _, _ => rfl | 5, _, _ => rfl | 6, _, _ => rfl | 7, _, _ => rfl | 8, _, _ => rfl | 9, _, _ => rfl

include hq in
/-- ENTRY of region 2: its arrays, the shared one dealt in halves to windows 0 and 1, out of the core's unscoped buffers. -/
theorem arrays_of_unscopedBufs2 (V : (b : Ref sig .tc) → Buf (Elt F) ((c : Thread nD τ).loc b))
    (hA : ∀ w, dat.A w = V (Pipeline.arrRef spec2 w)) :
    (unscopedBufs c V : sProp 𝕄) ⊢ iprop(dat.arrays (dat.arrAt · 0) ∗ Pipeline.unscopedRest spec2 c V) :=
  arrays_of_unscopedBufs_shared dat (0 : Fin 10) (1 : Fin 10) (by decide) (by decide) (by decide) arr_whole2
    (share2_0 c dat hq) (share2_1 c dat hq) (share2_full c dat hq) winFacts₀2.arr_unscoped V hA

include hq in
/-- EXIT of region 2: its arrays back among the core's unscoped buffers, the two halves of the shared one joined. -/
theorem unscopedBufs_of_arrays2 (V V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w))
    (hrest : ∀ b, b ∉ Finset.univ.image (Pipeline.arrRef spec2) → V' b = V b) :
    iprop(dat.arrays G ∗ Pipeline.unscopedRest spec2 c V) ⊢ (unscopedBufs c V' : sProp 𝕄) :=
  unscopedBufs_of_arrays_shared dat (0 : Fin 10) (1 : Fin 10) (by decide) (by decide) (by decide) arr_whole2
    (share2_0 c dat hq) (share2_1 c dat hq) (share2_full c dat hq) winFacts₀2.arr_unscoped V V' G hG hrest

end K2

/-! ## Region 4 (custom_call 4): windows 0 and 1 read one array -/

section K4
variable (c : Dev nD) (dat : Dat τ (Elt F) Unit ℕ (UR sig nD τ) ℕ cfg4 c) (hq : dat.q = qsh)

include hq in
theorem share4_0 : dat.share (0 : Fin 10) = fullShare.left := by
  unfold Dat.share; rw [hq]; rfl
include hq in
theorem share4_1 : dat.share (1 : Fin 10) = fullShare.right := by
  unfold Dat.share; rw [hq]; rfl
include hq in
theorem share4_full : ∀ w : Fin 10, w ≠ 0 → w ≠ 1 → dat.share w = fullShare := by
  intro w h0 h1
  unfold Dat.share; rw [hq]
  match w, h0, h1 with
  | 0, h0, _ => exact absurd rfl h0
  | 1, _, h1 => exact absurd rfl h1
  | 2, _, _ => rfl | 3, _, _ => rfl | 4, _, _ => rfl | 5, _, _ => rfl | 6, _, _ => rfl | 7, _, _ => rfl | 8, _, _ => rfl | 9, _, _ => rfl

include hq in
/-- ENTRY of region 4: its arrays, the shared one dealt in halves to windows 0 and 1, out of the core's unscoped buffers. -/
theorem arrays_of_unscopedBufs4 (V : (b : Ref sig .tc) → Buf (Elt F) ((c : Thread nD τ).loc b))
    (hA : ∀ w, dat.A w = V (Pipeline.arrRef spec4 w)) :
    (unscopedBufs c V : sProp 𝕄) ⊢ iprop(dat.arrays (dat.arrAt · 0) ∗ Pipeline.unscopedRest spec4 c V) :=
  arrays_of_unscopedBufs_shared dat (0 : Fin 10) (1 : Fin 10) (by decide) (by decide) (by decide) arr_whole4
    (share4_0 c dat hq) (share4_1 c dat hq) (share4_full c dat hq) winFacts₀4.arr_unscoped V hA

include hq in
/-- EXIT of region 4: its arrays back among the core's unscoped buffers, the two halves of the shared one joined. -/
theorem unscopedBufs_of_arrays4 (V V' : (b : Ref sig .tc) → Buf (Elt F) ((c : Thread nD τ).loc b))
    (G : (w : Fin cfg4.W) → Buf (Elt F) ((cfg4.win w).arr.view.loc (c : Thread nD τ)))
    (hG : ∀ w, G w = V' (Pipeline.arrRef spec4 w))
    (hrest : ∀ b, b ∉ Finset.univ.image (Pipeline.arrRef spec4) → V' b = V b) :
    iprop(dat.arrays G ∗ Pipeline.unscopedRest spec4 c V) ⊢ (unscopedBufs c V' : sProp 𝕄) :=
  unscopedBufs_of_arrays_shared dat (0 : Fin 10) (1 : Fin 10) (by decide) (by decide) (by decide) arr_whole4
    (share4_0 c dat hq) (share4_1 c dat hq) (share4_full c dat hq) winFacts₀4.arr_unscoped V V' G hG hrest

end K4

/-! ## Region 6 (custom_call 6): windows 0 and 1 read one array -/

section K6
variable (c : Dev nD) (dat : Dat τ (Elt F) Unit ℕ (UR sig nD τ) ℕ cfg6 c) (hq : dat.q = qsh)

include hq in
theorem share6_0 : dat.share (0 : Fin 10) = fullShare.left := by
  unfold Dat.share; rw [hq]; rfl
include hq in
theorem share6_1 : dat.share (1 : Fin 10) = fullShare.right := by
  unfold Dat.share; rw [hq]; rfl
include hq in
theorem share6_full : ∀ w : Fin 10, w ≠ 0 → w ≠ 1 → dat.share w = fullShare := by
  intro w h0 h1
  unfold Dat.share; rw [hq]
  match w, h0, h1 with
  | 0, h0, _ => exact absurd rfl h0
  | 1, _, h1 => exact absurd rfl h1
  | 2, _, _ => rfl | 3, _, _ => rfl | 4, _, _ => rfl | 5, _, _ => rfl | 6, _, _ => rfl | 7, _, _ => rfl | 8, _, _ => rfl | 9, _, _ => rfl

include hq in
/-- ENTRY of region 6: its arrays, the shared one dealt in halves to windows 0 and 1, out of the core's unscoped buffers. -/
theorem arrays_of_unscopedBufs6 (V : (b : Ref sig .tc) → Buf (Elt F) ((c : Thread nD τ).loc b))
    (hA : ∀ w, dat.A w = V (Pipeline.arrRef spec6 w)) :
    (unscopedBufs c V : sProp 𝕄) ⊢ iprop(dat.arrays (dat.arrAt · 0) ∗ Pipeline.unscopedRest spec6 c V) :=
  arrays_of_unscopedBufs_shared dat (0 : Fin 10) (1 : Fin 10) (by decide) (by decide) (by decide) arr_whole6
    (share6_0 c dat hq) (share6_1 c dat hq) (share6_full c dat hq) winFacts₀6.arr_unscoped V hA

include hq in
/-- EXIT of region 6: its arrays back among the core's unscoped buffers, the two halves of the shared one joined. -/
theorem unscopedBufs_of_arrays6 (V V' : (b : Ref sig .tc) → Buf (Elt F) ((c : Thread nD τ).loc b))
    (G : (w : Fin cfg6.W) → Buf (Elt F) ((cfg6.win w).arr.view.loc (c : Thread nD τ)))
    (hG : ∀ w, G w = V' (Pipeline.arrRef spec6 w))
    (hrest : ∀ b, b ∉ Finset.univ.image (Pipeline.arrRef spec6) → V' b = V b) :
    iprop(dat.arrays G ∗ Pipeline.unscopedRest spec6 c V) ⊢ (unscopedBufs c V' : sProp 𝕄) :=
  unscopedBufs_of_arrays_shared dat (0 : Fin 10) (1 : Fin 10) (by decide) (by decide) (by decide) arr_whole6
    (share6_0 c dat hq) (share6_1 c dat hq) (share6_full c dat hq) winFacts₀6.arr_unscoped V V' G hG hrest

end K6

/-! ## Region 8 (custom_call 8): windows 0 and 1 read one array -/

section K8
variable (c : Dev nD) (dat : Dat τ (Elt F) Unit ℕ (UR sig nD τ) ℕ cfg8 c) (hq : dat.q = qsh)

include hq in
theorem share8_0 : dat.share (0 : Fin 10) = fullShare.left := by
  unfold Dat.share; rw [hq]; rfl
include hq in
theorem share8_1 : dat.share (1 : Fin 10) = fullShare.right := by
  unfold Dat.share; rw [hq]; rfl
include hq in
theorem share8_full : ∀ w : Fin 10, w ≠ 0 → w ≠ 1 → dat.share w = fullShare := by
  intro w h0 h1
  unfold Dat.share; rw [hq]
  match w, h0, h1 with
  | 0, h0, _ => exact absurd rfl h0
  | 1, _, h1 => exact absurd rfl h1
  | 2, _, _ => rfl | 3, _, _ => rfl | 4, _, _ => rfl | 5, _, _ => rfl | 6, _, _ => rfl | 7, _, _ => rfl | 8, _, _ => rfl | 9, _, _ => rfl

include hq in
/-- ENTRY of region 8: its arrays, the shared one dealt in halves to windows 0 and 1, out of the core's unscoped buffers. -/
theorem arrays_of_unscopedBufs8 (V : (b : Ref sig .tc) → Buf (Elt F) ((c : Thread nD τ).loc b))
    (hA : ∀ w, dat.A w = V (Pipeline.arrRef spec8 w)) :
    (unscopedBufs c V : sProp 𝕄) ⊢ iprop(dat.arrays (dat.arrAt · 0) ∗ Pipeline.unscopedRest spec8 c V) :=
  arrays_of_unscopedBufs_shared dat (0 : Fin 10) (1 : Fin 10) (by decide) (by decide) (by decide) arr_whole8
    (share8_0 c dat hq) (share8_1 c dat hq) (share8_full c dat hq) winFacts₀8.arr_unscoped V hA

include hq in
/-- EXIT of region 8: its arrays back among the core's unscoped buffers, the two halves of the shared one joined. -/
theorem unscopedBufs_of_arrays8 (V V' : (b : Ref sig .tc) → Buf (Elt F) ((c : Thread nD τ).loc b))
    (G : (w : Fin cfg8.W) → Buf (Elt F) ((cfg8.win w).arr.view.loc (c : Thread nD τ)))
    (hG : ∀ w, G w = V' (Pipeline.arrRef spec8 w))
    (hrest : ∀ b, b ∉ Finset.univ.image (Pipeline.arrRef spec8) → V' b = V b) :
    iprop(dat.arrays G ∗ Pipeline.unscopedRest spec8 c V) ⊢ (unscopedBufs c V' : sProp 𝕄) :=
  unscopedBufs_of_arrays_shared dat (0 : Fin 10) (1 : Fin 10) (by decide) (by decide) (by decide) arr_whole8
    (share8_0 c dat hq) (share8_1 c dat hq) (share8_full c dat hq) winFacts₀8.arr_unscoped V V' G hG hrest

end K8

end Cert.KernelIdeal.Gen
-- ==== Proof.KI.Reg2.lean ====
/-
  Region 2 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KI.Chain
import proofs.«121059_j18107582120780_2_alg».proof.Proof.KI.Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state: entered with every unscoped buffer at the contents before it, left with them at the
    contents after it. Its arrays are split out of the unscoped buffers and put back at what the pipeline leaves; the
    generator register passes through the invariant; nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vr (W6 m)) qsh c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (Vr (W6 m) c)
  hentry c := by
    rw [Pipeline.ownSems0_none]
    have hsplit := arrays_of_unscopedBufs2 c (pdats m 2 c) rfl (Vr (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 c (pdats m 2 c) rfl (Vr (W6 m) c) (Vr (W7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg3.lean ====
/-
  Region 3 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KI.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state: entered with every unscoped buffer at the contents before it, left with them at the
    contents after it. Its arrays are split out of the unscoped buffers and put back at what the pipeline leaves; the
    generator register passes through the invariant; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr (W7 m)) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (Vr (W7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vr (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vr (W7 m) c) (Vr (W8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg4.lean ====
/-
  Region 4 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KI.Chain
import proofs.«121059_j18107582120780_2_alg».proof.Proof.KI.Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state: entered with every unscoped buffer at the contents before it, left with them at the
    contents after it. Its arrays are split out of the unscoped buffers and put back at what the pipeline leaves; the
    generator register passes through the invariant; nothing is owed; the kernel has no semaphore of its own. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (Vr (W9 m)) qsh c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (Vr (W9 m) c)
  hentry c := by
    rw [Pipeline.ownSems0_none]
    have hsplit := arrays_of_unscopedBufs4 c (pdats m 4 c) rfl (Vr (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := unscopedBufs_of_arrays4 c (pdats m 4 c) rfl (Vr (W9 m) c) (Vr (W10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg5.lean ====
/-
  Region 5 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KI.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state: entered with every unscoped buffer at the contents before it, left with them at the
    contents after it. Its arrays are split out of the unscoped buffers and put back at what the pipeline leaves; the
    generator register passes through the invariant; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vr (W10 m)) c).loose
  hwaits := Pipeline.hwaits_of_owed_zero _ _ _ _ L lv 5 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec5 c (Vr (W10 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vr (W10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vr (W10 m) c) (Vr (W11 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg6.lean ====
/-
  Region 6 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KI.Chain
import proofs.«121059_j18107582120780_2_alg».proof.Proof.KI.Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 6 over the thread state: entered with every unscoped buffer at the contents before it, left with them at the
    contents after it. Its arrays are split out of the unscoped buffers and put back at what the pipeline leaves; the
    generator register passes through the invariant; nothing is owed; the kernel has no semaphore of its own. -/
def reg6 : Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (Vr (W12 m)) qsh c).loose
  hwaits := Pipeline.hwaits_of_owed_zero _ _ _ _ L lv 6 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec6 c (Vr (W12 m) c)
  hentry c := by
    rw [Pipeline.ownSems0_none]
    have hsplit := arrays_of_unscopedBufs6 c (pdats m 6 c) rfl (Vr (W12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := unscopedBufs_of_arrays6 c (pdats m 6 c) rfl (Vr (W12 m) c) (Vr (W13 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg7.lean ====
/-
  Region 7 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KI.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 7 over the thread state: entered with every unscoped buffer at the contents before it, left with them at the
    contents after it. Its arrays are split out of the unscoped buffers and put back at what the pipeline leaves; the
    generator register passes through the invariant; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vr (W13 m)) c).loose
  hwaits := Pipeline.hwaits_of_owed_zero _ _ _ _ L lv 7 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec7 c (Vr (W13 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vr (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vr (W13 m) c) (Vr (W14 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg8.lean ====
/-
  Region 8 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KI.Chain
import proofs.«121059_j18107582120780_2_alg».proof.Proof.KI.Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8 over the thread state: entered with every unscoped buffer at the contents before it, left with them at the
    contents after it. Its arrays are split out of the unscoped buffers and put back at what the pipeline leaves; the
    generator register passes through the invariant; nothing is owed; the kernel has no semaphore of its own. -/
def reg8 : Pipeline.RegionSeg (pcfgs (F := F)) adm (pdats m) () defs₀ 𝒱₀ L lv 8 where
  win := winFacts₀8
  block_pos := block_pos8
  stage_whole := stage_whole8
  K := PEmpty
  osem k := k.elim
  ho := Pipeline.OwnSemFacts.none _
  hbody c := (body_obligation8 (Vr (W15 m)) qsh c).loose
  hwaits := Pipeline.hwaits_of_owed_zero _ _ _ _ L lv 8 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec8 c (Vr (W15 m) c)
  hentry c := by
    rw [Pipeline.ownSems0_none]
    have hsplit := arrays_of_unscopedBufs8 c (pdats m 8 c) rfl (Vr (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := unscopedBufs_of_arrays8 c (pdats m 8 c) rfl (Vr (W15 m) c) (Vr (W16 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg9.lean ====
/-
  Region 9 of @main as a segment of the run: the thread state it is entered from (every unscoped buffer of the core at the
  contents before the region, the generator register, nothing owed) and the one it leaves, with the four entailments that
  sort the region's arrays out of the unscoped buffers at entry and put them back, at what the pipeline leaves, at exit.
-/
import proofs.«121059_j18107582120780_2_alg».proof.Proof.KI.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 9 over the thread state: entered with every unscoped buffer at the contents before it, left with them at the
    contents after it. Its arrays are split out of the unscoped buffers and put back at what the pipeline leaves; the
    generator register passes through the invariant; nothing is owed; the kernel has no semaphore of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vr (W16 m)) c).loose
  hwaits := Pipeline.hwaits_of_owed_zero _ _ _ _ L lv 9 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec9 c (Vr (W16 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vr (W16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vr (W16 m) c) (Vr (W17 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Run.lean ====
/-
  THE RUN of @main: every weakly fair execution from a memory with zero counters terminates, nothing faulting, and the final
  memory holds every unscoped buffer of every core at the last valuation of the chain (`W17`): the launch contents, each host
  stretch applied, each region's outputs at what its pipeline leaves.  The frame claim (the arguments end as launched) and the
  result's final contents are read off it.  The library's theorem for a program of several regions does the work, from one segment
  per item of @main: the host stretches' (generated) and the ten regions' records.
-/
import proofs.«121059_j18107582120780_2_alg».proof.Proof.KI.Reg0
import proofs.«121059_j18107582120780_2_alg».proof.Proof.KI.Reg1
import proofs.«121059_j18107582120780_2_alg».proof.Proof.KI.Reg2
import proofs.«121059_j18107582120780_2_alg».proof.Proof.KI.Reg3
import proofs.«121059_j18107582120780_2_alg».proof.Proof.KI.Reg4
import proofs.«121059_j18107582120780_2_alg».proof.Proof.KI.Reg5
import proofs.«121059_j18107582120780_2_alg».proof.Proof.KI.Reg6
import proofs.«121059_j18107582120780_2_alg».proof.Proof.KI.Reg7
import proofs.«121059_j18107582120780_2_alg».proof.Proof.KI.Reg8
import proofs.«121059_j18107582120780_2_alg».proof.Proof.KI.Reg9

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four later host stretches as segments, each from the chain's valuation before it. -/
def hseg5 : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W5 m) R
def hseg8 : HostSeg (Ix := Unit) (Name := ℕ) (U := UR sig nD τ) (Lvl := ℕ) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W8 m) R
def hseg11 : HostSeg (Ix := Unit) (Name := ℕ) (U := UR sig nD τ) (Lvl := ℕ) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (W11 m) R
def hseg14 : HostSeg (Ix := Unit) (Name := ℕ) (U := UR sig nD τ) (Lvl := ℕ) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (W14 m) R

/-- What rides beside the buffers ends owing nothing. -/
theorem R_owes (c : Dev nD) : (R c : sProp 𝕄) ⊢ iprop(∃ W, owes (c : Thread nD τ) (0 : CellTallies nD τ sig Unit) W) := by
  iintro ⟨-, HO⟩; iexact HO

/-- @main's seventeen items as segments: the host stretches from the chain's valuations, the regions' records. -/
abbrev allSegs (c : Dev nD) : List (Seg (pcfgs (F := F)) adm (pdats m) () defs₀ 𝒱₀ L lv) :=
  [.host (seg0 m 𝒱₀ L lv (fun _ => R)), .host (seg1 m 𝒱₀ L lv (fun _ => R)), .host (seg2 m 𝒱₀ L lv (fun _ => R)), .region (reg0 m), .region (reg1 m), .host (hseg5 m), .region (reg2 m), .region (reg3 m), .host (hseg8 m), .region (reg4 m), .region (reg5 m), .host (hseg11 m), .region (reg6 m), .region (reg7 m), .host (hseg14 m), .region (reg8 m), .region (reg9 m)]

set_option backward.isDefEq.respectTransparency.types false in
set_option maxHeartbeats 4000000 in
/-- Every execution of @main terminates without a fault, and at the end every unscoped buffer of every core holds the chain's
    last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m c b) := by
  refine Pipeline.θ_run_regions_kit_dev (pcfgs (F := F)) adm (pdats m) () cellOf_inj emb₁ defs₀ 𝒱₀ L lv m ρ main
    (allSegs m)
    (fun c Q => by
      rewrite [main_chain c, Seg.run_eq_chain,
        show (allSegs m c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          Prog.lift (.customCall (Pipeline.entry 7) ()),
          StableHlo.seq hostOps8,
          Prog.lift (.customCall (Pipeline.entry 8) ()),
          Prog.lift (.customCall (Pipeline.entry 9) ()) ] from rfl]
      exact .rfl)
    (fun c => by simp only [allSegs, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (W17 m c))
    (hch := fun c => ⟨.rfl, .rfl, .rfl, .rfl, .rfl, .rfl, (by
        have e := W6_host m c
        show (_ : sProp 𝕄) ⊢ iprop(StableHlo.held (c : Thread nD τ) (Pipeline.ucRefs τ sig) (W6 m c) ∗ R c)
        rw [e]; exact .rfl), .rfl, .rfl, (by
        have e := W9_host m c
        show (_ : sProp 𝕄) ⊢ iprop(StableHlo.held (c : Thread nD τ) (Pipeline.ucRefs τ sig) (W9 m c) ∗ R c)
        rw [e]; exact .rfl), .rfl, .rfl, (by
        have e := W12_host m c
        show (_ : sProp 𝕄) ⊢ iprop(StableHlo.held (c : Thread nD τ) (Pipeline.ucRefs τ sig) (W12 m c) ∗ R c)
        rw [e]; exact .rfl), .rfl, .rfl, (by
        have e := W15_host m c
        show (_ : sProp 𝕄) ⊢ iprop(StableHlo.held (c : Thread nD τ) (Pipeline.ucRefs τ sig) (W15 m c) ∗ R c)
        rw [e]; exact .rfl), .rfl, sep_mono .rfl (R_owes c)⟩)
    (hinit := ?_) (QY := fun c s => ∀ b ∈ Pipeline.ucRefs τ sig, s.mem (((c : Thread nD τ)).1, b) = W17 m c b)
    (hfin := fun c s' => ?_) (hQ := fun _ h => h)
  · -- the launch: the unscoped buffers are held at the launch contents; the generator register and the empty debt ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    imodintro
    iapply (pointsTo_read_all (Pipeline.ucRefs τ sig) (fun b => (((c : Thread nD τ)).1, b)) (W17 m c) s')
    isplitl [Hh] <;> iassumption

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the argument arrays end as launched — no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans ((congrFun (V17_eq m c).symm _).trans (V17_main_arg0 m (outs m) c)),
    (h c _ (mem_uc main_arg1 (by decide))).trans ((congrFun (V17_eq m c).symm _).trans (V17_main_arg1 m (outs m) c)),
    (h c _ (mem_uc main_arg2 (by decide))).trans ((congrFun (V17_eq m c).symm _).trans (V17_main_arg2 m (outs m) c)),
    (h c _ (mem_uc main_arg3 (by decide))).trans ((congrFun (V17_eq m c).symm _).trans (V17_main_arg3 m (outs m) c)),
    (h c _ (mem_uc main_arg4 (by decide))).trans ((congrFun (V17_eq m c).symm _).trans (V17_main_arg4 m (outs m) c)),
    (h c _ (mem_uc main_arg5 (by decide))).trans ((congrFun (V17_eq m c).symm _).trans (V17_main_arg5 m (outs m) c)),
    (h c _ (mem_uc main_arg6 (by decide))).trans ((congrFun (V17_eq m c).symm _).trans (V17_main_arg6 m (outs m) c)),
    (h c _ (mem_uc main_arg7 (by decide))).trans ((congrFun (V17_eq m c).symm _).trans (V17_main_arg7 m (outs m) c)),
    (h c _ (mem_uc main_arg8 (by decide))).trans ((congrFun (V17_eq m c).symm _).trans (V17_main_arg8 m (outs m) c)),
    (h c _ (mem_uc main_arg9 (by decide))).trans ((congrFun (V17_eq m c).symm _).trans (V17_main_arg9 m (outs m) c)),
    (h c _ (mem_uc main_arg10 (by decide))).trans ((congrFun (V17_eq m c).symm _).trans (V17_main_arg10 m (outs m) c))⟩)
    (run_all m ρ)

/-- THE RESULT AND THE FRAME together: the result array ends at what the last region's pipeline leaves in it. -/
theorem run_result : θ_run defs (onTc (τ := τ) (main (F := F))) ⟨m, fun _ => 0, ρ⟩ (fun r => ∀ c : Dev nD,
      r.2.mem ((c.tc : Thread nD τ).loc main_v93) = (dat9 (Vr (W16 m)) c).arrAt 3 cfg9.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v93 (by decide))).trans (W17_out m c),
    (h c _ (mem_uc main_arg0 (by decide))).trans ((congrFun (V17_eq m c).symm _).trans (V17_main_arg0 m (outs m) c)),
    (h c _ (mem_uc main_arg1 (by decide))).trans ((congrFun (V17_eq m c).symm _).trans (V17_main_arg1 m (outs m) c)),
    (h c _ (mem_uc main_arg2 (by decide))).trans ((congrFun (V17_eq m c).symm _).trans (V17_main_arg2 m (outs m) c)),
    (h c _ (mem_uc main_arg3 (by decide))).trans ((congrFun (V17_eq m c).symm _).trans (V17_main_arg3 m (outs m) c)),
    (h c _ (mem_uc main_arg4 (by decide))).trans ((congrFun (V17_eq m c).symm _).trans (V17_main_arg4 m (outs m) c)),
    (h c _ (mem_uc main_arg5 (by decide))).trans ((congrFun (V17_eq m c).symm _).trans (V17_main_arg5 m (outs m) c)),
    (h c _ (mem_uc main_arg6 (by decide))).trans ((congrFun (V17_eq m c).symm _).trans (V17_main_arg6 m (outs m) c)),
    (h c _ (mem_uc main_arg7 (by decide))).trans ((congrFun (V17_eq m c).symm _).trans (V17_main_arg7 m (outs m) c)),
    (h c _ (mem_uc main_arg8 (by decide))).trans ((congrFun (V17_eq m c).symm _).trans (V17_main_arg8 m (outs m) c)),
    (h c _ (mem_uc main_arg9 (by decide))).trans ((congrFun (V17_eq m c).symm _).trans (V17_main_arg9 m (outs m) c)),
    (h c _ (mem_uc main_arg10 (by decide))).trans ((congrFun (V17_eq m c).symm _).trans (V17_main_arg10 m (outs m) c))⟩)
    (run_all m ρ)

end Cert.KernelIdeal.Gen

end
-- ==== Proof.KPayOps.lean ====
/-
  The non-pointwise operations of the kernel bodies, read at an entry (p, q) of a tile.

  A body multiplies a tile of rows by a whole weight matrix (into a zero accumulator), adds a bias row to every row of
  the product, and scales every row by that row's entry of a one-column tile.  At the ideal values the product's entry
  (p, q) is the finite sum over the contracted coordinate k of lhs (p, k) * rhs (k, q); the row broadcast reads the
  bias at q; the column broadcast reads the column at p.
-/
import proofs.«121059_j18107582120780_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KPay

open Cert.KernelIdeal Cert.KernelIdeal.Gen Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The encoder's product: a `[10000, 128]` tile times the `[128, 64]` weights into zero, at `(p, q)`. -/
theorem mm128 (l : FVec Ideal S10000x128 .f32) (r : FVec Ideal S128x64 .f32) (p : Fin 10000) (q : Fin 64) :
    matmul dot_S10000x128_S128x64_S10000x64_1_0_0_1_n_n none l r (constant (F := Ideal) S10000x64 .f32 0x00000000#32) (ix2 p q)
      = ∑ k : Fin 128, l (ix2 p k) * r (ix2 k q) := by
  refine (Ideal.matmul_constant_zero_apply dot_S10000x128_S128x64_S10000x64_1_0_0_1_n_n none l r (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k :=
    funext fun a => Fin.ext (by
      match a with
      | ⟨0, _⟩ => rfl
      | ⟨1, _⟩ => exact (dot_S10000x128_S128x64_S10000x64_1_0_0_1_n_n.lhsIdx_val_of_single rfl _ _).trans hk)
  have er : dot_S10000x128_S128x64_S10000x64_1_0_0_1_n_n.rhsIdx (ix2 p q) ((contrEquiv1 dot_S10000x128_S128x64_S10000x64_1_0_0_1_n_n 128 rfl rfl).symm k) = ix2 k q :=
    funext fun a => Fin.ext (by
      match a with
      | ⟨0, _⟩ => exact (dot_S10000x128_S128x64_S10000x64_1_0_0_1_n_n.rhsIdx_val_of_single rfl _ _).trans hk
      | ⟨1, _⟩ => rfl)
  rw [el, er]

/-- A layer's product: a `[10000, 64]` tile times `[64, 64]` weights into zero, at `(p, q)`. -/
theorem mm64 (l : FVec Ideal S10000x64 .f32) (r : FVec Ideal S64x64 .f32) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => rfl
      | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (dot_S10000x64_S64x64_S10000x64_1_0_0_1_n_n.rhsIdx_val_of_single rfl _ _).trans hk
      | ⟨1, _⟩ => rfl)
  rw [el, er]

/-- The decoder's product: a `[10000, 64]` tile times the `[64, 47]` weights into zero, at `(p, q)`. -/
theorem mm47 (l : FVec Ideal S10000x64 .f32) (r : FVec Ideal S64x47 .f32) (p : Fin 10000) (q : Fin 47) :
    matmul dot_S10000x64_S64x47_S10000x47_1_0_0_1_n_n none l r (constant (F := Ideal) S10000x47 .f32 0x00000000#32) (ix2 p q)
      = ∑ k : Fin 64, l (ix2 p k) * r (ix2 k q) := by
  refine (Ideal.matmul_constant_zero_apply dot_S10000x64_S64x47_S10000x47_1_0_0_1_n_n none l r (ix2 p q)).trans ?_
  rw [← Equiv.sum_comp (contrEquiv1 dot_S10000x64_S64x47_S10000x47_1_0_0_1_n_n 64 rfl rfl).symm]
  refine Finset.sum_congr rfl fun k _ => ?_
  have hk := contrEquiv1_symm_val dot_S10000x64_S64x47_S10000x47_1_0_0_1_n_n 64 rfl rfl k
  have el : dot_S10000x64_S64x47_S10000x47_1_0_0_1_n_n.lhsIdx (ix2 p q) ((contrEquiv1 dot_S10000x64_S64x47_S10000x47_1_0_0_1_n_n 64 rfl rfl).symm k) = ix2 p k :=
    funext fun a => Fin.ext (by
      match a with
      | ⟨0, _⟩ => rfl
      | ⟨1, _⟩ => exact (dot_S10000x64_S64x47_S10000x47_1_0_0_1_n_n.lhsIdx_val_of_single rfl _ _).trans hk)
  have er : dot_S10000x64_S64x47_S10000x47_1_0_0_1_n_n.rhsIdx (ix2 p q) ((contrEquiv1 dot_S10000x64_S64x47_S10000x47_1_0_0_1_n_n 64 rfl rfl).symm k) = ix2 k q :=
    funext fun a => Fin.ext (by
      match a with
      | ⟨0, _⟩ => exact (dot_S10000x64_S64x47_S10000x47_1_0_0_1_n_n.rhsIdx_val_of_single rfl _ _).trans hk
      | ⟨1, _⟩ => rfl)
  rw [el, er]

end Cert.KPay

end
-- ==== Proof.Spec.lean ====
/-
  The network both programs compute, stated once, index by index, on the extended reals.

  A matrix is a function of a rank-2 index, a vector a function of a rank-1 index.  `mm` is the matrix product as a
  finite sum over the contracted coordinate; the encoder, the per-layer update and the decoder are written over it.
  The float literal 1.0 is kept as its word (`one`): it is the same word in both programs and is never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `n0` rows and `n1` columns. -/
abbrev Mat (n0 n1 : Nat) : Type := (⟨2, ![n0, n1]⟩ : Shape).Idx → EReal
/-- A vector of extended reals of length `n`. -/
abbrev Vect (n : Nat) : Type := (⟨1, ![n]⟩ : Shape).Idx → EReal

/-- The float literal 1.0, as its word read at the ideal instance. -/
def one : EReal := Ideal.ofBits .f32 0x3F800000#32

/-- The matrix product: entry (r, c) is the sum over `k` of `X r k * W k c`. -/
def mm {R K M : Nat} (X : Mat R K) (W : Mat K M) : Mat R M :=
  fun i => ∑ k : Fin K, X (ix2 (n0 := R) (n1 := K) (i 0) k) * W (ix2 (n0 := K) (n1 := M) k (i 1))

/-- The encoder: `max (x · w + b) 0`, the bias added along the rows. -/
def enc {R K M : Nat} (x : Mat R K) (w : Mat K M) (b : Vect M) : Mat R M :=
  fun i => max (mm x w i + b (ix1 (n := M) (i 1))) 0

/-- Each row `r` of `h` scaled by `d r`. -/
def scale {R M : Nat} (h : Mat R M) (d : Vect R) : Mat R M :=
  fun i => h i * d (ix1 (n := R) (i 0))

/-- One layer's update from the previous state (`X0` and `X`: the same array in both programs), the projected
    features `h`, the aggregated messages `agg`, the convolution's bias `cb`, the residual branch's weights `rw` and
    bias `rb`, and the gate `co`:
    `X0 * co + 1 * (max ((agg + cb) + (0 - (h · rw + rb))) 0 - 1 * X)`. -/
def comb {R M : Nat} (X0 X h agg : Mat R M) (cb : Vect M) (rw : Mat M M) (rb co : Vect M) : Mat R M :=
  fun i => X0 i * co (ix1 (n := M) (i 1))
    + one * (max ((agg i + cb (ix1 (n := M) (i 1))) + (0 - (mm h rw i + rb (ix1 (n := M) (i 1))))) 0 - one * X i)

/-- The decoder: `X · w + b`. -/
def dec {R K M : Nat} (X : Mat R K) (w : Mat K M) (b : Vect M) : Mat R M :=
  fun i => mm X w i + b (ix1 (n := M) (i 1))

end Cert.Spec

end
-- ==== Proof.KPay.lean ====
/-
  The kernel bodies' arithmetic at an entry.

  Every body stores one value per entry (p, q) of its tile of 10000 rows, as one pure term of the tiles and whole
  arrays it loads.  Read at (p, q), with the tile products as finite sums over the contracted coordinate:
    the encoder stores    max ((∑ k, x (p, k) * w (k, q)) + b q) 0;
    a projection stores   h (p, q) = ∑ k, x (p, k) * w (k, q)   and   h (p, q) * d p;
    a layer update stores x0 (p, q) * co q + 1 * (max ((s (p, q) * d p + cb q) + (0 - ((∑ k, h (p, k) * rw (k, q)) + rb q))) 0 - 1 * x (p, q));
    the decoder stores    (∑ k, x (p, k) * w (k, q)) + b q.
  The literal 1.0 stays the word it is printed as; the zero word is the extended real 0.
-/
import proofs.«121059_j18107582120780_2_alg».proof.Proof.KPayOps
import proofs.«121059_j18107582120780_2_alg».proof.Proof.Spec

noncomputable section

namespace Cert.KPay

open Cert.KernelIdeal Cert.KernelIdeal.Gen Idealize.ShloMosaic Idealize.ShloMosaic.ValueIdx

/-- The encoder's stored value at `(p, q)`: the product with the weights, plus the bias at `q`, clamped below at zero. -/
theorem pay0 (xb : Vec Ideal S10000x128 .f32) (w : Vec Ideal S128x64 .f32) (b2 : Vec Ideal S1x64 .f32)
    (p : Fin 10000) (q : Fin 64) :
    k0_pay1 (F := Ideal) xb w b2 (ix2 p q)
      = max ((∑ k : Fin 128, xb (ix2 p k) * w (ix2 k q)) + b2 (ix2 0 q)) 0 := by
  unfold k0_pay1
  have eb : broadcastTo S10000x64 (shapeCast S1x64 b2 shapeCasts_S1x64_S1x64) broadcasts_S1x64_S10000x64 (ix2 p q)
      = b2 (ix2 0 q) :=
    (congrArg (fun v => broadcastTo S10000x64 v broadcasts_S1x64_S10000x64 (ix2 p q))
      (shapeCast_self b2 shapeCasts_S1x64_S1x64)).trans (broadcastTo_1b_ab_apply b2 broadcasts_S1x64_S10000x64 p q)
  exact congrArg₂ max (congrArg₂ (· + ·) (mm128 xb w p q) eb) Ideal.ofBits_zero_f32

/-- Region 1's first stored value at `(p, q)`: the tile's product with the weights. -/
theorem pay1a (xb : Vec Ideal S10000x64 .f32) (w : Vec Ideal S64x64 .f32) (p : Fin 10000) (q : Fin 64) :
    k1_pay1 (F := Ideal) xb w (ix2 p q) = ∑ k : Fin 64, xb (ix2 p k) * w (ix2 k q) := by
  unfold k1_pay1
  exact (congrArg (fun v => matmul dot_S10000x64_S64x64_S10000x64_1_0_0_1_n_n none v w
      (constant (F := Ideal) S10000x64 .f32 0x00000000#32) (ix2 p q))
    (shapeCast_self xb shapeCasts_S10000x64_S10000x64)).trans (mm64 xb w p q)

/-- Region 1's second stored value at `(p, q)`: the product scaled by the column tile's entry of row `p`. -/
theorem pay1b (xb : Vec Ideal S10000x64 .f32) (w : Vec Ideal S64x64 .f32) (dc : Vec Ideal S10000x1 .f32)
    (p : Fin 10000) (q : Fin 64) :
    k1_pay2 (F := Ideal) xb w dc (ix2 p q) = (∑ k : Fin 64, xb (ix2 p k) * w (ix2 k q)) * dc (ix2 p 0) := by
  unfold k1_pay2
  have ed : broadcastTo S10000x64 (shapeCast S10000x1 dc shapeCasts_S10000x1_S10000x1) broadcasts_S10000x1_S10000x64 (ix2 p q)
      = dc (ix2 p 0) :=
    (congrArg (fun v => broadcastTo S10000x64 v broadcasts_S10000x1_S10000x64 (ix2 p q))
      (shapeCast_self dc shapeCasts_S10000x1_S10000x1)).trans (broadcastTo_a1_ab_apply dc broadcasts_S10000x1_S10000x64 p q)
  exact congrArg₂ (· * ·) (pay1a xb w p q) ed

/-- Region 3's first stored value at `(p, q)`: the tile's product with the weights. -/
theorem pay3a (xb : Vec Ideal S10000x64 .f32) (w : Vec Ideal S64x64 .f32) (p : Fin 10000) (q : Fin 64) :
    k3_pay1 (F := Ideal) xb w (ix2 p q) = ∑ k : Fin 64, xb (ix2 p k) * w (ix2 k q) := by
  unfold k3_pay1
  exact (congrArg (fun v => matmul dot_S10000x64_S64x64_S10000x64_1_0_0_1_n_n none v w
      (constant (F := Ideal) S10000x64 .f32 0x00000000#32) (ix2 p q))
    (shapeCast_self xb shapeCasts_S10000x64_S10000x64)).trans (mm64 xb w p q)

/-- Region 3's second stored value at `(p, q)`: the product scaled by the column tile's entry of row `p`. -/
theorem pay3b (xb : Vec Ideal S10000x64 .f32) (w : Vec Ideal S64x64 .f32) (dc : Vec Ideal S10000x1 .f32)
    (p : Fin 10000) (q : Fin 64) :
    k3_pay2 (F := Ideal) xb w dc (ix2 p q) = (∑ k : Fin 64, xb (ix2 p k) * w (ix2 k q)) * dc (ix2 p 0) := by
  unfold k3_pay2
  have ed : broadcastTo S10000x64 (shapeCast S10000x1 dc shapeCasts_S10000x1_S10000x1) broadcasts_S10000x1_S10000x64 (ix2 p q)
      = dc (ix2 p 0) :=
    (congrArg (fun v => broadcastTo S10000x64 v broadcasts_S10000x1_S10000x64 (ix2 p q))
      (shapeCast_self dc shapeCasts_S10000x1_S10000x1)).trans (broadcastTo_a1_ab_apply dc broadcasts_S10000x1_S10000x64 p q)
  exact congrArg₂ (· * ·) (pay3a xb w p q) ed

/-- Region 5's first stored value at `(p, q)`: the tile's product with the weights. -/
theorem pay5a (xb : Vec Ideal S10000x64 .f32) (w : Vec Ideal S64x64 .f32) (p : Fin 10000) (q : Fin 64) :
    k5_pay1 (F := Ideal) xb w (ix2 p q) = ∑ k : Fin 64, xb (ix2 p k) * w (ix2 k q) := by
  unfold k5_pay1
  exact (congrArg (fun v => matmul dot_S10000x64_S64x64_S10000x64_1_0_0_1_n_n none v w
      (constant (F := Ideal) S10000x64 .f32 0x00000000#32) (ix2 p q))
    (shapeCast_self xb shapeCasts_S10000x64_S10000x64)).trans (mm64 xb w p q)

/-- Region 5's second stored value at `(p, q)`: the product scaled by the column tile's entry of row `p`. -/
theorem pay5b (xb : Vec Ideal S10000x64 .f32) (w : Vec Ideal S64x64 .f32) (dc : Vec Ideal S10000x1 .f32)
    (p : Fin 10000) (q : Fin 64) :
    k5_pay2 (F := Ideal) xb w dc (ix2 p q) = (∑ k : Fin 64, xb (ix2 p k) * w (ix2 k q)) * dc (ix2 p 0) := by
  unfold k5_pay2
  have ed : broadcastTo S10000x64 (shapeCast S10000x1 dc shapeCasts_S10000x1_S10000x1) broadcasts_S10000x1_S10000x64 (ix2 p q)
      = dc (ix2 p 0) :=
    (congrArg (fun v => broadcastTo S10000x64 v broadcasts_S10000x1_S10000x64 (ix2 p q))
      (shapeCast_self dc shapeCasts_S10000x1_S10000x1)).trans (broadcastTo_a1_ab_apply dc broadcasts_S10000x1_S10000x64 p q)
  exact congrArg₂ (· * ·) (pay5a xb w p q) ed

/-- Region 7's first stored value at `(p, q)`: the tile's product with the weights. -/
theorem pay7a (xb : Vec Ideal S10000x64 .f32) (w : Vec Ideal S64x64 .f32) (p : Fin 10000) (q : Fin 64) :
    k7_pay1 (F := Ideal) xb w (ix2 p q) = ∑ k : Fin 64, xb (ix2 p k) * w (ix2 k q) := by
  unfold k7_pay1
  exact (congrArg (fun v => matmul dot_S10000x64_S64x64_S10000x64_1_0_0_1_n_n none v w
      (constant (F := Ideal) S10000x64 .f32 0x00000000#32) (ix2 p q))
    (shapeCast_self xb shapeCasts_S10000x64_S10000x64)).trans (mm64 xb w p q)

/-- Region 7's second stored value at `(p, q)`: the product scaled by the column tile's entry of row `p`. -/
theorem pay7b (xb : Vec Ideal S10000x64 .f32) (w : Vec Ideal S64x64 .f32) (dc : Vec Ideal S10000x1 .f32)
    (p : Fin 10000) (q : Fin 64) :
    k7_pay2 (F := Ideal) xb w dc (ix2 p q) = (∑ k : Fin 64, xb (ix2 p k) * w (ix2 k q)) * dc (ix2 p 0) := by
  unfold k7_pay2
  have ed : broadcastTo S10000x64 (shapeCast S10000x1 dc shapeCasts_S10000x1_S10000x1) broadcasts_S10000x1_S10000x64 (ix2 p q)
      = dc (ix2 p 0) :=
    (congrArg (fun v => broadcastTo S10000x64 v broadcasts_S10000x1_S10000x64 (ix2 p q))
      (shapeCast_self dc shapeCasts_S10000x1_S10000x1)).trans (broadcastTo_a1_ab_apply dc broadcasts_S10000x1_S10000x64 p q)
  exact congrArg₂ (· * ·) (pay7a xb w p q) ed

/-- Region 2's stored value at `(p, q)`: the gated previous state plus one times (the clamped sum of the aggregate
    scaled by the column entry of row `p` plus the convolution's bias, and zero minus the residual branch) minus
    one times the state). -/
theorem pay2 (x0b : Vec Ideal S10000x64 .f32) (cob : Vec Ideal S1x64 .f32) (csb : Vec Ideal S10000x64 .f32)
    (dc : Vec Ideal S10000x1 .f32) (cb : Vec Ideal S1x64 .f32) (hb : Vec Ideal S10000x64 .f32)
    (rw : Vec Ideal S64x64 .f32) (rb : Vec Ideal S1x64 .f32) (xb : Vec Ideal S10000x64 .f32)
    (p : Fin 10000) (q : Fin 64) :
    k2_pay1 (F := Ideal) (k2_pay2 (F := Ideal) x0b cob) (k2_pay3 (F := Ideal) csb dc cb hb rw rb xb) (ix2 p q)
      = x0b (ix2 p q) * cob (ix2 0 q)
        + Cert.Spec.one * (max ((csb (ix2 p q) * dc (ix2 p 0) + cb (ix2 0 q))
            + (0 - ((∑ k : Fin 64, hb (ix2 p k) * rw (ix2 k q)) + rb (ix2 0 q)))) 0 - Cert.Spec.one * xb (ix2 p q)) := by
  unfold k2_pay1 k2_pay2 k2_pay3 Cert.Spec.one
  have row : ∀ v : Vec Ideal S1x64 .f32,
      broadcastTo S10000x64 (shapeCast S1x64 v shapeCasts_S1x64_S1x64) broadcasts_S1x64_S10000x64 (ix2 p q) = v (ix2 0 q) :=
    fun v => (congrArg (fun u => broadcastTo S10000x64 u broadcasts_S1x64_S10000x64 (ix2 p q))
      (shapeCast_self v shapeCasts_S1x64_S1x64)).trans (broadcastTo_1b_ab_apply v broadcasts_S1x64_S10000x64 p q)
  have ed : broadcastTo S10000x64 (shapeCast S10000x1 dc shapeCasts_S10000x1_S10000x1) broadcasts_S10000x1_S10000x64 (ix2 p q)
      = dc (ix2 p 0) :=
    (congrArg (fun v => broadcastTo S10000x64 v broadcasts_S10000x1_S10000x64 (ix2 p q))
      (shapeCast_self dc shapeCasts_S10000x1_S10000x1)).trans (broadcastTo_a1_ab_apply dc broadcasts_S10000x1_S10000x64 p q)
  have same : ∀ v : Vec Ideal S10000x64 .f32, shapeCast S10000x64 v shapeCasts_S10000x64_S10000x64 (ix2 p q) = v (ix2 p q) :=
    fun v => congrFun (shapeCast_self v shapeCasts_S10000x64_S10000x64) (ix2 p q)
  have em : matmul dot_S10000x64_S64x64_S10000x64_1_0_0_1_n_n none (shapeCast S10000x64 hb shapeCasts_S10000x64_S10000x64) rw
      (constant (F := Ideal) S10000x64 .f32 0x00000000#32) (ix2 p q) = ∑ k : Fin 64, hb (ix2 p k) * rw (ix2 k q) :=
    (congrArg (fun v => matmul dot_S10000x64_S64x64_S10000x64_1_0_0_1_n_n none v rw
        (constant (F := Ideal) S10000x64 .f32 0x00000000#32) (ix2 p q))
      (shapeCast_self hb shapeCasts_S10000x64_S10000x64)).trans (mm64 hb rw p q)
  have z : (Ideal.ofBits .f32 0x00000000#32 : EReal) = 0 := Ideal.ofBits_zero_f32
  exact congrArg₂ (· + ·)
    (congrArg₂ (· * ·) (same x0b) (row cob))
    (congrArg (Ideal.ofBits .f32 0x3F800000#32 * ·)
      (congrArg₂ (· - ·)
        (congrArg₂ max
          (congrArg₂ (· + ·)
            (congrArg₂ (· + ·) (congrArg₂ (· * ·) (same csb) ed) (row cb))
            (congrArg₂ (· - ·) z (congrArg₂ (· + ·) em (row rb))))
          z)
        (congrArg (Ideal.ofBits .f32 0x3F800000#32 * ·) (same xb))))

/-- Region 4's stored value at `(p, q)`: the gated previous state plus one times (the clamped sum of the aggregate
    scaled by the column entry of row `p` plus the convolution's bias, and zero minus the residual branch) minus
    one times the state). -/
theorem pay4 (x0b : Vec Ideal S10000x64 .f32) (cob : Vec Ideal S1x64 .f32) (csb : Vec Ideal S10000x64 .f32)
    (dc : Vec Ideal S10000x1 .f32) (cb : Vec Ideal S1x64 .f32) (hb : Vec Ideal S10000x64 .f32)
    (rw : Vec Ideal S64x64 .f32) (rb : Vec Ideal S1x64 .f32) (xb : Vec Ideal S10000x64 .f32)
    (p : Fin 10000) (q : Fin 64) :
    k4_pay1 (F := Ideal) (k4_pay2 (F := Ideal) x0b cob) (k4_pay3 (F := Ideal) csb dc cb hb rw rb xb) (ix2 p q)
      = x0b (ix2 p q) * cob (ix2 0 q)
        + Cert.Spec.one * (max ((csb (ix2 p q) * dc (ix2 p 0) + cb (ix2 0 q))
            + (0 - ((∑ k : Fin 64, hb (ix2 p k) * rw (ix2 k q)) + rb (ix2 0 q)))) 0 - Cert.Spec.one * xb (ix2 p q)) := by
  unfold k4_pay1 k4_pay2 k4_pay3 Cert.Spec.one
  have row : ∀ v : Vec Ideal S1x64 .f32,
      broadcastTo S10000x64 (shapeCast S1x64 v shapeCasts_S1x64_S1x64) broadcasts_S1x64_S10000x64 (ix2 p q) = v (ix2 0 q) :=
    fun v => (congrArg (fun u => broadcastTo S10000x64 u broadcasts_S1x64_S10000x64 (ix2 p q))
      (shapeCast_self v shapeCasts_S1x64_S1x64)).trans (broadcastTo_1b_ab_apply v broadcasts_S1x64_S10000x64 p q)
  have ed : broadcastTo S10000x64 (shapeCast S10000x1 dc shapeCasts_S10000x1_S10000x1) broadcasts_S10000x1_S10000x64 (ix2 p q)
      = dc (ix2 p 0) :=
    (congrArg (fun v => broadcastTo S10000x64 v broadcasts_S10000x1_S10000x64 (ix2 p q))
      (shapeCast_self dc shapeCasts_S10000x1_S10000x1)).trans (broadcastTo_a1_ab_apply dc broadcasts_S10000x1_S10000x64 p q)
  have same : ∀ v : Vec Ideal S10000x64 .f32, shapeCast S10000x64 v shapeCasts_S10000x64_S10000x64 (ix2 p q) = v (ix2 p q) :=
    fun v => congrFun (shapeCast_self v shapeCasts_S10000x64_S10000x64) (ix2 p q)
  have em : matmul dot_S10000x64_S64x64_S10000x64_1_0_0_1_n_n none (shapeCast S10000x64 hb shapeCasts_S10000x64_S10000x64) rw
      (constant (F := Ideal) S10000x64 .f32 0x00000000#32) (ix2 p q) = ∑ k : Fin 64, hb (ix2 p k) * rw (ix2 k q) :=
    (congrArg (fun v => matmul dot_S10000x64_S64x64_S10000x64_1_0_0_1_n_n none v rw
        (constant (F := Ideal) S10000x64 .f32 0x00000000#32) (ix2 p q))
      (shapeCast_self hb shapeCasts_S10000x64_S10000x64)).trans (mm64 hb rw p q)
  have z : (Ideal.ofBits .f32 0x00000000#32 : EReal) = 0 := Ideal.ofBits_zero_f32
  exact congrArg₂ (· + ·)
    (congrArg₂ (· * ·) (same x0b) (row cob))
    (congrArg (Ideal.ofBits .f32 0x3F800000#32 * ·)
      (congrArg₂ (· - ·)
        (congrArg₂ max
          (congrArg₂ (· + ·)
            (congrArg₂ (· + ·) (congrArg₂ (· * ·) (same csb) ed) (row cb))
            (congrArg₂ (· - ·) z (congrArg₂ (· + ·) em (row rb))))
          z)
        (congrArg (Ideal.ofBits .f32 0x3F800000#32 * ·) (same xb))))

/-- Region 6's stored value at `(p, q)`: the gated previous state plus one times (the clamped sum of the aggregate
    scaled by the column entry of row `p` plus the convolution's bias, and zero minus the residual branch) minus
    one times the state). -/
theorem pay6 (x0b : Vec Ideal S10000x64 .f32) (cob : Vec Ideal S1x64 .f32) (csb : Vec Ideal S10000x64 .f32)
    (dc : Vec Ideal S10000x1 .f32) (cb : Vec Ideal S1x64 .f32) (hb : Vec Ideal S10000x64 .f32)
    (rw : Vec Ideal S64x64 .f32) (rb : Vec Ideal S1x64 .f32) (xb : Vec Ideal S10000x64 .f32)
    (p : Fin 10000) (q : Fin 64) :
    k6_pay1 (F := Ideal) (k6_pay2 (F := Ideal) x0b cob) (k6_pay3 (F := Ideal) csb dc cb hb rw rb xb) (ix2 p q)
      = x0b (ix2 p q) * cob (ix2 0 q)
        + Cert.Spec.one * (max ((csb (ix2 p q) * dc (ix2 p 0) + cb (ix2 0 q))
            + (0 - ((∑ k : Fin 64, hb (ix2 p k) * rw (ix2 k q)) + rb (ix2 0 q)))) 0 - Cert.Spec.one * xb (ix2 p q)) := by
  unfold k6_pay1 k6_pay2 k6_pay3 Cert.Spec.one
  have row : ∀ v : Vec Ideal S1x64 .f32,
      broadcastTo S10000x64 (shapeCast S1x64 v shapeCasts_S1x64_S1x64) broadcasts_S1x64_S10000x64 (ix2 p q) = v (ix2 0 q) :=
    fun v => (congrArg (fun u => broadcastTo S10000x64 u broadcasts_S1x64_S10000x64 (ix2 p q))
      (shapeCast_self v shapeCasts_S1x64_S1x64)).trans (broadcastTo_1b_ab_apply v broadcasts_S1x64_S10000x64 p q)
  have ed : broadcastTo S10000x64 (shapeCast S10000x1 dc shapeCasts_S10000x1_S10000x1) broadcasts_S10000x1_S10000x64 (ix2 p q)
      = dc (ix2 p 0) :=
    (congrArg (fun v => broadcastTo S10000x64 v broadcasts_S10000x1_S10000x64 (ix2 p q))
      (shapeCast_self dc shapeCasts_S10000x1_S10000x1)).trans (broadcastTo_a1_ab_apply dc broadcasts_S10000x1_S10000x64 p q)
  have same : ∀ v : Vec Ideal S10000x64 .f32, shapeCast S10000x64 v shapeCasts_S10000x64_S10000x64 (ix2 p q) = v (ix2 p q) :=
    fun v => congrFun (shapeCast_self v shapeCasts_S10000x64_S10000x64) (ix2 p q)
  have em : matmul dot_S10000x64_S64x64_S10000x64_1_0_0_1_n_n none (shapeCast S10000x64 hb shapeCasts_S10000x64_S10000x64) rw
      (constant (F := Ideal) S10000x64 .f32 0x00000000#32) (ix2 p q) = ∑ k : Fin 64, hb (ix2 p k) * rw (ix2 k q) :=
    (congrArg (fun v => matmul dot_S10000x64_S64x64_S10000x64_1_0_0_1_n_n none v rw
        (constant (F := Ideal) S10000x64 .f32 0x00000000#32) (ix2 p q))
      (shapeCast_self hb shapeCasts_S10000x64_S10000x64)).trans (mm64 hb rw p q)
  have z : (Ideal.ofBits .f32 0x00000000#32 : EReal) = 0 := Ideal.ofBits_zero_f32
  exact congrArg₂ (· + ·)
    (congrArg₂ (· * ·) (same x0b) (row cob))
    (congrArg (Ideal.ofBits .f32 0x3F800000#32 * ·)
      (congrArg₂ (· - ·)
        (congrArg₂ max
          (congrArg₂ (· + ·)
            (congrArg₂ (· + ·) (congrArg₂ (· * ·) (same csb) ed) (row cb))
            (congrArg₂ (· - ·) z (congrArg₂ (· + ·) em (row rb))))
          z)
        (congrArg (Ideal.ofBits .f32 0x3F800000#32 * ·) (same xb))))

/-- Region 8's stored value at `(p, q)`: the gated previous state plus one times (the clamped sum of the aggregate
    scaled by the column entry of row `p` plus the convolution's bias, and zero minus the residual branch) minus
    one times the state). -/
theorem pay8 (x0b : Vec Ideal S10000x64 .f32) (cob : Vec Ideal S1x64 .f32) (csb : Vec Ideal S10000x64 .f32)
    (dc : Vec Ideal S10000x1 .f32) (cb : Vec Ideal S1x64 .f32) (hb : Vec Ideal S10000x64 .f32)
    (rw : Vec Ideal S64x64 .f32) (rb : Vec Ideal S1x64 .f32) (xb : Vec Ideal S10000x64 .f32)
    (p : Fin 10000) (q : Fin 64) :
    k8_pay1 (F := Ideal) (k8_pay2 (F := Ideal) x0b cob) (k8_pay3 (F := Ideal) csb dc cb hb rw rb xb) (ix2 p q)
      = x0b (ix2 p q) * cob (ix2 0 q)
        + Cert.Spec.one * (max ((csb (ix2 p q) * dc (ix2 p 0) + cb (ix2 0 q))
            + (0 - ((∑ k : Fin 64, hb (ix2 p k) * rw (ix2 k q)) + rb (ix2 0 q)))) 0 - Cert.Spec.one * xb (ix2 p q)) := by
  unfold k8_pay1 k8_pay2 k8_pay3 Cert.Spec.one
  have row : ∀ v : Vec Ideal S1x64 .f32,
      broadcastTo S10000x64 (shapeCast S1x64 v shapeCasts_S1x64_S1x64) broadcasts_S1x64_S10000x64 (ix2 p q) = v (ix2 0 q) :=
    fun v => (congrArg (fun u => broadcastTo S10000x64 u broadcasts_S1x64_S10000x64 (ix2 p q))
      (shapeCast_self v shapeCasts_S1x64_S1x64)).trans (broadcastTo_1b_ab_apply v broadcasts_S1x64_S10000x64 p q)
  have ed : broadcastTo S10000x64 (shapeCast S10000x1 dc shapeCasts_S10000x1_S10000x1) broadcasts_S10000x1_S10000x64 (ix2 p q)
      = dc (ix2 p 0) :=
    (congrArg (fun v => broadcastTo S10000x64 v broadcasts_S10000x1_S10000x64 (ix2 p q))
      (shapeCast_self dc shapeCasts_S10000x1_S10000x1)).trans (broadcastTo_a1_ab_apply dc broadcasts_S10000x1_S10000x64 p q)
  have same : ∀ v : Vec Ideal S10000x64 .f32, shapeCast S10000x64 v shapeCasts_S10000x64_S10000x64 (ix2 p q) = v (ix2 p q) :=
    fun v => congrFun (shapeCast_self v shapeCasts_S10000x64_S10000x64) (ix2 p q)
  have em : matmul dot_S10000x64_S64x64_S10000x64_1_0_0_1_n_n none (shapeCast S10000x64 hb shapeCasts_S10000x64_S10000x64) rw
      (constant (F := Ideal) S10000x64 .f32 0x00000000#32) (ix2 p q) = ∑ k : Fin 64, hb (ix2 p k) * rw (ix2 k q) :=
    (congrArg (fun v => matmul dot_S10000x64_S64x64_S10000x64_1_0_0_1_n_n none v rw
        (constant (F := Ideal) S10000x64 .f32 0x00000000#32) (ix2 p q))
      (shapeCast_self hb shapeCasts_S10000x64_S10000x64)).trans (mm64 hb rw p q)
  have z : (Ideal.ofBits .f32 0x00000000#32 : EReal) = 0 := Ideal.ofBits_zero_f32
  exact congrArg₂ (· + ·)
    (congrArg₂ (· * ·) (same x0b) (row cob))
    (congrArg (Ideal.ofBits .f32 0x3F800000#32 * ·)
      (congrArg₂ (· - ·)
        (congrArg₂ max
          (congrArg₂ (· + ·)
            (congrArg₂ (· + ·) (congrArg₂ (· * ·) (same csb) ed) (row cb))
            (congrArg₂ (· - ·) z (congrArg₂ (· + ·) em (row rb))))
          z)
        (congrArg (Ideal.ofBits .f32 0x3F800000#32 * ·) (same xb))))

/-- The decoder's stored value at `(p, q)`: the product with the weights plus the bias at `q`. -/
theorem pay9 (xb : Vec Ideal S10000x64 .f32) (w : Vec Ideal S64x47 .f32) (b2 : Vec Ideal S1x47 .f32)
    (p : Fin 10000) (q : Fin 47) :
    k9_pay1 (F := Ideal) xb w b2 (ix2 p q) = (∑ k : Fin 64, xb (ix2 p k) * w (ix2 k q)) + b2 (ix2 0 q) := by
  unfold k9_pay1
  have eb : broadcastTo S10000x47 (shapeCast S1x47 b2 shapeCasts_S1x47_S1x47) broadcasts_S1x47_S10000x47 (ix2 p q)
      = b2 (ix2 0 q) :=
    (congrArg (fun v => broadcastTo S10000x47 v broadcasts_S1x47_S10000x47 (ix2 p q))
      (shapeCast_self b2 shapeCasts_S1x47_S1x47)).trans (broadcastTo_1b_ab_apply b2 broadcasts_S1x47_S10000x47 p q)
  have em : matmul dot_S10000x64_S64x47_S10000x47_1_0_0_1_n_n none (shapeCast S10000x64 xb shapeCasts_S10000x64_S10000x64) w
      (constant (F := Ideal) S10000x47 .f32 0x00000000#32) (ix2 p q) = ∑ k : Fin 64, xb (ix2 p k) * w (ix2 k q) :=
    (congrArg (fun v => matmul dot_S10000x64_S64x47_S10000x47_1_0_0_1_n_n none v w
        (constant (F := Ideal) S10000x47 .f32 0x00000000#32) (ix2 p q))
      (shapeCast_self xb shapeCasts_S10000x64_S10000x64)).trans (mm47 xb w p q)
  exact congrArg₂ (· + ·) em eb

end Cert.KPay

end
-- ==== Proof.KV.Rows.lean ====
/-
  Rows and columns of a matrix, and a band of consecutive rows.

  A bias is stored as a one-row matrix and the per-node scale as a one-column matrix; `row1` and `col1` read them as
  vectors.  A kernel region works on bands of 10000 consecutive rows of its operands: `rowsAt A o` is the band of `A`
  that starts at row `o`.
-/
import proofs.«121059_j18107582120780_2_alg».proof.Proof.Spec

noncomputable section

namespace Cert.KV

open Idealize.ShloMosaic Idealize.ShloMosaic.ValueIdx

/-- The one row of a `[1, M]` matrix, as a vector. -/
def row1 {M : Nat} (b2 : Cert.Spec.Mat 1 M) : Cert.Spec.Vect M :=
  fun j => b2 (ix2 (n0 := 1) (n1 := M) (0 : Fin 1) (j 0))

/-- The one column of an `[R, 1]` matrix, as a vector. -/
def col1 {R : Nat} (d2 : Cert.Spec.Mat R 1) : Cert.Spec.Vect R :=
  fun i => d2 (ix2 (n0 := R) (n1 := 1) (i 0) (0 : Fin 1))

/-- Rows `o, …, o + R - 1` of a matrix with `N` rows. -/
def rowsAt {N R M : Nat} (A : Cert.Spec.Mat N M) (o : Nat) (h : o + R ≤ N) : Cert.Spec.Mat R M :=
  fun y => A (ix2 (n0 := N) (n1 := M) ⟨o + (y 0).val, by have := idx2_lt0 y; omega⟩ (y 1))

/-- The zero offsets of a rank-2 rectangle, as the constant function. -/
theorem zero2 : (![0, 0] : Fin 2 → Nat) = fun _ => 0 := funext fun a => by fin_cases a <;> rfl

end Cert.KV

end
-- ==== Proof.KV.Final0.lean ====
/-
  Region 0 (the encoder), from blocks to the whole array.

  The grid has five points; point t works on rows 10000 t … 10000 t + 9999 of the input and of the output, with the
  weights and the bias row whole at every point.  What point t writes back is therefore that band of rows of the encoder
  of the whole arrays, and the five bands cover all 50000 rows: the output array ends holding the encoder of the arrays
  the region found.
-/
import proofs.«121059_j18107582120780_2_alg».proof.Proof.KI.Region0
import proofs.«121059_j18107582120780_2_alg».proof.Proof.KPay
import proofs.«121059_j18107582120780_2_alg».proof.Proof.KV.Rows
import Idealize.ShloMosaic.Lib.Pipeline.Value

noncomputable section

namespace Cert.KernelIdeal.Fin

open Cert.KernelIdeal Cert.KernelIdeal.Gen Cert.KV
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The encoder's body on a band of rows gives that band of the encoder. -/
theorem enc_rows (A : Cert.Spec.Mat 50000 128) (W : Cert.Spec.Mat 128 64) (B : Cert.Spec.Mat 1 64) (o : Nat)
    (h : o + 10000 ≤ 50000) :
    k0_pay1 (F := Ideal) (rowsAt A o h) W B = rowsAt (Cert.Spec.enc A W (row1 B)) o h := by
  funext y
  obtain ⟨p, q, rfl⟩ : ∃ (p : Fin 10000) (q : Fin 64), y = ix2 p q := ⟨y 0, y 1, eq_ix2 y⟩
  refine (Cert.KPay.pay0 (rowsAt A o h) W B p q).trans ?_
  rfl

/-- The block indices of the region's windows at point `t`: row band `t` for the windows over arrays of 50000 rows,
    block (0, 0) for the windows over whole small arrays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s band of 10000 rows lies inside the 50000 rows. -/
theorem band0 (t : Fin cfg0.N) : t.val * 10000 + 10000 ≤ 50000 := by
  have h : t.val < cfg0.N := t.isLt
  have hN : cfg0.N = 5 := N_0
  omega

/-- Window 0's block at point `t` is rows `10000 t …` of its array. -/
theorem in0_0 (c : Dev nD) (t : Fin cfg0.N) :
    (iblk0 V c 0 t : S10000x128.Idx → EReal) = rowsAt (V c main_arg0 : Cert.Spec.Mat 50000 128) (t.val * 10000) (band0 t) := by
  obtain ⟨e0_0, e0_1, e1_0, e1_1, e2_0, e2_1, e3_0, e3_1⟩ := idx0 t
  funext x
  show (V c main_arg0 : S50000x128.Idx → EReal) (((cfg0.win 0).blk t).view.emb x) = (V c main_arg0 : S50000x128.Idx → EReal) _
  refine congrArg _ (funext fun a => Fin.ext ?_)
  match a with
  | ⟨0, _⟩ => show win0_0.index t (0 : Fin 2) * 10000 + 1 * (x 0).val = t.val * 10000 + (x 0).val; rw [e0_0]; omega
  | ⟨1, _⟩ => show win0_0.index t (1 : Fin 2) * 128 + 1 * (x 1).val = (x 1).val; rw [e0_1]; omega

/-- Window 1's block at every point is its whole array. -/
theorem in0_1 (c : Dev nD) (t : Fin cfg0.N) :
    (iblk0 V c 1 t : S128x64.Idx → EReal) = (V c main_arg2 : S128x64.Idx → EReal) := by
  obtain ⟨e0_0, e0_1, e1_0, e1_1, e2_0, e2_1, e3_0, e3_1⟩ := idx0 t
  funext x
  show (V c main_arg2 : S128x64.Idx → EReal) (((cfg0.win 1).blk t).view.emb x) = (V c main_arg2 : S128x64.Idx → EReal) x
  refine congrArg _ (funext fun a => Fin.ext ?_)
  match a with
  | ⟨0, _⟩ => show win0_1.index t (0 : Fin 2) * 128 + 1 * (x 0).val = (x 0).val; rw [e1_0]; omega
  | ⟨1, _⟩ => show win0_1.index t (1 : Fin 2) * 64 + 1 * (x 1).val = (x 1).val; rw [e1_1]; omega

/-- Window 2's block at every point is its whole array. -/
theorem in0_2 (c : Dev nD) (t : Fin cfg0.N) :
    (iblk0 V c 2 t : S1x64.Idx → EReal) = (V c main_v16 : S1x64.Idx → EReal) := by
  obtain ⟨e0_0, e0_1, e1_0, e1_1, e2_0, e2_1, e3_0, e3_1⟩ := idx0 t
  funext x
  show (V c main_v16 : S1x64.Idx → EReal) (((cfg0.win 2).blk t).view.emb x) = (V c main_v16 : S1x64.Idx → EReal) x
  refine congrArg _ (funext fun a => Fin.ext ?_)
  match a with
  | ⟨0, _⟩ => show win0_2.index t (0 : Fin 2) * 1 + 1 * (x 0).val = (x 0).val; rw [e2_0]; omega
  | ⟨1, _⟩ => show win0_2.index t (1 : Fin 2) * 64 + 1 * (x 1).val = (x 1).val; rw [e2_1]; omega

/-- Output window 3's block at point `t`, read off any contents of its array, is rows `10000 t …` of them. -/
theorem outblk0_3 (t : Fin cfg0.N) (G : Cert.Spec.Mat 50000 64) :
    (((cfg0.win 3).blk t).view.read (Elt Ideal) G : S10000x64.Idx → EReal) = rowsAt G (t.val * 10000) (band0 t) := by
  obtain ⟨e0_0, e0_1, e1_0, e1_1, e2_0, e2_1, e3_0, e3_1⟩ := idx0 t
  funext x
  show G (((cfg0.win 3).blk t).view.emb x) = G _
  refine congrArg _ (funext fun a => Fin.ext ?_)
  match a with
  | ⟨0, _⟩ => show win0_3.index t (0 : Fin 2) * 10000 + 1 * (x 0).val = t.val * 10000 + (x 0).val; rw [e3_0]; omega
  | ⟨1, _⟩ => show win0_3.index t (1 : Fin 2) * 64 + 1 * (x 1).val = (x 1).val; rw [e3_1]; omega

/-- The encoder of the arrays the region finds. -/
abbrev G0_3 (c : Dev nD) : Cert.Spec.Mat 50000 64 :=
  Cert.Spec.enc (V c main_arg0 : Cert.Spec.Mat 50000 128) (V c main_arg2 : Cert.Spec.Mat 128 64) (row1 (V c main_v16 : Cert.Spec.Mat 1 64))

/-- What point `t` writes back through window 3 is its band of rows of that array. -/
theorem flushed0_3 (c : Dev nD) (t : Fin cfg0.N) :
    (dat0 V c).flushed 3 t = ((cfg0.win 3).blk t).view.read (Elt Ideal) (G0_3 V c) := by
  show (cfg0.win 3).cut (grid0.coords t) ((dat0 V c).after 3 t) = _
  rw [after0_3]
  unfold out0_3
  rw [View.canon_unit_zero zero2]
  simp only [View.ld_unit_zero (S := S10000x128) zero2, View.ld_unit_zero (S := S128x64) zero2, View.ld_unit_zero (S := S1x64) zero2]
  refine Eq.trans ?_ (outblk0_3 t (G0_3 V c)).symm
  show k0_pay1 (F := Ideal) (iblk0 V c 0 t) (iblk0 V c 1 t) (iblk0 V c 2 t) = _
  rw [in0_0 V c t, in0_1 V c t, in0_2 V c t]
  exact enc_rows _ _ _ _ _

/-- An index of window 3's array is in point `t`'s block iff each coordinate is in the block's range on its axis. -/
theorem mem_blk0_3 (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v20).slice (win0_3.rect t)).set ↔ _
  rw [View.set_slice_whole, Rect.mem_set_unit]
  exact Iff.rfl

/-- Row `r` of window 3's array is in the block of point `r / 10000`. -/
theorem cover0_3 (i : S50000x64.Idx) :
    ∃ t : Fin cfg0.N, (cfg0.win 3).flush t = true ∧ i ∈ ((cfg0.win 3).blk t).view.set := by
  have hi0 : (i 0).val < 50000 := idx2_lt0 i
  have hi1 : (i 1).val < 64 := idx2_lt1 i
  have hN : cfg0.N = 5 := N_0
  have ht : (i 0).val / 10000 < cfg0.N := by rw [hN]; omega
  obtain ⟨e0_0, e0_1, e1_0, e1_1, e2_0, e2_1, e3_0, e3_1⟩ := idx0 ⟨(i 0).val / 10000, ht⟩
  refine ⟨⟨(i 0).val / 10000, ht⟩, flush0_3 _, ?_⟩
  rw [mem_blk0_3]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e3_0]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    rw [e3_1]; omega

/-- The output array after the region: the encoder of the arrays the region found. -/
theorem final0 (c : Dev nD) :
    (dat0 V c).arrAt 3 cfg0.N = Cert.Spec.enc (V c main_arg0 : Cert.Spec.Mat 50000 128) (V c main_arg2 : Cert.Spec.Mat 128 64) (row1 (V c main_v16 : Cert.Spec.Mat 1 64)) :=
  (dat0 V c).arrAt_eq_of_cover 3 (G0_3 V c) (fun t _ => flushed0_3 V c t) cover0_3

end Cert.KernelIdeal.Fin

end
-- ==== Proof.KV.Final1.lean ====
/-
  Region 1 (layer 1's projection), from blocks to the whole arrays.

  The grid has five points; point t works on rows 10000 t … 10000 t + 9999 of the state, of the one-column scale and of
  the two outputs, with the weights whole at every point.  What point t writes back is therefore that band of rows of the
  product of the whole state with the weights (first output) and of that product with row r scaled by the scale's entry
  r (second output); the five bands cover all 50000 rows.
-/
import proofs.«121059_j18107582120780_2_alg».proof.Proof.KI.Region1
import proofs.«121059_j18107582120780_2_alg».proof.Proof.KPay
import proofs.«121059_j18107582120780_2_alg».proof.Proof.KV.Rows
import Idealize.ShloMosaic.Lib.Pipeline.Value

noncomputable section

namespace Cert.KernelIdeal.Fin

open Cert.KernelIdeal Cert.KernelIdeal.Gen Cert.KV
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The projection's body on a band of rows gives that band of the product. -/
theorem proj_rows1 (A : Cert.Spec.Mat 50000 64) (W : Cert.Spec.Mat 64 64) (o : Nat) (h : o + 10000 ≤ 50000) :
    k1_pay1 (F := Ideal) (rowsAt A o h) W = rowsAt (Cert.Spec.mm A W) o h := by
  funext y
  obtain ⟨p, q, rfl⟩ : ∃ (p : Fin 10000) (q : Fin 64), y = ix2 p q := ⟨y 0, y 1, eq_ix2 y⟩
  refine (Cert.KPay.pay1a (rowsAt A o h) W p q).trans ?_
  rfl

/-- The scaled projection's body on a band of rows gives that band of the scaled product. -/
theorem scaled_rows1 (A : Cert.Spec.Mat 50000 64) (W : Cert.Spec.Mat 64 64) (D : Cert.Spec.Mat 50000 1) (o : Nat)
    (h : o + 10000 ≤ 50000) :
    k1_pay2 (F := Ideal) (rowsAt A o h) W (rowsAt D o h) = rowsAt (Cert.Spec.scale (Cert.Spec.mm A W) (col1 D)) o h := by
  funext y
  obtain ⟨p, q, rfl⟩ : ∃ (p : Fin 10000) (q : Fin 64), y = ix2 p q := ⟨y 0, y 1, eq_ix2 y⟩
  refine (Cert.KPay.pay1b (rowsAt A o h) W (rowsAt D o h) p q).trans ?_
  rfl

/-- The block indices of the region's windows at point `t`: row band `t` for the windows over arrays of 50000 rows,
    block (0, 0) for the windows over whole small arrays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Point `t`'s band of 10000 rows lies inside the 50000 rows. -/
theorem band1 (t : Fin cfg1.N) : t.val * 10000 + 10000 ≤ 50000 := by
  have h : t.val < cfg1.N := t.isLt
  have hN : cfg1.N = 5 := N_1
  omega

/-- Window 0's block at point `t` is rows `10000 t …` of its array. -/
theorem in1_0 (c : Dev nD) (t : Fin cfg1.N) :
    (iblk1 V c 0 t : S10000x64.Idx → EReal) = rowsAt (V c main_v20 : Cert.Spec.Mat 50000 64) (t.val * 10000) (band1 t) := by
  obtain ⟨e0_0, e0_1, e1_0, e1_1, e2_0, e2_1, e3_0, e3_1, e4_0, e4_1⟩ := idx1 t
  funext x
  show (V c main_v20 : S50000x64.Idx → EReal) (((cfg1.win 0).blk t).view.emb x) = (V c main_v20 : S50000x64.Idx → EReal) _
  refine congrArg _ (funext fun a => Fin.ext ?_)
  match a with
  | ⟨0, _⟩ => show win1_0.index t (0 : Fin 2) * 10000 + 1 * (x 0).val = t.val * 10000 + (x 0).val; rw [e0_0]; omega
  | ⟨1, _⟩ => show win1_0.index t (1 : Fin 2) * 64 + 1 * (x 1).val = (x 1).val; rw [e0_1]; omega

/-- Window 1's block at every point is its whole array. -/
theorem in1_1 (c : Dev nD) (t : Fin cfg1.N) :
    (iblk1 V c 1 t : S64x64.Idx → EReal) = (V c main_arg4 : S64x64.Idx → EReal) := by
  obtain ⟨e0_0, e0_1, e1_0, e1_1, e2_0, e2_1, e3_0, e3_1, e4_0, e4_1⟩ := idx1 t
  funext x
  show (V c main_arg4 : S64x64.Idx → EReal) (((cfg1.win 1).blk t).view.emb x) = (V c main_arg4 : S64x64.Idx → EReal) x
  refine congrArg _ (funext fun a => Fin.ext ?_)
  match a with
  | ⟨0, _⟩ => show win1_1.index t (0 : Fin 2) * 64 + 1 * (x 0).val = (x 0).val; rw [e1_0]; omega
  | ⟨1, _⟩ => show win1_1.index t (1 : Fin 2) * 64 + 1 * (x 1).val = (x 1).val; rw [e1_1]; omega

/-- Window 2's block at point `t` is rows `10000 t …` of its array. -/
theorem in1_2 (c : Dev nD) (t : Fin cfg1.N) :
    (iblk1 V c 2 t : S10000x1.Idx → EReal) = rowsAt (V c main_v15 : Cert.Spec.Mat 50000 1) (t.val * 10000) (band1 t) := by
  obtain ⟨e0_0, e0_1, e1_0, e1_1, e2_0, e2_1, e3_0, e3_1, e4_0, e4_1⟩ := idx1 t
  funext x
  show (V c main_v15 : S50000x1.Idx → EReal) (((cfg1.win 2).blk t).view.emb x) = (V c main_v15 : S50000x1.Idx → EReal) _
  refine congrArg _ (funext fun a => Fin.ext ?_)
  match a with
  | ⟨0, _⟩ => show win1_2.index t (0 : Fin 2) * 10000 + 1 * (x 0).val = t.val * 10000 + (x 0).val; rw [e2_0]; omega
  | ⟨1, _⟩ => show win1_2.index t (1 : Fin 2) * 1 + 1 * (x 1).val = (x 1).val; rw [e2_1]; omega

/-- Output window 3's block at point `t`, read off any contents of its array, is rows `10000 t …` of them. -/
theorem outblk1_3 (t : Fin cfg1.N) (G : Cert.Spec.Mat 50000 64) :
    (((cfg1.win 3).blk t).view.read (Elt Ideal) G : S10000x64.Idx → EReal) = rowsAt G (t.val * 10000) (band1 t) := by
  obtain ⟨e0_0, e0_1, e1_0, e1_1, e2_0, e2_1, e3_0, e3_1, e4_0, e4_1⟩ := idx1 t
  funext x
  show G (((cfg1.win 3).blk t).view.emb x) = G _
  refine congrArg _ (funext fun a => Fin.ext ?_)
  match a with
  | ⟨0, _⟩ => show win1_3.index t (0 : Fin 2) * 10000 + 1 * (x 0).val = t.val * 10000 + (x 0).val; rw [e3_0]; omega
  | ⟨1, _⟩ => show win1_3.index t (1 : Fin 2) * 64 + 1 * (x 1).val = (x 1).val; rw [e3_1]; omega

/-- The product of the state with the weights, of the arrays the region finds. -/
abbrev G1_3 (c : Dev nD) : Cert.Spec.Mat 50000 64 :=
  Cert.Spec.mm (V c main_v20 : Cert.Spec.Mat 50000 64) (V c main_arg4 : Cert.Spec.Mat 64 64)

/-- What point `t` writes back through window 3 is its band of rows of that array. -/
theorem flushed1_3 (c : Dev nD) (t : Fin cfg1.N) :
    (dat1 V c).flushed 3 t = ((cfg1.win 3).blk t).view.read (Elt Ideal) (G1_3 V c) := by
  show (cfg1.win 3).cut (grid1.coords t) ((dat1 V c).after 3 t) = _
  rw [after1_3]
  unfold out1_3
  rw [View.canon_unit_zero zero2]
  simp only [View.ld_unit_zero (S := S10000x64) zero2, View.ld_unit_zero (S := S64x64) zero2]
  refine Eq.trans ?_ (outblk1_3 t (G1_3 V c)).symm
  show k1_pay1 (F := Ideal) (iblk1 V c 0 t) (iblk1 V c 1 t) = _
  rw [in1_0 V c t, in1_1 V c t]
  exact proj_rows1 _ _ _ _

/-- An index of window 3's array is in point `t`'s block iff each coordinate is in the block's range on its axis. -/
theorem mem_blk1_3 (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v21_0).slice (win1_3.rect t)).set ↔ _
  rw [View.set_slice_whole, Rect.mem_set_unit]
  exact Iff.rfl

/-- Row `r` of window 3's array is in the block of point `r / 10000`. -/
theorem cover1_3 (i : S50000x64.Idx) :
    ∃ t : Fin cfg1.N, (cfg1.win 3).flush t = true ∧ i ∈ ((cfg1.win 3).blk t).view.set := by
  have hi0 : (i 0).val < 50000 := idx2_lt0 i
  have hi1 : (i 1).val < 64 := idx2_lt1 i
  have hN : cfg1.N = 5 := N_1
  have ht : (i 0).val / 10000 < cfg1.N := by rw [hN]; omega
  obtain ⟨e0_0, e0_1, e1_0, e1_1, e2_0, e2_1, e3_0, e3_1, e4_0, e4_1⟩ := idx1 ⟨(i 0).val / 10000, ht⟩
  refine ⟨⟨(i 0).val / 10000, ht⟩, flush1_3 _, ?_⟩
  rw [mem_blk1_3]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e3_0]; show (i 0).val / 10000 * 10000 ≤ (i 0).val ∧ (i 0).val < (i 0).val / 10000 * 10000 + 10000; omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    rw [e3_1]; omega

/-- The first output array after the region: the product of the state with the weights. -/
theorem final1a (c : Dev nD) :
    (dat1 V c).arrAt 3 cfg1.N = Cert.Spec.mm (V c main_v20 : Cert.Spec.Mat 50000 64) (V c main_arg4 : Cert.Spec.Mat 64 64) :=
  (dat1 V c).arrAt_eq_of_cover 3 (G1_3 V c) (fun t _ => flushed1_3 V c t) cover1_3

/-- Output window 4's block at point `t`, read off any contents of its array, is rows `10000 t …` of them. -/
theorem outblk1_4 (t : Fin cfg1.N) (G : Cert.Spec.Mat 50000 64) :
    (((cfg1.win 4).blk t).view.read (Elt Ideal) G : S10000x64.Idx → EReal) = rowsAt G (t.val * 10000) (band1 t) := by
  obtain ⟨e0_0, e0_1, e1_0, e1_1, e2_0, e2_1, e3_0, e3_1, e4_0, e4_1⟩ := idx1 t
  funext x
  show G (((cfg1.win 4).blk t).view.emb x) = G _
  refine congrArg _ (funext fun a => Fin.ext ?_)
  match a with
  | ⟨0, _⟩ => show win1_4.index t (0 : Fin 2) * 10000 + 1 * (x 0).val = t.val * 10000 + (x 0).val; rw [e4_0]; omega
  | ⟨1, _⟩ => show win1_4.index t (1 : Fin 2) * 64 + 1 * (x 1).val = (x 1).val; rw [e4_1]; omega

/-- That product with each row scaled by the row's entry of the one-column array. -/
abbrev G1_4 (c : Dev nD) : Cert.Spec.Mat 50000 64 :=
  Cert.Spec.scale (Cert.Spec.mm (V c main_v20 : Cert.Spec.Mat 50000 64) (V c main_arg4 : Cert.Spec.Mat 64 64)) (col1 (V c main_v15 : Cert.Spec.Mat 50000 1))

/-- What point `t` writes back through window 4 is its band of rows of that array. -/
theorem flushed1_4 (c : Dev nD) (t : Fin cfg1.N) :
    (dat1 V c).flushed 4 t = ((cfg1.win 4).blk t).view.read (Elt Ideal) (G1_4 V c) := by
  show (cfg1.win 4).cut (grid1.coords t) ((dat1 V c).after 4 t) = _
  rw [after1_4]
  unfold out1_4
  rw [View.canon_unit_zero zero2]
  simp only [View.ld_unit_zero (S := S10000x64) zero2, View.ld_unit_zero (S := S64x64) zero2, View.ld_unit_zero (S := S10000x1) zero2]
  refine Eq.trans ?_ (outblk1_4 t (G1_4 V c)).symm
  show k1_pay2 (F := Ideal) (iblk1 V c 0 t) (iblk1 V c 1 t) (iblk1 V c 2 t) = _
  rw [in1_0 V c t, in1_1 V c t, in1_2 V c t]
  exact scaled_rows1 _ _ _ _ _

/-- An index of window 4's array is in point `t`'s block iff each coordinate is in the block's range on its axis. -/
theorem mem_blk1_4 (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v21_1).slice (win1_4.rect t)).set ↔ _
  rw [View.set_slice_whole, Rect.mem_set_unit]
  exact Iff.rfl

/-- Row `r` of window 4's array is in the block of point `r / 10000`. -/
theorem cover1_4 (i : S50000x64.Idx) :
    ∃ t : Fin cfg1.N, (cfg1.win 4).flush t = true ∧ i ∈ ((cfg1.win 4).blk t).view.set := by
  have hi0 : (i 0).val < 50000 := idx2_lt0 i
  have hi1 : (i 1).val < 64 := idx2_lt1 i
  have hN : cfg1.N = 5 := N_1
  have ht : (i 0).val / 10000 < cfg1.N := by rw [hN]; omega
  obtain ⟨e0_0, e0_1, e1_0, e1_1, e2_0, e2_1, e3_0, e3_1, e4_0, e4_1⟩ := idx1 ⟨(i 0).val / 10000, ht⟩
  refine ⟨⟨(i 0).val / 10000, ht⟩, flush1_4 _, ?_⟩
  rw [mem_blk1_4]
  intro a
  match a with
  | ⟨0, _⟩ =>
    show win1_4.index ⟨(i 0).val / 10000, ht⟩ (0 : Fin 2) * 10000 ≤ (i 0).val ∧ (i 0).val < win1_4.index ⟨(i 0).val / 10000, ht⟩ (0 : Fin 2) * 10000 + 10000
    rw [e4_0]; show (i 0).val / 10000 * 10000 ≤ (i 0).val ∧ (i 0).val < (i 0).val / 10000 * 10000 + 10000; omega
  | ⟨1, _⟩ =>
    show win1_4.index ⟨(i 0).val / 10000, ht⟩ (1 : Fin 2) * 64 ≤ (i 1).val ∧ (i 1).val < win1_4.index ⟨(i 0).val / 10000, ht⟩ (1 : Fin 2) * 64 + 64
    rw [e4_1]; omega

/-- The second output array after the region: the product with each row scaled. -/
theorem final1b (c : Dev nD) :
    (dat1 V c).arrAt 4 cfg1.N = Cert.Spec.scale (Cert.Spec.mm (V c main_v20 : Cert.Spec.Mat 50000 64) (V c main_arg4 : Cert.Spec.Mat 64 64)) (col1 (V c main_v15 : Cert.Spec.Mat 50000 1)) :=
  (dat1 V c).arrAt_eq_of_cover 4 (G1_4 V c) (fun t _ => flushed1_4 V c t) cover1_4

end Cert.KernelIdeal.Fin

end
-- ==== Proof.KV.Final2.lean ====
/-
  Region 2 (layer 1's update), from blocks to the whole array.

  The grid has five points; point t works on rows 10000 t … 10000 t + 9999 of the state (read through two windows), of
  the projected features, of the aggregated messages, of the one-column scale and of the output, with the two bias rows,
  the residual weights and the gate row whole at every point.  What point t writes back is therefore that band of rows of
  the layer update of the whole arrays, the aggregate being the messages with row r scaled by the scale's entry r; the
  five bands cover all 50000 rows.
-/
import proofs.«121059_j18107582120780_2_alg».proof.Proof.KI.Region2
import proofs.«121059_j18107582120780_2_alg».proof.Proof.KPay
import proofs.«121059_j18107582120780_2_alg».proof.Proof.KV.Rows
import Idealize.ShloMosaic.Lib.Pipeline.Value

noncomputable section

namespace Cert.KernelIdeal.Fin

open Cert.KernelIdeal Cert.KernelIdeal.Gen Cert.KV
open Idealize.ShloMosaic Idealize.ShloMosaic.TcCoe Idealize.ShloMosaic.ValueIdx Idealize.SL.Sem
open Idealize.ShloMosaic.Pipeline (Dat)
open Idealize.SL.RA (PosShare TreeShare)

variable (V : (c : Dev nD) → (b : Ref sig .tc) → Buf (Elt Ideal) ((c : Thread nD τ).loc b))

variable (qq2 : Fin cfg2.W → PosShare TreeShare)

/-- The update's body on bands of rows gives that band of the update. -/
theorem comb_rows2 (X0 X H CS : Cert.Spec.Mat 50000 64) (D : Cert.Spec.Mat 50000 1) (CB : Cert.Spec.Mat 1 64)
    (RW : Cert.Spec.Mat 64 64) (RB CO : Cert.Spec.Mat 1 64) (o : Nat) (h : o + 10000 ≤ 50000) :
    k2_pay1 (F := Ideal) (k2_pay2 (F := Ideal) (rowsAt X0 o h) CO)
        (k2_pay3 (F := Ideal) (rowsAt CS o h) (rowsAt D o h) CB (rowsAt H o h) RW RB (rowsAt X o h))
      = rowsAt (Cert.Spec.comb X0 X H (Cert.Spec.scale CS (col1 D)) (row1 CB) RW (row1 RB) (row1 CO)) o h := by
  funext y
  obtain ⟨p, q, rfl⟩ : ∃ (p : Fin 10000) (q : Fin 64), y = ix2 p q := ⟨y 0, y 1, eq_ix2 y⟩
  refine (Cert.KPay.pay2 (rowsAt X0 o h) CO (rowsAt CS o h) (rowsAt D o h) CB (rowsAt H o h) RW RB (rowsAt X o h) p q).trans ?_
  rfl

/-- The block indices of the region's windows at point `t`: row band `t` for the windows over arrays of 50000 rows,
    block (0, 0) for the windows over whole small arrays. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Point `t`'s band of 10000 rows lies inside the 50000 rows. -/
theorem band2 (t : Fin cfg2.N) : t.val * 10000 + 10000 ≤ 50000 := by
  have h : t.val < cfg2.N := t.isLt
  have hN : cfg2.N = 5 := N_2
  omega

/-- Window 0's block at point `t` is rows `10000 t …` of its array. -/
theorem in2_0 (c : Dev nD) (t : Fin cfg2.N) :
    (iblk2 V c 0 t : S10000x64.Idx → EReal) = rowsAt (V c main_v20 : Cert.Spec.Mat 50000 64) (t.val * 10000) (band2 t) := by
  obtain ⟨e0_0, e0_1, e1_0, e1_1, e2_0, e2_1, e3_0, e3_1, e4_0, e4_1, e5_0, e5_1, e6_0, e6_1, e7_0, e7_1, e8_0, e8_1, e9_0, e9_1⟩ := idx2 t
  funext x
  show (V c main_v20 : S50000x64.Idx → EReal) (((cfg2.win 0).blk t).view.emb x) = (V c main_v20 : S50000x64.Idx → EReal) _
  refine congrArg _ (funext fun a => Fin.ext ?_)
  match a with
  | ⟨0, _⟩ => show win2_0.index t (0 : Fin 2) * 10000 + 1 * (x 0).val = t.val * 10000 + (x 0).val; rw [e0_0]; omega
  | ⟨1, _⟩ => show win2_0.index t (1 : Fin 2) * 64 + 1 * (x 1).val = (x 1).val; rw [e0_1]; omega

/-- Window 1's block at point `t` is rows `10000 t …` of its array. -/
theorem in2_1 (c : Dev nD) (t : Fin cfg2.N) :
    (iblk2 V c 1 t : S10000x64.Idx → EReal) = rowsAt (V c main_v20 : Cert.Spec.Mat 50000 64) (t.val * 10000) (band2 t) := by
  obtain ⟨e0_0, e0_1, e1_0, e1_1, e2_0, e2_1, e3_0, e3_1, e4_0, e4_1, e5_0, e5_1, e6_0, e6_1, e7_0, e7_1, e8_0, e8_1, e9_0, e9_1⟩ := idx2 t
  funext x
  show (V c main_v20 : S50000x64.Idx → EReal) (((cfg2.win 1).blk t).view.emb x) = (V c main_v20 : S50000x64.Idx → EReal) _
  refine congrArg _ (funext fun a => Fin.ext ?_)
  match a with
  | ⟨0, _⟩ => show win2_1.index t (0 : Fin 2) * 10000 + 1 * (x 0).val = t.val * 10000 + (x 0).val; rw [e1_0]; omega
  | ⟨1, _⟩ => show win2_1.index t (1 : Fin 2) * 64 + 1 * (x 1).val = (x 1).val; rw [e1_1]; omega

/-- Window 2's block at point `t` is rows `10000 t …` of its array. -/
theorem in2_2 (c : Dev nD) (t : Fin cfg2.N) :
    (iblk2 V c 2 t : S10000x64.Idx → EReal) = rowsAt (V c main_v21_0 : Cert.Spec.Mat 50000 64) (t.val * 10000) (band2 t) := by
  obtain ⟨e0_0, e0_1, e1_0, e1_1, e2_0, e2_1, e3_0, e3_1, e4_0, e4_1, e5_0, e5_1, e6_0, e6_1, e7_0, e7_1, e8_0, e8_1, e9_0, e9_1⟩ := idx2 t
  funext x
  show (V c main_v21_0 : S50000x64.Idx → EReal) (((cfg2.win 2).blk t).view.emb x) = (V c main_v21_0 : S50000x64.Idx → EReal) _
  refine congrArg _ (funext fun a => Fin.ext ?_)
  match a with
  | ⟨0, _⟩ => show win2_2.index t (0 : Fin 2) * 10000 + 1 * (x 0).val = t.val * 10000 + (x 0).val; rw [e2_0]; omega
  | ⟨1, _⟩ => show win2_2.index t (1 : Fin 2) * 64 + 1 * (x 1).val = (x 1).val; rw [e2_1]; omega

/-- Window 3's block at point `t` is rows `10000 t …` of its array. -/
theorem in2_3 (c : Dev nD) (t : Fin cfg2.N) :
    (iblk2 V c 3 t : S10000x64.Idx → EReal) = rowsAt (V c main_v31 : Cert.Spec.Mat 50000 64) (t.val * 10000) (band2 t) := by
  obtain ⟨e0_0, e0_1, e1_0, e1_1, e2_0, e2_1, e3_0, e3_1, e4_0, e4_1, e5_0, e5_1, e6_0, e6_1, e7_0, e7_1, e8_0, e8_1, e9_0, e9_1⟩ := idx2 t
  funext x
  show (V c main_v31 : S50000x64.Idx → EReal) (((cfg2.win 3).blk t).view.emb x) = (V c main_v31 : S50000x64.Idx → EReal) _
  refine congrArg _ (funext fun a => Fin.ext ?_)
  match a with
  | ⟨0, _⟩ => show win2_3.index t (0 : Fin 2) * 10000 + 1 * (x 0).val = t.val * 10000 + (x 0).val; rw [e3_0]; omega
  | ⟨1, _⟩ => show win2_3.index t (1 : Fin 2) * 64 + 1 * (x 1).val = (x 1).val; rw [e3_1]; omega

/-- Window 4's block at point `t` is rows `10000 t …` of its array. -/
theorem in2_4 (c : Dev nD) (t : Fin cfg2.N) :
    (iblk2 V c 4 t : S10000x1.Idx → EReal) = rowsAt (V c main_v15 : Cert.Spec.Mat 50000 1) (t.val * 10000) (band2 t) := by
  obtain ⟨e0_0, e0_1, e1_0, e1_1, e2_0, e2_1, e3_0, e3_1, e4_0, e4_1, e5_0, e5_1, e6_0, e6_1, e7_0, e7_1, e8_0, e8_1, e9_0, e9_1⟩ := idx2 t
  funext x
  show (V c main_v15 : S50000x1.Idx → EReal) (((cfg2.win 4).blk t).view.emb x) = (V c main_v15 : S50000x1.Idx → EReal) _
  refine congrArg _ (funext fun a => Fin.ext ?_)
  match a with
  | ⟨0, _⟩ => show win2_4.index t (0 : Fin 2) * 10000 + 1 * (x 0).val = t.val * 10000 + (x 0).val; rw [e4_0]; omega
  | ⟨1, _⟩ => show win2_4.index t (1 : Fin 2) * 1 + 1 * (x 1).val = (x 1).val; rw [e4_1]; omega

/-- Window 5's block at every point is its whole array. -/
theorem in2_5 (c : Dev nD) (t : Fin cfg2.N) :
    (iblk2 V c 5 t : S1x64.Idx → EReal) = (V c main_v17 : S1x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx2 t
  funext x
  show (V c main_v17 : S1x64.Idx → EReal) (((cfg2.win 5).blk t).view.emb x) = (V c main_v17 : S1x64.Idx → EReal) x
  refine congrArg _ (funext fun a => Fin.ext ?_)
  match a with
  | ⟨0, _⟩ => show win2_5.index t (0 : Fin 2) * 1 + 1 * (x 0).val = (x 0).val; rw [e5_0]; omega
  | ⟨1, _⟩ => show win2_5.index t (1 : Fin 2) * 64 + 1 * (x 1).val = (x 1).val; rw [e5_1]; omega

/-- Window 6's block at every point is its whole array. -/
theorem in2_6 (c : Dev nD) (t : Fin cfg2.N) :
    (iblk2 V c 6 t : S64x64.Idx → EReal) = (V c main_arg6 : S64x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx2 t
  funext x
  show (V c main_arg6 : S64x64.Idx → EReal) (((cfg2.win 6).blk t).view.emb x) = (V c main_arg6 : S64x64.Idx → EReal) x
  refine congrArg _ (funext fun a => Fin.ext ?_)
  match a with
  | ⟨0, _⟩ => show win2_6.index t (0 : Fin 2) * 64 + 1 * (x 0).val = (x 0).val; rw [e6_0]; omega
  | ⟨1, _⟩ => show win2_6.index t (1 : Fin 2) * 64 + 1 * (x 1).val = (x 1).val; rw [e6_1]; omega

/-- Window 7's block at every point is its whole array. -/
theorem in2_7 (c : Dev nD) (t : Fin cfg2.N) :
    (iblk2 V c 7 t : S1x64.Idx → EReal) = (V c main_v18 : S1x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx2 t
  funext x
  show (V c main_v18 : S1x64.Idx → EReal) (((cfg2.win 7).blk t).view.emb x) = (V c main_v18 : S1x64.Idx → EReal) x
  refine congrArg _ (funext fun a => Fin.ext ?_)
  match a with
  | ⟨0, _⟩ => show win2_7.index t (0 : Fin 2) * 1 + 1 * (x 0).val = (x 0).val; rw [e7_0]; omega
  | ⟨1, _⟩ => show win2_7.index t (1 : Fin 2) * 64 + 1 * (x 1).val = (x 1).val; rw [e7_1]; omega

/-- Window 8's block at every point is its whole array. -/
theorem in2_8 (c : Dev nD) (t : Fin cfg2.N) :
    (iblk2 V c 8 t : S1x64.Idx → EReal) = (V c main_v37 : S1x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx2 t
  funext x
  show (V c main_v37 : S1x64.Idx → EReal) (((cfg2.win 8).blk t).view.emb x) = (V c main_v37 : S1x64.Idx → EReal) x
  refine congrArg _ (funext fun a => Fin.ext ?_)
  match a with
  | ⟨0, _⟩ => show win2_8.index t (0 : Fin 2) * 1 + 1 * (x 0).val = (x 0).val; rw [e8_0]; omega
  | ⟨1, _⟩ => show win2_8.index t (1 : Fin 2) * 64 + 1 * (x 1).val = (x 1).val; rw [e8_1]; omega

/-- Output window 9's block at point `t`, read off any contents of its array, is rows `10000 t …` of them. -/
theorem outblk2_9 (t : Fin cfg2.N) (G : Cert.Spec.Mat 50000 64) :
    (((cfg2.win 9).blk t).view.read (Elt Ideal) G : S10000x64.Idx → EReal) = rowsAt G (t.val * 10000) (band2 t) := by
  obtain ⟨e0_0, e0_1, e1_0, e1_1, e2_0, e2_1, e3_0, e3_1, e4_0, e4_1, e5_0, e5_1, e6_0, e6_1, e7_0, e7_1, e8_0, e8_1, e9_0, e9_1⟩ := idx2 t
  funext x
  show G (((cfg2.win 9).blk t).view.emb x) = G _
  refine congrArg _ (funext fun a => Fin.ext ?_)
  match a with
  | ⟨0, _⟩ => show win2_9.index t (0 : Fin 2) * 10000 + 1 * (x 0).val = t.val * 10000 + (x 0).val; rw [e9_0]; omega
  | ⟨1, _⟩ => show win2_9.index t (1 : Fin 2) * 64 + 1 * (x 1).val = (x 1).val; rw [e9_1]; omega

/-- The layer update of the arrays the region finds. -/
abbrev G2_9 (c : Dev nD) : Cert.Spec.Mat 50000 64 :=
  Cert.Spec.comb (V c main_v20 : Cert.Spec.Mat 50000 64) (V c main_v20 : Cert.Spec.Mat 50000 64) (V c main_v21_0 : Cert.Spec.Mat 50000 64)
    (Cert.Spec.scale (V c main_v31 : Cert.Spec.Mat 50000 64) (col1 (V c main_v15 : Cert.Spec.Mat 50000 1))) (row1 (V c main_v17 : Cert.Spec.Mat 1 64))
    (V c main_arg6 : Cert.Spec.Mat 64 64) (row1 (V c main_v18 : Cert.Spec.Mat 1 64)) (row1 (V c main_v37 : Cert.Spec.Mat 1 64))

/-- What point `t` writes back through window 9 is its band of rows of that array. -/
theorem flushed2_9 (c : Dev nD) (t : Fin cfg2.N) :
    (dat2 V qq2 c).flushed 9 t = ((cfg2.win 9).blk t).view.read (Elt Ideal) (G2_9 V c) := by
  show (cfg2.win 9).cut (grid2.coords t) ((dat2 V qq2 c).after 9 t) = _
  rw [after2_9]
  unfold out2_9
  rw [View.canon_unit_zero zero2]
  simp only [View.ld_unit_zero (S := S10000x64) zero2, View.ld_unit_zero (S := S10000x1) zero2, View.ld_unit_zero (S := S1x64) zero2, View.ld_unit_zero (S := S64x64) zero2]
  refine Eq.trans ?_ (outblk2_9 t (G2_9 V c)).symm
  show k2_pay1 (F := Ideal) (k2_pay2 (F := Ideal) (iblk2 V c 0 t) (iblk2 V c 8 t))
      (k2_pay3 (F := Ideal) (iblk2 V c 3 t) (iblk2 V c 4 t) (iblk2 V c 5 t) (iblk2 V c 2 t) (iblk2 V c 6 t) (iblk2 V c 7 t) (iblk2 V c 1 t)) = _
  rw [in2_0 V c t, in2_1 V c t, in2_2 V c t, in2_3 V c t, in2_4 V c t, in2_5 V c t, in2_6 V c t, in2_7 V c t, in2_8 V c t]
  exact comb_rows2 _ _ _ _ _ _ _ _ _ _ _

/-- An index of window 9's array is in point `t`'s block iff each coordinate is in the block's range on its axis. -/
theorem mem_blk2_9 (t : Fin cfg2.N) (i : S50000x64.Idx) :
    i ∈ ((cfg2.win 9).blk t).view.set ↔ ∀ a : Fin 2, win2_9.index t a * S10000x64.size a ≤ (i a).val ∧ (i a).val < win2_9.index t a * S10000x64.size a + S10000x64.size a := by
  show i ∈ ((View.whole main_v38).slice (win2_9.rect t)).set ↔ _
  rw [View.set_slice_whole, Rect.mem_set_unit]
  exact Iff.rfl

/-- Row `r` of window 9's array is in the block of point `r / 10000`. -/
theorem cover2_9 (i : S50000x64.Idx) :
    ∃ t : Fin cfg2.N, (cfg2.win 9).flush t = true ∧ i ∈ ((cfg2.win 9).blk t).view.set := by
  have hi0 : (i 0).val < 50000 := idx2_lt0 i
  have hi1 : (i 1).val < 64 := idx2_lt1 i
  have hN : cfg2.N = 5 := N_2
  have ht : (i 0).val / 10000 < cfg2.N := by rw [hN]; omega
  obtain ⟨e0_0, e0_1, e1_0, e1_1, e2_0, e2_1, e3_0, e3_1, e4_0, e4_1, e5_0, e5_1, e6_0, e6_1, e7_0, e7_1, e8_0, e8_1, e9_0, e9_1⟩ := idx2 ⟨(i 0).val / 10000, ht⟩
  refine ⟨⟨(i 0).val / 10000, ht⟩, flush2_9 _, ?_⟩
  rw [mem_blk2_9]
  intro a
  match a with
  | ⟨0, _⟩ =>
    show win2_9.index ⟨(i 0).val / 10000, ht⟩ (0 : Fin 2) * 10000 ≤ (i 0).val ∧ (i 0).val < win2_9.index ⟨(i 0).val / 10000, ht⟩ (0 : Fin 2) * 10000 + 10000
    rw [e9_0]; show (i 0).val / 10000 * 10000 ≤ (i 0).val ∧ (i 0).val < (i 0).val / 10000 * 10000 + 10000; omega
  | ⟨1, _⟩ =>
    show win2_9.index ⟨(i 0).val / 10000, ht⟩ (1 : Fin 2) * 64 ≤ (i 1).val ∧ (i 1).val < win2_9.index ⟨(i 0).val / 10000, ht⟩ (1 : Fin 2) * 64 + 64
    rw [e9_1]; omega

/-- The output array after the region: the layer update of the arrays the region found. -/
theorem final2 (c : Dev nD) :
    (dat2 V qq2 c).arrAt 9 cfg2.N = Cert.Spec.comb (V c main_v20 : Cert.Spec.Mat 50000 64) (V c main_v20 : Cert.Spec.Mat 50000 64) (V c main_v21_0 : Cert.Spec.Mat 50000 64) (Cert.Spec.scale (V c main_v31 : Cert.Spec.Mat 50000 64) (col1 (V c main_v15 : Cert.Spec.Mat 50000 1))) (row1 (V c main_v17 : Cert.Spec.Mat 1 64)) (V c main_arg6 : Cert.Spec.Mat 64 64) (row1 (V c main_v18 : Cert.Spec.Mat 1 64)) (row1 (V c main_v37 : Cert.Spec.Mat 1 64)) :=
  (dat2 V qq2 c).arrAt_eq_of_cover 9 (G2_9 V c) (fun t _ => flushed2_9 V qq2 c t) cover2_9

end Cert.KernelIdeal.Fin

end
-- ==== Proof.KV.Final3.lean ====
/-
  Region 3 (layer 2's projection), from blocks to the whole arrays.

  The grid has five points; point t works on rows 10000 t … 10000 t + 9999 of the state, of the one-column scale and of
  the two outputs, with the weights whole at every point.  What point t writes back is therefore that band of rows of the
  product of the whole state with the weights (first output) and of that product with row r scaled by the scale's entry
  r (second output); the five bands cover all 50000 rows.
-/
import proofs.«121059_j18107582120780_2_alg».proof.Proof.KI.Region3
import proofs.«121059_j18107582120780_2_alg».proof.Proof.KPay
import proofs.«121059_j18107582120780_2_alg».proof.Proof.KV.Rows
import Idealize.ShloMosaic.Lib.Pipeline.Value

noncomputable section

namespace Cert.KernelIdeal.Fin

open Cert.KernelIdeal Cert.KernelIdeal.Gen Cert.KV
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The projection's body on a band of rows gives that band of the product. -/
theorem proj_rows3 (A : Cert.Spec.Mat 50000 64) (W : Cert.Spec.Mat 64 64) (o : Nat) (h : o + 10000 ≤ 50000) :
    k3_pay1 (F := Ideal) (rowsAt A o h) W = rowsAt (Cert.Spec.mm A W) o h := by
  funext y
  obtain ⟨p, q, rfl⟩ : ∃ (p : Fin 10000) (q : Fin 64), y = ix2 p q := ⟨y 0, y 1, eq_ix2 y⟩
  refine (Cert.KPay.pay3a (rowsAt A o h) W p q).trans ?_
  rfl

/-- The scaled projection's body on a band of rows gives that band of the scaled product. -/
theorem scaled_rows3 (A : Cert.Spec.Mat 50000 64) (W : Cert.Spec.Mat 64 64) (D : Cert.Spec.Mat 50000 1) (o : Nat)
    (h : o + 10000 ≤ 50000) :
    k3_pay2 (F := Ideal) (rowsAt A o h) W (rowsAt D o h) = rowsAt (Cert.Spec.scale (Cert.Spec.mm A W) (col1 D)) o h := by
  funext y
  obtain ⟨p, q, rfl⟩ : ∃ (p : Fin 10000) (q : Fin 64), y = ix2 p q := ⟨y 0, y 1, eq_ix2 y⟩
  refine (Cert.KPay.pay3b (rowsAt A o h) W (rowsAt D o h) p q).trans ?_
  rfl

/-- The block indices of the region's windows at point `t`: row band `t` for the windows over arrays of 50000 rows,
    block (0, 0) for the windows over whole small arrays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Point `t`'s band of 10000 rows lies inside the 50000 rows. -/
theorem band3 (t : Fin cfg3.N) : t.val * 10000 + 10000 ≤ 50000 := by
  have h : t.val < cfg3.N := t.isLt
  have hN : cfg3.N = 5 := N_3
  omega

/-- Window 0's block at point `t` is rows `10000 t …` of its array. -/
theorem in3_0 (c : Dev nD) (t : Fin cfg3.N) :
    (iblk3 V c 0 t : S10000x64.Idx → EReal) = rowsAt (V c main_v38 : Cert.Spec.Mat 50000 64) (t.val * 10000) (band3 t) := by
  obtain ⟨e0_0, e0_1, e1_0, e1_1, e2_0, e2_1, e3_0, e3_1, e4_0, e4_1⟩ := idx3 t
  funext x
  show (V c main_v38 : S50000x64.Idx → EReal) (((cfg3.win 0).blk t).view.emb x) = (V c main_v38 : S50000x64.Idx → EReal) _
  refine congrArg _ (funext fun a => Fin.ext ?_)
  match a with
  | ⟨0, _⟩ => show win3_0.index t (0 : Fin 2) * 10000 + 1 * (x 0).val = t.val * 10000 + (x 0).val; rw [e0_0]; omega
  | ⟨1, _⟩ => show win3_0.index t (1 : Fin 2) * 64 + 1 * (x 1).val = (x 1).val; rw [e0_1]; omega

/-- Window 1's block at every point is its whole array. -/
theorem in3_1 (c : Dev nD) (t : Fin cfg3.N) :
    (iblk3 V c 1 t : S64x64.Idx → EReal) = (V c main_arg4 : S64x64.Idx → EReal) := by
  obtain ⟨e0_0, e0_1, e1_0, e1_1, e2_0, e2_1, e3_0, e3_1, e4_0, e4_1⟩ := idx3 t
  funext x
  show (V c main_arg4 : S64x64.Idx → EReal) (((cfg3.win 1).blk t).view.emb x) = (V c main_arg4 : S64x64.Idx → EReal) x
  refine congrArg _ (funext fun a => Fin.ext ?_)
  match a with
  | ⟨0, _⟩ => show win3_1.index t (0 : Fin 2) * 64 + 1 * (x 0).val = (x 0).val; rw [e1_0]; omega
  | ⟨1, _⟩ => show win3_1.index t (1 : Fin 2) * 64 + 1 * (x 1).val = (x 1).val; rw [e1_1]; omega

/-- Window 2's block at point `t` is rows `10000 t …` of its array. -/
theorem in3_2 (c : Dev nD) (t : Fin cfg3.N) :
    (iblk3 V c 2 t : S10000x1.Idx → EReal) = rowsAt (V c main_v15 : Cert.Spec.Mat 50000 1) (t.val * 10000) (band3 t) := by
  obtain ⟨e0_0, e0_1, e1_0, e1_1, e2_0, e2_1, e3_0, e3_1, e4_0, e4_1⟩ := idx3 t
  funext x
  show (V c main_v15 : S50000x1.Idx → EReal) (((cfg3.win 2).blk t).view.emb x) = (V c main_v15 : S50000x1.Idx → EReal) _
  refine congrArg _ (funext fun a => Fin.ext ?_)
  match a with
  | ⟨0, _⟩ => show win3_2.index t (0 : Fin 2) * 10000 + 1 * (x 0).val = t.val * 10000 + (x 0).val; rw [e2_0]; omega
  | ⟨1, _⟩ => show win3_2.index t (1 : Fin 2) * 1 + 1 * (x 1).val = (x 1).val; rw [e2_1]; omega

/-- Output window 3's block at point `t`, read off any contents of its array, is rows `10000 t …` of them. -/
theorem outblk3_3 (t : Fin cfg3.N) (G : Cert.Spec.Mat 50000 64) :
    (((cfg3.win 3).blk t).view.read (Elt Ideal) G : S10000x64.Idx → EReal) = rowsAt G (t.val * 10000) (band3 t) := by
  obtain ⟨e0_0, e0_1, e1_0, e1_1, e2_0, e2_1, e3_0, e3_1, e4_0, e4_1⟩ := idx3 t
  funext x
  show G (((cfg3.win 3).blk t).view.emb x) = G _
  refine congrArg _ (funext fun a => Fin.ext ?_)
  match a with
  | ⟨0, _⟩ => show win3_3.index t (0 : Fin 2) * 10000 + 1 * (x 0).val = t.val * 10000 + (x 0).val; rw [e3_0]; omega
  | ⟨1, _⟩ => show win3_3.index t (1 : Fin 2) * 64 + 1 * (x 1).val = (x 1).val; rw [e3_1]; omega

/-- The product of the state with the weights, of the arrays the region finds. -/
abbrev G3_3 (c : Dev nD) : Cert.Spec.Mat 50000 64 :=
  Cert.Spec.mm (V c main_v38 : Cert.Spec.Mat 50000 64) (V c main_arg4 : Cert.Spec.Mat 64 64)

/-- What point `t` writes back through window 3 is its band of rows of that array. -/
theorem flushed3_3 (c : Dev nD) (t : Fin cfg3.N) :
    (dat3 V c).flushed 3 t = ((cfg3.win 3).blk t).view.read (Elt Ideal) (G3_3 V c) := by
  show (cfg3.win 3).cut (grid3.coords t) ((dat3 V c).after 3 t) = _
  rw [after3_3]
  unfold out3_3
  rw [View.canon_unit_zero zero2]
  simp only [View.ld_unit_zero (S := S10000x64) zero2, View.ld_unit_zero (S := S64x64) zero2]
  refine Eq.trans ?_ (outblk3_3 t (G3_3 V c)).symm
  show k3_pay1 (F := Ideal) (iblk3 V c 0 t) (iblk3 V c 1 t) = _
  rw [in3_0 V c t, in3_1 V c t]
  exact proj_rows3 _ _ _ _

/-- An index of window 3's array is in point `t`'s block iff each coordinate is in the block's range on its axis. -/
theorem mem_blk3_3 (t : Fin cfg3.N) (i : S50000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v39_0).slice (win3_3.rect t)).set ↔ _
  rw [View.set_slice_whole, Rect.mem_set_unit]
  exact Iff.rfl

/-- Row `r` of window 3's array is in the block of point `r / 10000`. -/
theorem cover3_3 (i : S50000x64.Idx) :
    ∃ t : Fin cfg3.N, (cfg3.win 3).flush t = true ∧ i ∈ ((cfg3.win 3).blk t).view.set := by
  have hi0 : (i 0).val < 50000 := idx2_lt0 i
  have hi1 : (i 1).val < 64 := idx2_lt1 i
  have hN : cfg3.N = 5 := N_3
  have ht : (i 0).val / 10000 < cfg3.N := by rw [hN]; omega
  obtain ⟨e0_0, e0_1, e1_0, e1_1, e2_0, e2_1, e3_0, e3_1, e4_0, e4_1⟩ := idx3 ⟨(i 0).val / 10000, ht⟩
  refine ⟨⟨(i 0).val / 10000, ht⟩, flush3_3 _, ?_⟩
  rw [mem_blk3_3]
  intro a
  match a with
  | ⟨0, _⟩ =>
    show win3_3.index ⟨(i 0).val / 10000, ht⟩ (0 : Fin 2) * 10000 ≤ (i 0).val ∧ (i 0).val < win3_3.index ⟨(i 0).val / 10000, ht⟩ (0 : Fin 2) * 10000 + 10000
    rw [e3_0]; show (i 0).val / 10000 * 10000 ≤ (i 0).val ∧ (i 0).val < (i 0).val / 10000 * 10000 + 10000; omega
  | ⟨1, _⟩ =>
    show win3_3.index ⟨(i 0).val / 10000, ht⟩ (1 : Fin 2) * 64 ≤ (i 1).val ∧ (i 1).val < win3_3.index ⟨(i 0).val / 10000, ht⟩ (1 : Fin 2) * 64 + 64
    rw [e3_1]; omega

/-- The first output array after the region: the product of the state with the weights. -/
theorem final3a (c : Dev nD) :
    (dat3 V c).arrAt 3 cfg3.N = Cert.Spec.mm (V c main_v38 : Cert.Spec.Mat 50000 64) (V c main_arg4 : Cert.Spec.Mat 64 64) :=
  (dat3 V c).arrAt_eq_of_cover 3 (G3_3 V c) (fun t _ => flushed3_3 V c t) cover3_3

/-- Output window 4's block at point `t`, read off any contents of its array, is rows `10000 t …` of them. -/
theorem outblk3_4 (t : Fin cfg3.N) (G : Cert.Spec.Mat 50000 64) :
    (((cfg3.win 4).blk t).view.read (Elt Ideal) G : S10000x64.Idx → EReal) = rowsAt G (t.val * 10000) (band3 t) := by
  obtain ⟨e0_0, e0_1, e1_0, e1_1, e2_0, e2_1, e3_0, e3_1, e4_0, e4_1⟩ := idx3 t
  funext x
  show G (((cfg3.win 4).blk t).view.emb x) = G _
  refine congrArg _ (funext fun a => Fin.ext ?_)
  match a with
  | ⟨0, _⟩ => show win3_4.index t (0 : Fin 2) * 10000 + 1 * (x 0).val = t.val * 10000 + (x 0).val; rw [e4_0]; omega
  | ⟨1, _⟩ => show win3_4.index t (1 : Fin 2) * 64 + 1 * (x 1).val = (x 1).val; rw [e4_1]; omega

/-- That product with each row scaled by the row's entry of the one-column array. -/
abbrev G3_4 (c : Dev nD) : Cert.Spec.Mat 50000 64 :=
  Cert.Spec.scale (Cert.Spec.mm (V c main_v38 : Cert.Spec.Mat 50000 64) (V c main_arg4 : Cert.Spec.Mat 64 64)) (col1 (V c main_v15 : Cert.Spec.Mat 50000 1))

/-- What point `t` writes back through window 4 is its band of rows of that array. -/
theorem flushed3_4 (c : Dev nD) (t : Fin cfg3.N) :
    (dat3 V c).flushed 4 t = ((cfg3.win 4).blk t).view.read (Elt Ideal) (G3_4 V c) := by
  show (cfg3.win 4).cut (grid3.coords t) ((dat3 V c).after 4 t) = _
  rw [after3_4]
  unfold out3_4
  rw [View.canon_unit_zero zero2]
  simp only [View.ld_unit_zero (S := S10000x64) zero2, View.ld_unit_zero (S := S64x64) zero2, View.ld_unit_zero (S := S10000x1) zero2]
  refine Eq.trans ?_ (outblk3_4 t (G3_4 V c)).symm
  show k3_pay2 (F := Ideal) (iblk3 V c 0 t) (iblk3 V c 1 t) (iblk3 V c 2 t) = _
  rw [in3_0 V c t, in3_1 V c t, in3_2 V c t]
  exact scaled_rows3 _ _ _ _ _

/-- An index of window 4's array is in point `t`'s block iff each coordinate is in the block's range on its axis. -/
theorem mem_blk3_4 (t : Fin cfg3.N) (i : S50000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v39_1).slice (win3_4.rect t)).set ↔ _
  rw [View.set_slice_whole, Rect.mem_set_unit]
  exact Iff.rfl

/-- Row `r` of window 4's array is in the block of point `r / 10000`. -/
theorem cover3_4 (i : S50000x64.Idx) :
    ∃ t : Fin cfg3.N, (cfg3.win 4).flush t = true ∧ i ∈ ((cfg3.win 4).blk t).view.set := by
  have hi0 : (i 0).val < 50000 := idx2_lt0 i
  have hi1 : (i 1).val < 64 := idx2_lt1 i
  have hN : cfg3.N = 5 := N_3
  have ht : (i 0).val / 10000 < cfg3.N := by rw [hN]; omega
  obtain ⟨e0_0, e0_1, e1_0, e1_1, e2_0, e2_1, e3_0, e3_1, e4_0, e4_1⟩ := idx3 ⟨(i 0).val / 10000, ht⟩
  refine ⟨⟨(i 0).val / 10000, ht⟩, flush3_4 _, ?_⟩
  rw [mem_blk3_4]
  intro a
  match a with
  | ⟨0, _⟩ =>
    show win3_4.index ⟨(i 0).val / 10000, ht⟩ (0 : Fin 2) * 10000 ≤ (i 0).val ∧ (i 0).val < win3_4.index ⟨(i 0).val / 10000, ht⟩ (0 : Fin 2) * 10000 + 10000
    rw [e4_0]; show (i 0).val / 10000 * 10000 ≤ (i 0).val ∧ (i 0).val < (i 0).val / 10000 * 10000 + 10000; omega
  | ⟨1, _⟩ =>
    show win3_4.index ⟨(i 0).val / 10000, ht⟩ (1 : Fin 2) * 64 ≤ (i 1).val ∧ (i 1).val < win3_4.index ⟨(i 0).val / 10000, ht⟩ (1 : Fin 2) * 64 + 64
    rw [e4_1]; omega

/-- The second output array after the region: the product with each row scaled. -/
theorem final3b (c : Dev nD) :
    (dat3 V c).arrAt 4 cfg3.N = Cert.Spec.scale (Cert.Spec.mm (V c main_v38 : Cert.Spec.Mat 50000 64) (V c main_arg4 : Cert.Spec.Mat 64 64)) (col1 (V c main_v15 : Cert.Spec.Mat 50000 1)) :=
  (dat3 V c).arrAt_eq_of_cover 4 (G3_4 V c) (fun t _ => flushed3_4 V c t) cover3_4

end Cert.KernelIdeal.Fin

end
-- ==== Proof.KV.Final4.lean ====
/-
  Region 4 (layer 2's update), from blocks to the whole array.

  The grid has five points; point t works on rows 10000 t … 10000 t + 9999 of the state (read through two windows), of
  the projected features, of the aggregated messages, of the one-column scale and of the output, with the two bias rows,
  the residual weights and the gate row whole at every point.  What point t writes back is therefore that band of rows of
  the layer update of the whole arrays, the aggregate being the messages with row r scaled by the scale's entry r; the
  five bands cover all 50000 rows.
-/
import proofs.«121059_j18107582120780_2_alg».proof.Proof.KI.Region4
import proofs.«121059_j18107582120780_2_alg».proof.Proof.KPay
import proofs.«121059_j18107582120780_2_alg».proof.Proof.KV.Rows
import Idealize.ShloMosaic.Lib.Pipeline.Value

noncomputable section

namespace Cert.KernelIdeal.Fin

open Cert.KernelIdeal Cert.KernelIdeal.Gen Cert.KV
open Idealize.ShloMosaic Idealize.ShloMosaic.TcCoe Idealize.ShloMosaic.ValueIdx Idealize.SL.Sem
open Idealize.ShloMosaic.Pipeline (Dat)
open Idealize.SL.RA (PosShare TreeShare)

variable (V : (c : Dev nD) → (b : Ref sig .tc) → Buf (Elt Ideal) ((c : Thread nD τ).loc b))

variable (qq4 : Fin cfg4.W → PosShare TreeShare)

/-- The update's body on bands of rows gives that band of the update. -/
theorem comb_rows4 (X0 X H CS : Cert.Spec.Mat 50000 64) (D : Cert.Spec.Mat 50000 1) (CB : Cert.Spec.Mat 1 64)
    (RW : Cert.Spec.Mat 64 64) (RB CO : Cert.Spec.Mat 1 64) (o : Nat) (h : o + 10000 ≤ 50000) :
    k4_pay1 (F := Ideal) (k4_pay2 (F := Ideal) (rowsAt X0 o h) CO)
        (k4_pay3 (F := Ideal) (rowsAt CS o h) (rowsAt D o h) CB (rowsAt H o h) RW RB (rowsAt X o h))
      = rowsAt (Cert.Spec.comb X0 X H (Cert.Spec.scale CS (col1 D)) (row1 CB) RW (row1 RB) (row1 CO)) o h := by
  funext y
  obtain ⟨p, q, rfl⟩ : ∃ (p : Fin 10000) (q : Fin 64), y = ix2 p q := ⟨y 0, y 1, eq_ix2 y⟩
  refine (Cert.KPay.pay4 (rowsAt X0 o h) CO (rowsAt CS o h) (rowsAt D o h) CB (rowsAt H o h) RW RB (rowsAt X o h) p q).trans ?_
  rfl

/-- The block indices of the region's windows at point `t`: row band `t` for the windows over arrays of 50000 rows,
    block (0, 0) for the windows over whole small arrays. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = t.val ∧ win4_9.index t (1 : Fin 2) = 0 :=
  (by decide +kernel : ∀ t : Fin grid4.N, _)

/-- Point `t`'s band of 10000 rows lies inside the 50000 rows. -/
theorem band4 (t : Fin cfg4.N) : t.val * 10000 + 10000 ≤ 50000 := by
  have h : t.val < cfg4.N := t.isLt
  have hN : cfg4.N = 5 := N_4
  omega

/-- Window 0's block at point `t` is rows `10000 t …` of its array. -/
theorem in4_0 (c : Dev nD) (t : Fin cfg4.N) :
    (iblk4 V c 0 t : S10000x64.Idx → EReal) = rowsAt (V c main_v38 : Cert.Spec.Mat 50000 64) (t.val * 10000) (band4 t) := by
  obtain ⟨e0_0, e0_1, e1_0, e1_1, e2_0, e2_1, e3_0, e3_1, e4_0, e4_1, e5_0, e5_1, e6_0, e6_1, e7_0, e7_1, e8_0, e8_1, e9_0, e9_1⟩ := idx4 t
  funext x
  show (V c main_v38 : S50000x64.Idx → EReal) (((cfg4.win 0).blk t).view.emb x) = (V c main_v38 : S50000x64.Idx → EReal) _
  refine congrArg _ (funext fun a => Fin.ext ?_)
  match a with
  | ⟨0, _⟩ => show win4_0.index t (0 : Fin 2) * 10000 + 1 * (x 0).val = t.val * 10000 + (x 0).val; rw [e0_0]; omega
  | ⟨1, _⟩ => show win4_0.index t (1 : Fin 2) * 64 + 1 * (x 1).val = (x 1).val; rw [e0_1]; omega

/-- Window 1's block at point `t` is rows `10000 t …` of its array. -/
theorem in4_1 (c : Dev nD) (t : Fin cfg4.N) :
    (iblk4 V c 1 t : S10000x64.Idx → EReal) = rowsAt (V c main_v38 : Cert.Spec.Mat 50000 64) (t.val * 10000) (band4 t) := by
  obtain ⟨e0_0, e0_1, e1_0, e1_1, e2_0, e2_1, e3_0, e3_1, e4_0, e4_1, e5_0, e5_1, e6_0, e6_1, e7_0, e7_1, e8_0, e8_1, e9_0, e9_1⟩ := idx4 t
  funext x
  show (V c main_v38 : S50000x64.Idx → EReal) (((cfg4.win 1).blk t).view.emb x) = (V c main_v38 : S50000x64.Idx → EReal) _
  refine congrArg _ (funext fun a => Fin.ext ?_)
  match a with
  | ⟨0, _⟩ => show win4_1.index t (0 : Fin 2) * 10000 + 1 * (x 0).val = t.val * 10000 + (x 0).val; rw [e1_0]; omega
  | ⟨1, _⟩ => show win4_1.index t (1 : Fin 2) * 64 + 1 * (x 1).val = (x 1).val; rw [e1_1]; omega

/-- Window 2's block at point `t` is rows `10000 t …` of its array. -/
theorem in4_2 (c : Dev nD) (t : Fin cfg4.N) :
    (iblk4 V c 2 t : S10000x64.Idx → EReal) = rowsAt (V c main_v39_0 : Cert.Spec.Mat 50000 64) (t.val * 10000) (band4 t) := by
  obtain ⟨e0_0, e0_1, e1_0, e1_1, e2_0, e2_1, e3_0, e3_1, e4_0, e4_1, e5_0, e5_1, e6_0, e6_1, e7_0, e7_1, e8_0, e8_1, e9_0, e9_1⟩ := idx4 t
  funext x
  show (V c main_v39_0 : S50000x64.Idx → EReal) (((cfg4.win 2).blk t).view.emb x) = (V c main_v39_0 : S50000x64.Idx → EReal) _
  refine congrArg _ (funext fun a => Fin.ext ?_)
  match a with
  | ⟨0, _⟩ => show win4_2.index t (0 : Fin 2) * 10000 + 1 * (x 0).val = t.val * 10000 + (x 0).val; rw [e2_0]; omega
  | ⟨1, _⟩ => show win4_2.index t (1 : Fin 2) * 64 + 1 * (x 1).val = (x 1).val; rw [e2_1]; omega

/-- Window 3's block at point `t` is rows `10000 t …` of its array. -/
theorem in4_3 (c : Dev nD) (t : Fin cfg4.N) :
    (iblk4 V c 3 t : S10000x64.Idx → EReal) = rowsAt (V c main_v49 : Cert.Spec.Mat 50000 64) (t.val * 10000) (band4 t) := by
  obtain ⟨e0_0, e0_1, e1_0, e1_1, e2_0, e2_1, e3_0, e3_1, e4_0, e4_1, e5_0, e5_1, e6_0, e6_1, e7_0, e7_1, e8_0, e8_1, e9_0, e9_1⟩ := idx4 t
  funext x
  show (V c main_v49 : S50000x64.Idx → EReal) (((cfg4.win 3).blk t).view.emb x) = (V c main_v49 : S50000x64.Idx → EReal) _
  refine congrArg _ (funext fun a => Fin.ext ?_)
  match a with
  | ⟨0, _⟩ => show win4_3.index t (0 : Fin 2) * 10000 + 1 * (x 0).val = t.val * 10000 + (x 0).val; rw [e3_0]; omega
  | ⟨1, _⟩ => show win4_3.index t (1 : Fin 2) * 64 + 1 * (x 1).val = (x 1).val; rw [e3_1]; omega

/-- Window 4's block at point `t` is rows `10000 t …` of its array. -/
theorem in4_4 (c : Dev nD) (t : Fin cfg4.N) :
    (iblk4 V c 4 t : S10000x1.Idx → EReal) = rowsAt (V c main_v15 : Cert.Spec.Mat 50000 1) (t.val * 10000) (band4 t) := by
  obtain ⟨e0_0, e0_1, e1_0, e1_1, e2_0, e2_1, e3_0, e3_1, e4_0, e4_1, e5_0, e5_1, e6_0, e6_1, e7_0, e7_1, e8_0, e8_1, e9_0, e9_1⟩ := idx4 t
  funext x
  show (V c main_v15 : S50000x1.Idx → EReal) (((cfg4.win 4).blk t).view.emb x) = (V c main_v15 : S50000x1.Idx → EReal) _
  refine congrArg _ (funext fun a => Fin.ext ?_)
  match a with
  | ⟨0, _⟩ => show win4_4.index t (0 : Fin 2) * 10000 + 1 * (x 0).val = t.val * 10000 + (x 0).val; rw [e4_0]; omega
  | ⟨1, _⟩ => show win4_4.index t (1 : Fin 2) * 1 + 1 * (x 1).val = (x 1).val; rw [e4_1]; omega

/-- Window 5's block at every point is its whole array. -/
theorem in4_5 (c : Dev nD) (t : Fin cfg4.N) :
    (iblk4 V c 5 t : S1x64.Idx → EReal) = (V c main_v17 : S1x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx4 t
  funext x
  show (V c main_v17 : S1x64.Idx → EReal) (((cfg4.win 5).blk t).view.emb x) = (V c main_v17 : S1x64.Idx → EReal) x
  refine congrArg _ (funext fun a => Fin.ext ?_)
  match a with
  | ⟨0, _⟩ => show win4_5.index t (0 : Fin 2) * 1 + 1 * (x 0).val = (x 0).val; rw [e5_0]; omega
  | ⟨1, _⟩ => show win4_5.index t (1 : Fin 2) * 64 + 1 * (x 1).val = (x 1).val; rw [e5_1]; omega

/-- Window 6's block at every point is its whole array. -/
theorem in4_6 (c : Dev nD) (t : Fin cfg4.N) :
    (iblk4 V c 6 t : S64x64.Idx → EReal) = (V c main_arg6 : S64x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx4 t
  funext x
  show (V c main_arg6 : S64x64.Idx → EReal) (((cfg4.win 6).blk t).view.emb x) = (V c main_arg6 : S64x64.Idx → EReal) x
  refine congrArg _ (funext fun a => Fin.ext ?_)
  match a with
  | ⟨0, _⟩ => show win4_6.index t (0 : Fin 2) * 64 + 1 * (x 0).val = (x 0).val; rw [e6_0]; omega
  | ⟨1, _⟩ => show win4_6.index t (1 : Fin 2) * 64 + 1 * (x 1).val = (x 1).val; rw [e6_1]; omega

/-- Window 7's block at every point is its whole array. -/
theorem in4_7 (c : Dev nD) (t : Fin cfg4.N) :
    (iblk4 V c 7 t : S1x64.Idx → EReal) = (V c main_v18 : S1x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx4 t
  funext x
  show (V c main_v18 : S1x64.Idx → EReal) (((cfg4.win 7).blk t).view.emb x) = (V c main_v18 : S1x64.Idx → EReal) x
  refine congrArg _ (funext fun a => Fin.ext ?_)
  match a with
  | ⟨0, _⟩ => show win4_7.index t (0 : Fin 2) * 1 + 1 * (x 0).val = (x 0).val; rw [e7_0]; omega
  | ⟨1, _⟩ => show win4_7.index t (1 : Fin 2) * 64 + 1 * (x 1).val = (x 1).val; rw [e7_1]; omega

/-- Window 8's block at every point is its whole array. -/
theorem in4_8 (c : Dev nD) (t : Fin cfg4.N) :
    (iblk4 V c 8 t : S1x64.Idx → EReal) = (V c main_v55 : S1x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx4 t
  funext x
  show (V c main_v55 : S1x64.Idx → EReal) (((cfg4.win 8).blk t).view.emb x) = (V c main_v55 : S1x64.Idx → EReal) x
  refine congrArg _ (funext fun a => Fin.ext ?_)
  match a with
  | ⟨0, _⟩ => show win4_8.index t (0 : Fin 2) * 1 + 1 * (x 0).val = (x 0).val; rw [e8_0]; omega
  | ⟨1, _⟩ => show win4_8.index t (1 : Fin 2) * 64 + 1 * (x 1).val = (x 1).val; rw [e8_1]; omega

/-- Output window 9's block at point `t`, read off any contents of its array, is rows `10000 t …` of them. -/
theorem outblk4_9 (t : Fin cfg4.N) (G : Cert.Spec.Mat 50000 64) :
    (((cfg4.win 9).blk t).view.read (Elt Ideal) G : S10000x64.Idx → EReal) = rowsAt G (t.val * 10000) (band4 t) := by
  obtain ⟨e0_0, e0_1, e1_0, e1_1, e2_0, e2_1, e3_0, e3_1, e4_0, e4_1, e5_0, e5_1, e6_0, e6_1, e7_0, e7_1, e8_0, e8_1, e9_0, e9_1⟩ := idx4 t
  funext x
  show G (((cfg4.win 9).blk t).view.emb x) = G _
  refine congrArg _ (funext fun a => Fin.ext ?_)
  match a with
  | ⟨0, _⟩ => show win4_9.index t (0 : Fin 2) * 10000 + 1 * (x 0).val = t.val * 10000 + (x 0).val; rw [e9_0]; omega
  | ⟨1, _⟩ => show win4_9.index t (1 : Fin 2) * 64 + 1 * (x 1).val = (x 1).val; rw [e9_1]; omega

/-- The layer update of the arrays the region finds. -/
abbrev G4_9 (c : Dev nD) : Cert.Spec.Mat 50000 64 :=
  Cert.Spec.comb (V c main_v38 : Cert.Spec.Mat 50000 64) (V c main_v38 : Cert.Spec.Mat 50000 64) (V c main_v39_0 : Cert.Spec.Mat 50000 64)
    (Cert.Spec.scale (V c main_v49 : Cert.Spec.Mat 50000 64) (col1 (V c main_v15 : Cert.Spec.Mat 50000 1))) (row1 (V c main_v17 : Cert.Spec.Mat 1 64))
    (V c main_arg6 : Cert.Spec.Mat 64 64) (row1 (V c main_v18 : Cert.Spec.Mat 1 64)) (row1 (V c main_v55 : Cert.Spec.Mat 1 64))

/-- What point `t` writes back through window 9 is its band of rows of that array. -/
theorem flushed4_9 (c : Dev nD) (t : Fin cfg4.N) :
    (dat4 V qq4 c).flushed 9 t = ((cfg4.win 9).blk t).view.read (Elt Ideal) (G4_9 V c) := by
  show (cfg4.win 9).cut (grid4.coords t) ((dat4 V qq4 c).after 9 t) = _
  rw [after4_9]
  unfold out4_9
  rw [View.canon_unit_zero zero2]
  simp only [View.ld_unit_zero (S := S10000x64) zero2, View.ld_unit_zero (S := S10000x1) zero2, View.ld_unit_zero (S := S1x64) zero2, View.ld_unit_zero (S := S64x64) zero2]
  refine Eq.trans ?_ (outblk4_9 t (G4_9 V c)).symm
  show k4_pay1 (F := Ideal) (k4_pay2 (F := Ideal) (iblk4 V c 0 t) (iblk4 V c 8 t))
      (k4_pay3 (F := Ideal) (iblk4 V c 3 t) (iblk4 V c 4 t) (iblk4 V c 5 t) (iblk4 V c 2 t) (iblk4 V c 6 t) (iblk4 V c 7 t) (iblk4 V c 1 t)) = _
  rw [in4_0 V c t, in4_1 V c t, in4_2 V c t, in4_3 V c t, in4_4 V c t, in4_5 V c t, in4_6 V c t, in4_7 V c t, in4_8 V c t]
  exact comb_rows4 _ _ _ _ _ _ _ _ _ _ _

/-- An index of window 9's array is in point `t`'s block iff each coordinate is in the block's range on its axis. -/
theorem mem_blk4_9 (t : Fin cfg4.N) (i : S50000x64.Idx) :
    i ∈ ((cfg4.win 9).blk t).view.set ↔ ∀ a : Fin 2, win4_9.index t a * S10000x64.size a ≤ (i a).val ∧ (i a).val < win4_9.index t a * S10000x64.size a + S10000x64.size a := by
  show i ∈ ((View.whole main_v56).slice (win4_9.rect t)).set ↔ _
  rw [View.set_slice_whole, Rect.mem_set_unit]
  exact Iff.rfl

/-- Row `r` of window 9's array is in the block of point `r / 10000`. -/
theorem cover4_9 (i : S50000x64.Idx) :
    ∃ t : Fin cfg4.N, (cfg4.win 9).flush t = true ∧ i ∈ ((cfg4.win 9).blk t).view.set := by
  have hi0 : (i 0).val < 50000 := idx2_lt0 i
  have hi1 : (i 1).val < 64 := idx2_lt1 i
  have hN : cfg4.N = 5 := N_4
  have ht : (i 0).val / 10000 < cfg4.N := by rw [hN]; omega
  obtain ⟨e0_0, e0_1, e1_0, e1_1, e2_0, e2_1, e3_0, e3_1, e4_0, e4_1, e5_0, e5_1, e6_0, e6_1, e7_0, e7_1, e8_0, e8_1, e9_0, e9_1⟩ := idx4 ⟨(i 0).val / 10000, ht⟩
  refine ⟨⟨(i 0).val / 10000, ht⟩, flush4_9 _, ?_⟩
  rw [mem_blk4_9]
  intro a
  match a with
  | ⟨0, _⟩ =>
    show win4_9.index ⟨(i 0).val / 10000, ht⟩ (0 : Fin 2) * 10000 ≤ (i 0).val ∧ (i 0).val < win4_9.index ⟨(i 0).val / 10000, ht⟩ (0 : Fin 2) * 10000 + 10000
    rw [e9_0]; show (i 0).val / 10000 * 10000 ≤ (i 0).val ∧ (i 0).val < (i 0).val / 10000 * 10000 + 10000; omega
  | ⟨1, _⟩ =>
    show win4_9.index ⟨(i 0).val / 10000, ht⟩ (1 : Fin 2) * 64 ≤ (i 1).val ∧ (i 1).val < win4_9.index ⟨(i 0).val / 10000, ht⟩ (1 : Fin 2) * 64 + 64
    rw [e9_1]; omega

/-- The output array after the region: the layer update of the arrays the region found. -/
theorem final4 (c : Dev nD) :
    (dat4 V qq4 c).arrAt 9 cfg4.N = Cert.Spec.comb (V c main_v38 : Cert.Spec.Mat 50000 64) (V c main_v38 : Cert.Spec.Mat 50000 64) (V c main_v39_0 : Cert.Spec.Mat 50000 64) (Cert.Spec.scale (V c main_v49 : Cert.Spec.Mat 50000 64) (col1 (V c main_v15 : Cert.Spec.Mat 50000 1))) (row1 (V c main_v17 : Cert.Spec.Mat 1 64)) (V c main_arg6 : Cert.Spec.Mat 64 64) (row1 (V c main_v18 : Cert.Spec.Mat 1 64)) (row1 (V c main_v55 : Cert.Spec.Mat 1 64)) :=
  (dat4 V qq4 c).arrAt_eq_of_cover 9 (G4_9 V c) (fun t _ => flushed4_9 V qq4 c t) cover4_9

end Cert.KernelIdeal.Fin

end
-- ==== Proof.KV.Final5.lean ====
/-
  Region 5 (layer 3's projection), from blocks to the whole arrays.

  The grid has five points; point t works on rows 10000 t … 10000 t + 9999 of the state, of the one-column scale and of
  the two outputs, with the weights whole at every point.  What point t writes back is therefore that band of rows of the
  product of the whole state with the weights (first output) and of that product with row r scaled by the scale's entry
  r (second output); the five bands cover all 50000 rows.
-/
import proofs.«121059_j18107582120780_2_alg».proof.Proof.KI.Region5
import proofs.«121059_j18107582120780_2_alg».proof.Proof.KPay
import proofs.«121059_j18107582120780_2_alg».proof.Proof.KV.Rows
import Idealize.ShloMosaic.Lib.Pipeline.Value

noncomputable section

namespace Cert.KernelIdeal.Fin

open Cert.KernelIdeal Cert.KernelIdeal.Gen Cert.KV
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The projection's body on a band of rows gives that band of the product. -/
theorem proj_rows5 (A : Cert.Spec.Mat 50000 64) (W : Cert.Spec.Mat 64 64) (o : Nat) (h : o + 10000 ≤ 50000) :
    k5_pay1 (F := Ideal) (rowsAt A o h) W = rowsAt (Cert.Spec.mm A W) o h := by
  funext y
  obtain ⟨p, q, rfl⟩ : ∃ (p : Fin 10000) (q : Fin 64), y = ix2 p q := ⟨y 0, y 1, eq_ix2 y⟩
  refine (Cert.KPay.pay5a (rowsAt A o h) W p q).trans ?_
  rfl

/-- The scaled projection's body on a band of rows gives that band of the scaled product. -/
theorem scaled_rows5 (A : Cert.Spec.Mat 50000 64) (W : Cert.Spec.Mat 64 64) (D : Cert.Spec.Mat 50000 1) (o : Nat)
    (h : o + 10000 ≤ 50000) :
    k5_pay2 (F := Ideal) (rowsAt A o h) W (rowsAt D o h) = rowsAt (Cert.Spec.scale (Cert.Spec.mm A W) (col1 D)) o h := by
  funext y
  obtain ⟨p, q, rfl⟩ : ∃ (p : Fin 10000) (q : Fin 64), y = ix2 p q := ⟨y 0, y 1, eq_ix2 y⟩
  refine (Cert.KPay.pay5b (rowsAt A o h) W (rowsAt D o h) p q).trans ?_
  rfl

/-- The block indices of the region's windows at point `t`: row band `t` for the windows over arrays of 50000 rows,
    block (0, 0) for the windows over whole small arrays. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- Point `t`'s band of 10000 rows lies inside the 50000 rows. -/
theorem band5 (t : Fin cfg5.N) : t.val * 10000 + 10000 ≤ 50000 := by
  have h : t.val < cfg5.N := t.isLt
  have hN : cfg5.N = 5 := N_5
  omega

/-- Window 0's block at point `t` is rows `10000 t …` of its array. -/
theorem in5_0 (c : Dev nD) (t : Fin cfg5.N) :
    (iblk5 V c 0 t : S10000x64.Idx → EReal) = rowsAt (V c main_v56 : Cert.Spec.Mat 50000 64) (t.val * 10000) (band5 t) := by
  obtain ⟨e0_0, e0_1, e1_0, e1_1, e2_0, e2_1, e3_0, e3_1, e4_0, e4_1⟩ := idx5 t
  funext x
  show (V c main_v56 : S50000x64.Idx → EReal) (((cfg5.win 0).blk t).view.emb x) = (V c main_v56 : S50000x64.Idx → EReal) _
  refine congrArg _ (funext fun a => Fin.ext ?_)
  match a with
  | ⟨0, _⟩ => show win5_0.index t (0 : Fin 2) * 10000 + 1 * (x 0).val = t.val * 10000 + (x 0).val; rw [e0_0]; omega
  | ⟨1, _⟩ => show win5_0.index t (1 : Fin 2) * 64 + 1 * (x 1).val = (x 1).val; rw [e0_1]; omega

/-- Window 1's block at every point is its whole array. -/
theorem in5_1 (c : Dev nD) (t : Fin cfg5.N) :
    (iblk5 V c 1 t : S64x64.Idx → EReal) = (V c main_arg4 : S64x64.Idx → EReal) := by
  obtain ⟨e0_0, e0_1, e1_0, e1_1, e2_0, e2_1, e3_0, e3_1, e4_0, e4_1⟩ := idx5 t
  funext x
  show (V c main_arg4 : S64x64.Idx → EReal) (((cfg5.win 1).blk t).view.emb x) = (V c main_arg4 : S64x64.Idx → EReal) x
  refine congrArg _ (funext fun a => Fin.ext ?_)
  match a with
  | ⟨0, _⟩ => show win5_1.index t (0 : Fin 2) * 64 + 1 * (x 0).val = (x 0).val; rw [e1_0]; omega
  | ⟨1, _⟩ => show win5_1.index t (1 : Fin 2) * 64 + 1 * (x 1).val = (x 1).val; rw [e1_1]; omega

/-- Window 2's block at point `t` is rows `10000 t …` of its array. -/
theorem in5_2 (c : Dev nD) (t : Fin cfg5.N) :
    (iblk5 V c 2 t : S10000x1.Idx → EReal) = rowsAt (V c main_v15 : Cert.Spec.Mat 50000 1) (t.val * 10000) (band5 t) := by
  obtain ⟨e0_0, e0_1, e1_0, e1_1, e2_0, e2_1, e3_0, e3_1, e4_0, e4_1⟩ := idx5 t
  funext x
  show (V c main_v15 : S50000x1.Idx → EReal) (((cfg5.win 2).blk t).view.emb x) = (V c main_v15 : S50000x1.Idx → EReal) _
  refine congrArg _ (funext fun a => Fin.ext ?_)
  match a with
  | ⟨0, _⟩ => show win5_2.index t (0 : Fin 2) * 10000 + 1 * (x 0).val = t.val * 10000 + (x 0).val; rw [e2_0]; omega
  | ⟨1, _⟩ => show win5_2.index t (1 : Fin 2) * 1 + 1 * (x 1).val = (x 1).val; rw [e2_1]; omega

/-- Output window 3's block at point `t`, read off any contents of its array, is rows `10000 t …` of them. -/
theorem outblk5_3 (t : Fin cfg5.N) (G : Cert.Spec.Mat 50000 64) :
    (((cfg5.win 3).blk t).view.read (Elt Ideal) G : S10000x64.Idx → EReal) = rowsAt G (t.val * 10000) (band5 t) := by
  obtain ⟨e0_0, e0_1, e1_0, e1_1, e2_0, e2_1, e3_0, e3_1, e4_0, e4_1⟩ := idx5 t
  funext x
  show G (((cfg5.win 3).blk t).view.emb x) = G _
  refine congrArg _ (funext fun a => Fin.ext ?_)
  match a with
  | ⟨0, _⟩ => show win5_3.index t (0 : Fin 2) * 10000 + 1 * (x 0).val = t.val * 10000 + (x 0).val; rw [e3_0]; omega
  | ⟨1, _⟩ => show win5_3.index t (1 : Fin 2) * 64 + 1 * (x 1).val = (x 1).val; rw [e3_1]; omega

/-- The product of the state with the weights, of the arrays the region finds. -/
abbrev G5_3 (c : Dev nD) : Cert.Spec.Mat 50000 64 :=
  Cert.Spec.mm (V c main_v56 : Cert.Spec.Mat 50000 64) (V c main_arg4 : Cert.Spec.Mat 64 64)

/-- What point `t` writes back through window 3 is its band of rows of that array. -/
theorem flushed5_3 (c : Dev nD) (t : Fin cfg5.N) :
    (dat5 V c).flushed 3 t = ((cfg5.win 3).blk t).view.read (Elt Ideal) (G5_3 V c) := by
  show (cfg5.win 3).cut (grid5.coords t) ((dat5 V c).after 3 t) = _
  rw [after5_3]
  unfold out5_3
  rw [View.canon_unit_zero zero2]
  simp only [View.ld_unit_zero (S := S10000x64) zero2, View.ld_unit_zero (S := S64x64) zero2]
  refine Eq.trans ?_ (outblk5_3 t (G5_3 V c)).symm
  show k5_pay1 (F := Ideal) (iblk5 V c 0 t) (iblk5 V c 1 t) = _
  rw [in5_0 V c t, in5_1 V c t]
  exact proj_rows5 _ _ _ _

/-- An index of window 3's array is in point `t`'s block iff each coordinate is in the block's range on its axis. -/
theorem mem_blk5_3 (t : Fin cfg5.N) (i : S50000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v57_0).slice (win5_3.rect t)).set ↔ _
  rw [View.set_slice_whole, Rect.mem_set_unit]
  exact Iff.rfl

/-- Row `r` of window 3's array is in the block of point `r / 10000`. -/
theorem cover5_3 (i : S50000x64.Idx) :
    ∃ t : Fin cfg5.N, (cfg5.win 3).flush t = true ∧ i ∈ ((cfg5.win 3).blk t).view.set := by
  have hi0 : (i 0).val < 50000 := idx2_lt0 i
  have hi1 : (i 1).val < 64 := idx2_lt1 i
  have hN : cfg5.N = 5 := N_5
  have ht : (i 0).val / 10000 < cfg5.N := by rw [hN]; omega
  obtain ⟨e0_0, e0_1, e1_0, e1_1, e2_0, e2_1, e3_0, e3_1, e4_0, e4_1⟩ := idx5 ⟨(i 0).val / 10000, ht⟩
  refine ⟨⟨(i 0).val / 10000, ht⟩, flush5_3 _, ?_⟩
  rw [mem_blk5_3]
  intro a
  match a with
  | ⟨0, _⟩ =>
    show win5_3.index ⟨(i 0).val / 10000, ht⟩ (0 : Fin 2) * 10000 ≤ (i 0).val ∧ (i 0).val < win5_3.index ⟨(i 0).val / 10000, ht⟩ (0 : Fin 2) * 10000 + 10000
    rw [e3_0]; show (i 0).val / 10000 * 10000 ≤ (i 0).val ∧ (i 0).val < (i 0).val / 10000 * 10000 + 10000; omega
  | ⟨1, _⟩ =>
    show win5_3.index ⟨(i 0).val / 10000, ht⟩ (1 : Fin 2) * 64 ≤ (i 1).val ∧ (i 1).val < win5_3.index ⟨(i 0).val / 10000, ht⟩ (1 : Fin 2) * 64 + 64
    rw [e3_1]; omega

/-- The first output array after the region: the product of the state with the weights. -/
theorem final5a (c : Dev nD) :
    (dat5 V c).arrAt 3 cfg5.N = Cert.Spec.mm (V c main_v56 : Cert.Spec.Mat 50000 64) (V c main_arg4 : Cert.Spec.Mat 64 64) :=
  (dat5 V c).arrAt_eq_of_cover 3 (G5_3 V c) (fun t _ => flushed5_3 V c t) cover5_3

/-- Output window 4's block at point `t`, read off any contents of its array, is rows `10000 t …` of them. -/
theorem outblk5_4 (t : Fin cfg5.N) (G : Cert.Spec.Mat 50000 64) :
    (((cfg5.win 4).blk t).view.read (Elt Ideal) G : S10000x64.Idx → EReal) = rowsAt G (t.val * 10000) (band5 t) := by
  obtain ⟨e0_0, e0_1, e1_0, e1_1, e2_0, e2_1, e3_0, e3_1, e4_0, e4_1⟩ := idx5 t
  funext x
  show G (((cfg5.win 4).blk t).view.emb x) = G _
  refine congrArg _ (funext fun a => Fin.ext ?_)
  match a with
  | ⟨0, _⟩ => show win5_4.index t (0 : Fin 2) * 10000 + 1 * (x 0).val = t.val * 10000 + (x 0).val; rw [e4_0]; omega
  | ⟨1, _⟩ => show win5_4.index t (1 : Fin 2) * 64 + 1 * (x 1).val = (x 1).val; rw [e4_1]; omega

/-- That product with each row scaled by the row's entry of the one-column array. -/
abbrev G5_4 (c : Dev nD) : Cert.Spec.Mat 50000 64 :=
  Cert.Spec.scale (Cert.Spec.mm (V c main_v56 : Cert.Spec.Mat 50000 64) (V c main_arg4 : Cert.Spec.Mat 64 64)) (col1 (V c main_v15 : Cert.Spec.Mat 50000 1))

/-- What point `t` writes back through window 4 is its band of rows of that array. -/
theorem flushed5_4 (c : Dev nD) (t : Fin cfg5.N) :
    (dat5 V c).flushed 4 t = ((cfg5.win 4).blk t).view.read (Elt Ideal) (G5_4 V c) := by
  show (cfg5.win 4).cut (grid5.coords t) ((dat5 V c).after 4 t) = _
  rw [after5_4]
  unfold out5_4
  rw [View.canon_unit_zero zero2]
  simp only [View.ld_unit_zero (S := S10000x64) zero2, View.ld_unit_zero (S := S64x64) zero2, View.ld_unit_zero (S := S10000x1) zero2]
  refine Eq.trans ?_ (outblk5_4 t (G5_4 V c)).symm
  show k5_pay2 (F := Ideal) (iblk5 V c 0 t) (iblk5 V c 1 t) (iblk5 V c 2 t) = _
  rw [in5_0 V c t, in5_1 V c t, in5_2 V c t]
  exact scaled_rows5 _ _ _ _ _

/-- An index of window 4's array is in point `t`'s block iff each coordinate is in the block's range on its axis. -/
theorem mem_blk5_4 (t : Fin cfg5.N) (i : S50000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole main_v57_1).slice (win5_4.rect t)).set ↔ _
  rw [View.set_slice_whole, Rect.mem_set_unit]
  exact Iff.rfl

/-- Row `r` of window 4's array is in the block of point `r / 10000`. -/
theorem cover5_4 (i : S50000x64.Idx) :
    ∃ t : Fin cfg5.N, (cfg5.win 4).flush t = true ∧ i ∈ ((cfg5.win 4).blk t).view.set := by
  have hi0 : (i 0).val < 50000 := idx2_lt0 i
  have hi1 : (i 1).val < 64 := idx2_lt1 i
  have hN : cfg5.N = 5 := N_5
  have ht : (i 0).val / 10000 < cfg5.N := by rw [hN]; omega
  obtain ⟨e0_0, e0_1, e1_0, e1_1, e2_0, e2_1, e3_0, e3_1, e4_0, e4_1⟩ := idx5 ⟨(i 0).val / 10000, ht⟩
  refine ⟨⟨(i 0).val / 10000, ht⟩, flush5_4 _, ?_⟩
  rw [mem_blk5_4]
  intro a
  match a with
  | ⟨0, _⟩ =>
    show win5_4.index ⟨(i 0).val / 10000, ht⟩ (0 : Fin 2) * 10000 ≤ (i 0).val ∧ (i 0).val < win5_4.index ⟨(i 0).val / 10000, ht⟩ (0 : Fin 2) * 10000 + 10000
    rw [e4_0]; show (i 0).val / 10000 * 10000 ≤ (i 0).val ∧ (i 0).val < (i 0).val / 10000 * 10000 + 10000; omega
  | ⟨1, _⟩ =>
    show win5_4.index ⟨(i 0).val / 10000, ht⟩ (1 : Fin 2) * 64 ≤ (i 1).val ∧ (i 1).val < win5_4.index ⟨(i 0).val / 10000, ht⟩ (1 : Fin 2) * 64 + 64
    rw [e4_1]; omega

/-- The second output array after the region: the product with each row scaled. -/
theorem final5b (c : Dev nD) :
    (dat5 V c).arrAt 4 cfg5.N = Cert.Spec.scale (Cert.Spec.mm (V c main_v56 : Cert.Spec.Mat 50000 64) (V c main_arg4 : Cert.Spec.Mat 64 64)) (col1 (V c main_v15 : Cert.Spec.Mat 50000 1)) :=
  (dat5 V c).arrAt_eq_of_cover 4 (G5_4 V c) (fun t _ => flushed5_4 V c t) cover5_4

end Cert.KernelIdeal.Fin

end
-- ==== Proof.KV.Final6.lean ====
/-
  Region 6 (layer 3's update), from blocks to the whole array.

  The grid has five points; point t works on rows 10000 t … 10000 t + 9999 of the state (read through two windows), of
  the projected features, of the aggregated messages, of the one-column scale and of the output, with the two bias rows,
  the residual weights and the gate row whole at every point.  What point t writes back is therefore that band of rows of
  the layer update of the whole arrays, the aggregate being the messages with row r scaled by the scale's entry r; the
  five bands cover all 50000 rows.
-/
import proofs.«121059_j18107582120780_2_alg».proof.Proof.KI.Region6
import proofs.«121059_j18107582120780_2_alg».proof.Proof.KPay
import proofs.«121059_j18107582120780_2_alg».proof.Proof.KV.Rows
import Idealize.ShloMosaic.Lib.Pipeline.Value

noncomputable section

namespace Cert.KernelIdeal.Fin

open Cert.KernelIdeal Cert.KernelIdeal.Gen Cert.KV
open Idealize.ShloMosaic Idealize.ShloMosaic.TcCoe Idealize.ShloMosaic.ValueIdx Idealize.SL.Sem
open Idealize.ShloMosaic.Pipeline (Dat)
open Idealize.SL.RA (PosShare TreeShare)

variable (V : (c : Dev nD) → (b : Ref sig .tc) → Buf (Elt Ideal) ((c : Thread nD τ).loc b))

variable (qq6 : Fin cfg6.W → PosShare TreeShare)

/-- The update's body on bands of rows gives that band of the update. -/
theorem comb_rows6 (X0 X H CS : Cert.Spec.Mat 50000 64) (D : Cert.Spec.Mat 50000 1) (CB : Cert.Spec.Mat 1 64)
    (RW : Cert.Spec.Mat 64 64) (RB CO : Cert.Spec.Mat 1 64) (o : Nat) (h : o + 10000 ≤ 50000) :
    k6_pay1 (F := Ideal) (k6_pay2 (F := Ideal) (rowsAt X0 o h) CO)
        (k6_pay3 (F := Ideal) (rowsAt CS o h) (rowsAt D o h) CB (rowsAt H o h) RW RB (rowsAt X o h))
      = rowsAt (Cert.Spec.comb X0 X H (Cert.Spec.scale CS (col1 D)) (row1 CB) RW (row1 RB) (row1 CO)) o h := by
  funext y
  obtain ⟨p, q, rfl⟩ : ∃ (p : Fin 10000) (q : Fin 64), y = ix2 p q := ⟨y 0, y 1, eq_ix2 y⟩
  refine (Cert.KPay.pay6 (rowsAt X0 o h) CO (rowsAt CS o h) (rowsAt D o h) CB (rowsAt H o h) RW RB (rowsAt X o h) p q).trans ?_
  rfl

/-- The block indices of the region's windows at point `t`: row band `t` for the windows over arrays of 50000 rows,
    block (0, 0) for the windows over whole small arrays. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = t.val ∧ win6_9.index t (1 : Fin 2) = 0 :=
  (by decide +kernel : ∀ t : Fin grid6.N, _)

/-- Point `t`'s band of 10000 rows lies inside the 50000 rows. -/
theorem band6 (t : Fin cfg6.N) : t.val * 10000 + 10000 ≤ 50000 := by
  have h : t.val < cfg6.N := t.isLt
  have hN : cfg6.N = 5 := N_6
  omega

/-- Window 0's block at point `t` is rows `10000 t …` of its array. -/
theorem in6_0 (c : Dev nD) (t : Fin cfg6.N) :
    (iblk6 V c 0 t : S10000x64.Idx → EReal) = rowsAt (V c main_v56 : Cert.Spec.Mat 50000 64) (t.val * 10000) (band6 t) := by
  obtain ⟨e0_0, e0_1, e1_0, e1_1, e2_0, e2_1, e3_0, e3_1, e4_0, e4_1, e5_0, e5_1, e6_0, e6_1, e7_0, e7_1, e8_0, e8_1, e9_0, e9_1⟩ := idx6 t
  funext x
  show (V c main_v56 : S50000x64.Idx → EReal) (((cfg6.win 0).blk t).view.emb x) = (V c main_v56 : S50000x64.Idx → EReal) _
  refine congrArg _ (funext fun a => Fin.ext ?_)
  match a with
  | ⟨0, _⟩ => show win6_0.index t (0 : Fin 2) * 10000 + 1 * (x 0).val = t.val * 10000 + (x 0).val; rw [e0_0]; omega
  | ⟨1, _⟩ => show win6_0.index t (1 : Fin 2) * 64 + 1 * (x 1).val = (x 1).val; rw [e0_1]; omega

/-- Window 1's block at point `t` is rows `10000 t …` of its array. -/
theorem in6_1 (c : Dev nD) (t : Fin cfg6.N) :
    (iblk6 V c 1 t : S10000x64.Idx → EReal) = rowsAt (V c main_v56 : Cert.Spec.Mat 50000 64) (t.val * 10000) (band6 t) := by
  obtain ⟨e0_0, e0_1, e1_0, e1_1, e2_0, e2_1, e3_0, e3_1, e4_0, e4_1, e5_0, e5_1, e6_0, e6_1, e7_0, e7_1, e8_0, e8_1, e9_0, e9_1⟩ := idx6 t
  funext x
  show (V c main_v56 : S50000x64.Idx → EReal) (((cfg6.win 1).blk t).view.emb x) = (V c main_v56 : S50000x64.Idx → EReal) _
  refine congrArg _ (funext fun a => Fin.ext ?_)
  match a with
  | ⟨0, _⟩ => show win6_1.index t (0 : Fin 2) * 10000 + 1 * (x 0).val = t.val * 10000 + (x 0).val; rw [e1_0]; omega
  | ⟨1, _⟩ => show win6_1.index t (1 : Fin 2) * 64 + 1 * (x 1).val = (x 1).val; rw [e1_1]; omega

/-- Window 2's block at point `t` is rows `10000 t …` of its array. -/
theorem in6_2 (c : Dev nD) (t : Fin cfg6.N) :
    (iblk6 V c 2 t : S10000x64.Idx → EReal) = rowsAt (V c main_v57_0 : Cert.Spec.Mat 50000 64) (t.val * 10000) (band6 t) := by
  obtain ⟨e0_0, e0_1, e1_0, e1_1, e2_0, e2_1, e3_0, e3_1, e4_0, e4_1, e5_0, e5_1, e6_0, e6_1, e7_0, e7_1, e8_0, e8_1, e9_0, e9_1⟩ := idx6 t
  funext x
  show (V c main_v57_0 : S50000x64.Idx → EReal) (((cfg6.win 2).blk t).view.emb x) = (V c main_v57_0 : S50000x64.Idx → EReal) _
  refine congrArg _ (funext fun a => Fin.ext ?_)
  match a with
  | ⟨0, _⟩ => show win6_2.index t (0 : Fin 2) * 10000 + 1 * (x 0).val = t.val * 10000 + (x 0).val; rw [e2_0]; omega
  | ⟨1, _⟩ => show win6_2.index t (1 : Fin 2) * 64 + 1 * (x 1).val = (x 1).val; rw [e2_1]; omega

/-- Window 3's block at point `t` is rows `10000 t …` of its array. -/
theorem in6_3 (c : Dev nD) (t : Fin cfg6.N) :
    (iblk6 V c 3 t : S10000x64.Idx → EReal) = rowsAt (V c main_v67 : Cert.Spec.Mat 50000 64) (t.val * 10000) (band6 t) := by
  obtain ⟨e0_0, e0_1, e1_0, e1_1, e2_0, e2_1, e3_0, e3_1, e4_0, e4_1, e5_0, e5_1, e6_0, e6_1, e7_0, e7_1, e8_0, e8_1, e9_0, e9_1⟩ := idx6 t
  funext x
  show (V c main_v67 : S50000x64.Idx → EReal) (((cfg6.win 3).blk t).view.emb x) = (V c main_v67 : S50000x64.Idx → EReal) _
  refine congrArg _ (funext fun a => Fin.ext ?_)
  match a with
  | ⟨0, _⟩ => show win6_3.index t (0 : Fin 2) * 10000 + 1 * (x 0).val = t.val * 10000 + (x 0).val; rw [e3_0]; omega
  | ⟨1, _⟩ => show win6_3.index t (1 : Fin 2) * 64 + 1 * (x 1).val = (x 1).val; rw [e3_1]; omega

/-- Window 4's block at point `t` is rows `10000 t …` of its array. -/
theorem in6_4 (c : Dev nD) (t : Fin cfg6.N) :
    (iblk6 V c 4 t : S10000x1.Idx → EReal) = rowsAt (V c main_v15 : Cert.Spec.Mat 50000 1) (t.val * 10000) (band6 t) := by
  obtain ⟨e0_0, e0_1, e1_0, e1_1, e2_0, e2_1, e3_0, e3_1, e4_0, e4_1, e5_0, e5_1, e6_0, e6_1, e7_0, e7_1, e8_0, e8_1, e9_0, e9_1⟩ := idx6 t
  funext x
  show (V c main_v15 : S50000x1.Idx → EReal) (((cfg6.win 4).blk t).view.emb x) = (V c main_v15 : S50000x1.Idx → EReal) _
  refine congrArg _ (funext fun a => Fin.ext ?_)
  match a with
  | ⟨0, _⟩ => show win6_4.index t (0 : Fin 2) * 10000 + 1 * (x 0).val = t.val * 10000 + (x 0).val; rw [e4_0]; omega
  | ⟨1, _⟩ => show win6_4.index t (1 : Fin 2) * 1 + 1 * (x 1).val = (x 1).val; rw [e4_1]; omega

/-- Window 5's block at every point is its whole array. -/
theorem in6_5 (c : Dev nD) (t : Fin cfg6.N) :
    (iblk6 V c 5 t : S1x64.Idx → EReal) = (V c main_v17 : S1x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx6 t
  funext x
  show (V c main_v17 : S1x64.Idx → EReal) (((cfg6.win 5).blk t).view.emb x) = (V c main_v17 : S1x64.Idx → EReal) x
  refine congrArg _ (funext fun a => Fin.ext ?_)
  match a with
  | ⟨0, _⟩ => show win6_5.index t (0 : Fin 2) * 1 + 1 * (x 0).val = (x 0).val; rw [e5_0]; omega
  | ⟨1, _⟩ => show win6_5.index t (1 : Fin 2) * 64 + 1 * (x 1).val = (x 1).val; rw [e5_1]; omega

/-- Window 6's block at every point is its whole array. -/
theorem in6_6 (c : Dev nD) (t : Fin cfg6.N) :
    (iblk6 V c 6 t : S64x64.Idx → EReal) = (V c main_arg6 : S64x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx6 t
  funext x
  show (V c main_arg6 : S64x64.Idx → EReal) (((cfg6.win 6).blk t).view.emb x) = (V c main_arg6 : S64x64.Idx → EReal) x
  refine congrArg _ (funext fun a => Fin.ext ?_)
  match a with
  | ⟨0, _⟩ => show win6_6.index t (0 : Fin 2) * 64 + 1 * (x 0).val = (x 0).val; rw [e6_0]; omega
  | ⟨1, _⟩ => show win6_6.index t (1 : Fin 2) * 64 + 1 * (x 1).val = (x 1).val; rw [e6_1]; omega

/-- Window 7's block at every point is its whole array. -/
theorem in6_7 (c : Dev nD) (t : Fin cfg6.N) :
    (iblk6 V c 7 t : S1x64.Idx → EReal) = (V c main_v18 : S1x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx6 t
  funext x
  show (V c main_v18 : S1x64.Idx → EReal) (((cfg6.win 7).blk t).view.emb x) = (V c main_v18 : S1x64.Idx → EReal) x
  refine congrArg _ (funext fun a => Fin.ext ?_)
  match a with
  | ⟨0, _⟩ => show win6_7.index t (0 : Fin 2) * 1 + 1 * (x 0).val = (x 0).val; rw [e7_0]; omega
  | ⟨1, _⟩ => show win6_7.index t (1 : Fin 2) * 64 + 1 * (x 1).val = (x 1).val; rw [e7_1]; omega

/-- Window 8's block at every point is its whole array. -/
theorem in6_8 (c : Dev nD) (t : Fin cfg6.N) :
    (iblk6 V c 8 t : S1x64.Idx → EReal) = (V c main_v73 : S1x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx6 t
  funext x
  show (V c main_v73 : S1x64.Idx → EReal) (((cfg6.win 8).blk t).view.emb x) = (V c main_v73 : S1x64.Idx → EReal) x
  refine congrArg _ (funext fun a => Fin.ext ?_)
  match a with
  | ⟨0, _⟩ => show win6_8.index t (0 : Fin 2) * 1 + 1 * (x 0).val = (x 0).val; rw [e8_0]; omega
  | ⟨1, _⟩ => show win6_8.index t (1 : Fin 2) * 64 + 1 * (x 1).val = (x 1).val; rw [e8_1]; omega

/-- Output window 9's block at point `t`, read off any contents of its array, is rows `10000 t …` of them. -/
theorem outblk6_9 (t : Fin cfg6.N) (G : Cert.Spec.Mat 50000 64) :
    (((cfg6.win 9).blk t).view.read (Elt Ideal) G : S10000x64.Idx → EReal) = rowsAt G (t.val * 10000) (band6 t) := by
  obtain ⟨e0_0, e0_1, e1_0, e1_1, e2_0, e2_1, e3_0, e3_1, e4_0, e4_1, e5_0, e5_1, e6_0, e6_1, e7_0, e7_1, e8_0, e8_1, e9_0, e9_1⟩ := idx6 t
  funext x
  show G (((cfg6.win 9).blk t).view.emb x) = G _
  refine congrArg _ (funext fun a => Fin.ext ?_)
  match a with
  | ⟨0, _⟩ => show win6_9.index t (0 : Fin 2) * 10000 + 1 * (x 0).val = t.val * 10000 + (x 0).val; rw [e9_0]; omega
  | ⟨1, _⟩ => show win6_9.index t (1 : Fin 2) * 64 + 1 * (x 1).val = (x 1).val; rw [e9_1]; omega

/-- The layer update of the arrays the region finds. -/
abbrev G6_9 (c : Dev nD) : Cert.Spec.Mat 50000 64 :=
  Cert.Spec.comb (V c main_v56 : Cert.Spec.Mat 50000 64) (V c main_v56 : Cert.Spec.Mat 50000 64) (V c main_v57_0 : Cert.Spec.Mat 50000 64)
    (Cert.Spec.scale (V c main_v67 : Cert.Spec.Mat 50000 64) (col1 (V c main_v15 : Cert.Spec.Mat 50000 1))) (row1 (V c main_v17 : Cert.Spec.Mat 1 64))
    (V c main_arg6 : Cert.Spec.Mat 64 64) (row1 (V c main_v18 : Cert.Spec.Mat 1 64)) (row1 (V c main_v73 : Cert.Spec.Mat 1 64))

/-- What point `t` writes back through window 9 is its band of rows of that array. -/
theorem flushed6_9 (c : Dev nD) (t : Fin cfg6.N) :
    (dat6 V qq6 c).flushed 9 t = ((cfg6.win 9).blk t).view.read (Elt Ideal) (G6_9 V c) := by
  show (cfg6.win 9).cut (grid6.coords t) ((dat6 V qq6 c).after 9 t) = _
  rw [after6_9]
  unfold out6_9
  rw [View.canon_unit_zero zero2]
  simp only [View.ld_unit_zero (S := S10000x64) zero2, View.ld_unit_zero (S := S10000x1) zero2, View.ld_unit_zero (S := S1x64) zero2, View.ld_unit_zero (S := S64x64) zero2]
  refine Eq.trans ?_ (outblk6_9 t (G6_9 V c)).symm
  show k6_pay1 (F := Ideal) (k6_pay2 (F := Ideal) (iblk6 V c 0 t) (iblk6 V c 8 t))
      (k6_pay3 (F := Ideal) (iblk6 V c 3 t) (iblk6 V c 4 t) (iblk6 V c 5 t) (iblk6 V c 2 t) (iblk6 V c 6 t) (iblk6 V c 7 t) (iblk6 V c 1 t)) = _
  rw [in6_0 V c t, in6_1 V c t, in6_2 V c t, in6_3 V c t, in6_4 V c t, in6_5 V c t, in6_6 V c t, in6_7 V c t, in6_8 V c t]
  exact comb_rows6 _ _ _ _ _ _ _ _ _ _ _

/-- An index of window 9's array is in point `t`'s block iff each coordinate is in the block's range on its axis. -/
theorem mem_blk6_9 (t : Fin cfg6.N) (i : S50000x64.Idx) :
    i ∈ ((cfg6.win 9).blk t).view.set ↔ ∀ a : Fin 2, win6_9.index t a * S10000x64.size a ≤ (i a).val ∧ (i a).val < win6_9.index t a * S10000x64.size a + S10000x64.size a := by
  show i ∈ ((View.whole main_v74).slice (win6_9.rect t)).set ↔ _
  rw [View.set_slice_whole, Rect.mem_set_unit]
  exact Iff.rfl

/-- Row `r` of window 9's array is in the block of point `r / 10000`. -/
theorem cover6_9 (i : S50000x64.Idx) :
    ∃ t : Fin cfg6.N, (cfg6.win 9).flush t = true ∧ i ∈ ((cfg6.win 9).blk t).view.set := by
  have hi0 : (i 0).val < 50000 := idx2_lt0 i
  have hi1 : (i 1).val < 64 := idx2_lt1 i
  have hN : cfg6.N = 5 := N_6
  have ht : (i 0).val / 10000 < cfg6.N := by rw [hN]; omega
  obtain ⟨e0_0, e0_1, e1_0, e1_1, e2_0, e2_1, e3_0, e3_1, e4_0, e4_1, e5_0, e5_1, e6_0, e6_1, e7_0, e7_1, e8_0, e8_1, e9_0, e9_1⟩ := idx6 ⟨(i 0).val / 10000, ht⟩
  refine ⟨⟨(i 0).val / 10000, ht⟩, flush6_9 _, ?_⟩
  rw [mem_blk6_9]
  intro a
  match a with
  | ⟨0, _⟩ =>
    show win6_9.index ⟨(i 0).val / 10000, ht⟩ (0 : Fin 2) * 10000 ≤ (i 0).val ∧ (i 0).val < win6_9.index ⟨(i 0).val / 10000, ht⟩ (0 : Fin 2) * 10000 + 10000
    rw [e9_0]; show (i 0).val / 10000 * 10000 ≤ (i 0).val ∧ (i 0).val < (i 0).val / 10000 * 10000 + 10000; omega
  | ⟨1, _⟩ =>
    show win6_9.index ⟨(i 0).val / 10000, ht⟩ (1 : Fin 2) * 64 ≤ (i 1).val ∧ (i 1).val < win6_9.index ⟨(i 0).val / 10000, ht⟩ (1 : Fin 2) * 64 + 64
    rw [e9_1]; omega

/-- The output array after the region: the layer update of the arrays the region found. -/
theorem final6 (c : Dev nD) :
    (dat6 V qq6 c).arrAt 9 cfg6.N = Cert.Spec.comb (V c main_v56 : Cert.Spec.Mat 50000 64) (V c main_v56 : Cert.Spec.Mat 50000 64) (V c main_v57_0 : Cert.Spec.Mat 50000 64) (Cert.Spec.scale (V c main_v67 : Cert.Spec.Mat 50000 64) (col1 (V c main_v15 : Cert.Spec.Mat 50000 1))) (row1 (V c main_v17 : Cert.Spec.Mat 1 64)) (V c main_arg6 : Cert.Spec.Mat 64 64) (row1 (V c main_v18 : Cert.Spec.Mat 1 64)) (row1 (V c main_v73 : Cert.Spec.Mat 1 64)) :=
  (dat6 V qq6 c).arrAt_eq_of_cover 9 (G6_9 V c) (fun t _ => flushed6_9 V qq6 c t) cover6_9

end Cert.KernelIdeal.Fin

end
-- ==== Proof.KV.Final7.lean ====
/-
  Region 7 (layer 4's projection), from blocks to the whole arrays.

  The grid has five points; point t works on rows 10000 t … 10000 t + 9999 of the state, of the one-column scale and of
  the two outputs, with the weights whole at every point.  What point t writes back is therefore that band of rows of the
  product of the whole state with the weights (first output) and of that product with row r scaled by the scale's entry
  r (second output); the five bands cover all 50000 rows.
-/
import proofs.«121059_j18107582120780_2_alg».proof.Proof.KI.Region7
import proofs.«121059_j18107582120780_2_alg».proof.Proof.KPay
import proofs.«121059_j18107582120780_2_alg».proof.Proof.KV.Rows
import Idealize.ShloMosaic.Lib.Pipeline.Value

noncomputable section

namespace Cert.KernelIdeal.Fin

open Cert.KernelIdeal Cert.KernelIdeal.Gen Cert.KV
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The projection's body on a band of rows gives that band of the product. -/
theorem proj_rows7 (A : Cert.Spec.Mat 50000 64) (W : Cert.Spec.Mat 64 64) (o : Nat) (h : o + 10000 ≤ 50000) :
    k7_pay1 (F := Ideal) (rowsAt A o h) W = rowsAt (Cert.Spec.mm A W) o h := by
  funext y
  obtain ⟨p, q, rfl⟩ : ∃ (p : Fin 10000) (q : Fin 64), y = ix2 p q := ⟨y 0, y 1, eq_ix2 y⟩
  refine (Cert.KPay.pay7a (rowsAt A o h) W p q).trans ?_
  rfl

/-- The scaled projection's body on a band of rows gives that band of the scaled product. -/
theorem scaled_rows7 (A : Cert.Spec.Mat 50000 64) (W : Cert.Spec.Mat 64 64) (D : Cert.Spec.Mat 50000 1) (o : Nat)
    (h : o + 10000 ≤ 50000) :
    k7_pay2 (F := Ideal) (rowsAt A o h) W (rowsAt D o h) = rowsAt (Cert.Spec.scale (Cert.Spec.mm A W) (col1 D)) o h := by
  funext y
  obtain ⟨p, q, rfl⟩ : ∃ (p : Fin 10000) (q : Fin 64), y = ix2 p q := ⟨y 0, y 1, eq_ix2 y⟩
  refine (Cert.KPay.pay7b (rowsAt A o h) W (rowsAt D o h) p q).trans ?_
  rfl

/-- The block indices of the region's windows at point `t`: row band `t` for the windows over arrays of 50000 rows,
    block (0, 0) for the windows over whole small arrays. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- Point `t`'s band of 10000 rows lies inside the 50000 rows. -/
theorem band7 (t : Fin cfg7.N) : t.val * 10000 + 10000 ≤ 50000 := by
  have h : t.val < cfg7.N := t.isLt
  have hN : cfg7.N = 5 := N_7
  omega

/-- Window 0's block at point `t` is rows `10000 t …` of its array. -/
theorem in7_0 (c : Dev nD) (t : Fin cfg7.N) :
    (iblk7 V c 0 t : S10000x64.Idx → EReal) = rowsAt (V c main_v74 : Cert.Spec.Mat 50000 64) (t.val * 10000) (band7 t) := by
  obtain ⟨e0_0, e0_1, e1_0, e1_1, e2_0, e2_1, e3_0, e3_1, e4_0, e4_1⟩ := idx7 t
  funext x
  show (V c main_v74 : S50000x64.Idx → EReal) (((cfg7.win 0).blk t).view.emb x) = (V c main_v74 : S50000x64.Idx → EReal) _
  refine congrArg _ (funext fun a => Fin.ext ?_)
  match a with
  | ⟨0, _⟩ => show win7_0.index t (0 : Fin 2) * 10000 + 1 * (x 0).val = t.val * 10000 + (x 0).val; rw [e0_0]; omega
  | ⟨1, _⟩ => show win7_0.index t (1 : Fin 2) * 64 + 1 * (x 1).val = (x 1).val; rw [e0_1]; omega

/-- Window 1's block at every point is its whole array. -/
theorem in7_1 (c : Dev nD) (t : Fin cfg7.N) :
    (iblk7 V c 1 t : S64x64.Idx → EReal) = (V c main_arg4 : S64x64.Idx → EReal) := by
  obtain ⟨e0_0, e0_1, e1_0, e1_1, e2_0, e2_1, e3_0, e3_1, e4_0, e4_1⟩ := idx7 t
  funext x
  show (V c main_arg4 : S64x64.Idx → EReal) (((cfg7.win 1).blk t).view.emb x) = (V c main_arg4 : S64x64.Idx → EReal) x
  refine congrArg _ (funext fun a => Fin.ext ?_)
  match a with
  | ⟨0, _⟩ => show win7_1.index t (0 : Fin 2) * 64 + 1 * (x 0).val = (x 0).val; rw [e1_0]; omega
  | ⟨1, _⟩ => show win7_1.index t (1 : Fin 2) * 64 + 1 * (x 1).val = (x 1).val; rw [e1_1]; omega

/-- Window 2's block at point `t` is rows `10000 t …` of its array. -/
theorem in7_2 (c : Dev nD) (t : Fin cfg7.N) :
    (iblk7 V c 2 t : S10000x1.Idx → EReal) = rowsAt (V c main_v15 : Cert.Spec.Mat 50000 1) (t.val * 10000) (band7 t) := by
  obtain ⟨e0_0, e0_1, e1_0, e1_1, e2_0, e2_1, e3_0, e3_1, e4_0, e4_1⟩ := idx7 t
  funext x
  show (V c main_v15 : S50000x1.Idx → EReal) (((cfg7.win 2).blk t).view.emb x) = (V c main_v15 : S50000x1.Idx → EReal) _
  refine congrArg _ (funext fun a => Fin.ext ?_)
  match a with
  | ⟨0, _⟩ => show win7_2.index t (0 : Fin 2) * 10000 + 1 * (x 0).val = t.val * 10000 + (x 0).val; rw [e2_0]; omega
  | ⟨1, _⟩ => show win7_2.index t (1 : Fin 2) * 1 + 1 * (x 1).val = (x 1).val; rw [e2_1]; omega

/-- Output window 3's block at point `t`, read off any contents of its array, is rows `10000 t …` of them. -/
theorem outblk7_3 (t : Fin cfg7.N) (G : Cert.Spec.Mat 50000 64) :
    (((cfg7.win 3).blk t).view.read (Elt Ideal) G : S10000x64.Idx → EReal) = rowsAt G (t.val * 10000) (band7 t) := by
  obtain ⟨e0_0, e0_1, e1_0, e1_1, e2_0, e2_1, e3_0, e3_1, e4_0, e4_1⟩ := idx7 t
  funext x
  show G (((cfg7.win 3).blk t).view.emb x) = G _
  refine congrArg _ (funext fun a => Fin.ext ?_)
  match a with
  | ⟨0, _⟩ => show win7_3.index t (0 : Fin 2) * 10000 + 1 * (x 0).val = t.val * 10000 + (x 0).val; rw [e3_0]; omega
  | ⟨1, _⟩ => show win7_3.index t (1 : Fin 2) * 64 + 1 * (x 1).val = (x 1).val; rw [e3_1]; omega

/-- The product of the state with the weights, of the arrays the region finds. -/
abbrev G7_3 (c : Dev nD) : Cert.Spec.Mat 50000 64 :=
  Cert.Spec.mm (V c main_v74 : Cert.Spec.Mat 50000 64) (V c main_arg4 : Cert.Spec.Mat 64 64)

/-- What point `t` writes back through window 3 is its band of rows of that array. -/
theorem flushed7_3 (c : Dev nD) (t : Fin cfg7.N) :
    (dat7 V c).flushed 3 t = ((cfg7.win 3).blk t).view.read (Elt Ideal) (G7_3 V c) := by
  show (cfg7.win 3).cut (grid7.coords t) ((dat7 V c).after 3 t) = _
  rw [after7_3]
  unfold out7_3
  rw [View.canon_unit_zero zero2]
  simp only [View.ld_unit_zero (S := S10000x64) zero2, View.ld_unit_zero (S := S64x64) zero2]
  refine Eq.trans ?_ (outblk7_3 t (G7_3 V c)).symm
  show k7_pay1 (F := Ideal) (iblk7 V c 0 t) (iblk7 V c 1 t) = _
  rw [in7_0 V c t, in7_1 V c t]
  exact proj_rows7 _ _ _ _

/-- An index of window 3's array is in point `t`'s block iff each coordinate is in the block's range on its axis. -/
theorem mem_blk7_3 (t : Fin cfg7.N) (i : S50000x64.Idx) :
    i ∈ ((cfg7.win 3).blk t).view.set ↔ ∀ a : Fin 2, win7_3.index t a * S10000x64.size a ≤ (i a).val ∧ (i a).val < win7_3.index t a * S10000x64.size a + S10000x64.size a := by
  show i ∈ ((View.whole main_v75_0).slice (win7_3.rect t)).set ↔ _
  rw [View.set_slice_whole, Rect.mem_set_unit]
  exact Iff.rfl

/-- Row `r` of window 3's array is in the block of point `r / 10000`. -/
theorem cover7_3 (i : S50000x64.Idx) :
    ∃ t : Fin cfg7.N, (cfg7.win 3).flush t = true ∧ i ∈ ((cfg7.win 3).blk t).view.set := by
  have hi0 : (i 0).val < 50000 := idx2_lt0 i
  have hi1 : (i 1).val < 64 := idx2_lt1 i
  have hN : cfg7.N = 5 := N_7
  have ht : (i 0).val / 10000 < cfg7.N := by rw [hN]; omega
  obtain ⟨e0_0, e0_1, e1_0, e1_1, e2_0, e2_1, e3_0, e3_1, e4_0, e4_1⟩ := idx7 ⟨(i 0).val / 10000, ht⟩
  refine ⟨⟨(i 0).val / 10000, ht⟩, flush7_3 _, ?_⟩
  rw [mem_blk7_3]
  intro a
  match a with
  | ⟨0, _⟩ =>
    show win7_3.index ⟨(i 0).val / 10000, ht⟩ (0 : Fin 2) * 10000 ≤ (i 0).val ∧ (i 0).val < win7_3.index ⟨(i 0).val / 10000, ht⟩ (0 : Fin 2) * 10000 + 10000
    rw [e3_0]; show (i 0).val / 10000 * 10000 ≤ (i 0).val ∧ (i 0).val < (i 0).val / 10000 * 10000 + 10000; omega
  | ⟨1, _⟩ =>
    show win7_3.index ⟨(i 0).val / 10000, ht⟩ (1 : Fin 2) * 64 ≤ (i 1).val ∧ (i 1).val < win7_3.index ⟨(i 0).val / 10000, ht⟩ (1 : Fin 2) * 64 + 64
    rw [e3_1]; omega

/-- The first output array after the region: the product of the state with the weights. -/
theorem final7a (c : Dev nD) :
    (dat7 V c).arrAt 3 cfg7.N = Cert.Spec.mm (V c main_v74 : Cert.Spec.Mat 50000 64) (V c main_arg4 : Cert.Spec.Mat 64 64) :=
  (dat7 V c).arrAt_eq_of_cover 3 (G7_3 V c) (fun t _ => flushed7_3 V c t) cover7_3

/-- Output window 4's block at point `t`, read off any contents of its array, is rows `10000 t …` of them. -/
theorem outblk7_4 (t : Fin cfg7.N) (G : Cert.Spec.Mat 50000 64) :
    (((cfg7.win 4).blk t).view.read (Elt Ideal) G : S10000x64.Idx → EReal) = rowsAt G (t.val * 10000) (band7 t) := by
  obtain ⟨e0_0, e0_1, e1_0, e1_1, e2_0, e2_1, e3_0, e3_1, e4_0, e4_1⟩ := idx7 t
  funext x
  show G (((cfg7.win 4).blk t).view.emb x) = G _
  refine congrArg _ (funext fun a => Fin.ext ?_)
  match a with
  | ⟨0, _⟩ => show win7_4.index t (0 : Fin 2) * 10000 + 1 * (x 0).val = t.val * 10000 + (x 0).val; rw [e4_0]; omega
  | ⟨1, _⟩ => show win7_4.index t (1 : Fin 2) * 64 + 1 * (x 1).val = (x 1).val; rw [e4_1]; omega

/-- That product with each row scaled by the row's entry of the one-column array. -/
abbrev G7_4 (c : Dev nD) : Cert.Spec.Mat 50000 64 :=
  Cert.Spec.scale (Cert.Spec.mm (V c main_v74 : Cert.Spec.Mat 50000 64) (V c main_arg4 : Cert.Spec.Mat 64 64)) (col1 (V c main_v15 : Cert.Spec.Mat 50000 1))

/-- What point `t` writes back through window 4 is its band of rows of that array. -/
theorem flushed7_4 (c : Dev nD) (t : Fin cfg7.N) :
    (dat7 V c).flushed 4 t = ((cfg7.win 4).blk t).view.read (Elt Ideal) (G7_4 V c) := by
  show (cfg7.win 4).cut (grid7.coords t) ((dat7 V c).after 4 t) = _
  rw [after7_4]
  unfold out7_4
  rw [View.canon_unit_zero zero2]
  simp only [View.ld_unit_zero (S := S10000x64) zero2, View.ld_unit_zero (S := S64x64) zero2, View.ld_unit_zero (S := S10000x1) zero2]
  refine Eq.trans ?_ (outblk7_4 t (G7_4 V c)).symm
  show k7_pay2 (F := Ideal) (iblk7 V c 0 t) (iblk7 V c 1 t) (iblk7 V c 2 t) = _
  rw [in7_0 V c t, in7_1 V c t, in7_2 V c t]
  exact scaled_rows7 _ _ _ _ _

/-- An index of window 4's array is in point `t`'s block iff each coordinate is in the block's range on its axis. -/
theorem mem_blk7_4 (t : Fin cfg7.N) (i : S50000x64.Idx) :
    i ∈ ((cfg7.win 4).blk t).view.set ↔ ∀ a : Fin 2, win7_4.index t a * S10000x64.size a ≤ (i a).val ∧ (i a).val < win7_4.index t a * S10000x64.size a + S10000x64.size a := by
  show i ∈ ((View.whole main_v75_1).slice (win7_4.rect t)).set ↔ _
  rw [View.set_slice_whole, Rect.mem_set_unit]
  exact Iff.rfl

/-- Row `r` of window 4's array is in the block of point `r / 10000`. -/
theorem cover7_4 (i : S50000x64.Idx) :
    ∃ t : Fin cfg7.N, (cfg7.win 4).flush t = true ∧ i ∈ ((cfg7.win 4).blk t).view.set := by
  have hi0 : (i 0).val < 50000 := idx2_lt0 i
  have hi1 : (i 1).val < 64 := idx2_lt1 i
  have hN : cfg7.N = 5 := N_7
  have ht : (i 0).val / 10000 < cfg7.N := by rw [hN]; omega
  obtain ⟨e0_0, e0_1, e1_0, e1_1, e2_0, e2_1, e3_0, e3_1, e4_0, e4_1⟩ := idx7 ⟨(i 0).val / 10000, ht⟩
  refine ⟨⟨(i 0).val / 10000, ht⟩, flush7_4 _, ?_⟩
  rw [mem_blk7_4]
  intro a
  match a with
  | ⟨0, _⟩ =>
    show win7_4.index ⟨(i 0).val / 10000, ht⟩ (0 : Fin 2) * 10000 ≤ (i 0).val ∧ (i 0).val < win7_4.index ⟨(i 0).val / 10000, ht⟩ (0 : Fin 2) * 10000 + 10000
    rw [e4_0]; show (i 0).val / 10000 * 10000 ≤ (i 0).val ∧ (i 0).val < (i 0).val / 10000 * 10000 + 10000; omega
  | ⟨1, _⟩ =>
    show win7_4.index ⟨(i 0).val / 10000, ht⟩ (1 : Fin 2) * 64 ≤ (i 1).val ∧ (i 1).val < win7_4.index ⟨(i 0).val / 10000, ht⟩ (1 : Fin 2) * 64 + 64
    rw [e4_1]; omega

/-- The second output array after the region: the product with each row scaled. -/
theorem final7b (c : Dev nD) :
    (dat7 V c).arrAt 4 cfg7.N = Cert.Spec.scale (Cert.Spec.mm (V c main_v74 : Cert.Spec.Mat 50000 64) (V c main_arg4 : Cert.Spec.Mat 64 64)) (col1 (V c main_v15 : Cert.Spec.Mat 50000 1)) :=
  (dat7 V c).arrAt_eq_of_cover 4 (G7_4 V c) (fun t _ => flushed7_4 V c t) cover7_4

end Cert.KernelIdeal.Fin

end
-- ==== Proof.KV.Final8.lean ====
/-
  Region 8 (layer 4's update), from blocks to the whole array.

  The grid has five points; point t works on rows 10000 t … 10000 t + 9999 of the state (read through two windows), of
  the projected features, of the aggregated messages, of the one-column scale and of the output, with the two bias rows,
  the residual weights and the gate row whole at every point.  What point t writes back is therefore that band of rows of
  the layer update of the whole arrays, the aggregate being the messages with row r scaled by the scale's entry r; the
  five bands cover all 50000 rows.
-/
import proofs.«121059_j18107582120780_2_alg».proof.Proof.KI.Region8
import proofs.«121059_j18107582120780_2_alg».proof.Proof.KPay
import proofs.«121059_j18107582120780_2_alg».proof.Proof.KV.Rows
import Idealize.ShloMosaic.Lib.Pipeline.Value

noncomputable section

namespace Cert.KernelIdeal.Fin

open Cert.KernelIdeal Cert.KernelIdeal.Gen Cert.KV
open Idealize.ShloMosaic Idealize.ShloMosaic.TcCoe Idealize.ShloMosaic.ValueIdx Idealize.SL.Sem
open Idealize.ShloMosaic.Pipeline (Dat)
open Idealize.SL.RA (PosShare TreeShare)

variable (V : (c : Dev nD) → (b : Ref sig .tc) → Buf (Elt Ideal) ((c : Thread nD τ).loc b))

variable (qq8 : Fin cfg8.W → PosShare TreeShare)

/-- The update's body on bands of rows gives that band of the update. -/
theorem comb_rows8 (X0 X H CS : Cert.Spec.Mat 50000 64) (D : Cert.Spec.Mat 50000 1) (CB : Cert.Spec.Mat 1 64)
    (RW : Cert.Spec.Mat 64 64) (RB CO : Cert.Spec.Mat 1 64) (o : Nat) (h : o + 10000 ≤ 50000) :
    k8_pay1 (F := Ideal) (k8_pay2 (F := Ideal) (rowsAt X0 o h) CO)
        (k8_pay3 (F := Ideal) (rowsAt CS o h) (rowsAt D o h) CB (rowsAt H o h) RW RB (rowsAt X o h))
      = rowsAt (Cert.Spec.comb X0 X H (Cert.Spec.scale CS (col1 D)) (row1 CB) RW (row1 RB) (row1 CO)) o h := by
  funext y
  obtain ⟨p, q, rfl⟩ : ∃ (p : Fin 10000) (q : Fin 64), y = ix2 p q := ⟨y 0, y 1, eq_ix2 y⟩
  refine (Cert.KPay.pay8 (rowsAt X0 o h) CO (rowsAt CS o h) (rowsAt D o h) CB (rowsAt H o h) RW RB (rowsAt X o h) p q).trans ?_
  rfl

/-- The block indices of the region's windows at point `t`: row band `t` for the windows over arrays of 50000 rows,
    block (0, 0) for the windows over whole small arrays. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0
    ∧ win8_9.index t (0 : Fin 2) = t.val ∧ win8_9.index t (1 : Fin 2) = 0 :=
  (by decide +kernel : ∀ t : Fin grid8.N, _)

/-- Point `t`'s band of 10000 rows lies inside the 50000 rows. -/
theorem band8 (t : Fin cfg8.N) : t.val * 10000 + 10000 ≤ 50000 := by
  have h : t.val < cfg8.N := t.isLt
  have hN : cfg8.N = 5 := N_8
  omega

/-- Window 0's block at point `t` is rows `10000 t …` of its array. -/
theorem in8_0 (c : Dev nD) (t : Fin cfg8.N) :
    (iblk8 V c 0 t : S10000x64.Idx → EReal) = rowsAt (V c main_v74 : Cert.Spec.Mat 50000 64) (t.val * 10000) (band8 t) := by
  obtain ⟨e0_0, e0_1, e1_0, e1_1, e2_0, e2_1, e3_0, e3_1, e4_0, e4_1, e5_0, e5_1, e6_0, e6_1, e7_0, e7_1, e8_0, e8_1, e9_0, e9_1⟩ := idx8 t
  funext x
  show (V c main_v74 : S50000x64.Idx → EReal) (((cfg8.win 0).blk t).view.emb x) = (V c main_v74 : S50000x64.Idx → EReal) _
  refine congrArg _ (funext fun a => Fin.ext ?_)
  match a with
  | ⟨0, _⟩ => show win8_0.index t (0 : Fin 2) * 10000 + 1 * (x 0).val = t.val * 10000 + (x 0).val; rw [e0_0]; omega
  | ⟨1, _⟩ => show win8_0.index t (1 : Fin 2) * 64 + 1 * (x 1).val = (x 1).val; rw [e0_1]; omega

/-- Window 1's block at point `t` is rows `10000 t …` of its array. -/
theorem in8_1 (c : Dev nD) (t : Fin cfg8.N) :
    (iblk8 V c 1 t : S10000x64.Idx → EReal) = rowsAt (V c main_v74 : Cert.Spec.Mat 50000 64) (t.val * 10000) (band8 t) := by
  obtain ⟨e0_0, e0_1, e1_0, e1_1, e2_0, e2_1, e3_0, e3_1, e4_0, e4_1, e5_0, e5_1, e6_0, e6_1, e7_0, e7_1, e8_0, e8_1, e9_0, e9_1⟩ := idx8 t
  funext x
  show (V c main_v74 : S50000x64.Idx → EReal) (((cfg8.win 1).blk t).view.emb x) = (V c main_v74 : S50000x64.Idx → EReal) _
  refine congrArg _ (funext fun a => Fin.ext ?_)
  match a with
  | ⟨0, _⟩ => show win8_1.index t (0 : Fin 2) * 10000 + 1 * (x 0).val = t.val * 10000 + (x 0).val; rw [e1_0]; omega
  | ⟨1, _⟩ => show win8_1.index t (1 : Fin 2) * 64 + 1 * (x 1).val = (x 1).val; rw [e1_1]; omega

/-- Window 2's block at point `t` is rows `10000 t …` of its array. -/
theorem in8_2 (c : Dev nD) (t : Fin cfg8.N) :
    (iblk8 V c 2 t : S10000x64.Idx → EReal) = rowsAt (V c main_v75_0 : Cert.Spec.Mat 50000 64) (t.val * 10000) (band8 t) := by
  obtain ⟨e0_0, e0_1, e1_0, e1_1, e2_0, e2_1, e3_0, e3_1, e4_0, e4_1, e5_0, e5_1, e6_0, e6_1, e7_0, e7_1, e8_0, e8_1, e9_0, e9_1⟩ := idx8 t
  funext x
  show (V c main_v75_0 : S50000x64.Idx → EReal) (((cfg8.win 2).blk t).view.emb x) = (V c main_v75_0 : S50000x64.Idx → EReal) _
  refine congrArg _ (funext fun a => Fin.ext ?_)
  match a with
  | ⟨0, _⟩ => show win8_2.index t (0 : Fin 2) * 10000 + 1 * (x 0).val = t.val * 10000 + (x 0).val; rw [e2_0]; omega
  | ⟨1, _⟩ => show win8_2.index t (1 : Fin 2) * 64 + 1 * (x 1).val = (x 1).val; rw [e2_1]; omega

/-- Window 3's block at point `t` is rows `10000 t …` of its array. -/
theorem in8_3 (c : Dev nD) (t : Fin cfg8.N) :
    (iblk8 V c 3 t : S10000x64.Idx → EReal) = rowsAt (V c main_v85 : Cert.Spec.Mat 50000 64) (t.val * 10000) (band8 t) := by
  obtain ⟨e0_0, e0_1, e1_0, e1_1, e2_0, e2_1, e3_0, e3_1, e4_0, e4_1, e5_0, e5_1, e6_0, e6_1, e7_0, e7_1, e8_0, e8_1, e9_0, e9_1⟩ := idx8 t
  funext x
  show (V c main_v85 : S50000x64.Idx → EReal) (((cfg8.win 3).blk t).view.emb x) = (V c main_v85 : S50000x64.Idx → EReal) _
  refine congrArg _ (funext fun a => Fin.ext ?_)
  match a with
  | ⟨0, _⟩ => show win8_3.index t (0 : Fin 2) * 10000 + 1 * (x 0).val = t.val * 10000 + (x 0).val; rw [e3_0]; omega
  | ⟨1, _⟩ => show win8_3.index t (1 : Fin 2) * 64 + 1 * (x 1).val = (x 1).val; rw [e3_1]; omega

/-- Window 4's block at point `t` is rows `10000 t …` of its array. -/
theorem in8_4 (c : Dev nD) (t : Fin cfg8.N) :
    (iblk8 V c 4 t : S10000x1.Idx → EReal) = rowsAt (V c main_v15 : Cert.Spec.Mat 50000 1) (t.val * 10000) (band8 t) := by
  obtain ⟨e0_0, e0_1, e1_0, e1_1, e2_0, e2_1, e3_0, e3_1, e4_0, e4_1, e5_0, e5_1, e6_0, e6_1, e7_0, e7_1, e8_0, e8_1, e9_0, e9_1⟩ := idx8 t
  funext x
  show (V c main_v15 : S50000x1.Idx → EReal) (((cfg8.win 4).blk t).view.emb x) = (V c main_v15 : S50000x1.Idx → EReal) _
  refine congrArg _ (funext fun a => Fin.ext ?_)
  match a with
  | ⟨0, _⟩ => show win8_4.index t (0 : Fin 2) * 10000 + 1 * (x 0).val = t.val * 10000 + (x 0).val; rw [e4_0]; omega
  | ⟨1, _⟩ => show win8_4.index t (1 : Fin 2) * 1 + 1 * (x 1).val = (x 1).val; rw [e4_1]; omega

/-- Window 5's block at every point is its whole array. -/
theorem in8_5 (c : Dev nD) (t : Fin cfg8.N) :
    (iblk8 V c 5 t : S1x64.Idx → EReal) = (V c main_v17 : S1x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx8 t
  funext x
  show (V c main_v17 : S1x64.Idx → EReal) (((cfg8.win 5).blk t).view.emb x) = (V c main_v17 : S1x64.Idx → EReal) x
  refine congrArg _ (funext fun a => Fin.ext ?_)
  match a with
  | ⟨0, _⟩ => show win8_5.index t (0 : Fin 2) * 1 + 1 * (x 0).val = (x 0).val; rw [e5_0]; omega
  | ⟨1, _⟩ => show win8_5.index t (1 : Fin 2) * 64 + 1 * (x 1).val = (x 1).val; rw [e5_1]; omega

/-- Window 6's block at every point is its whole array. -/
theorem in8_6 (c : Dev nD) (t : Fin cfg8.N) :
    (iblk8 V c 6 t : S64x64.Idx → EReal) = (V c main_arg6 : S64x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx8 t
  funext x
  show (V c main_arg6 : S64x64.Idx → EReal) (((cfg8.win 6).blk t).view.emb x) = (V c main_arg6 : S64x64.Idx → EReal) x
  refine congrArg _ (funext fun a => Fin.ext ?_)
  match a with
  | ⟨0, _⟩ => show win8_6.index t (0 : Fin 2) * 64 + 1 * (x 0).val = (x 0).val; rw [e6_0]; omega
  | ⟨1, _⟩ => show win8_6.index t (1 : Fin 2) * 64 + 1 * (x 1).val = (x 1).val; rw [e6_1]; omega

/-- Window 7's block at every point is its whole array. -/
theorem in8_7 (c : Dev nD) (t : Fin cfg8.N) :
    (iblk8 V c 7 t : S1x64.Idx → EReal) = (V c main_v18 : S1x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx8 t
  funext x
  show (V c main_v18 : S1x64.Idx → EReal) (((cfg8.win 7).blk t).view.emb x) = (V c main_v18 : S1x64.Idx → EReal) x
  refine congrArg _ (funext fun a => Fin.ext ?_)
  match a with
  | ⟨0, _⟩ => show win8_7.index t (0 : Fin 2) * 1 + 1 * (x 0).val = (x 0).val; rw [e7_0]; omega
  | ⟨1, _⟩ => show win8_7.index t (1 : Fin 2) * 64 + 1 * (x 1).val = (x 1).val; rw [e7_1]; omega

/-- Window 8's block at every point is its whole array. -/
theorem in8_8 (c : Dev nD) (t : Fin cfg8.N) :
    (iblk8 V c 8 t : S1x64.Idx → EReal) = (V c main_v91 : S1x64.Idx → EReal) := by
  obtain ⟨e0_0, e0_1, e1_0, e1_1, e2_0, e2_1, e3_0, e3_1, e4_0, e4_1, e5_0, e5_1, e6_0, e6_1, e7_0, e7_1, e8_0, e8_1, e9_0, e9_1⟩ := idx8 t
  funext x
  show (V c main_v91 : S1x64.Idx → EReal) (((cfg8.win 8).blk t).view.emb x) = (V c main_v91 : S1x64.Idx → EReal) x
  refine congrArg _ (funext fun a => Fin.ext ?_)
  match a with
  | ⟨0, _⟩ => show win8_8.index t (0 : Fin 2) * 1 + 1 * (x 0).val = (x 0).val; rw [e8_0]; omega
  | ⟨1, _⟩ => show win8_8.index t (1 : Fin 2) * 64 + 1 * (x 1).val = (x 1).val; rw [e8_1]; omega

/-- Output window 9's block at point `t`, read off any contents of its array, is rows `10000 t …` of them. -/
theorem outblk8_9 (t : Fin cfg8.N) (G : Cert.Spec.Mat 50000 64) :
    (((cfg8.win 9).blk t).view.read (Elt Ideal) G : S10000x64.Idx → EReal) = rowsAt G (t.val * 10000) (band8 t) := by
  obtain ⟨e0_0, e0_1, e1_0, e1_1, e2_0, e2_1, e3_0, e3_1, e4_0, e4_1, e5_0, e5_1, e6_0, e6_1, e7_0, e7_1, e8_0, e8_1, e9_0, e9_1⟩ := idx8 t
  funext x
  show G (((cfg8.win 9).blk t).view.emb x) = G _
  refine congrArg _ (funext fun a => Fin.ext ?_)
  match a with
  | ⟨0, _⟩ => show win8_9.index t (0 : Fin 2) * 10000 + 1 * (x 0).val = t.val * 10000 + (x 0).val; rw [e9_0]; omega
  | ⟨1, _⟩ => show win8_9.index t (1 : Fin 2) * 64 + 1 * (x 1).val = (x 1).val; rw [e9_1]; omega

/-- The layer update of the arrays the region finds. -/
abbrev G8_9 (c : Dev nD) : Cert.Spec.Mat 50000 64 :=
  Cert.Spec.comb (V c main_v74 : Cert.Spec.Mat 50000 64) (V c main_v74 : Cert.Spec.Mat 50000 64) (V c main_v75_0 : Cert.Spec.Mat 50000 64)
    (Cert.Spec.scale (V c main_v85 : Cert.Spec.Mat 50000 64) (col1 (V c main_v15 : Cert.Spec.Mat 50000 1))) (row1 (V c main_v17 : Cert.Spec.Mat 1 64))
    (V c main_arg6 : Cert.Spec.Mat 64 64) (row1 (V c main_v18 : Cert.Spec.Mat 1 64)) (row1 (V c main_v91 : Cert.Spec.Mat 1 64))

/-- What point `t` writes back through window 9 is its band of rows of that array. -/
theorem flushed8_9 (c : Dev nD) (t : Fin cfg8.N) :
    (dat8 V qq8 c).flushed 9 t = ((cfg8.win 9).blk t).view.read (Elt Ideal) (G8_9 V c) := by
  show (cfg8.win 9).cut (grid8.coords t) ((dat8 V qq8 c).after 9 t) = _
  rw [after8_9]
  unfold out8_9
  rw [View.canon_unit_zero zero2]
  simp only [View.ld_unit_zero (S := S10000x64) zero2, View.ld_unit_zero (S := S10000x1) zero2, View.ld_unit_zero (S := S1x64) zero2, View.ld_unit_zero (S := S64x64) zero2]
  refine Eq.trans ?_ (outblk8_9 t (G8_9 V c)).symm
  show k8_pay1 (F := Ideal) (k8_pay2 (F := Ideal) (iblk8 V c 0 t) (iblk8 V c 8 t))
      (k8_pay3 (F := Ideal) (iblk8 V c 3 t) (iblk8 V c 4 t) (iblk8 V c 5 t) (iblk8 V c 2 t) (iblk8 V c 6 t) (iblk8 V c 7 t) (iblk8 V c 1 t)) = _
  rw [in8_0 V c t, in8_1 V c t, in8_2 V c t, in8_3 V c t, in8_4 V c t, in8_5 V c t, in8_6 V c t, in8_7 V c t, in8_8 V c t]
  exact comb_rows8 _ _ _ _ _ _ _ _ _ _ _

/-- An index of window 9's array is in point `t`'s block iff each coordinate is in the block's range on its axis. -/
theorem mem_blk8_9 (t : Fin cfg8.N) (i : S50000x64.Idx) :
    i ∈ ((cfg8.win 9).blk t).view.set ↔ ∀ a : Fin 2, win8_9.index t a * S10000x64.size a ≤ (i a).val ∧ (i a).val < win8_9.index t a * S10000x64.size a + S10000x64.size a := by
  show i ∈ ((View.whole main_v92).slice (win8_9.rect t)).set ↔ _
  rw [View.set_slice_whole, Rect.mem_set_unit]
  exact Iff.rfl

/-- Row `r` of window 9's array is in the block of point `r / 10000`. -/
theorem cover8_9 (i : S50000x64.Idx) :
    ∃ t : Fin cfg8.N, (cfg8.win 9).flush t = true ∧ i ∈ ((cfg8.win 9).blk t).view.set := by
  have hi0 : (i 0).val < 50000 := idx2_lt0 i
  have hi1 : (i 1).val < 64 := idx2_lt1 i
  have hN : cfg8.N = 5 := N_8
  have ht : (i 0).val / 10000 < cfg8.N := by rw [hN]; omega
  obtain ⟨e0_0, e0_1, e1_0, e1_1, e2_0, e2_1, e3_0, e3_1, e4_0, e4_1, e5_0, e5_1, e6_0, e6_1, e7_0, e7_1, e8_0, e8_1, e9_0, e9_1⟩ := idx8 ⟨(i 0).val / 10000, ht⟩
  refine ⟨⟨(i 0).val / 10000, ht⟩, flush8_9 _, ?_⟩
  rw [mem_blk8_9]
  intro a
  match a with
  | ⟨0, _⟩ =>
    show win8_9.index ⟨(i 0).val / 10000, ht⟩ (0 : Fin 2) * 10000 ≤ (i 0).val ∧ (i 0).val < win8_9.index ⟨(i 0).val / 10000, ht⟩ (0 : Fin 2) * 10000 + 10000
    rw [e9_0]; show (i 0).val / 10000 * 10000 ≤ (i 0).val ∧ (i 0).val < (i 0).val / 10000 * 10000 + 10000; omega
  | ⟨1, _⟩ =>
    show win8_9.index ⟨(i 0).val / 10000, ht⟩ (1 : Fin 2) * 64 ≤ (i 1).val ∧ (i 1).val < win8_9.index ⟨(i 0).val / 10000, ht⟩ (1 : Fin 2) * 64 + 64
    rw [e9_1]; omega

/-- The output array after the region: the layer update of the arrays the region found. -/
theorem final8 (c : Dev nD) :
    (dat8 V qq8 c).arrAt 9 cfg8.N = Cert.Spec.comb (V c main_v74 : Cert.Spec.Mat 50000 64) (V c main_v74 : Cert.Spec.Mat 50000 64) (V c main_v75_0 : Cert.Spec.Mat 50000 64) (Cert.Spec.scale (V c main_v85 : Cert.Spec.Mat 50000 64) (col1 (V c main_v15 : Cert.Spec.Mat 50000 1))) (row1 (V c main_v17 : Cert.Spec.Mat 1 64)) (V c main_arg6 : Cert.Spec.Mat 64 64) (row1 (V c main_v18 : Cert.Spec.Mat 1 64)) (row1 (V c main_v91 : Cert.Spec.Mat 1 64)) :=
  (dat8 V qq8 c).arrAt_eq_of_cover 9 (G8_9 V c) (fun t _ => flushed8_9 V qq8 c t) cover8_9

end Cert.KernelIdeal.Fin

end
-- ==== Proof.KV.Final9.lean ====
/-
  Region 9 (the decoder), from blocks to the whole array.

  The grid has five points; point t works on rows 10000 t … 10000 t + 9999 of the state and of the output, with the
  weights and the bias row whole at every point.  What point t writes back is therefore that band of rows of the decoder
  of the whole arrays, and the five bands cover all 50000 rows.
-/
import proofs.«121059_j18107582120780_2_alg».proof.Proof.KI.Region9
import proofs.«121059_j18107582120780_2_alg».proof.Proof.KPay
import proofs.«121059_j18107582120780_2_alg».proof.Proof.KV.Rows
import Idealize.ShloMosaic.Lib.Pipeline.Value

noncomputable section

namespace Cert.KernelIdeal.Fin

open Cert.KernelIdeal Cert.KernelIdeal.Gen Cert.KV
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The decoder's body on a band of rows gives that band of the decoder. -/
theorem dec_rows (A : Cert.Spec.Mat 50000 64) (W : Cert.Spec.Mat 64 47) (B : Cert.Spec.Mat 1 47) (o : Nat)
    (h : o + 10000 ≤ 50000) :
    k9_pay1 (F := Ideal) (rowsAt A o h) W B = rowsAt (Cert.Spec.dec A W (row1 B)) o h := by
  funext y
  obtain ⟨p, q, rfl⟩ : ∃ (p : Fin 10000) (q : Fin 47), y = ix2 p q := ⟨y 0, y 1, eq_ix2 y⟩
  refine (Cert.KPay.pay9 (rowsAt A o h) W B p q).trans ?_
  rfl

/-- The block indices of the region's windows at point `t`: row band `t` for the windows over arrays of 50000 rows,
    block (0, 0) for the windows over whole small arrays. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- Point `t`'s band of 10000 rows lies inside the 50000 rows. -/
theorem band9 (t : Fin cfg9.N) : t.val * 10000 + 10000 ≤ 50000 := by
  have h : t.val < cfg9.N := t.isLt
  have hN : cfg9.N = 5 := N_9
  omega

/-- Window 0's block at point `t` is rows `10000 t …` of its array. -/
theorem in9_0 (c : Dev nD) (t : Fin cfg9.N) :
    (iblk9 V c 0 t : S10000x64.Idx → EReal) = rowsAt (V c main_v92 : Cert.Spec.Mat 50000 64) (t.val * 10000) (band9 t) := by
  obtain ⟨e0_0, e0_1, e1_0, e1_1, e2_0, e2_1, e3_0, e3_1⟩ := idx9 t
  funext x
  show (V c main_v92 : S50000x64.Idx → EReal) (((cfg9.win 0).blk t).view.emb x) = (V c main_v92 : S50000x64.Idx → EReal) _
  refine congrArg _ (funext fun a => Fin.ext ?_)
  match a with
  | ⟨0, _⟩ => show win9_0.index t (0 : Fin 2) * 10000 + 1 * (x 0).val = t.val * 10000 + (x 0).val; rw [e0_0]; omega
  | ⟨1, _⟩ => show win9_0.index t (1 : Fin 2) * 64 + 1 * (x 1).val = (x 1).val; rw [e0_1]; omega

/-- Window 1's block at every point is its whole array. -/
theorem in9_1 (c : Dev nD) (t : Fin cfg9.N) :
    (iblk9 V c 1 t : S64x47.Idx → EReal) = (V c main_arg8 : S64x47.Idx → EReal) := by
  obtain ⟨e0_0, e0_1, e1_0, e1_1, e2_0, e2_1, e3_0, e3_1⟩ := idx9 t
  funext x
  show (V c main_arg8 : S64x47.Idx → EReal) (((cfg9.win 1).blk t).view.emb x) = (V c main_arg8 : S64x47.Idx → EReal) x
  refine congrArg _ (funext fun a => Fin.ext ?_)
  match a with
  | ⟨0, _⟩ => show win9_1.index t (0 : Fin 2) * 64 + 1 * (x 0).val = (x 0).val; rw [e1_0]; omega
  | ⟨1, _⟩ => show win9_1.index t (1 : Fin 2) * 47 + 1 * (x 1).val = (x 1).val; rw [e1_1]; omega

/-- Window 2's block at every point is its whole array. -/
theorem in9_2 (c : Dev nD) (t : Fin cfg9.N) :
    (iblk9 V c 2 t : S1x47.Idx → EReal) = (V c main_v19 : S1x47.Idx → EReal) := by
  obtain ⟨e0_0, e0_1, e1_0, e1_1, e2_0, e2_1, e3_0, e3_1⟩ := idx9 t
  funext x
  show (V c main_v19 : S1x47.Idx → EReal) (((cfg9.win 2).blk t).view.emb x) = (V c main_v19 : S1x47.Idx → EReal) x
  refine congrArg _ (funext fun a => Fin.ext ?_)
  match a with
  | ⟨0, _⟩ => show win9_2.index t (0 : Fin 2) * 1 + 1 * (x 0).val = (x 0).val; rw [e2_0]; omega
  | ⟨1, _⟩ => show win9_2.index t (1 : Fin 2) * 47 + 1 * (x 1).val = (x 1).val; rw [e2_1]; omega

/-- Output window 3's block at point `t`, read off any contents of its array, is rows `10000 t …` of them. -/
theorem outblk9_3 (t : Fin cfg9.N) (G : Cert.Spec.Mat 50000 47) :
    (((cfg9.win 3).blk t).view.read (Elt Ideal) G : S10000x47.Idx → EReal) = rowsAt G (t.val * 10000) (band9 t) := by
  obtain ⟨e0_0, e0_1, e1_0, e1_1, e2_0, e2_1, e3_0, e3_1⟩ := idx9 t
  funext x
  show G (((cfg9.win 3).blk t).view.emb x) = G _
  refine congrArg _ (funext fun a => Fin.ext ?_)
  match a with
  | ⟨0, _⟩ => show win9_3.index t (0 : Fin 2) * 10000 + 1 * (x 0).val = t.val * 10000 + (x 0).val; rw [e3_0]; omega
  | ⟨1, _⟩ => show win9_3.index t (1 : Fin 2) * 47 + 1 * (x 1).val = (x 1).val; rw [e3_1]; omega

/-- The decoder of the arrays the region finds. -/
abbrev G9_3 (c : Dev nD) : Cert.Spec.Mat 50000 47 :=
  Cert.Spec.dec (V c main_v92 : Cert.Spec.Mat 50000 64) (V c main_arg8 : Cert.Spec.Mat 64 47) (row1 (V c main_v19 : Cert.Spec.Mat 1 47))

/-- What point `t` writes back through window 3 is its band of rows of that array. -/
theorem flushed9_3 (c : Dev nD) (t : Fin cfg9.N) :
    (dat9 V c).flushed 3 t = ((cfg9.win 3).blk t).view.read (Elt Ideal) (G9_3 V c) := by
  show (cfg9.win 3).cut (grid9.coords t) ((dat9 V c).after 3 t) = _
  rw [after9_3]
  unfold out9_3
  rw [View.canon_unit_zero zero2]
  simp only [View.ld_unit_zero (S := S10000x64) zero2, View.ld_unit_zero (S := S64x47) zero2, View.ld_unit_zero (S := S1x47) zero2]
  refine Eq.trans ?_ (outblk9_3 t (G9_3 V c)).symm
  show k9_pay1 (F := Ideal) (iblk9 V c 0 t) (iblk9 V c 1 t) (iblk9 V c 2 t) = _
  rw [in9_0 V c t, in9_1 V c t, in9_2 V c t]
  exact dec_rows _ _ _ _ _

/-- An index of window 3's array is in point `t`'s block iff each coordinate is in the block's range on its axis. -/
theorem mem_blk9_3 (t : Fin cfg9.N) (i : S50000x47.Idx) :
    i ∈ ((cfg9.win 3).blk t).view.set ↔ ∀ a : Fin 2, win9_3.index t a * S10000x47.size a ≤ (i a).val ∧ (i a).val < win9_3.index t a * S10000x47.size a + S10000x47.size a := by
  show i ∈ ((View.whole main_v93).slice (win9_3.rect t)).set ↔ _
  rw [View.set_slice_whole, Rect.mem_set_unit]
  exact Iff.rfl

/-- Row `r` of window 3's array is in the block of point `r / 10000`. -/
theorem cover9_3 (i : S50000x47.Idx) :
    ∃ t : Fin cfg9.N, (cfg9.win 3).flush t = true ∧ i ∈ ((cfg9.win 3).blk t).view.set := by
  have hi0 : (i 0).val < 50000 := idx2_lt0 i
  have hi1 : (i 1).val < 47 := idx2_lt1 i
  have hN : cfg9.N = 5 := N_9
  have ht : (i 0).val / 10000 < cfg9.N := by rw [hN]; omega
  obtain ⟨e0_0, e0_1, e1_0, e1_1, e2_0, e2_1, e3_0, e3_1⟩ := idx9 ⟨(i 0).val / 10000, ht⟩
  refine ⟨⟨(i 0).val / 10000, ht⟩, flush9_3 _, ?_⟩
  rw [mem_blk9_3]
  intro a
  match a with
  | ⟨0, _⟩ =>
    show win9_3.index ⟨(i 0).val / 10000, ht⟩ (0 : Fin 2) * 10000 ≤ (i 0).val ∧ (i 0).val < win9_3.index ⟨(i 0).val / 10000, ht⟩ (0 : Fin 2) * 10000 + 10000
    rw [e3_0]; show (i 0).val / 10000 * 10000 ≤ (i 0).val ∧ (i 0).val < (i 0).val / 10000 * 10000 + 10000; omega
  | ⟨1, _⟩ =>
    show win9_3.index ⟨(i 0).val / 10000, ht⟩ (1 : Fin 2) * 47 ≤ (i 1).val ∧ (i 1).val < win9_3.index ⟨(i 0).val / 10000, ht⟩ (1 : Fin 2) * 47 + 47
    rw [e3_1]; omega

/-- The output array after the region: the decoder of the arrays the region found. -/
theorem final9 (c : Dev nD) :
    (dat9 V c).arrAt 3 cfg9.N = Cert.Spec.dec (V c main_v92 : Cert.Spec.Mat 50000 64) (V c main_arg8 : Cert.Spec.Mat 64 47) (row1 (V c main_v19 : Cert.Spec.Mat 1 47)) :=
  (dat9 V c).arrAt_eq_of_cover 3 (G9_3 V c) (fun t _ => flushed9_3 V c t) cover9_3

end Cert.KernelIdeal.Fin

end
-- ==== Proof.KV.FinalAt.lean ====
/-
  The regions' output arrays as the specification's stages of NAMED arrays.

  Each region's result is stated in the blocks-to-array modules over the entry contents `V c r` of the region's own
  operands.  Here the same results are restated over arrays given by equations (`V c r = A`), so that a caller who knows
  what each operand holds gets the stage of those arrays in one step, with nothing to rewrite under the stage.
-/
import proofs.«121059_j18107582120780_2_alg».proof.Proof.KV.Final0
import proofs.«121059_j18107582120780_2_alg».proof.Proof.KV.Final1
import proofs.«121059_j18107582120780_2_alg».proof.Proof.KV.Final2
import proofs.«121059_j18107582120780_2_alg».proof.Proof.KV.Final3
import proofs.«121059_j18107582120780_2_alg».proof.Proof.KV.Final4
import proofs.«121059_j18107582120780_2_alg».proof.Proof.KV.Final5
import proofs.«121059_j18107582120780_2_alg».proof.Proof.KV.Final6
import proofs.«121059_j18107582120780_2_alg».proof.Proof.KV.Final7
import proofs.«121059_j18107582120780_2_alg».proof.Proof.KV.Final8
import proofs.«121059_j18107582120780_2_alg».proof.Proof.KV.Final9

noncomputable section

namespace Cert.KernelIdeal.Fin

open Cert.KernelIdeal Cert.KernelIdeal.Gen Cert.KV Cert.Spec
open Idealize.ShloMosaic Idealize.ShloMosaic.TcCoe Idealize.ShloMosaic.ValueIdx Idealize.SL.Sem
open Idealize.ShloMosaic.Pipeline (Dat)
open Idealize.SL.RA (PosShare TreeShare)

variable (V : (c : Dev nD) → (b : Ref sig .tc) → Buf (Elt Ideal) ((c : Thread nD τ).loc b)) (c : Dev nD)

/-- Region 0's output is the encoder of what its operands hold. -/
theorem enc_at (A0 : Mat 50000 128) (A2 : Mat 128 64) (B : Vect 64)
    (h0 : (V c main_arg0 : Mat 50000 128) = A0) (h2 : (V c main_arg2 : Mat 128 64) = A2)
    (hb : row1 (V c main_v16 : Mat 1 64) = B) :
    (dat0 V c).arrAt 3 cfg0.N = enc A0 A2 B := by
  subst h0 h2 hb; exact final0 V c

/-- Region 1's first output is the product of what its state and weight operands hold. -/
theorem proj_at1 (X : Mat 50000 64) (A4 : Mat 64 64)
    (hx : (V c main_v20 : Mat 50000 64) = X) (h4 : (V c main_arg4 : Mat 64 64) = A4) :
    (dat1 V c).arrAt 3 cfg1.N = mm X A4 := by
  subst hx h4; exact final1a V c

/-- Region 1's second output is that product with each row scaled by what the one-column operand holds. -/
theorem sproj_at1 (X : Mat 50000 64) (A4 : Mat 64 64) (D : Vect 50000)
    (hx : (V c main_v20 : Mat 50000 64) = X) (h4 : (V c main_arg4 : Mat 64 64) = A4)
    (hd : col1 (V c main_v15 : Mat 50000 1) = D) :
    (dat1 V c).arrAt 4 cfg1.N = scale (mm X A4) D := by
  subst hx h4 hd; exact final1b V c

/-- Region 3's first output is the product of what its state and weight operands hold. -/
theorem proj_at3 (X : Mat 50000 64) (A4 : Mat 64 64)
    (hx : (V c main_v38 : Mat 50000 64) = X) (h4 : (V c main_arg4 : Mat 64 64) = A4) :
    (dat3 V c).arrAt 3 cfg3.N = mm X A4 := by
  subst hx h4; exact final3a V c

/-- Region 3's second output is that product with each row scaled by what the one-column operand holds. -/
theorem sproj_at3 (X : Mat 50000 64) (A4 : Mat 64 64) (D : Vect 50000)
    (hx : (V c main_v38 : Mat 50000 64) = X) (h4 : (V c main_arg4 : Mat 64 64) = A4)
    (hd : col1 (V c main_v15 : Mat 50000 1) = D) :
    (dat3 V c).arrAt 4 cfg3.N = scale (mm X A4) D := by
  subst hx h4 hd; exact final3b V c

/-- Region 5's first output is the product of what its state and weight operands hold. -/
theorem proj_at5 (X : Mat 50000 64) (A4 : Mat 64 64)
    (hx : (V c main_v56 : Mat 50000 64) = X) (h4 : (V c main_arg4 : Mat 64 64) = A4) :
    (dat5 V c).arrAt 3 cfg5.N = mm X A4 := by
  subst hx h4; exact final5a V c

/-- Region 5's second output is that product with each row scaled by what the one-column operand holds. -/
theorem sproj_at5 (X : Mat 50000 64) (A4 : Mat 64 64) (D : Vect 50000)
    (hx : (V c main_v56 : Mat 50000 64) = X) (h4 : (V c main_arg4 : Mat 64 64) = A4)
    (hd : col1 (V c main_v15 : Mat 50000 1) = D) :
    (dat5 V c).arrAt 4 cfg5.N = scale (mm X A4) D := by
  subst hx h4 hd; exact final5b V c

/-- Region 7's first output is the product of what its state and weight operands hold. -/
theorem proj_at7 (X : Mat 50000 64) (A4 : Mat 64 64)
    (hx : (V c main_v74 : Mat 50000 64) = X) (h4 : (V c main_arg4 : Mat 64 64) = A4) :
    (dat7 V c).arrAt 3 cfg7.N = mm X A4 := by
  subst hx h4; exact final7a V c

/-- Region 7's second output is that product with each row scaled by what the one-column operand holds. -/
theorem sproj_at7 (X : Mat 50000 64) (A4 : Mat 64 64) (D : Vect 50000)
    (hx : (V c main_v74 : Mat 50000 64) = X) (h4 : (V c main_arg4 : Mat 64 64) = A4)
    (hd : col1 (V c main_v15 : Mat 50000 1) = D) :
    (dat7 V c).arrAt 4 cfg7.N = scale (mm X A4) D := by
  subst hx h4 hd; exact final7b V c

/-- Region 2's output is the layer update of what its operands hold. -/
theorem comb_at2 (qq : Fin cfg2.W → PosShare TreeShare) (X H CS : Mat 50000 64) (D : Vect 50000) (CB : Vect 64) (RW : Mat 64 64) (RB CO : Vect 64)
    (hx : (V c main_v20 : Mat 50000 64) = X) (hh : (V c main_v21_0 : Mat 50000 64) = H) (hcs : (V c main_v31 : Mat 50000 64) = CS)
    (hd : col1 (V c main_v15 : Mat 50000 1) = D) (hcb : row1 (V c main_v17 : Mat 1 64) = CB)
    (hrw : (V c main_arg6 : Mat 64 64) = RW) (hrb : row1 (V c main_v18 : Mat 1 64) = RB)
    (hco : row1 (V c main_v37 : Mat 1 64) = CO) :
    (dat2 V qq c).arrAt 9 cfg2.N = comb X X H (scale CS D) CB RW RB CO := by
  subst hx hh hcs hd hcb hrw hrb hco; exact final2 V qq c

/-- Region 4's output is the layer update of what its operands hold. -/
theorem comb_at4 (qq : Fin cfg4.W → PosShare TreeShare) (X H CS : Mat 50000 64) (D : Vect 50000) (CB : Vect 64) (RW : Mat 64 64) (RB CO : Vect 64)
    (hx : (V c main_v38 : Mat 50000 64) = X) (hh : (V c main_v39_0 : Mat 50000 64) = H) (hcs : (V c main_v49 : Mat 50000 64) = CS)
    (hd : col1 (V c main_v15 : Mat 50000 1) = D) (hcb : row1 (V c main_v17 : Mat 1 64) = CB)
    (hrw : (V c main_arg6 : Mat 64 64) = RW) (hrb : row1 (V c main_v18 : Mat 1 64) = RB)
    (hco : row1 (V c main_v55 : Mat 1 64) = CO) :
    (dat4 V qq c).arrAt 9 cfg4.N = comb X X H (scale CS D) CB RW RB CO := by
  subst hx hh hcs hd hcb hrw hrb hco; exact final4 V qq c

/-- Region 6's output is the layer update of what its operands hold. -/
theorem comb_at6 (qq : Fin cfg6.W → PosShare TreeShare) (X H CS : Mat 50000 64) (D : Vect 50000) (CB : Vect 64) (RW : Mat 64 64) (RB CO : Vect 64)
    (hx : (V c main_v56 : Mat 50000 64) = X) (hh : (V c main_v57_0 : Mat 50000 64) = H) (hcs : (V c main_v67 : Mat 50000 64) = CS)
    (hd : col1 (V c main_v15 : Mat 50000 1) = D) (hcb : row1 (V c main_v17 : Mat 1 64) = CB)
    (hrw : (V c main_arg6 : Mat 64 64) = RW) (hrb : row1 (V c main_v18 : Mat 1 64) = RB)
    (hco : row1 (V c main_v73 : Mat 1 64) = CO) :
    (dat6 V qq c).arrAt 9 cfg6.N = comb X X H (scale CS D) CB RW RB CO := by
  subst hx hh hcs hd hcb hrw hrb hco; exact final6 V qq c

/-- Region 8's output is the layer update of what its operands hold. -/
theorem comb_at8 (qq : Fin cfg8.W → PosShare TreeShare) (X H CS : Mat 50000 64) (D : Vect 50000) (CB : Vect 64) (RW : Mat 64 64) (RB CO : Vect 64)
    (hx : (V c main_v74 : Mat 50000 64) = X) (hh : (V c main_v75_0 : Mat 50000 64) = H) (hcs : (V c main_v85 : Mat 50000 64) = CS)
    (hd : col1 (V c main_v15 : Mat 50000 1) = D) (hcb : row1 (V c main_v17 : Mat 1 64) = CB)
    (hrw : (V c main_arg6 : Mat 64 64) = RW) (hrb : row1 (V c main_v18 : Mat 1 64) = RB)
    (hco : row1 (V c main_v91 : Mat 1 64) = CO) :
    (dat8 V qq c).arrAt 9 cfg8.N = comb X X H (scale CS D) CB RW RB CO := by
  subst hx hh hcs hd hcb hrw hrb hco; exact final8 V qq c

/-- Region 9's output is the decoder of what its operands hold. -/
theorem dec_at (X : Mat 50000 64) (A8 : Mat 64 47) (B : Vect 47)
    (hx : (V c main_v92 : Mat 50000 64) = X) (h8 : (V c main_arg8 : Mat 64 47) = A8)
    (hb : row1 (V c main_v19 : Mat 1 47) = B) :
    (dat9 V c).arrAt 3 cfg9.N = dec X A8 B := by
  subst hx h8 hb; exact final9 V c

end Cert.KernelIdeal.Fin

end
-- ==== Proof.Terms.lean ====
/-
  The host-side terms the two programs share, written once over the operations the programs themselves use:
  the edge list with the self-loops appended (row and column index vectors), the inverse square root of the
  in-degree, the index normalisation applied before every gather, and the two ways of aggregating messages
  along the edges: scale the features by the degree factor first, sum, then scale the sum (one program); or
  scale every message by the product of its two endpoint factors and sum (the other program).

  The dimension records of the gathers and scatters are stated here with the same fields as the programs'
  own records; the programs' records equal these by unfolding (the bridging lemmas at the end).
-/
import proofs.«121059_j18107582120780_2_alg».proof.KernelIdeal
import proofs.«121059_j18107582120780_2_alg».proof.ReferenceIdeal
import proofs.«121059_j18107582120780_2_alg».proof.Proof.Spec

noncomputable section

namespace Cert.Terms

open Idealize.ShloMosaic Idealize.ShloMosaic.ValueIdx

/-! ## Shapes (the literal shapes the programs abbreviate under the same names) -/

abbrev S_ : Shape := ⟨0, ![]⟩
abbrev S50000 : Shape := ⟨1, ![50000]⟩
abbrev S1250000 : Shape := ⟨1, ![1250000]⟩
abbrev S1300000 : Shape := ⟨1, ![1300000]⟩
abbrev S2x1250000 : Shape := ⟨2, ![2, 1250000]⟩
abbrev S1x1250000 : Shape := ⟨2, ![1, 1250000]⟩
abbrev S1300000x1 : Shape := ⟨2, ![1300000, 1]⟩
abbrev S50000x64 : Shape := ⟨2, ![50000, 64]⟩
abbrev S1300000x64 : Shape := ⟨2, ![1300000, 64]⟩
abbrev S4x64 : Shape := ⟨2, ![4, 64]⟩

/-! ## Shape evidence -/

theorem slices_row : S2x1250000.Slices ![0, 0] S1x1250000 := by decide
theorem slices_col : S2x1250000.Slices ![1, 0] S1x1250000 := by decide
theorem casts_edge : S1x1250000.ShapeCasts S1250000 := by decide
theorem concats_edge : Shape.Concatenates [S1250000, S50000] S1300000 0 := by decide
theorem bcast_S_S1300000 : S_.BroadcastsInDim S1300000 (![] : Fin 0 → Fin S1300000.rank) := by decide
theorem bcast_S_S50000 : S_.BroadcastsInDim S50000 (![] : Fin 0 → Fin S50000.rank) := by decide
theorem bcast_S_S50000x64 : S_.BroadcastsInDim S50000x64 (![] : Fin 0 → Fin S50000x64.rank) := by decide
theorem bcast_col1 : S1300000.BroadcastsInDim S1300000x1 (![0] : Fin 1 → Fin S1300000x1.rank) := by decide
theorem bcast_cols : S1300000x1.BroadcastsInDim S1300000x64 (![0, 1] : Fin 2 → Fin S1300000x64.rank) := by decide

/-! ## Dimension records -/

/-- Scatter of one scalar per edge into a vector over the nodes. -/
def scatterDeg : ScatterDims S50000 S1300000x1 S1300000 where
  updateWindowDims := []
  insertedWindowDims := [0]
  scatterDimsToOperandDims := [0]
  indexVectorDim := 1
  wf := by decide

/-- Gather of one scalar per edge from a vector over the nodes. -/
def gatherDeg : GatherDims S50000 S1300000x1 S1300000 where
  offsetDims := []
  collapsedSliceDims := [0]
  operandBatchingDims := []
  startIndicesBatchingDims := []
  startIndexMap := [0]
  indexVectorDim := 1
  sliceSizes := ![1]
  wf := by decide

/-- Gather of one feature row per edge. -/
def gatherH : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := by decide

/-- Scatter of one feature row per edge into the node features. -/
def scatterH : ScatterDims S50000x64 S1300000x1 S1300000x64 where
  updateWindowDims := [1]
  insertedWindowDims := [0]
  scatterDimsToOperandDims := [0]
  indexVectorDim := 1
  wf := by decide

/-! ## The index vectors -/

/-- The node numbers 0 … 49999: the self-loops appended to each index vector. -/
def selfLoops : IVec S50000 32 := iotaInDim S50000 32 0

/-- The source node of every edge: row 0 of the edge list, then the self-loops. -/
def rowOf (a1 : IVec S2x1250000 32) : IVec S1300000 32 :=
  concatenate S1300000 0
    [⟨S1250000, (shapeCast _ (extractStridedSlice S1x1250000 ![0, 0] a1 slices_row) casts_edge)⟩,
     ⟨S50000, (iotaInDim S50000 32 0)⟩] concats_edge

/-- The target node of every edge: row 1 of the edge list, then the self-loops. -/
def colOf (a1 : IVec S2x1250000 32) : IVec S1300000 32 :=
  concatenate S1300000 0
    [⟨S1250000, (shapeCast _ (extractStridedSlice S1x1250000 ![1, 0] a1 slices_col) casts_edge)⟩,
     ⟨S50000, (iotaInDim S50000 32 0)⟩] concats_edge

/-- An index vector as the one-column array of start indices a scatter takes. -/
def colIdx (v : IVec S1300000 32) : IVec S1300000x1 32 :=
  broadcastInDim S1300000x1 ![0] bcast_col1 v

/-- The normalisation before a gather: a negative index has the node count added; then the one-column array. -/
def wrapIdx (v : IVec S1300000 32) : IVec S1300000x1 32 :=
  broadcastInDim S1300000x1 ![0] bcast_col1
    (select (cmpi .slt v (broadcastInDim S1300000 ![] bcast_S_S1300000 (constantI S_ 32 0#32)))
      (addi v (broadcastInDim S1300000 ![] bcast_S_S1300000 (constantI S_ 32 50000#32))) v)

/-! ## The degree factor -/

/-- The in-degree of every node: zero plus one per edge that targets it. -/
def degOf (a1 : IVec S2x1250000 32) : FVec Ideal S50000 .f32 :=
  Host.scatterAdd scatterDeg
    (broadcastInDim S50000 ![] bcast_S_S50000 (constant S_ .f32 0x00000000#32))
    (broadcastInDim S1300000x1 ![0] bcast_col1 (colOf a1))
    (broadcastInDim S1300000 ![] bcast_S_S1300000 (constant S_ .f32 0x3F800000#32))

/-- The inverse square root of the in-degree where it is positive, zero elsewhere. -/
def dinvOf (a1 : IVec S2x1250000 32) : FVec Ideal S50000 .f32 :=
  select (cmpf .ogt (degOf a1) (broadcastInDim S50000 ![] bcast_S_S50000 (constant S_ .f32 0x00000000#32)))
    (Host.rsqrt (degOf a1))
    (broadcastInDim S50000 ![] bcast_S_S50000 (id (constant S_ .f32 0x00000000#32)))

/-! ## The two aggregations -/

/-- Sum, over the edges into each node, of the (already scaled) feature row of the edge's source. -/
def aggK (hs : FVec Ideal S50000x64 .f32) (a1 : IVec S2x1250000 32) : FVec Ideal S50000x64 .f32 :=
  Host.scatterAdd scatterH
    (broadcastInDim S50000x64 ![] bcast_S_S50000x64 (constant S_ .f32 0x00000000#32))
    (colIdx (colOf a1))
    (Host.gather gatherH hs (wrapIdx (rowOf a1)))

/-- The weight of every edge: the degree factor of its source times that of its target. -/
def normOf (a1 : IVec S2x1250000 32) : FVec Ideal S1300000 .f32 :=
  mulf (Host.gather gatherDeg (dinvOf a1) (wrapIdx (rowOf a1)))
    (Host.gather gatherDeg (dinvOf a1) (wrapIdx (colOf a1)))

/-- Sum, over the edges into each node, of the source's feature row times the edge's weight. -/
def aggR (h : FVec Ideal S50000x64 .f32) (a1 : IVec S2x1250000 32) : FVec Ideal S50000x64 .f32 :=
  Host.scatterAdd scatterH
    (broadcastInDim S50000x64 ![] bcast_S_S50000x64 (constant S_ .f32 0x00000000#32))
    (colIdx (colOf a1))
    (mulf (Host.gather gatherH h (wrapIdx (rowOf a1)))
      (broadcastInDim S1300000x64 ![0, 1] bcast_cols (broadcastInDim S1300000x1 ![0] bcast_col1 (normOf a1))))

/-! ## The gate -/

/-- Layer `k`'s gate: one plus the hyperbolic tangent of row `k` of the parameter array. -/
def coOf (eps : FVec Ideal S4x64 .f32) (k : Fin 4) : Cert.Spec.Vect 64 :=
  fun j => Cert.Spec.one + Ideal.tanh (eps (ix2 (n0 := 4) (n1 := 64) k (j 0)))

/-! ## The programs' records are these -/

section
variable [Cert.KernelIdeal.Facts₀]
theorem scatterDeg_eqK : Cert.KernelIdeal.scatter_S50000_S1300000x1_S1300000_n_0_0_1 = scatterDeg := rfl
theorem gatherH_eqK : Cert.KernelIdeal.gather_S50000x64_S1300000x1_S1300000x64_1_0_n_n_0_1_164 = gatherH := rfl
theorem scatterH_eqK : Cert.KernelIdeal.scatter_S50000x64_S1300000x1_S1300000x64_1_0_0_1 = scatterH := rfl
end

section
variable [Cert.ReferenceIdeal.Facts₀]
theorem scatterDeg_eqR : Cert.ReferenceIdeal.scatter_S50000_S1300000x1_S1300000_n_0_0_1 = scatterDeg := rfl
theorem gatherDeg_eqR : Cert.ReferenceIdeal.gather_S50000_S1300000x1_S1300000_n_0_n_n_0_1_1 = gatherDeg := rfl
theorem gatherH_eqR : Cert.ReferenceIdeal.gather_S50000x64_S1300000x1_S1300000x64_1_0_n_n_0_1_164 = gatherH := rfl
theorem scatterH_eqR : Cert.ReferenceIdeal.scatter_S50000x64_S1300000x1_S1300000x64_1_0_0_1 = scatterH := rfl
end

end Cert.Terms

end
-- ==== Proof.KV.HostVals.lean ====
/-
  The host-side reshapes and broadcasts that make the regions' small operands, read through `row1` and `col1`.

  A vector with a unit axis added in front and read back as its one row is the vector; a vector broadcast into a
  one-column matrix and read back as its one column is the vector; and a layer's gate row, built on the host as
  (1 broadcast) + tanh (row k of the parameter array, reshaped to a vector), reshaped to one row, is `1 + tanh` of that row.
  Each is stated for ANY evidence of the shape conditions, so it applies to the operations however their evidence is spelt.
-/
import proofs.«121059_j18107582120780_2_alg».proof.KernelIdeal
import proofs.«121059_j18107582120780_2_alg».proof.Proof.Spec
import proofs.«121059_j18107582120780_2_alg».proof.Proof.Terms
import proofs.«121059_j18107582120780_2_alg».proof.Proof.KV.Rows
import Idealize.ShloMosaic.Lib.ValueLayout
import Idealize.ShloMosaic.Lib.Pipeline.Value

noncomputable section

namespace Cert.KV

open Cert.KernelIdeal Idealize.ShloMosaic Idealize.ShloMosaic.ValueIdx

/-- The per-node scale as a one-column matrix, read back as its column. -/
theorem col1_bcast (d : FVec Ideal S50000 .f32) (h : S50000.BroadcastsInDim S50000x1 (![0] : Fin 1 → Fin S50000x1.rank)) :
    col1 (R := 50000) (broadcastInDim S50000x1 ![0] h d) = d := by
  funext i
  obtain ⟨r, rfl⟩ : ∃ r : Fin 50000, i = ix1 r := ⟨i 0, eq_ix1 i⟩
  show broadcastInDim S50000x1 ![0] h d (ix2 r (0 : Fin 1)) = d (ix1 r)
  refine broadcastInDim_apply (![0] : Fin 1 → Fin S50000x1.rank) h d (ix2 r (0 : Fin 1)) (ix1 r) fun a => ?_
  match a with
  | ⟨0, _⟩ => show r.val = if (50000 : ℕ) = 1 then 0 else r.val; rw [if_neg (by decide)]

/-- A vector of any length reshaped to one row, read back as that row. -/
theorem row1_reshape (n : ℕ) (b : (⟨1, ![n]⟩ : Shape).Idx → EReal) (h : (⟨1, ![n]⟩ : Shape).ShapeCasts ⟨2, ![1, n]⟩) :
    row1 (M := n) (shapeCast ⟨2, ![1, n]⟩ b h) = b := by
  funext j
  obtain ⟨r, rfl⟩ : ∃ r : Fin n, j = ix1 r := ⟨j 0, eq_ix1 j⟩
  exact shapeCast_a_1a_apply b h (0 : Fin 1) r

/-- A bias of length 64 reshaped to `[1, 64]`, read back as its row. -/
theorem row1_reshape64 (b : FVec Ideal S64 .f32) (h : S64.ShapeCasts S1x64) :
    row1 (M := 64) (shapeCast S1x64 b h) = b := row1_reshape 64 b h

/-- The decoder's bias of length 47 reshaped to `[1, 47]`, read back as its row. -/
theorem row1_reshape47 (b : FVec Ideal S47 .f32) (h : S47.ShapeCasts S1x47) :
    row1 (M := 47) (shapeCast S1x47 b h) = b := row1_reshape 47 b h

/-- A layer's gate row: row `o` of the parameter array cut out, flattened, its hyperbolic tangent added to the broadcast
    literal one, reshaped to one row — read back as a row, it is `1 + tanh` of the parameter array's row. -/
theorem row1_coeff_at (o : ℕ) (k : Fin 4) (hk : k.val = o) (eps : FVec Ideal S4x64 .f32)
    (hs : S4x64.Slices ![o, 0] S1x64) (hc1 : S1x64.ShapeCasts S64)
    (hb : S_.BroadcastsInDim S64 (![] : Fin 0 → Fin S64.rank)) (hc2 : S64.ShapeCasts S1x64) :
    row1 (M := 64) (shapeCast S1x64 (addf (broadcastInDim S64 ![] hb (constant (F := Ideal) S_ .f32 0x3F800000#32))
        (Host.tanh (shapeCast S64 (extractStridedSlice S1x64 ![o, 0] eps hs) hc1))) hc2) = Cert.Terms.coOf eps k := by
  funext j
  obtain ⟨r, rfl⟩ : ∃ r : Fin 64, j = ix1 r := ⟨j 0, eq_ix1 j⟩
  refine (shapeCast_a_1a_apply _ hc2 (0 : Fin 1) r).trans ?_
  show Ideal.ofBits .f32 0x3F800000#32 + Ideal.tanh (shapeCast S64 (extractStridedSlice S1x64 ![o, 0] eps hs) hc1 (ix1 r))
      = Cert.Spec.one + Ideal.tanh (eps (ix2 k r))
  rw [shapeCast_1a_a_apply _ hc1 r, slice2_axis0_apply o eps hs (0 : Fin 1) r k (by rw [hk]; rfl)]
  rfl

/-- The first layer's gate row. -/
theorem row1_coeff0 (eps : FVec Ideal S4x64 .f32) (hs : S4x64.Slices ![0, 0] S1x64) (hc1 : S1x64.ShapeCasts S64)
    (hb : S_.BroadcastsInDim S64 (![] : Fin 0 → Fin S64.rank)) (hc2 : S64.ShapeCasts S1x64) :
    row1 (M := 64) (shapeCast S1x64 (addf (broadcastInDim S64 ![] hb (constant (F := Ideal) S_ .f32 0x3F800000#32))
        (Host.tanh (shapeCast S64 (extractStridedSlice S1x64 ![0, 0] eps hs) hc1))) hc2) = Cert.Terms.coOf eps 0 :=
  row1_coeff_at 0 0 rfl eps hs hc1 hb hc2

/-- The second layer's gate row. -/
theorem row1_coeff1 (eps : FVec Ideal S4x64 .f32) (hs : S4x64.Slices ![1, 0] S1x64) (hc1 : S1x64.ShapeCasts S64)
    (hb : S_.BroadcastsInDim S64 (![] : Fin 0 → Fin S64.rank)) (hc2 : S64.ShapeCasts S1x64) :
    row1 (M := 64) (shapeCast S1x64 (addf (broadcastInDim S64 ![] hb (constant (F := Ideal) S_ .f32 0x3F800000#32))
        (Host.tanh (shapeCast S64 (extractStridedSlice S1x64 ![1, 0] eps hs) hc1))) hc2) = Cert.Terms.coOf eps 1 :=
  row1_coeff_at 1 1 rfl eps hs hc1 hb hc2

/-- The third layer's gate row. -/
theorem row1_coeff2 (eps : FVec Ideal S4x64 .f32) (hs : S4x64.Slices ![2, 0] S1x64) (hc1 : S1x64.ShapeCasts S64)
    (hb : S_.BroadcastsInDim S64 (![] : Fin 0 → Fin S64.rank)) (hc2 : S64.ShapeCasts S1x64) :
    row1 (M := 64) (shapeCast S1x64 (addf (broadcastInDim S64 ![] hb (constant (F := Ideal) S_ .f32 0x3F800000#32))
        (Host.tanh (shapeCast S64 (extractStridedSlice S1x64 ![2, 0] eps hs) hc1))) hc2) = Cert.Terms.coOf eps 2 :=
  row1_coeff_at 2 2 rfl eps hs hc1 hb hc2

/-- The fourth layer's gate row. -/
theorem row1_coeff3 (eps : FVec Ideal S4x64 .f32) (hs : S4x64.Slices ![3, 0] S1x64) (hc1 : S1x64.ShapeCasts S64)
    (hb : S_.BroadcastsInDim S64 (![] : Fin 0 → Fin S64.rank)) (hc2 : S64.ShapeCasts S1x64) :
    row1 (M := 64) (shapeCast S1x64 (addf (broadcastInDim S64 ![] hb (constant (F := Ideal) S_ .f32 0x3F800000#32))
        (Host.tanh (shapeCast S64 (extractStridedSlice S1x64 ![3, 0] eps hs) hc1))) hc2) = Cert.Terms.coOf eps 3 :=
  row1_coeff_at 3 3 rfl eps hs hc1 hb hc2

end Cert.KV

end
-- ==== Proof.KV.HostStretch.lean ====
/-
  The host stretches between the regions, read at the two buffers the next region takes from them.

  Each of the four stretches computes, from whatever the buffers hold when it starts (a valuation `W`): the sum over
  the incoming edges of the scaled projected features (a gather along the wrapped source indices, a scatter-add along the
  target indices into zeros), and the layer's gate row (one plus the hyperbolic tangent of the layer's row of the
  parameter array, as one row).  Both are stated for an ARBITRARY starting valuation, so nothing about how the buffers
  were filled enters.
-/
import proofs.«121059_j18107582120780_2_alg».proof.Proof.Gen.KernelIdeal.Launch
import proofs.«121059_j18107582120780_2_alg».proof.Proof.Terms
import proofs.«121059_j18107582120780_2_alg».proof.Proof.KV.HostVals
import Idealize.ShloMosaic.Lib.StableHlo.Run

set_option maxRecDepth 16384

noncomputable section

namespace Cert.KV

open Cert.KernelIdeal Cert.KernelIdeal.Gen
open Idealize.ShloMosaic Idealize.ShloMosaic.TcCoe Idealize.SL.Sem Idealize.ShloMosaic.StableHlo

/-- The kernel's aggregation over given index vectors: gather the rows of `hs` along the wrapped source indices, add them
    into zeros along the target indices. -/
def aggAt (hs : FVec Ideal Cert.Terms.S50000x64 .f32) (row col : IVec Cert.Terms.S1300000 32) : FVec Ideal Cert.Terms.S50000x64 .f32 :=
  Host.scatterAdd Cert.Terms.scatterH
    (broadcastInDim Cert.Terms.S50000x64 ![] Cert.Terms.bcast_S_S50000x64 (constant Cert.Terms.S_ .f32 0x00000000#32))
    (Cert.Terms.colIdx col)
    (Host.gather Cert.Terms.gatherH hs (Cert.Terms.wrapIdx row))

/-- The shared host term is this aggregation over the edge list's own index vectors. -/
theorem aggK_eq (hs : FVec Ideal Cert.Terms.S50000x64 .f32) (a1 : IVec Cert.Terms.S2x1250000 32) :
    Cert.Terms.aggK hs a1 = aggAt hs (Cert.Terms.rowOf a1) (Cert.Terms.colOf a1) := rfl

variable (W : Valuation τ sig (Elt Ideal))

/-- The stretch before region 2: the aggregate it leaves. -/
theorem host2_agg :
    StableHlo.after hostOps2 W (main_v31 : DevRef τ sig)
      = aggAt (W (main_v21_1 : DevRef τ sig)) (W (main_v3 : DevRef τ sig)) (W (main_v6 : DevRef τ sig)) := by
  dsimp only [hostOps2]
  after_results_simp
  unfold aggAt Cert.Terms.colIdx Cert.Terms.wrapIdx
  simp only [Cert.Terms.scatterH_eqK, Cert.Terms.gatherH_eqK]

/-- The stretch before region 2: the gate row it leaves, read as a row. -/
theorem host2_gate :
    row1 (M := 64) (StableHlo.after hostOps2 W (main_v37 : DevRef τ sig)) = Cert.Terms.coOf (W (main_arg10 : DevRef τ sig)) 0 := by
  have e : StableHlo.after hostOps2 W (main_v37 : DevRef τ sig)
      = shapeCast S1x64 (addf (broadcastInDim S64 ![] bcast_S_S64 (constant (F := Ideal) S_ .f32 0x3F800000#32))
          (Host.tanh (shapeCast S64 (extractStridedSlice S1x64 ![0, 0] (W (main_arg10 : DevRef τ sig)) slices_S4x64_S1x64_0_0) shapeCasts_S1x64_S64))) shapeCasts_S64_S1x64 := by
    dsimp only [hostOps2]
    after_results
    rfl
  rw [e]
  exact row1_coeff0 _ _ _ _ _

/-- The stretch before region 4: the aggregate it leaves. -/
theorem host4_agg :
    StableHlo.after hostOps4 W (main_v49 : DevRef τ sig)
      = aggAt (W (main_v39_1 : DevRef τ sig)) (W (main_v3 : DevRef τ sig)) (W (main_v6 : DevRef τ sig)) := by
  dsimp only [hostOps4]
  after_results_simp
  unfold aggAt Cert.Terms.colIdx Cert.Terms.wrapIdx
  simp only [Cert.Terms.scatterH_eqK, Cert.Terms.gatherH_eqK]

/-- The stretch before region 4: the gate row it leaves, read as a row. -/
theorem host4_gate :
    row1 (M := 64) (StableHlo.after hostOps4 W (main_v55 : DevRef τ sig)) = Cert.Terms.coOf (W (main_arg10 : DevRef τ sig)) 1 := by
  have e : StableHlo.after hostOps4 W (main_v55 : DevRef τ sig)
      = shapeCast S1x64 (addf (broadcastInDim S64 ![] bcast_S_S64 (constant (F := Ideal) S_ .f32 0x3F800000#32))
          (Host.tanh (shapeCast S64 (extractStridedSlice S1x64 ![1, 0] (W (main_arg10 : DevRef τ sig)) slices_S4x64_S1x64_1_0) shapeCasts_S1x64_S64))) shapeCasts_S64_S1x64 := by
    dsimp only [hostOps4]
    after_results
    rfl
  rw [e]
  exact row1_coeff1 _ _ _ _ _

/-- The stretch before region 6: the aggregate it leaves. -/
theorem host6_agg :
    StableHlo.after hostOps6 W (main_v67 : DevRef τ sig)
      = aggAt (W (main_v57_1 : DevRef τ sig)) (W (main_v3 : DevRef τ sig)) (W (main_v6 : DevRef τ sig)) := by
  dsimp only [hostOps6]
  after_results_simp
  unfold aggAt Cert.Terms.colIdx Cert.Terms.wrapIdx
  simp only [Cert.Terms.scatterH_eqK, Cert.Terms.gatherH_eqK]

/-- The stretch before region 6: the gate row it leaves, read as a row. -/
theorem host6_gate :
    row1 (M := 64) (StableHlo.after hostOps6 W (main_v73 : DevRef τ sig)) = Cert.Terms.coOf (W (main_arg10 : DevRef τ sig)) 2 := by
  have e : StableHlo.after hostOps6 W (main_v73 : DevRef τ sig)
      = shapeCast S1x64 (addf (broadcastInDim S64 ![] bcast_S_S64 (constant (F := Ideal) S_ .f32 0x3F800000#32))
          (Host.tanh (shapeCast S64 (extractStridedSlice S1x64 ![2, 0] (W (main_arg10 : DevRef τ sig)) slices_S4x64_S1x64_2_0) shapeCasts_S1x64_S64))) shapeCasts_S64_S1x64 := by
    dsimp only [hostOps6]
    after_results
    rfl
  rw [e]
  exact row1_coeff2 _ _ _ _ _

/-- The stretch before region 8: the aggregate it leaves. -/
theorem host8_agg :
    StableHlo.after hostOps8 W (main_v85 : DevRef τ sig)
      = aggAt (W (main_v75_1 : DevRef τ sig)) (W (main_v3 : DevRef τ sig)) (W (main_v6 : DevRef τ sig)) := by
  dsimp only [hostOps8]
  after_results_simp
  unfold aggAt Cert.Terms.colIdx Cert.Terms.wrapIdx
  simp only [Cert.Terms.scatterH_eqK, Cert.Terms.gatherH_eqK]

/-- The stretch before region 8: the gate row it leaves, read as a row. -/
theorem host8_gate :
    row1 (M := 64) (StableHlo.after hostOps8 W (main_v91 : DevRef τ sig)) = Cert.Terms.coOf (W (main_arg10 : DevRef τ sig)) 3 := by
  have e : StableHlo.after hostOps8 W (main_v91 : DevRef τ sig)
      = shapeCast S1x64 (addf (broadcastInDim S64 ![] bcast_S_S64 (constant (F := Ideal) S_ .f32 0x3F800000#32))
          (Host.tanh (shapeCast S64 (extractStridedSlice S1x64 ![3, 0] (W (main_arg10 : DevRef τ sig)) slices_S4x64_S1x64_3_0) shapeCasts_S1x64_S64))) shapeCasts_S64_S1x64 := by
    dsimp only [hostOps8]
    after_results
    rfl
  rw [e]
  exact row1_coeff3 _ _ _ _ _

end Cert.KV

end
-- ==== Proof.KV.Lead.lean ====
/-
  What the three leading stretches of host operations leave in the buffers the regions read: the two index vectors of
  the edge list with the self-loops appended, the inverse square root of the in-degree as a one-column array, and the
  four bias vectors reshaped to one-row arrays. Each is the composition of the stretches' operations read at the result
  buffer, written over the launch contents of the argument arrays.
-/
import proofs.«121059_j18107582120780_2_alg».proof.Proof.Gen.KernelIdeal.Regions
import proofs.«121059_j18107582120780_2_alg».proof.Proof.Terms
import Idealize.ShloMosaic.Lib.StableHlo.Run

set_option maxRecDepth 16384

noncomputable section

namespace Cert.KVal

open Cert.KernelIdeal Cert.KernelIdeal.Gen Cert.Terms
open Idealize.ShloMosaic Idealize.ShloMosaic.TcCoe Idealize.SL.Sem Idealize.ShloMosaic.StableHlo

variable (m : (ℓ : Loc nD τ sig) → Buf (Elt Ideal) ℓ) (c : Dev nD)

/-- The source index of every edge, self-loops appended. -/
theorem v3_val : V3 m c main_v3 = rowOf (m ((c : Thread nD τ).loc main_arg1)) := by
  refine (V3_of m c main_v3 (by decide)).trans ((V2_of m c main_v3 (by decide)).trans ?_)
  show StableHlo.after hostOps0 (V0 m c) (Proc.devRef .tc main_v3) = _
  dsimp only [hostOps0]
  after_results
  rfl

/-- The target index of every edge, self-loops appended. -/
theorem v6_val : V3 m c main_v6 = colOf (m ((c : Thread nD τ).loc main_arg1)) := by
  refine (V3_of m c main_v6 (by decide)).trans ((V2_of m c main_v6 (by decide)).trans ?_)
  show StableHlo.after hostOps0 (V0 m c) (Proc.devRef .tc main_v6) = _
  dsimp only [hostOps0]
  after_results
  rfl

/-- The in-degree of every node. -/
theorem v10_val : V1 m c main_v10 = degOf (m ((c : Thread nD τ).loc main_arg1)) := by
  show StableHlo.after hostOps0 (V0 m c) (Proc.devRef .tc main_v10) = _
  dsimp only [hostOps0]
  after_results
  rfl

/-- Where the in-degree is positive. -/
theorem v12_val : V1 m c main_v12 = cmpf .ogt (degOf (m ((c : Thread nD τ).loc main_arg1)))
    (broadcastInDim Cert.Terms.S50000 ![] Cert.Terms.bcast_S_S50000 (constant (F := Ideal) Cert.Terms.S_ .f32 0x00000000#32)) := by
  show StableHlo.after hostOps0 (V0 m c) (Proc.devRef .tc main_v12) = _
  dsimp only [hostOps0]
  after_results
  rfl

/-- The inverse square root of the in-degree, wherever defined. -/
theorem v13_val : V1 m c main_v13 = Host.rsqrt (degOf (m ((c : Thread nD τ).loc main_arg1))) := by
  show StableHlo.after hostOps0 (V0 m c) (Proc.devRef .tc main_v13) = _
  dsimp only [hostOps0]
  after_results
  rfl

/-- The zero the selection falls back to. -/
theorem cst2_val : V1 m c main_cst_2 = constant (F := Ideal) Cert.Terms.S_ .f32 0x00000000#32 := by
  show StableHlo.after hostOps0 (V0 m c) (Proc.devRef .tc main_cst_2) = _
  dsimp only [hostOps0]
  after_results

/-- The selection stretch, from any contents: positive-degree entries take the inverse square root, the others zero. -/
theorem where_val (W : Valuation τ sig (Elt Ideal)) :
    StableHlo.after (hostOps0_1 (F := Ideal)) W (Proc.devRef .tc main_v14)
      = (select (W (Proc.devRef .tc main_v12) : (⟨Cert.Terms.S50000, .i1⟩ : BufTy).Contents (Elt Ideal))
          (W (Proc.devRef .tc main_v13) : (⟨Cert.Terms.S50000, .f32⟩ : BufTy).Contents (Elt Ideal))
          (broadcastInDim Cert.Terms.S50000 ![] Cert.Terms.bcast_S_S50000
            (id (W (Proc.devRef .tc main_cst_2) : (⟨Cert.Terms.S_, .f32⟩ : BufTy).Contents (Elt Ideal))))
          : (⟨Cert.Terms.S50000, .f32⟩ : BufTy).Contents (Elt Ideal)) := by
  dsimp only [hostOps0_1]
  after_results
  rfl

theorem v14_val : V2 m c main_v14 = dinvOf (m ((c : Thread nD τ).loc main_arg1)) := by
  refine (where_val (V1 m c)).trans ?_
  rw [v12_val m c, v13_val m c, cst2_val m c]
  rfl

/-- The last leading stretch's first operation, from any contents: the vector as a one-column array. -/
theorem col_val (W : Valuation τ sig (Elt Ideal)) :
    StableHlo.after (hostOps0_2 (F := Ideal)) W (Proc.devRef .tc main_v15)
      = (broadcastInDim S50000x1 ![0] bcast_S50000_S50000x1_0
          (W (Proc.devRef .tc main_v14) : (⟨Cert.Terms.S50000, .f32⟩ : BufTy).Contents (Elt Ideal))
          : (⟨S50000x1, .f32⟩ : BufTy).Contents (Elt Ideal)) := by
  dsimp only [hostOps0_2]
  after_results

/-- The inverse square root of the in-degree (zero where the degree is zero), as a one-column array. -/
theorem v15_val : V3 m c main_v15 = broadcastInDim S50000x1 ![0] bcast_S50000_S50000x1_0 (dinvOf (m ((c : Thread nD τ).loc main_arg1))) := by
  refine (col_val (V2 m c)).trans ?_
  rw [v14_val m c]

/-- The encoder's bias as a one-row array. -/
theorem v16_eq : V3 m c main_v16 = shapeCast S1x64 (m ((c : Thread nD τ).loc main_arg3)) shapeCasts_S64_S1x64 := by
  show StableHlo.after hostOps0_2 (StableHlo.after hostOps0_1 (StableHlo.after hostOps0 (V0 m c))) (Proc.devRef .tc main_v16) = _
  dsimp only [hostOps0_2, hostOps0_1, hostOps0]
  after_results
  rfl

/-- The convolution's bias as a one-row array. -/
theorem v17_eq : V3 m c main_v17 = shapeCast S1x64 (m ((c : Thread nD τ).loc main_arg5)) shapeCasts_S64_S1x64 := by
  show StableHlo.after hostOps0_2 (StableHlo.after hostOps0_1 (StableHlo.after hostOps0 (V0 m c))) (Proc.devRef .tc main_v17) = _
  dsimp only [hostOps0_2, hostOps0_1, hostOps0]
  after_results
  rfl

/-- The residual map's bias as a one-row array. -/
theorem v18_eq : V3 m c main_v18 = shapeCast S1x64 (m ((c : Thread nD τ).loc main_arg7)) shapeCasts_S64_S1x64 := by
  show StableHlo.after hostOps0_2 (StableHlo.after hostOps0_1 (StableHlo.after hostOps0 (V0 m c))) (Proc.devRef .tc main_v18) = _
  dsimp only [hostOps0_2, hostOps0_1, hostOps0]
  after_results
  rfl

/-- The decoder's bias as a one-row array. -/
theorem v19_eq : V3 m c main_v19 = shapeCast S1x47 (m ((c : Thread nD τ).loc main_arg9)) shapeCasts_S47_S1x47 := by
  show StableHlo.after hostOps0_2 (StableHlo.after hostOps0_1 (StableHlo.after hostOps0 (V0 m c))) (Proc.devRef .tc main_v19) = _
  dsimp only [hostOps0_2, hostOps0_1, hostOps0]
  after_results
  rfl

end Cert.KVal

end
-- ==== Proof.Net.lean ====
/-
  The two programs' whole computation as compositions of the stages of the specification.

  Both start from the encoded features and apply four times the same layer update, then decode.  They differ only in how a
  layer aggregates its neighbours' projected features `h`: the reference sums, over the edges into a node, `h` at the
  source times the edge weight `d source * d target`; the kernel scales `h` by `d` row by row before the sum and scales the
  sum's row by `d` after it (`d` the inverse square root of the degrees, a nonnegative real at every node).
-/
import proofs.«121059_j18107582120780_2_alg».proof.Proof.Spec
import proofs.«121059_j18107582120780_2_alg».proof.Proof.Terms

noncomputable section

namespace Cert.Net

open Idealize.ShloMosaic Cert.Spec Cert.Terms

variable (a0 : Mat 50000 128) (a1 : IVec S2x1250000 32) (a2 : Mat 128 64) (a3 : Vect 64) (a4 : Mat 64 64) (a5 : Vect 64)
  (a6 : Mat 64 64) (a7 : Vect 64) (a8 : Mat 64 47) (a9 : Vect 47) (a10 : FVec Ideal S4x64 .f32)

/-- One layer as the kernel computes it: rows scaled before and after the sum over the incoming edges. -/
def stepK (X : Mat 50000 64) (k : Fin 4) : Mat 50000 64 :=
  comb X X (mm X a4) (scale (aggK (scale (mm X a4) (dinvOf a1)) a1) (dinvOf a1)) a5 a6 a7 (coOf a10 k)

/-- One layer as the reference computes it: each edge's message weighted by the product of the two endpoints' scales. -/
def stepR (X : Mat 50000 64) (k : Fin 4) : Mat 50000 64 :=
  comb X X (mm X a4) (aggR (mm X a4) a1) a5 a6 a7 (coOf a10 k)

/-- The kernel's states after 0 … 4 layers. -/
def xK0 : Mat 50000 64 := enc a0 a2 a3
def xK1 : Mat 50000 64 := stepK a1 a4 a5 a6 a7 a10 (xK0 a0 a2 a3) 0
def xK2 : Mat 50000 64 := stepK a1 a4 a5 a6 a7 a10 (xK1 a0 a1 a2 a3 a4 a5 a6 a7 a10) 1
def xK3 : Mat 50000 64 := stepK a1 a4 a5 a6 a7 a10 (xK2 a0 a1 a2 a3 a4 a5 a6 a7 a10) 2
def xK4 : Mat 50000 64 := stepK a1 a4 a5 a6 a7 a10 (xK3 a0 a1 a2 a3 a4 a5 a6 a7 a10) 3

/-- The kernel's result. -/
def kNet : Mat 50000 47 := dec (xK4 a0 a1 a2 a3 a4 a5 a6 a7 a10) a8 a9

/-- The reference's states and result. -/
def xR0 : Mat 50000 64 := enc a0 a2 a3
def xR1 : Mat 50000 64 := stepR a1 a4 a5 a6 a7 a10 (xR0 a0 a2 a3) 0
def xR2 : Mat 50000 64 := stepR a1 a4 a5 a6 a7 a10 (xR1 a0 a1 a2 a3 a4 a5 a6 a7 a10) 1
def xR3 : Mat 50000 64 := stepR a1 a4 a5 a6 a7 a10 (xR2 a0 a1 a2 a3 a4 a5 a6 a7 a10) 2
def xR4 : Mat 50000 64 := stepR a1 a4 a5 a6 a7 a10 (xR3 a0 a1 a2 a3 a4 a5 a6 a7 a10) 3
def refNet : Mat 50000 47 := dec (xR4 a0 a1 a2 a3 a4 a5 a6 a7 a10) a8 a9

end Cert.Net

end
-- ==== Proof.KV.KVal.lean ====
/-
  The idealized kernel's result array, read off the run: region by region, each output array is the specification's stage
  of the arrays the region was entered with, and each host stretch's results are the shared host terms of theirs; composed
  along @main this is the kernel's net of the argument arrays.

  A buffer no item writes between the launch and some point holds there what the leading host stretches left in it: the
  argument arrays, the two index vectors of the edge list, the per-node scale as a column, the bias rows.  With these, each
  region's operands are known arrays, the region's result is the corresponding stage of them, and the chain closes on the
  decoder's output.
-/
import proofs.«121059_j18107582120780_2_alg».proof.Proof.KI.Chain
import proofs.«121059_j18107582120780_2_alg».proof.Proof.KV.FinalAt
import proofs.«121059_j18107582120780_2_alg».proof.Proof.KV.HostVals
import proofs.«121059_j18107582120780_2_alg».proof.Proof.KV.HostStretch
import proofs.«121059_j18107582120780_2_alg».proof.Proof.KV.Lead
import proofs.«121059_j18107582120780_2_alg».proof.Proof.Net
import Idealize.ShloMosaic.Lib.StableHlo.Run

set_option maxRecDepth 16384

noncomputable section

namespace Cert.KVal

open Cert.KernelIdeal Cert.KernelIdeal.Gen Cert.KernelIdeal.Fin Cert.KV Cert.Spec Cert.Terms Cert.Net
open Idealize.ShloMosaic Idealize.ShloMosaic.TcCoe Idealize.SL.Sem Idealize.ShloMosaic.StableHlo

variable (m : (ℓ : Loc nD τ sig) → Buf (Elt Ideal) ℓ) (c : Dev nD)

/-! ## A buffer no item has written holds what the leading host stretches left -/

theorem keep4 (r : Ref sig .tc) (h4 : r ∉ ([main_v20] : List (Ref sig .tc))) : W4 m c r = V3 m c r := W4_of m c r h4
theorem keep5 (r : Ref sig .tc) (h4 : r ∉ ([main_v20] : List (Ref sig .tc))) (h5 : r ∉ ([main_v21_0, main_v21_1] : List (Ref sig .tc))) : W5 m c r = V3 m c r :=
  (W5_of m c r h5).trans (keep4 m c r h4)
theorem keep6 (r : Ref sig .tc) (h4 : r ∉ ([main_v20] : List (Ref sig .tc))) (h5 : r ∉ ([main_v21_0, main_v21_1] : List (Ref sig .tc))) (h6 : r ∉ hostOps2_W) : W6 m c r = V3 m c r :=
  (W6_of m c r h6).trans (keep5 m c r h4 h5)
theorem keep7 (r : Ref sig .tc) (h4 : r ∉ ([main_v20] : List (Ref sig .tc))) (h5 : r ∉ ([main_v21_0, main_v21_1] : List (Ref sig .tc))) (h6 : r ∉ hostOps2_W) (h7 : r ∉ ([main_v38] : List (Ref sig .tc))) : W7 m c r = V3 m c r :=
  (W7_of m c r h7).trans (keep6 m c r h4 h5 h6)
theorem keep8 (r : Ref sig .tc) (h4 : r ∉ ([main_v20] : List (Ref sig .tc))) (h5 : r ∉ ([main_v21_0, main_v21_1] : List (Ref sig .tc))) (h6 : r ∉ hostOps2_W) (h7 : r ∉ ([main_v38] : List (Ref sig .tc))) (h8 : r ∉ ([main_v39_0, main_v39_1] : List (Ref sig .tc))) : W8 m c r = V3 m c r :=
  (W8_of m c r h8).trans (keep7 m c r h4 h5 h6 h7)
theorem keep9 (r : Ref sig .tc) (h4 : r ∉ ([main_v20] : List (Ref sig .tc))) (h5 : r ∉ ([main_v21_0, main_v21_1] : List (Ref sig .tc))) (h6 : r ∉ hostOps2_W) (h7 : r ∉ ([main_v38] : List (Ref sig .tc))) (h8 : r ∉ ([main_v39_0, main_v39_1] : List (Ref sig .tc))) (h9 : r ∉ hostOps4_W) : W9 m c r = V3 m c r :=
  (W9_of m c r h9).trans (keep8 m c r h4 h5 h6 h7 h8)
theorem keep10 (r : Ref sig .tc) (h4 : r ∉ ([main_v20] : List (Ref sig .tc))) (h5 : r ∉ ([main_v21_0, main_v21_1] : List (Ref sig .tc))) (h6 : r ∉ hostOps2_W) (h7 : r ∉ ([main_v38] : List (Ref sig .tc))) (h8 : r ∉ ([main_v39_0, main_v39_1] : List (Ref sig .tc))) (h9 : r ∉ hostOps4_W) (h10 : r ∉ ([main_v56] : List (Ref sig .tc))) : W10 m c r = V3 m c r :=
  (W10_of m c r h10).trans (keep9 m c r h4 h5 h6 h7 h8 h9)
theorem keep11 (r : Ref sig .tc) (h4 : r ∉ ([main_v20] : List (Ref sig .tc))) (h5 : r ∉ ([main_v21_0, main_v21_1] : List (Ref sig .tc))) (h6 : r ∉ hostOps2_W) (h7 : r ∉ ([main_v38] : List (Ref sig .tc))) (h8 : r ∉ ([main_v39_0, main_v39_1] : List (Ref sig .tc))) (h9 : r ∉ hostOps4_W) (h10 : r ∉ ([main_v56] : List (Ref sig .tc))) (h11 : r ∉ ([main_v57_0, main_v57_1] : List (Ref sig .tc))) : W11 m c r = V3 m c r :=
  (W11_of m c r h11).trans (keep10 m c r h4 h5 h6 h7 h8 h9 h10)
theorem keep12 (r : Ref sig .tc) (h4 : r ∉ ([main_v20] : List (Ref sig .tc))) (h5 : r ∉ ([main_v21_0, main_v21_1] : List (Ref sig .tc))) (h6 : r ∉ hostOps2_W) (h7 : r ∉ ([main_v38] : List (Ref sig .tc))) (h8 : r ∉ ([main_v39_0, main_v39_1] : List (Ref sig .tc))) (h9 : r ∉ hostOps4_W) (h10 : r ∉ ([main_v56] : List (Ref sig .tc))) (h11 : r ∉ ([main_v57_0, main_v57_1] : List (Ref sig .tc))) (h12 : r ∉ hostOps6_W) : W12 m c r = V3 m c r :=
  (W12_of m c r h12).trans (keep11 m c r h4 h5 h6 h7 h8 h9 h10 h11)
theorem keep13 (r : Ref sig .tc) (h4 : r ∉ ([main_v20] : List (Ref sig .tc))) (h5 : r ∉ ([main_v21_0, main_v21_1] : List (Ref sig .tc))) (h6 : r ∉ hostOps2_W) (h7 : r ∉ ([main_v38] : List (Ref sig .tc))) (h8 : r ∉ ([main_v39_0, main_v39_1] : List (Ref sig .tc))) (h9 : r ∉ hostOps4_W) (h10 : r ∉ ([main_v56] : List (Ref sig .tc))) (h11 : r ∉ ([main_v57_0, main_v57_1] : List (Ref sig .tc))) (h12 : r ∉ hostOps6_W) (h13 : r ∉ ([main_v74] : List (Ref sig .tc))) : W13 m c r = V3 m c r :=
  (W13_of m c r h13).trans (keep12 m c r h4 h5 h6 h7 h8 h9 h10 h11 h12)
theorem keep14 (r : Ref sig .tc) (h4 : r ∉ ([main_v20] : List (Ref sig .tc))) (h5 : r ∉ ([main_v21_0, main_v21_1] : List (Ref sig .tc))) (h6 : r ∉ hostOps2_W) (h7 : r ∉ ([main_v38] : List (Ref sig .tc))) (h8 : r ∉ ([main_v39_0, main_v39_1] : List (Ref sig .tc))) (h9 : r ∉ hostOps4_W) (h10 : r ∉ ([main_v56] : List (Ref sig .tc))) (h11 : r ∉ ([main_v57_0, main_v57_1] : List (Ref sig .tc))) (h12 : r ∉ hostOps6_W) (h13 : r ∉ ([main_v74] : List (Ref sig .tc))) (h14 : r ∉ ([main_v75_0, main_v75_1] : List (Ref sig .tc))) : W14 m c r = V3 m c r :=
  (W14_of m c r h14).trans (keep13 m c r h4 h5 h6 h7 h8 h9 h10 h11 h12 h13)
theorem keep15 (r : Ref sig .tc) (h4 : r ∉ ([main_v20] : List (Ref sig .tc))) (h5 : r ∉ ([main_v21_0, main_v21_1] : List (Ref sig .tc))) (h6 : r ∉ hostOps2_W) (h7 : r ∉ ([main_v38] : List (Ref sig .tc))) (h8 : r ∉ ([main_v39_0, main_v39_1] : List (Ref sig .tc))) (h9 : r ∉ hostOps4_W) (h10 : r ∉ ([main_v56] : List (Ref sig .tc))) (h11 : r ∉ ([main_v57_0, main_v57_1] : List (Ref sig .tc))) (h12 : r ∉ hostOps6_W) (h13 : r ∉ ([main_v74] : List (Ref sig .tc))) (h14 : r ∉ ([main_v75_0, main_v75_1] : List (Ref sig .tc))) (h15 : r ∉ hostOps8_W) : W15 m c r = V3 m c r :=
  (W15_of m c r h15).trans (keep14 m c r h4 h5 h6 h7 h8 h9 h10 h11 h12 h13 h14)
theorem keep16 (r : Ref sig .tc) (h4 : r ∉ ([main_v20] : List (Ref sig .tc))) (h5 : r ∉ ([main_v21_0, main_v21_1] : List (Ref sig .tc))) (h6 : r ∉ hostOps2_W) (h7 : r ∉ ([main_v38] : List (Ref sig .tc))) (h8 : r ∉ ([main_v39_0, main_v39_1] : List (Ref sig .tc))) (h9 : r ∉ hostOps4_W) (h10 : r ∉ ([main_v56] : List (Ref sig .tc))) (h11 : r ∉ ([main_v57_0, main_v57_1] : List (Ref sig .tc))) (h12 : r ∉ hostOps6_W) (h13 : r ∉ ([main_v74] : List (Ref sig .tc))) (h14 : r ∉ ([main_v75_0, main_v75_1] : List (Ref sig .tc))) (h15 : r ∉ hostOps8_W) (h16 : r ∉ ([main_v92] : List (Ref sig .tc))) : W16 m c r = V3 m c r :=
  (W16_of m c r h16).trans (keep15 m c r h4 h5 h6 h7 h8 h9 h10 h11 h12 h13 h14 h15)

/-! ## The leading host stretches' results read through their rows and columns -/

theorem d_val : col1 (R := 50000) (V3 m c main_v15) = dinvOf (m ((c : Thread nD τ).loc main_arg1)) :=
  (congrArg (col1 (R := 50000)) (v15_val m c)).trans (col1_bcast _ _)
theorem v16_val : row1 (M := 64) (V3 m c main_v16) = (m ((c : Thread nD τ).loc main_arg3)) :=
  (congrArg (row1 (M := 64)) (v16_eq m c)).trans (row1_reshape64 _ _)
theorem v17_val : row1 (M := 64) (V3 m c main_v17) = (m ((c : Thread nD τ).loc main_arg5)) :=
  (congrArg (row1 (M := 64)) (v17_eq m c)).trans (row1_reshape64 _ _)
theorem v18_val : row1 (M := 64) (V3 m c main_v18) = (m ((c : Thread nD τ).loc main_arg7)) :=
  (congrArg (row1 (M := 64)) (v18_eq m c)).trans (row1_reshape64 _ _)
theorem v19_val : row1 (M := 47) (V3 m c main_v19) = (m ((c : Thread nD τ).loc main_arg9)) :=
  (congrArg (row1 (M := 47)) (v19_eq m c)).trans (row1_reshape47 _ _)
theorem arg_launch (r : Ref sig .tc) (h0 : r ∉ hostOps0_W) (h1 : r ∉ hostOps0_1_W) (h2 : r ∉ hostOps0_2_W) :
    V3 m c r = m ((c : Thread nD τ).loc r) := V3_launch m c r h0 h1 h2

/-! ## The encoder -/

theorem st0 : W4 m c main_v20 = xK0 (m ((c : Thread nD τ).loc main_arg0)) (m ((c : Thread nD τ).loc main_arg2)) (m ((c : Thread nD τ).loc main_arg3)) :=
  (W4_out m c).trans (enc_at (Vr (W3 m)) c (m ((c : Thread nD τ).loc main_arg0)) (m ((c : Thread nD τ).loc main_arg2)) (m ((c : Thread nD τ).loc main_arg3))
    (V3_launch m c main_arg0 (by decide) (by decide) (by decide))
    (V3_launch m c main_arg2 (by decide) (by decide) (by decide))
    (v16_val m c))

/-! ## Layer 1 -/

theorem h0 : W5 m c main_v21_0 = mm (xK0 (m ((c : Thread nD τ).loc main_arg0)) (m ((c : Thread nD τ).loc main_arg2)) (m ((c : Thread nD τ).loc main_arg3))) (m ((c : Thread nD τ).loc main_arg4)) :=
  (W5_out0 m c).trans (proj_at1 (Vr (W4 m)) c (xK0 (m ((c : Thread nD τ).loc main_arg0)) (m ((c : Thread nD τ).loc main_arg2)) (m ((c : Thread nD τ).loc main_arg3))) (m ((c : Thread nD τ).loc main_arg4)) (st0 m c) ((keep4 m c main_arg4 (by decide)).trans (V3_launch m c main_arg4 (by decide) (by decide) (by decide))))
theorem hs0 : W5 m c main_v21_1 = scale (mm (xK0 (m ((c : Thread nD τ).loc main_arg0)) (m ((c : Thread nD τ).loc main_arg2)) (m ((c : Thread nD τ).loc main_arg3))) (m ((c : Thread nD τ).loc main_arg4))) (dinvOf (m ((c : Thread nD τ).loc main_arg1))) :=
  (W5_out1 m c).trans (sproj_at1 (Vr (W4 m)) c (xK0 (m ((c : Thread nD τ).loc main_arg0)) (m ((c : Thread nD τ).loc main_arg2)) (m ((c : Thread nD τ).loc main_arg3))) (m ((c : Thread nD τ).loc main_arg4)) (dinvOf (m ((c : Thread nD τ).loc main_arg1))) (st0 m c) ((keep4 m c main_arg4 (by decide)).trans (V3_launch m c main_arg4 (by decide) (by decide) (by decide)))
    ((congrArg (col1 (R := 50000)) (keep4 m c main_v15 (by decide))).trans (d_val m c)))
theorem cs0 : W6 m c main_v31 = aggK (scale (mm (xK0 (m ((c : Thread nD τ).loc main_arg0)) (m ((c : Thread nD τ).loc main_arg2)) (m ((c : Thread nD τ).loc main_arg3))) (m ((c : Thread nD τ).loc main_arg4))) (dinvOf (m ((c : Thread nD τ).loc main_arg1)))) (m ((c : Thread nD τ).loc main_arg1)) := by
  have e3 : W5 m c main_v3 = rowOf (m ((c : Thread nD τ).loc main_arg1)) := (keep5 m c main_v3 (by decide) (by decide)).trans (v3_val m c)
  have e6 : W5 m c main_v6 = colOf (m ((c : Thread nD τ).loc main_arg1)) := (keep5 m c main_v6 (by decide) (by decide)).trans (v6_val m c)
  have e := host2_agg (W5 m c)
  rw [hs0 m c, e3, e6] at e
  exact (congrFun (W6_host m c) _).trans (e.trans (aggK_eq _ _).symm)
theorem co0 : row1 (M := 64) (W6 m c main_v37) = coOf (m ((c : Thread nD τ).loc main_arg10)) 0 :=
  (congrArg (row1 (M := 64)) (congrFun (W6_host m c) _)).trans ((host2_gate (W5 m c)).trans
    (congrArg (fun e => coOf e 0) ((keep5 m c main_arg10 (by decide) (by decide)).trans (V3_launch m c main_arg10 (by decide) (by decide) (by decide)))))
theorem st1 : W7 m c main_v38 = xK1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) :=
  (W7_out m c).trans (comb_at2 (Vr (W6 m)) c qsh (xK0 (m ((c : Thread nD τ).loc main_arg0)) (m ((c : Thread nD τ).loc main_arg2)) (m ((c : Thread nD τ).loc main_arg3))) (mm (xK0 (m ((c : Thread nD τ).loc main_arg0)) (m ((c : Thread nD τ).loc main_arg2)) (m ((c : Thread nD τ).loc main_arg3))) (m ((c : Thread nD τ).loc main_arg4)))
    (aggK (scale (mm (xK0 (m ((c : Thread nD τ).loc main_arg0)) (m ((c : Thread nD τ).loc main_arg2)) (m ((c : Thread nD τ).loc main_arg3))) (m ((c : Thread nD τ).loc main_arg4))) (dinvOf (m ((c : Thread nD τ).loc main_arg1)))) (m ((c : Thread nD τ).loc main_arg1))) (dinvOf (m ((c : Thread nD τ).loc main_arg1))) (m ((c : Thread nD τ).loc main_arg5)) (m ((c : Thread nD τ).loc main_arg6)) (m ((c : Thread nD τ).loc main_arg7)) (coOf (m ((c : Thread nD τ).loc main_arg10)) 0)
    (((W6_of m c main_v20 (by decide)).trans (W5_of m c main_v20 (by decide))).trans (st0 m c))
    ((W6_of m c main_v21_0 (by decide)).trans (h0 m c))
    (cs0 m c)
    ((congrArg (col1 (R := 50000)) (keep6 m c main_v15 (by decide) (by decide) (by decide))).trans (d_val m c))
    ((congrArg (row1 (M := 64)) (keep6 m c main_v17 (by decide) (by decide) (by decide))).trans (v17_val m c))
    ((keep6 m c main_arg6 (by decide) (by decide) (by decide)).trans (V3_launch m c main_arg6 (by decide) (by decide) (by decide)))
    ((congrArg (row1 (M := 64)) (keep6 m c main_v18 (by decide) (by decide) (by decide))).trans (v18_val m c))
    (co0 m c))

/-! ## Layer 2 -/

theorem h1 : W8 m c main_v39_0 = mm (xK1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4)) :=
  (W8_out0 m c).trans (proj_at3 (Vr (W7 m)) c (xK1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4)) (st1 m c) ((keep7 m c main_arg4 (by decide) (by decide) (by decide) (by decide)).trans (V3_launch m c main_arg4 (by decide) (by decide) (by decide))))
theorem hs1 : W8 m c main_v39_1 = scale (mm (xK1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4))) (dinvOf (m ((c : Thread nD τ).loc main_arg1))) :=
  (W8_out1 m c).trans (sproj_at3 (Vr (W7 m)) c (xK1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4)) (dinvOf (m ((c : Thread nD τ).loc main_arg1))) (st1 m c) ((keep7 m c main_arg4 (by decide) (by decide) (by decide) (by decide)).trans (V3_launch m c main_arg4 (by decide) (by decide) (by decide)))
    ((congrArg (col1 (R := 50000)) (keep7 m c main_v15 (by decide) (by decide) (by decide) (by decide))).trans (d_val m c)))
theorem cs1 : W9 m c main_v49 = aggK (scale (mm (xK1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4))) (dinvOf (m ((c : Thread nD τ).loc main_arg1)))) (m ((c : Thread nD τ).loc main_arg1)) := by
  have e3 : W8 m c main_v3 = rowOf (m ((c : Thread nD τ).loc main_arg1)) := (keep8 m c main_v3 (by decide) (by decide) (by decide) (by decide) (by decide)).trans (v3_val m c)
  have e6 : W8 m c main_v6 = colOf (m ((c : Thread nD τ).loc main_arg1)) := (keep8 m c main_v6 (by decide) (by decide) (by decide) (by decide) (by decide)).trans (v6_val m c)
  have e := host4_agg (W8 m c)
  rw [hs1 m c, e3, e6] at e
  exact (congrFun (W9_host m c) _).trans (e.trans (aggK_eq _ _).symm)
theorem co1 : row1 (M := 64) (W9 m c main_v55) = coOf (m ((c : Thread nD τ).loc main_arg10)) 1 :=
  (congrArg (row1 (M := 64)) (congrFun (W9_host m c) _)).trans ((host4_gate (W8 m c)).trans
    (congrArg (fun e => coOf e 1) ((keep8 m c main_arg10 (by decide) (by decide) (by decide) (by decide) (by decide)).trans (V3_launch m c main_arg10 (by decide) (by decide) (by decide)))))
theorem st2 : W10 m c main_v56 = xK2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) :=
  (W10_out m c).trans (comb_at4 (Vr (W9 m)) c qsh (xK1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (mm (xK1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4)))
    (aggK (scale (mm (xK1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4))) (dinvOf (m ((c : Thread nD τ).loc main_arg1)))) (m ((c : Thread nD τ).loc main_arg1))) (dinvOf (m ((c : Thread nD τ).loc main_arg1))) (m ((c : Thread nD τ).loc main_arg5)) (m ((c : Thread nD τ).loc main_arg6)) (m ((c : Thread nD τ).loc main_arg7)) (coOf (m ((c : Thread nD τ).loc main_arg10)) 1)
    (((W9_of m c main_v38 (by decide)).trans (W8_of m c main_v38 (by decide))).trans (st1 m c))
    ((W9_of m c main_v39_0 (by decide)).trans (h1 m c))
    (cs1 m c)
    ((congrArg (col1 (R := 50000)) (keep9 m c main_v15 (by decide) (by decide) (by decide) (by decide) (by decide) (by decide))).trans (d_val m c))
    ((congrArg (row1 (M := 64)) (keep9 m c main_v17 (by decide) (by decide) (by decide) (by decide) (by decide) (by decide))).trans (v17_val m c))
    ((keep9 m c main_arg6 (by decide) (by decide) (by decide) (by decide) (by decide) (by decide)).trans (V3_launch m c main_arg6 (by decide) (by decide) (by decide)))
    ((congrArg (row1 (M := 64)) (keep9 m c main_v18 (by decide) (by decide) (by decide) (by decide) (by decide) (by decide))).trans (v18_val m c))
    (co1 m c))

/-! ## Layer 3 -/

theorem h2 : W11 m c main_v57_0 = mm (xK2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4)) :=
  (W11_out0 m c).trans (proj_at5 (Vr (W10 m)) c (xK2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4)) (st2 m c) ((keep10 m c main_arg4 (by decide) (by decide) (by decide) (by decide) (by decide) (by decide) (by decide)).trans (V3_launch m c main_arg4 (by decide) (by decide) (by decide))))
theorem hs2 : W11 m c main_v57_1 = scale (mm (xK2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4))) (dinvOf (m ((c : Thread nD τ).loc main_arg1))) :=
  (W11_out1 m c).trans (sproj_at5 (Vr (W10 m)) c (xK2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4)) (dinvOf (m ((c : Thread nD τ).loc main_arg1))) (st2 m c) ((keep10 m c main_arg4 (by decide) (by decide) (by decide) (by decide) (by decide) (by decide) (by decide)).trans (V3_launch m c main_arg4 (by decide) (by decide) (by decide)))
    ((congrArg (col1 (R := 50000)) (keep10 m c main_v15 (by decide) (by decide) (by decide) (by decide) (by decide) (by decide) (by decide))).trans (d_val m c)))
theorem cs2 : W12 m c main_v67 = aggK (scale (mm (xK2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4))) (dinvOf (m ((c : Thread nD τ).loc main_arg1)))) (m ((c : Thread nD τ).loc main_arg1)) := by
  have e3 : W11 m c main_v3 = rowOf (m ((c : Thread nD τ).loc main_arg1)) := (keep11 m c main_v3 (by decide) (by decide) (by decide) (by decide) (by decide) (by decide) (by decide) (by decide)).trans (v3_val m c)
  have e6 : W11 m c main_v6 = colOf (m ((c : Thread nD τ).loc main_arg1)) := (keep11 m c main_v6 (by decide) (by decide) (by decide) (by decide) (by decide) (by decide) (by decide) (by decide)).trans (v6_val m c)
  have e := host6_agg (W11 m c)
  rw [hs2 m c, e3, e6] at e
  exact (congrFun (W12_host m c) _).trans (e.trans (aggK_eq _ _).symm)
theorem co2 : row1 (M := 64) (W12 m c main_v73) = coOf (m ((c : Thread nD τ).loc main_arg10)) 2 :=
  (congrArg (row1 (M := 64)) (congrFun (W12_host m c) _)).trans ((host6_gate (W11 m c)).trans
    (congrArg (fun e => coOf e 2) ((keep11 m c main_arg10 (by decide) (by decide) (by decide) (by decide) (by decide) (by decide) (by decide) (by decide)).trans (V3_launch m c main_arg10 (by decide) (by decide) (by decide)))))
theorem st3 : W13 m c main_v74 = xK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) :=
  (W13_out m c).trans (comb_at6 (Vr (W12 m)) c qsh (xK2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (mm (xK2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4)))
    (aggK (scale (mm (xK2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4))) (dinvOf (m ((c : Thread nD τ).loc main_arg1)))) (m ((c : Thread nD τ).loc main_arg1))) (dinvOf (m ((c : Thread nD τ).loc main_arg1))) (m ((c : Thread nD τ).loc main_arg5)) (m ((c : Thread nD τ).loc main_arg6)) (m ((c : Thread nD τ).loc main_arg7)) (coOf (m ((c : Thread nD τ).loc main_arg10)) 2)
    (((W12_of m c main_v56 (by decide)).trans (W11_of m c main_v56 (by decide))).trans (st2 m c))
    ((W12_of m c main_v57_0 (by decide)).trans (h2 m c))
    (cs2 m c)
    ((congrArg (col1 (R := 50000)) (keep12 m c main_v15 (by decide) (by decide) (by decide) (by decide) (by decide) (by decide) (by decide) (by decide) (by decide))).trans (d_val m c))
    ((congrArg (row1 (M := 64)) (keep12 m c main_v17 (by decide) (by decide) (by decide) (by decide) (by decide) (by decide) (by decide) (by decide) (by decide))).trans (v17_val m c))
    ((keep12 m c main_arg6 (by decide) (by decide) (by decide) (by decide) (by decide) (by decide) (by decide) (by decide) (by decide)).trans (V3_launch m c main_arg6 (by decide) (by decide) (by decide)))
    ((congrArg (row1 (M := 64)) (keep12 m c main_v18 (by decide) (by decide) (by decide) (by decide) (by decide) (by decide) (by decide) (by decide) (by decide))).trans (v18_val m c))
    (co2 m c))

/-! ## Layer 4 -/

theorem h3 : W14 m c main_v75_0 = mm (xK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4)) :=
  (W14_out0 m c).trans (proj_at7 (Vr (W13 m)) c (xK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4)) (st3 m c) ((keep13 m c main_arg4 (by decide) (by decide) (by decide) (by decide) (by decide) (by decide) (by decide) (by decide) (by decide) (by decide)).trans (V3_launch m c main_arg4 (by decide) (by decide) (by decide))))
theorem hs3 : W14 m c main_v75_1 = scale (mm (xK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4))) (dinvOf (m ((c : Thread nD τ).loc main_arg1))) :=
  (W14_out1 m c).trans (sproj_at7 (Vr (W13 m)) c (xK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4)) (dinvOf (m ((c : Thread nD τ).loc main_arg1))) (st3 m c) ((keep13 m c main_arg4 (by decide) (by decide) (by decide) (by decide) (by decide) (by decide) (by decide) (by decide) (by decide) (by decide)).trans (V3_launch m c main_arg4 (by decide) (by decide) (by decide)))
    ((congrArg (col1 (R := 50000)) (keep13 m c main_v15 (by decide) (by decide) (by decide) (by decide) (by decide) (by decide) (by decide) (by decide) (by decide) (by decide))).trans (d_val m c)))
theorem cs3 : W15 m c main_v85 = aggK (scale (mm (xK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4))) (dinvOf (m ((c : Thread nD τ).loc main_arg1)))) (m ((c : Thread nD τ).loc main_arg1)) := by
  have e3 : W14 m c main_v3 = rowOf (m ((c : Thread nD τ).loc main_arg1)) := (keep14 m c main_v3 (by decide) (by decide) (by decide) (by decide) (by decide) (by decide) (by decide) (by decide) (by decide) (by decide) (by decide)).trans (v3_val m c)
  have e6 : W14 m c main_v6 = colOf (m ((c : Thread nD τ).loc main_arg1)) := (keep14 m c main_v6 (by decide) (by decide) (by decide) (by decide) (by decide) (by decide) (by decide) (by decide) (by decide) (by decide) (by decide)).trans (v6_val m c)
  have e := host8_agg (W14 m c)
  rw [hs3 m c, e3, e6] at e
  exact (congrFun (W15_host m c) _).trans (e.trans (aggK_eq _ _).symm)
theorem co3 : row1 (M := 64) (W15 m c main_v91) = coOf (m ((c : Thread nD τ).loc main_arg10)) 3 :=
  (congrArg (row1 (M := 64)) (congrFun (W15_host m c) _)).trans ((host8_gate (W14 m c)).trans
    (congrArg (fun e => coOf e 3) ((keep14 m c main_arg10 (by decide) (by decide) (by decide) (by decide) (by decide) (by decide) (by decide) (by decide) (by decide) (by decide) (by decide)).trans (V3_launch m c main_arg10 (by decide) (by decide) (by decide)))))
theorem st4 : W16 m c main_v92 = xK4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) :=
  (W16_out m c).trans (comb_at8 (Vr (W15 m)) c qsh (xK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (mm (xK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4)))
    (aggK (scale (mm (xK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg4))) (dinvOf (m ((c : Thread nD τ).loc main_arg1)))) (m ((c : Thread nD τ).loc main_arg1))) (dinvOf (m ((c : Thread nD τ).loc main_arg1))) (m ((c : Thread nD τ).loc main_arg5)) (m ((c : Thread nD τ).loc main_arg6)) (m ((c : Thread nD τ).loc main_arg7)) (coOf (m ((c : Thread nD τ).loc main_arg10)) 3)
    (((W15_of m c main_v74 (by decide)).trans (W14_of m c main_v74 (by decide))).trans (st3 m c))
    ((W15_of m c main_v75_0 (by decide)).trans (h3 m c))
    (cs3 m c)
    ((congrArg (col1 (R := 50000)) (keep15 m c main_v15 (by decide) (by decide) (by decide) (by decide) (by decide) (by decide) (by decide) (by decide) (by decide) (by decide) (by decide) (by decide))).trans (d_val m c))
    ((congrArg (row1 (M := 64)) (keep15 m c main_v17 (by decide) (by decide) (by decide) (by decide) (by decide) (by decide) (by decide) (by decide) (by decide) (by decide) (by decide) (by decide))).trans (v17_val m c))
    ((keep15 m c main_arg6 (by decide) (by decide) (by decide) (by decide) (by decide) (by decide) (by decide) (by decide) (by decide) (by decide) (by decide) (by decide)).trans (V3_launch m c main_arg6 (by decide) (by decide) (by decide)))
    ((congrArg (row1 (M := 64)) (keep15 m c main_v18 (by decide) (by decide) (by decide) (by decide) (by decide) (by decide) (by decide) (by decide) (by decide) (by decide) (by decide) (by decide))).trans (v18_val m c))
    (co3 m c))

/-! ## The decoder -/

/-- The result array after the last region is the kernel's net of the argument arrays. -/
theorem out_val : (dat9 (Vr (W16 m)) c).arrAt 3 cfg9.N = kNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  dec_at (Vr (W16 m)) c (xK4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) (m ((c : Thread nD τ).loc main_arg8)) (m ((c : Thread nD τ).loc main_arg9)) (st4 m c)
    ((keep16 m c main_arg8 (by decide) (by decide) (by decide) (by decide) (by decide) (by decide) (by decide) (by decide) (by decide) (by decide) (by decide) (by decide) (by decide)).trans (V3_launch m c main_arg8 (by decide) (by decide) (by decide)))
    ((congrArg (row1 (M := 47)) (keep16 m c main_v19 (by decide) (by decide) (by decide) (by decide) (by decide) (by decide) (by decide) (by decide) (by decide) (by decide) (by decide) (by decide) (by decide))).trans (v19_val m c))

end Cert.KVal

end
-- ==== Proof.Agg.lean ====
/-
  Pulling the target node's degree factor out of the sum over incoming edges.

  At the ideal instance a scatter-add is, entry by entry, the operand's entry plus the finite sum of the updates
  that land on it, and a gather reads the operand at the start index read signed and clamped.  An update of the
  aggregation lands on node `n` only when the edge's target index, read signed, is `n` itself: it is then not
  negative, the normalisation leaves it alone, and clamping does nothing, so the target factor the reference
  multiplies by is the factor of node `n`.  The factor is the inverse square root of a count (or zero), a
  nonnegative real, and multiplication by a nonnegative real distributes over sums of extended reals.
-/
import proofs.«121059_j18107582120780_2_alg».proof.Proof.Terms
import Idealize.ShloMosaic.PureOps.Ideal.Laws
import Idealize.ShloMosaic.Lib.IdealHost

noncomputable section

namespace Cert.Agg

open Idealize.ShloMosaic Idealize.ShloMosaic.ValueIdx Cert.Terms
open scoped BigOperators

/-! ## Where an update lands, and what a gather reads -/

/-- The start index an update of the feature scatter reads: its edge's entry of the one-column index array. -/
theorem scatterH_siIdx (e : Fin 1300000) (c : Fin 64) (k : Fin scatterH.scatterDimsToOperandDims.length) :
    scatterH.siIdx (ix2 e c) k = ix2 e 0 := by
  funext b; refine Fin.ext ?_
  match b with
  | ⟨0, _⟩ => rfl
  | ⟨1, _⟩ =>
    show k.val = 0
    have := k.isLt
    change k.val < 1 at this
    omega

/-- On the node axis an update starts at its edge's index, read signed. -/
theorem scatterH_start0 (e : Fin 1300000) (c : Fin 64) (idx : IVec S1300000x1 32) :
    scatterH.start (ix2 e c) idx 0 = (idx (ix2 e 0)).toInt := by
  unfold ScatterDims.start
  rw [dif_pos (show (0 : Fin 2) ∈ scatterH.scatterDimsToOperandDims from List.mem_singleton.mpr rfl)]
  rw [scatterH_siIdx]

/-- The node axis is not a window axis. -/
theorem scatterH_window0 (e : Fin 1300000) (c : Fin 64) : scatterH.window (ix2 e c) 0 = 0 := by
  unfold ScatterDims.window
  rw [dif_neg (show (0 : Fin 2) ∉ scatterH.sKept by decide)]

/-- An update that lands on entry `i` has, as its edge's index read signed, the node number `i 0`. -/
theorem scatterH_lands (e : Fin 1300000) (c : Fin 64) (idx : IVec S1300000x1 32) (i : S50000x64.Idx)
    (h : scatterH.resultIdx? (ix2 e c) idx = some i) : (idx (ix2 e 0)).toInt = ((i 0).val : Int) := by
  unfold ScatterDims.resultIdx? at h
  split at h
  · rename_i hb
    have h0 := (hb 0).1
    rw [scatterH_start0, scatterH_window0] at h0
    have h1 := congrArg (fun f : S50000x64.Idx => (f 0).val) (Option.some.inj h)
    simp only at h1
    rw [scatterH_start0, scatterH_window0] at h1
    omega
  · exact absurd h (by simp)

/-- A start index read signed and clamped to the node range, as a gather over the nodes reads it. -/
def clampNode (z : BitVec 32) : Fin 50000 := ⟨min z.toInt.toNat 49999, by omega⟩

theorem clampNode_val (z : BitVec 32) : (clampNode z).val = min z.toInt.toNat 49999 := rfl

/-- The start index a row gather reads: its edge's entry of the one-column index array. -/
theorem gatherH_siIdx (e : Fin 1300000) (c : Fin 64) (k : Fin gatherH.startIndexMap.length) :
    gatherH.siIdx (ix2 e c) k = ix2 e 0 := by
  funext b; refine Fin.ext ?_
  match b with
  | ⟨0, _⟩ => rfl
  | ⟨1, _⟩ =>
    show k.val = 0
    have := k.isLt
    change k.val < 1 at this
    omega

/-- The row gather reads, for edge `e` and column `c`, column `c` of the row at the edge's index, read signed
    and clamped to the last row. -/
theorem gatherH_operandIdx (e : Fin 1300000) (c : Fin 64) (idx : IVec S1300000x1 32) :
    gatherH.operandIdx (ix2 e c) idx
      = ix2 (n0 := 50000) (n1 := 64) (clampNode (idx (ix2 e 0))) c := by
  funext a; refine Fin.ext ?_
  match a with
  | ⟨0, _⟩ =>
    show gatherH.start (ix2 e c) idx 0 + gatherH.batchCoord (ix2 e c) 0 + gatherH.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gatherH.startIndexMap from List.mem_singleton.mpr rfl), gatherH_siIdx]
    rfl
  | ⟨1, _⟩ =>
    show gatherH.start (ix2 e c) idx 1 + gatherH.batchCoord (ix2 e c) 1 + gatherH.offCoord (ix2 e c) 1 = c.val
    rw [GatherDims.batchCoord_eq_zero _ _ _ List.not_mem_nil]
    unfold GatherDims.start GatherDims.offCoord
    rw [dif_neg (show (1 : Fin 2) ∉ gatherH.startIndexMap by decide),
      dif_pos (show (1 : Fin 2) ∈ gatherH.sKept by decide)]
    simp only [Nat.add_zero, Nat.zero_add]
    rfl

/-- The start index a scalar gather reads: its edge's entry of the one-column index array. -/
theorem gatherDeg_siIdx (e : Fin 1300000) (k : Fin gatherDeg.startIndexMap.length) :
    gatherDeg.siIdx (ix1 e) k = ix2 e 0 := by
  funext b; refine Fin.ext ?_
  match b with
  | ⟨0, _⟩ => rfl
  | ⟨1, _⟩ =>
    show k.val = 0
    have := k.isLt
    change k.val < 1 at this
    omega

/-- The scalar gather reads, for edge `e`, the entry at the edge's index, read signed and clamped to the last. -/
theorem gatherDeg_operandIdx (e : Fin 1300000) (idx : IVec S1300000x1 32) :
    gatherDeg.operandIdx (ix1 e) idx
      = ix1 (n := 50000) (clampNode (idx (ix2 e 0))) := by
  funext a; refine Fin.ext ?_
  match a with
  | ⟨0, _⟩ =>
    show gatherDeg.start (ix1 e) idx 0 + gatherDeg.batchCoord (ix1 e) 0 + gatherDeg.offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gatherDeg.startIndexMap from List.mem_singleton.mpr rfl), gatherDeg_siIdx]
    rfl

/-! ## The index arrays and the broadcast weights read at an entry -/

/-- A vector over the edges as a one-column array: entry `(e, 0)` is entry `e`. -/
theorem bcast_col1_apply {α : Type} (w : S1300000.Idx → α) (e : Fin 1300000) :
    broadcastInDim S1300000x1 ![0] bcast_col1 w (ix2 e 0) = w (ix1 e) := by
  unfold broadcastInDim
  refine congrArg w ?_
  funext a
  match a with
  | ⟨0, _⟩ => rfl

theorem colIdx_apply (v : IVec S1300000 32) (e : Fin 1300000) : colIdx v (ix2 e 0) = v (ix1 e) :=
  bcast_col1_apply v e

/-- A vector over the edges repeated along 64 columns: entry `(e, c)` is entry `e`. -/
theorem bcast_cols_apply {α : Type} (w : S1300000.Idx → α) (e : Fin 1300000) (c : Fin 64) :
    broadcastInDim S1300000x64 ![0, 1] bcast_cols (broadcastInDim S1300000x1 ![0] bcast_col1 w) (ix2 e c) = w (ix1 e) := by
  unfold broadcastInDim
  refine congrArg w ?_
  funext a
  match a with
  | ⟨0, _⟩ => rfl

/-- The normalisation leaves an index that is not negative as it is. -/
theorem wrapIdx_apply_of_nonneg (v : IVec S1300000 32) (e : Fin 1300000) (h : 0 ≤ (v (ix1 e)).toInt) :
    wrapIdx v (ix2 e 0) = v (ix1 e) := by
  unfold wrapIdx
  refine (bcast_col1_apply _ e).trans ?_
  show Scalar.select (IntOp.cmpi .slt (v (ix1 e)) 0#32) (IntOp.addi (v (ix1 e)) 50000#32) (v (ix1 e)) = v (ix1 e)
  have hs : (v (ix1 e)).slt 0#32 = false := by
    rw [BitVec.slt_eq_decide, BitVec.toInt_zero]
    exact decide_eq_false (by omega)
  show Scalar.select (BitVec.ofBool ((v (ix1 e)).slt 0#32)) _ _ = _
  rw [hs]
  exact select_zero _ _

/-! ## The degree factor is a nonnegative real -/

/-- A scatter-add at an entry, at the ideal instance: the operand's entry plus the sum of the updates landing there. -/
theorem scatterAdd_apply {s si su : Shape} (d : ScatterDims s si su) {w : Nat} (x : FVec Ideal s .f32) (idx : IVec si w)
    (upd : FVec Ideal su .f32) (i : s.Idx) :
    Host.scatterAdd d x idx upd i = Ideal.hostScatterAdd d x idx upd i := rfl

/-- A finite sum of ones is a nonnegative real. -/
theorem sum_one_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-- The in-degree is a nonnegative real: zero plus one for every edge that lands on the node. -/
theorem deg_real (a1 : IVec S2x1250000 32) (i : S50000.Idx) : ∃ r : ℝ, 0 ≤ r ∧ degOf a1 i = (r : EReal) := by
  unfold degOf
  rw [scatterAdd_apply]
  unfold Ideal.hostScatterAdd
  show ∃ r : ℝ, 0 ≤ r ∧
    Ideal.ofBits .f32 0x00000000#32 + Finset.sum _ (fun _ => Ideal.ofBits .f32 0x3F800000#32) = (r : EReal)
  rw [Ideal.ofBits_zero_f32, zero_add, Ideal.ofBits_one_f32]
  exact sum_one_real _

/-- The zero vector over the nodes reads zero at every node. -/
theorem zeroDeg_apply (i : S50000.Idx) :
    broadcastInDim S50000 ![] bcast_S_S50000 (constant (F := Ideal) S_ .f32 0x00000000#32) i = 0 := Ideal.ofBits_zero_f32

theorem zeroDeg_apply' (i : S50000.Idx) :
    broadcastInDim S50000 ![] bcast_S_S50000 (id (constant (F := Ideal) S_ .f32 0x00000000#32)) i = 0 :=
  Ideal.ofBits_zero_f32

/-- The host's inverse square root at an entry is the extended reals' at the entry. -/
theorem rsqrt_apply {s : Shape} (x : FVec Ideal s .f32) (i : s.Idx) : Host.rsqrt x i = Ideal.rsqrt (x i) := rfl

/-- The degree factor is a nonnegative real: the inverse square root of a positive degree, or zero. -/
theorem dinv_nonneg_real (a1 : IVec S2x1250000 32) : ∀ i, ∃ r : ℝ, 0 ≤ r ∧ dinvOf a1 i = (r : EReal) := by
  intro i
  obtain ⟨n, hn0, hn⟩ := deg_real a1 i
  unfold dinvOf
  rw [select_apply, cmpf_apply, Ideal.cmpf_def, rsqrt_apply, zeroDeg_apply, zeroDeg_apply', hn]
  by_cases hpos : (0 : ℝ) < n
  · refine ⟨(Real.sqrt n)⁻¹, inv_nonneg.mpr (Real.sqrt_nonneg _), ?_⟩
    have hc : Ideal.cmp .ogt (n : EReal) 0 = 1#1 := by
      show BitVec.ofBool (decide ((0 : EReal) < (n : EReal))) = 1#1
      rw [decide_eq_true (by exact_mod_cast hpos)]
      rfl
    rw [hc, select_one, Ideal.rsqrt_coe, if_neg (not_lt.mpr hn0), if_neg hpos.ne']
  · refine ⟨0, le_refl _, ?_⟩
    have hc : Ideal.cmp .ogt (n : EReal) 0 = 0#1 := by
      show BitVec.ofBool (decide ((0 : EReal) < (n : EReal))) = 0#1
      rw [decide_eq_false (by exact_mod_cast hpos)]
      rfl
    rw [hc]
    exact select_zero _ _

/-! ## A finite sum times a nonnegative real -/

theorem sum_mul_coe_nonneg {ι : Type} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-! ## The law -/

/-- A gather at an entry reads the operand at the gather's operand index. -/
theorem gather_apply {s si t : Shape} {α : Type} {w : Nat} (d : GatherDims s si t) (x : s.Idx → α) (idx : IVec si w)
    (j : t.Idx) : Host.gather d x idx j = x (d.operandIdx j idx) := rfl

/-- Row scaling at an entry given by its coordinates. -/
theorem scale_apply_ix2 {R M : Nat} (h : Cert.Spec.Mat R M) (d : Cert.Spec.Vect R) (a : Fin R) (b : Fin M) :
    Cert.Spec.scale h d (ix2 a b) = h (ix2 a b) * d (ix1 a) := rfl

/-- The zero matrix over the nodes reads zero at every entry. -/
theorem zeroH_apply (i : S50000x64.Idx) :
    broadcastInDim S50000x64 ![] bcast_S_S50000x64 (constant (F := Ideal) S_ .f32 0x00000000#32) i = 0 :=
  Ideal.ofBits_zero_f32

/-- One edge's contribution: for an edge that lands on node `i 0`, the source's scaled feature times the node's
    factor is the source's feature times the edge's weight — the edge's target factor is the node's. -/
theorem term_eq (h : FVec Ideal S50000x64 .f32) (a1 : IVec S2x1250000 32) (i : S50000x64.Idx) (r : ℝ)
    (hr : dinvOf a1 (ix1 (n := 50000) (i 0)) = (r : EReal)) (e : Fin 1300000) (c : Fin 64)
    (hland : scatterH.resultIdx? (ix2 e c) (colIdx (colOf a1)) = some i) :
    Host.gather gatherH (Cert.Spec.scale h (dinvOf a1)) (wrapIdx (rowOf a1)) (ix2 e c) * (r : EReal)
      = mulf (Host.gather gatherH h (wrapIdx (rowOf a1)))
          (broadcastInDim S1300000x64 ![0, 1] bcast_cols (broadcastInDim S1300000x1 ![0] bcast_col1 (normOf a1)))
          (ix2 e c) := by
  have hcol := scatterH_lands e c _ i hland
  rw [colIdx_apply] at hcol
  have hi := idx2_lt0 i
  rw [mulf_apply, gather_apply, gather_apply, bcast_cols_apply, gatherH_operandIdx, scale_apply_ix2]
  unfold normOf
  rw [mulf_apply, gather_apply, gather_apply, gatherDeg_operandIdx, gatherDeg_operandIdx,
    wrapIdx_apply_of_nonneg (colOf a1) e (by omega)]
  have hq : (ix1 (n := 50000) (clampNode ((colOf a1) (ix1 e))) : S50000.Idx) = ix1 (n := 50000) (i 0) := by
    refine congrArg (ix1 (n := 50000)) (Fin.ext ?_)
    rw [clampNode_val]
    omega
  rw [hq, hr]
  exact mul_assoc _ _ _

/-- The factor of the target node can be taken out of the sum over the edges into it: the sum over the edges into
    node `i 0` of the source's scaled feature, times the node's factor, is the sum over the same edges of the
    source's feature times the product of the two endpoint factors.  The factor is a nonnegative real, over which
    the extended reals distribute. -/
theorem agg_eq (h : FVec Ideal S50000x64 .f32) (a1 : IVec S2x1250000 32) (i : S50000x64.Idx) :
    aggK (Cert.Spec.scale h (dinvOf a1)) a1 i * dinvOf a1 (ix1 (n := 50000) (i 0)) = aggR h a1 i := by
  obtain ⟨r, hr0, hr⟩ := dinv_nonneg_real a1 (ix1 (n := 50000) (i 0))
  unfold aggK aggR
  rw [scatterAdd_apply, scatterAdd_apply, hr]
  unfold Ideal.hostScatterAdd
  show (_ + Finset.sum _ _) * _ = _ + Finset.sum _ _
  rw [zeroH_apply, zero_add, zero_add, sum_mul_coe_nonneg _ _ r hr0]
  refine Finset.sum_congr rfl (fun j hj => ?_)
  have hland := (Finset.mem_filter.mp hj).2
  obtain ⟨e, c, rfl⟩ : ∃ e c, j = ix2 (n0 := 1300000) (n1 := 64) e c := ⟨j 0, j 1, eq_ix2 j⟩
  exact term_eq h a1 i r hr e c hland

end Cert.Agg

end
-- ==== Proof.NetEq.lean ====
/-
  The two nets are one function: in every layer, scaling the rows by the nonnegative real `d` before and after the sum
  over the incoming edges gives the reference's weighted sum (the law of the aggregation), so the states agree layer by layer.
-/
import proofs.«121059_j18107582120780_2_alg».proof.Proof.Net
import proofs.«121059_j18107582120780_2_alg».proof.Proof.Agg

noncomputable section

namespace Cert.Net

open Idealize.ShloMosaic Cert.Spec Cert.Terms

variable (a0 : Mat 50000 128) (a1 : IVec S2x1250000 32) (a2 : Mat 128 64) (a3 : Vect 64) (a4 : Mat 64 64) (a5 : Vect 64)
  (a6 : Mat 64 64) (a7 : Vect 64) (a8 : Mat 64 47) (a9 : Vect 47) (a10 : FVec Ideal S4x64 .f32)

/-- A layer of the kernel is a layer of the reference. -/
theorem step_eq (X : Mat 50000 64) (k : Fin 4) : stepK a1 a4 a5 a6 a7 a10 X k = stepR a1 a4 a5 a6 a7 a10 X k := by
  unfold stepK stepR
  have e : scale (aggK (scale (mm X a4) (dinvOf a1)) a1) (dinvOf a1) = aggR (mm X a4) a1 :=
    funext fun i => Cert.Agg.agg_eq (mm X a4) a1 i
  rw [e]

/-- The kernel's result is the reference's. -/
theorem net_eq : kNet a0 a1 a2 a3 a4 a5 a6 a7 a8 a9 a10 = refNet a0 a1 a2 a3 a4 a5 a6 a7 a8 a9 a10 := by
  unfold kNet refNet xK4 xR4 xK3 xR3 xK2 xR2 xK1 xR1 xK0 xR0
  simp only [step_eq]

end Cert.Net

end
-- ==== Proof.RefLink.lean ====
/- The term the reference's run states for its result array is the last stage of the operation-by-operation reading,
   applied to the launch contents of the eleven arguments. -/
import proofs.«121059_j18107582120780_2_alg».proof.Proof.RefRun
import proofs.«121059_j18107582120780_2_alg».proof.Proof.RefRead

noncomputable section

namespace Cert.RefLink

open Cert.ReferenceIdeal Cert.ReferenceIdeal.Gen Cert.ReferenceIdeal.Read Idealize.ShloMosaic Idealize.ShloMosaic.TcCoe Idealize.SL.Sem

variable {F : FTy → Type} [FloatOps F]

/-- The term the run states for the result is the last stage, at the launch contents of the arguments. -/
theorem val_main_v190_eq (m : (ℓ : Loc nD τ sig) → Buf (Elt F) ℓ) (c : Dev nD) :
    Cert.ReferenceIdeal.Value.res_main_v190 m c
      = val_main_v190 (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) :=
  rfl

end Cert.RefLink

end
-- ==== Proof.RefLegs.lean ====
/- The reference program's run, its read-at-an-index lemmas and the link between the two, gathered under one name. -/
import proofs.«121059_j18107582120780_2_alg».proof.Proof.RefRun
import proofs.«121059_j18107582120780_2_alg».proof.Proof.RefRead
import proofs.«121059_j18107582120780_2_alg».proof.Proof.RefLink
-- ==== Proof.RefValue.Enc.lean ====
/-
  The reference's encoder, projection and decoder stages, read index by index.

  Each stage of the reference is a short chain of whole-array operations: a matrix product, a bias broadcast along the
  rows, an addition, and for the encoder a maximum with the zero splat.  Read at an output index (r, c) the product is
  the sum over the contracted coordinate k of the left operand at (r, k) times the right operand at (k, c), and the
  twice-broadcast bias is the bias at c.  These are exactly the entries of the specification's `enc`, `mm` and `dec`.
-/
import proofs.«121059_j18107582120780_2_alg».proof.Proof.RefRead
import proofs.«121059_j18107582120780_2_alg».proof.Proof.Spec

noncomputable section

namespace Cert.RefValue

open Idealize.ShloMosaic Idealize.ShloMosaic.ValueIdx Cert.ReferenceIdeal Cert.ReferenceIdeal.Read

/-! ## Index identifications: the composed index functions are the coordinate constructors -/

/-- The left operand of a product into a 64-column result is read at (row of the output, k). -/
theorem lidx_x64 {K : Nat} (i : S50000x64.Idx) (k : Fin K) (j : (⟨2, ![50000, K]⟩ : Shape).Idx)
    (h0 : (j 0).val = (i 0).val) (h1 : (j 1).val = k.val) :
    j = ix2 (n0 := 50000) (n1 := K) (i 0) k :=
  funext fun a => Fin.ext (by match a with | ⟨0, _⟩ => exact h0 | ⟨1, _⟩ => exact h1)

/-- The right operand of a product into a 64-column result is read at (k, column of the output). -/
theorem ridx_x64 {K : Nat} (i : S50000x64.Idx) (k : Fin K) (j : (⟨2, ![K, 64]⟩ : Shape).Idx)
    (h0 : (j 0).val = k.val) (h1 : (j 1).val = (i 1).val) :
    j = ix2 (n0 := K) (n1 := 64) k (i 1) :=
  funext fun a => Fin.ext (by match a with | ⟨0, _⟩ => exact h0 | ⟨1, _⟩ => exact h1)

theorem lidx30 (i : S50000x64.Idx) (k : Fin 128) : lidx_main_v30 i k = ix2 (n0 := 50000) (n1 := 128) (i 0) k :=
  lidx_x64 i k _ rfl rfl
theorem ridx30 (i : S50000x64.Idx) (k : Fin 128) : ridx_main_v30 i k = ix2 (n0 := 128) (n1 := 64) k (i 1) :=
  ridx_x64 i k _ rfl rfl
theorem lidx35 (i : S50000x64.Idx) (k : Fin 64) : lidx_main_v35 i k = ix2 (n0 := 50000) (n1 := 64) (i 0) k :=
  lidx_x64 i k _ rfl rfl
theorem ridx35 (i : S50000x64.Idx) (k : Fin 64) : ridx_main_v35 i k = ix2 (n0 := 64) (n1 := 64) k (i 1) :=
  ridx_x64 i k _ rfl rfl
theorem lidx187 (i : S50000x47.Idx) (k : Fin 64) : lidx_main_v187 i k = ix2 (n0 := 50000) (n1 := 64) (i 0) k :=
  funext fun a => match a with | ⟨0, _⟩ => rfl | ⟨1, _⟩ => rfl
theorem ridx187 (i : S50000x47.Idx) (k : Fin 64) : ridx_main_v187 i k = ix2 (n0 := 64) (n1 := 47) k (i 1) :=
  funext fun a => match a with | ⟨0, _⟩ => rfl | ⟨1, _⟩ => rfl

/-- A length-64 bias broadcast to one row and then to every row is read at the output's column. -/
theorem bidx32 (i : S50000x64.Idx) : idx_main_v31 (idx_main_v32 i) = ix1 (n := 64) (i 1) :=
  funext fun a => match a with | ⟨0, _⟩ => rfl
/-- The decoder's length-47 bias, broadcast twice, is read at the output's column. -/
theorem bidx189 (i : S50000x47.Idx) : idx_main_v188 (idx_main_v189 i) = ix1 (n := 47) (i 1) :=
  funext fun a => match a with | ⟨0, _⟩ => rfl

/-! ## The stages -/

/-- The encoder stage is `max (x · enc_w + enc_b) 0`, entry by entry. -/
theorem ref_enc (x0 : (⟨S50000x128, .f32⟩ : BufTy).Contents (Elt Ideal)) (x2 : (⟨S128x64, .f32⟩ : BufTy).Contents (Elt Ideal))
    (x3 : (⟨S64, .f32⟩ : BufTy).Contents (Elt Ideal)) :
    val_main_v34 (F := Ideal) x0 x2 x3 = Cert.Spec.enc x0 x2 x3 := by
  funext i
  rw [val_main_v34_apply, val_main_v33_apply, val_main_v30_apply, val_main_v32_apply, val_main_v31_apply,
    val_main_call1_v0_apply, val_main_call1_cst_apply]
  simp only [lidx30, ridx30, bidx32, Ideal.maximumf_def, Ideal.addf_def, Ideal.ofBits_def, Ideal.ofBits_zero_f32]
  rfl

/-- The projection stage of the first layer is the matrix product of the encoder's output with `conv_w`. -/
theorem ref_proj (x0 : (⟨S50000x128, .f32⟩ : BufTy).Contents (Elt Ideal)) (x2 : (⟨S128x64, .f32⟩ : BufTy).Contents (Elt Ideal))
    (x3 : (⟨S64, .f32⟩ : BufTy).Contents (Elt Ideal)) (x4 : (⟨S64x64, .f32⟩ : BufTy).Contents (Elt Ideal)) :
    val_main_v35 (F := Ideal) x0 x2 x3 x4 = Cert.Spec.mm (val_main_v34 (F := Ideal) x0 x2 x3) x4 := by
  funext i
  rw [val_main_v35_apply]
  simp only [lidx35, ridx35]
  rfl

/-- The decoder stage is `X · dec_w + dec_b` of the last layer's output `X`. -/
theorem ref_dec (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x47, .f32⟩ : BufTy).Contents (Elt Ideal)) (x9 : (⟨S47, .f32⟩ : BufTy).Contents (Elt Ideal))
    (x10 : (⟨S4x64, .f32⟩ : BufTy).Contents (Elt Ideal)) :
    val_main_v190 (F := Ideal) x0 x1 x2 x3 x4 x5 x6 x7 x8 x9 x10
      = Cert.Spec.dec (val_main_v186 (F := Ideal) x0 x1 x2 x3 x4 x5 x6 x7 x10) x8 x9 := by
  funext i
  rw [val_main_v190_apply, val_main_v187_apply, val_main_v189_apply, val_main_v188_apply]
  simp only [lidx187, ridx187, bidx189, Ideal.addf_def]
  rfl

end Cert.RefValue

end
-- ==== Proof.RefValue.Layer1.lean ====
/-
  The first layer of the reference, read index by index.

  The layer's stages between its projection `h = X · conv_w` and its output are pointwise except for three: the
  gather/scatter pair that aggregates messages along the edges, the residual branch's matrix product, and the layout
  operations that cut row 0 out of the gate parameters and broadcast the three bias vectors along the rows.  The
  aggregation is, operation for operation, the edge-weighted aggregation `aggR` of the projection.  Read at an entry
  (r, c) the rest is
    X r c * (1 + tanh (eps 0 c)) + 1 * (max ((agg r c + conv_b c) + -(∑ k, h r k * res_w k c + res_b c)) 0 - 1 * X r c),
  which is the specification's `comb` once the negation is written as subtraction from zero.
-/
import proofs.«121059_j18107582120780_2_alg».proof.Proof.RefRead
import proofs.«121059_j18107582120780_2_alg».proof.Proof.Spec
import proofs.«121059_j18107582120780_2_alg».proof.Proof.Terms

noncomputable section

namespace Cert.RefValue

open Idealize.ShloMosaic Idealize.ShloMosaic.ValueIdx Cert.ReferenceIdeal Cert.ReferenceIdeal.Read

/-! ## Index identifications -/

theorem lidx52 (i : S50000x64.Idx) (k : Fin 64) : lidx_main_v52 i k = ix2 (n0 := 50000) (n1 := 64) (i 0) k :=
  funext fun a => match a with | ⟨0, _⟩ => rfl | ⟨1, _⟩ => rfl
theorem ridx52 (i : S50000x64.Idx) (k : Fin 64) : ridx_main_v52 i k = ix2 (n0 := 64) (n1 := 64) k (i 1) :=
  funext fun a => match a with | ⟨0, _⟩ => rfl | ⟨1, _⟩ => rfl
theorem bidx50 (i : S50000x64.Idx) : idx_main_v49 (idx_main_v50 i) = ix1 (n := 64) (i 1) :=
  funext fun a => match a with | ⟨0, _⟩ => rfl
theorem bidx54 (i : S50000x64.Idx) : idx_main_v53 (idx_main_v54 i) = ix1 (n := 64) (i 1) :=
  funext fun a => match a with | ⟨0, _⟩ => rfl
/-- Row 0 of the gate parameters, sliced out, flattened, broadcast to one row and then to every row, is read at
    (0, the output's column). -/
theorem gidx63 (i : S50000x64.Idx) :
    idx_main_v57 (idx_main_v58 (idx_main_v60 (idx_main_v63 i))) = ix2 (n0 := 4) (n1 := 64) (0 : Fin 4) (i 1) :=
  funext fun a => Fin.ext (by
    match a with
    | ⟨0, _⟩ => rfl
    | ⟨1, _⟩ => exact Nat.mod_eq_of_lt (idx2_lt1 i))

/-- The first layer's scatter stage is the edge-weighted aggregation of its projection: the same operations, in the
    same order, on the same index vectors. -/
theorem ref_agg1 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) :
    val_main_v48 (F := Ideal) x0 x1 x2 x3 x4 = Cert.Terms.aggR (val_main_v35 (F := Ideal) x0 x2 x3 x4) x1 := rfl

/-- The first layer's update, entry by entry: the gate is one plus the hyperbolic tangent of row 0 of the gate
    parameters at the entry's column, the negation is subtraction from zero, and the three unit factors stay as the
    literal's word. -/
theorem ref_layer1 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v72 (F := Ideal) x0 x1 x2 x3 x4 x5 x6 x7 x10
      = Cert.Spec.comb (val_main_v34 (F := Ideal) x0 x2 x3) (val_main_v34 (F := Ideal) x0 x2 x3) (val_main_v35 (F := Ideal) x0 x2 x3 x4)
          (val_main_v48 (F := Ideal) x0 x1 x2 x3 x4) x5 x6 x7 (Cert.Terms.coOf x10 0) := by
  funext i
  rw [val_main_v72_apply, val_main_v64_apply, val_main_v63_apply, val_main_v62_apply, val_main_v61_apply,
    val_main_cst_9_apply, val_main_v60_apply, val_main_v59_apply, val_main_v58_apply, val_main_v57_apply,
    val_main_v71_apply, val_main_v70_apply, val_main_cst_11_apply, val_main_v69_apply, val_main_v66_apply,
    val_main_v65_apply, val_main_v51_apply, val_main_v50_apply, val_main_v49_apply, val_main_v56_apply,
    val_main_v55_apply, val_main_v52_apply, val_main_v54_apply, val_main_v53_apply, val_main_call2_v0_apply,
    val_main_call2_cst_apply, val_main_v68_apply, val_main_v67_apply, val_main_cst_10_apply]
  simp only [lidx52, ridx52, bidx50, bidx54, gidx63, Ideal.addf_def, Ideal.subf_def, Ideal.mulf_def,
    Ideal.maximumf_def, Ideal.hostNegf_def, Ideal.negf_def, Ideal.hostUnary_tanh_def, Ideal.ofBits_def, Ideal.ofBits_zero_f32,
    Cert.Spec.comb, Cert.Spec.mm, Cert.Spec.one, Cert.Terms.coOf, zero_sub] <;> rfl

end Cert.RefValue

end
-- ==== Proof.RefValue.Layer2.lean ====
/-
  The second layer of the reference, read index by index.

  The layer's stages between its projection `h = X · conv_w` and its output are pointwise except for three: the
  gather/scatter pair that aggregates messages along the edges, the residual branch's matrix product, and the layout
  operations that cut row 1 out of the gate parameters and broadcast the three bias vectors along the rows.  The
  aggregation is, operation for operation, the edge-weighted aggregation `aggR` of the projection.  Read at an entry
  (r, c) the rest is
    X r c * (1 + tanh (eps 1 c)) + 1 * (max ((agg r c + conv_b c) + -(∑ k, h r k * res_w k c + res_b c)) 0 - 1 * X r c),
  which is the specification's `comb` once the negation is written as subtraction from zero.
-/
import proofs.«121059_j18107582120780_2_alg».proof.Proof.RefRead
import proofs.«121059_j18107582120780_2_alg».proof.Proof.Spec
import proofs.«121059_j18107582120780_2_alg».proof.Proof.Terms

noncomputable section

namespace Cert.RefValue

open Idealize.ShloMosaic Idealize.ShloMosaic.ValueIdx Cert.ReferenceIdeal Cert.ReferenceIdeal.Read

/-! ## Index identifications -/

theorem lidx90 (i : S50000x64.Idx) (k : Fin 64) : lidx_main_v90 i k = ix2 (n0 := 50000) (n1 := 64) (i 0) k :=
  funext fun a => match a with | ⟨0, _⟩ => rfl | ⟨1, _⟩ => rfl
theorem ridx90 (i : S50000x64.Idx) (k : Fin 64) : ridx_main_v90 i k = ix2 (n0 := 64) (n1 := 64) k (i 1) :=
  funext fun a => match a with | ⟨0, _⟩ => rfl | ⟨1, _⟩ => rfl
theorem lidx73 (i : S50000x64.Idx) (k : Fin 64) : lidx_main_v73 i k = ix2 (n0 := 50000) (n1 := 64) (i 0) k :=
  funext fun a => match a with | ⟨0, _⟩ => rfl | ⟨1, _⟩ => rfl
theorem ridx73 (i : S50000x64.Idx) (k : Fin 64) : ridx_main_v73 i k = ix2 (n0 := 64) (n1 := 64) k (i 1) :=
  funext fun a => match a with | ⟨0, _⟩ => rfl | ⟨1, _⟩ => rfl
theorem bidx88 (i : S50000x64.Idx) : idx_main_v87 (idx_main_v88 i) = ix1 (n := 64) (i 1) :=
  funext fun a => match a with | ⟨0, _⟩ => rfl
theorem bidx92 (i : S50000x64.Idx) : idx_main_v91 (idx_main_v92 i) = ix1 (n := 64) (i 1) :=
  funext fun a => match a with | ⟨0, _⟩ => rfl
/-- Row 1 of the gate parameters, sliced out, flattened, broadcast to one row and then to every row, is read at
    (1, the output's column). -/
theorem gidx101 (i : S50000x64.Idx) :
    idx_main_v95 (idx_main_v96 (idx_main_v98 (idx_main_v101 i))) = ix2 (n0 := 4) (n1 := 64) (1 : Fin 4) (i 1) :=
  funext fun a => Fin.ext (by
    match a with
    | ⟨0, _⟩ => rfl
    | ⟨1, _⟩ => exact Nat.mod_eq_of_lt (idx2_lt1 i))

/-- The second layer's projection is the matrix product of the previous layer's output with `conv_w`. -/
theorem ref_proj2 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v73 (F := Ideal) x0 x1 x2 x3 x4 x5 x6 x7 x10 = Cert.Spec.mm (val_main_v72 (F := Ideal) x0 x1 x2 x3 x4 x5 x6 x7 x10) x4 := by
  funext i
  rw [val_main_v73_apply]
  simp only [lidx73, ridx73]
  rfl

/-- The second layer's scatter stage is the edge-weighted aggregation of its projection: the same operations, in the
    same order, on the same index vectors. -/
theorem ref_agg2 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v86 (F := Ideal) x0 x1 x2 x3 x4 x5 x6 x7 x10 = Cert.Terms.aggR (val_main_v73 (F := Ideal) x0 x1 x2 x3 x4 x5 x6 x7 x10) x1 := rfl

/-- The second layer's update, entry by entry: the gate is one plus the hyperbolic tangent of row 1 of the gate
    parameters at the entry's column, the negation is subtraction from zero, and the three unit factors stay as the
    literal's word. -/
theorem ref_layer2 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v110 (F := Ideal) x0 x1 x2 x3 x4 x5 x6 x7 x10
      = Cert.Spec.comb (val_main_v72 (F := Ideal) x0 x1 x2 x3 x4 x5 x6 x7 x10) (val_main_v72 (F := Ideal) x0 x1 x2 x3 x4 x5 x6 x7 x10) (val_main_v73 (F := Ideal) x0 x1 x2 x3 x4 x5 x6 x7 x10)
          (val_main_v86 (F := Ideal) x0 x1 x2 x3 x4 x5 x6 x7 x10) x5 x6 x7 (Cert.Terms.coOf x10 1) := by
  funext i
  rw [val_main_v110_apply, val_main_v102_apply, val_main_v101_apply, val_main_v100_apply, val_main_v99_apply,
    val_main_cst_15_apply, val_main_v98_apply, val_main_v97_apply, val_main_v96_apply, val_main_v95_apply,
    val_main_v109_apply, val_main_v108_apply, val_main_cst_17_apply, val_main_v107_apply, val_main_v104_apply,
    val_main_v103_apply, val_main_v89_apply, val_main_v88_apply, val_main_v87_apply, val_main_v94_apply,
    val_main_v93_apply, val_main_v90_apply, val_main_v92_apply, val_main_v91_apply, val_main_call3_v0_apply,
    val_main_call3_cst_apply, val_main_v106_apply, val_main_v105_apply, val_main_cst_16_apply]
  simp only [lidx90, ridx90, bidx88, bidx92, gidx101, Ideal.addf_def, Ideal.subf_def, Ideal.mulf_def,
    Ideal.maximumf_def, Ideal.hostNegf_def, Ideal.negf_def, Ideal.hostUnary_tanh_def, Ideal.ofBits_def, Ideal.ofBits_zero_f32,
    Cert.Spec.comb, Cert.Spec.mm, Cert.Spec.one, Cert.Terms.coOf, zero_sub] <;> rfl

end Cert.RefValue

end
-- ==== Proof.RefValue.Layer3.lean ====
/-
  The third layer of the reference, read index by index.

  The layer's stages between its projection `h = X · conv_w` and its output are pointwise except for three: the
  gather/scatter pair that aggregates messages along the edges, the residual branch's matrix product, and the layout
  operations that cut row 2 out of the gate parameters and broadcast the three bias vectors along the rows.  The
  aggregation is, operation for operation, the edge-weighted aggregation `aggR` of the projection.  Read at an entry
  (r, c) the rest is
    X r c * (1 + tanh (eps 2 c)) + 1 * (max ((agg r c + conv_b c) + -(∑ k, h r k * res_w k c + res_b c)) 0 - 1 * X r c),
  which is the specification's `comb` once the negation is written as subtraction from zero.
-/
import proofs.«121059_j18107582120780_2_alg».proof.Proof.RefRead
import proofs.«121059_j18107582120780_2_alg».proof.Proof.Spec
import proofs.«121059_j18107582120780_2_alg».proof.Proof.Terms

noncomputable section

namespace Cert.RefValue

open Idealize.ShloMosaic Idealize.ShloMosaic.ValueIdx Cert.ReferenceIdeal Cert.ReferenceIdeal.Read

/-! ## Index identifications -/

theorem lidx128 (i : S50000x64.Idx) (k : Fin 64) : lidx_main_v128 i k = ix2 (n0 := 50000) (n1 := 64) (i 0) k :=
  funext fun a => match a with | ⟨0, _⟩ => rfl | ⟨1, _⟩ => rfl
theorem ridx128 (i : S50000x64.Idx) (k : Fin 64) : ridx_main_v128 i k = ix2 (n0 := 64) (n1 := 64) k (i 1) :=
  funext fun a => match a with | ⟨0, _⟩ => rfl | ⟨1, _⟩ => rfl
theorem lidx111 (i : S50000x64.Idx) (k : Fin 64) : lidx_main_v111 i k = ix2 (n0 := 50000) (n1 := 64) (i 0) k :=
  funext fun a => match a with | ⟨0, _⟩ => rfl | ⟨1, _⟩ => rfl
theorem ridx111 (i : S50000x64.Idx) (k : Fin 64) : ridx_main_v111 i k = ix2 (n0 := 64) (n1 := 64) k (i 1) :=
  funext fun a => match a with | ⟨0, _⟩ => rfl | ⟨1, _⟩ => rfl
theorem bidx126 (i : S50000x64.Idx) : idx_main_v125 (idx_main_v126 i) = ix1 (n := 64) (i 1) :=
  funext fun a => match a with | ⟨0, _⟩ => rfl
theorem bidx130 (i : S50000x64.Idx) : idx_main_v129 (idx_main_v130 i) = ix1 (n := 64) (i 1) :=
  funext fun a => match a with | ⟨0, _⟩ => rfl
/-- Row 2 of the gate parameters, sliced out, flattened, broadcast to one row and then to every row, is read at
    (2, the output's column). -/
theorem gidx139 (i : S50000x64.Idx) :
    idx_main_v133 (idx_main_v134 (idx_main_v136 (idx_main_v139 i))) = ix2 (n0 := 4) (n1 := 64) (2 : Fin 4) (i 1) :=
  funext fun a => Fin.ext (by
    match a with
    | ⟨0, _⟩ => rfl
    | ⟨1, _⟩ => exact Nat.mod_eq_of_lt (idx2_lt1 i))

/-- The third layer's projection is the matrix product of the previous layer's output with `conv_w`. -/
theorem ref_proj3 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v111 (F := Ideal) x0 x1 x2 x3 x4 x5 x6 x7 x10 = Cert.Spec.mm (val_main_v110 (F := Ideal) x0 x1 x2 x3 x4 x5 x6 x7 x10) x4 := by
  funext i
  rw [val_main_v111_apply]
  simp only [lidx111, ridx111]
  rfl

/-- The third layer's scatter stage is the edge-weighted aggregation of its projection: the same operations, in the
    same order, on the same index vectors. -/
theorem ref_agg3 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v124 (F := Ideal) x0 x1 x2 x3 x4 x5 x6 x7 x10 = Cert.Terms.aggR (val_main_v111 (F := Ideal) x0 x1 x2 x3 x4 x5 x6 x7 x10) x1 := rfl

/-- The third layer's update, entry by entry: the gate is one plus the hyperbolic tangent of row 2 of the gate
    parameters at the entry's column, the negation is subtraction from zero, and the three unit factors stay as the
    literal's word. -/
theorem ref_layer3 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v148 (F := Ideal) x0 x1 x2 x3 x4 x5 x6 x7 x10
      = Cert.Spec.comb (val_main_v110 (F := Ideal) x0 x1 x2 x3 x4 x5 x6 x7 x10) (val_main_v110 (F := Ideal) x0 x1 x2 x3 x4 x5 x6 x7 x10) (val_main_v111 (F := Ideal) x0 x1 x2 x3 x4 x5 x6 x7 x10)
          (val_main_v124 (F := Ideal) x0 x1 x2 x3 x4 x5 x6 x7 x10) x5 x6 x7 (Cert.Terms.coOf x10 2) := by
  funext i
  rw [val_main_v148_apply, val_main_v140_apply, val_main_v139_apply, val_main_v138_apply, val_main_v137_apply,
    val_main_cst_21_apply, val_main_v136_apply, val_main_v135_apply, val_main_v134_apply, val_main_v133_apply,
    val_main_v147_apply, val_main_v146_apply, val_main_cst_23_apply, val_main_v145_apply, val_main_v142_apply,
    val_main_v141_apply, val_main_v127_apply, val_main_v126_apply, val_main_v125_apply, val_main_v132_apply,
    val_main_v131_apply, val_main_v128_apply, val_main_v130_apply, val_main_v129_apply, val_main_call4_v0_apply,
    val_main_call4_cst_apply, val_main_v144_apply, val_main_v143_apply, val_main_cst_22_apply]
  simp only [lidx128, ridx128, bidx126, bidx130, gidx139, Ideal.addf_def, Ideal.subf_def, Ideal.mulf_def,
    Ideal.maximumf_def, Ideal.hostNegf_def, Ideal.negf_def, Ideal.hostUnary_tanh_def, Ideal.ofBits_def, Ideal.ofBits_zero_f32,
    Cert.Spec.comb, Cert.Spec.mm, Cert.Spec.one, Cert.Terms.coOf, zero_sub] <;> rfl

end Cert.RefValue

end
-- ==== Proof.RefValue.Layer4.lean ====
/-
  The fourth layer of the reference, read index by index.

  The layer's stages between its projection `h = X · conv_w` and its output are pointwise except for three: the
  gather/scatter pair that aggregates messages along the edges, the residual branch's matrix product, and the layout
  operations that cut row 3 out of the gate parameters and broadcast the three bias vectors along the rows.  The
  aggregation is, operation for operation, the edge-weighted aggregation `aggR` of the projection.  Read at an entry
  (r, c) the rest is
    X r c * (1 + tanh (eps 3 c)) + 1 * (max ((agg r c + conv_b c) + -(∑ k, h r k * res_w k c + res_b c)) 0 - 1 * X r c),
  which is the specification's `comb` once the negation is written as subtraction from zero.
-/
import proofs.«121059_j18107582120780_2_alg».proof.Proof.RefRead
import proofs.«121059_j18107582120780_2_alg».proof.Proof.Spec
import proofs.«121059_j18107582120780_2_alg».proof.Proof.Terms

noncomputable section

namespace Cert.RefValue

open Idealize.ShloMosaic Idealize.ShloMosaic.ValueIdx Cert.ReferenceIdeal Cert.ReferenceIdeal.Read

/-! ## Index identifications -/

theorem lidx166 (i : S50000x64.Idx) (k : Fin 64) : lidx_main_v166 i k = ix2 (n0 := 50000) (n1 := 64) (i 0) k :=
  funext fun a => match a with | ⟨0, _⟩ => rfl | ⟨1, _⟩ => rfl
theorem ridx166 (i : S50000x64.Idx) (k : Fin 64) : ridx_main_v166 i k = ix2 (n0 := 64) (n1 := 64) k (i 1) :=
  funext fun a => match a with | ⟨0, _⟩ => rfl | ⟨1, _⟩ => rfl
theorem lidx149 (i : S50000x64.Idx) (k : Fin 64) : lidx_main_v149 i k = ix2 (n0 := 50000) (n1 := 64) (i 0) k :=
  funext fun a => match a with | ⟨0, _⟩ => rfl | ⟨1, _⟩ => rfl
theorem ridx149 (i : S50000x64.Idx) (k : Fin 64) : ridx_main_v149 i k = ix2 (n0 := 64) (n1 := 64) k (i 1) :=
  funext fun a => match a with | ⟨0, _⟩ => rfl | ⟨1, _⟩ => rfl
theorem bidx164 (i : S50000x64.Idx) : idx_main_v163 (idx_main_v164 i) = ix1 (n := 64) (i 1) :=
  funext fun a => match a with | ⟨0, _⟩ => rfl
theorem bidx168 (i : S50000x64.Idx) : idx_main_v167 (idx_main_v168 i) = ix1 (n := 64) (i 1) :=
  funext fun a => match a with | ⟨0, _⟩ => rfl
/-- Row 3 of the gate parameters, sliced out, flattened, broadcast to one row and then to every row, is read at
    (3, the output's column). -/
theorem gidx177 (i : S50000x64.Idx) :
    idx_main_v171 (idx_main_v172 (idx_main_v174 (idx_main_v177 i))) = ix2 (n0 := 4) (n1 := 64) (3 : Fin 4) (i 1) :=
  funext fun a => Fin.ext (by
    match a with
    | ⟨0, _⟩ => rfl
    | ⟨1, _⟩ => exact Nat.mod_eq_of_lt (idx2_lt1 i))

/-- The fourth layer's projection is the matrix product of the previous layer's output with `conv_w`. -/
theorem ref_proj4 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v149 (F := Ideal) x0 x1 x2 x3 x4 x5 x6 x7 x10 = Cert.Spec.mm (val_main_v148 (F := Ideal) x0 x1 x2 x3 x4 x5 x6 x7 x10) x4 := by
  funext i
  rw [val_main_v149_apply]
  simp only [lidx149, ridx149]
  rfl

/-- The fourth layer's scatter stage is the edge-weighted aggregation of its projection: the same operations, in the
    same order, on the same index vectors. -/
theorem ref_agg4 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v162 (F := Ideal) x0 x1 x2 x3 x4 x5 x6 x7 x10 = Cert.Terms.aggR (val_main_v149 (F := Ideal) x0 x1 x2 x3 x4 x5 x6 x7 x10) x1 := rfl

/-- The fourth layer's update, entry by entry: the gate is one plus the hyperbolic tangent of row 3 of the gate
    parameters at the entry's column, the negation is subtraction from zero, and the three unit factors stay as the
    literal's word. -/
theorem ref_layer4 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v186 (F := Ideal) x0 x1 x2 x3 x4 x5 x6 x7 x10
      = Cert.Spec.comb (val_main_v148 (F := Ideal) x0 x1 x2 x3 x4 x5 x6 x7 x10) (val_main_v148 (F := Ideal) x0 x1 x2 x3 x4 x5 x6 x7 x10) (val_main_v149 (F := Ideal) x0 x1 x2 x3 x4 x5 x6 x7 x10)
          (val_main_v162 (F := Ideal) x0 x1 x2 x3 x4 x5 x6 x7 x10) x5 x6 x7 (Cert.Terms.coOf x10 3) := by
  funext i
  rw [val_main_v186_apply, val_main_v178_apply, val_main_v177_apply, val_main_v176_apply, val_main_v175_apply,
    val_main_cst_27_apply, val_main_v174_apply, val_main_v173_apply, val_main_v172_apply, val_main_v171_apply,
    val_main_v185_apply, val_main_v184_apply, val_main_cst_29_apply, val_main_v183_apply, val_main_v180_apply,
    val_main_v179_apply, val_main_v165_apply, val_main_v164_apply, val_main_v163_apply, val_main_v170_apply,
    val_main_v169_apply, val_main_v166_apply, val_main_v168_apply, val_main_v167_apply, val_main_call5_v0_apply,
    val_main_call5_cst_apply, val_main_v182_apply, val_main_v181_apply, val_main_cst_28_apply]
  simp only [lidx166, ridx166, bidx164, bidx168, gidx177, Ideal.addf_def, Ideal.subf_def, Ideal.mulf_def,
    Ideal.maximumf_def, Ideal.hostNegf_def, Ideal.negf_def, Ideal.hostUnary_tanh_def, Ideal.ofBits_def, Ideal.ofBits_zero_f32,
    Cert.Spec.comb, Cert.Spec.mm, Cert.Spec.one, Cert.Terms.coOf, zero_sub] <;> rfl

end Cert.RefValue

end
-- ==== Proof.RefValue.lean ====
/-
  The reference's value: the whole reference program is the reference network of the specification.

  Stage by stage the reference's last stage is the composition of the specification's pieces: the encoder
  `max (x · enc_w + enc_b) 0`; four times the layer update
    X ↦ comb X X (X · conv_w) (aggR (X · conv_w) edges) conv_b res_w res_b (gate k),
  where `aggR` weighs every message by the degree factors of both its endpoints; and the decoder `X · dec_w + dec_b`.
-/
import proofs.«121059_j18107582120780_2_alg».proof.Proof.Net
import proofs.«121059_j18107582120780_2_alg».proof.Proof.RefValue.Enc
import proofs.«121059_j18107582120780_2_alg».proof.Proof.RefValue.Layer1
import proofs.«121059_j18107582120780_2_alg».proof.Proof.RefValue.Layer2
import proofs.«121059_j18107582120780_2_alg».proof.Proof.RefValue.Layer3
import proofs.«121059_j18107582120780_2_alg».proof.Proof.RefValue.Layer4

noncomputable section

namespace Cert.RefValue

open Idealize.ShloMosaic Idealize.ShloMosaic.ValueIdx Cert.ReferenceIdeal Cert.ReferenceIdeal.Read

/-- The state after the encoder. -/
theorem ref_x0 (x0 : (⟨S50000x128, .f32⟩ : BufTy).Contents (Elt Ideal)) (x2 : (⟨S128x64, .f32⟩ : BufTy).Contents (Elt Ideal))
    (x3 : (⟨S64, .f32⟩ : BufTy).Contents (Elt Ideal)) :
    val_main_v34 (F := Ideal) x0 x2 x3 = Cert.Net.xR0 x0 x2 x3 :=
  ref_enc x0 x2 x3

/-- The state after the first layer. -/
theorem ref_x1 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v72 (F := Ideal) x0 x1 x2 x3 x4 x5 x6 x7 x10 = Cert.Net.xR1 x0 x1 x2 x3 x4 x5 x6 x7 x10 := by
  rw [ref_layer1, ref_agg1, ref_proj, ref_x0]; rfl

/-- The state after the second layer. -/
theorem ref_x2 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v110 (F := Ideal) x0 x1 x2 x3 x4 x5 x6 x7 x10 = Cert.Net.xR2 x0 x1 x2 x3 x4 x5 x6 x7 x10 := by
  rw [ref_layer2, ref_agg2, ref_proj2, ref_x1]; rfl

/-- The state after the third layer. -/
theorem ref_x3 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v148 (F := Ideal) x0 x1 x2 x3 x4 x5 x6 x7 x10 = Cert.Net.xR3 x0 x1 x2 x3 x4 x5 x6 x7 x10 := by
  rw [ref_layer3, ref_agg3, ref_proj3, ref_x2]; rfl

/-- The state after the fourth layer. -/
theorem ref_x4 (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x10 : (⟨S4x64, .f32⟩ : BufTy).Contents (Elt Ideal)) :
    val_main_v186 (F := Ideal) x0 x1 x2 x3 x4 x5 x6 x7 x10 = Cert.Net.xR4 x0 x1 x2 x3 x4 x5 x6 x7 x10 := by
  rw [ref_layer4, ref_agg4, ref_proj4, ref_x3]; rfl

/-- The reference's last stage, as a function of the eleven arguments, is the reference network. -/
theorem ref_out (x0 : (⟨S50000x128, .f32⟩ : BufTy).Contents (Elt Ideal)) (x1 : (⟨S2x1250000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x47, .f32⟩ : BufTy).Contents (Elt Ideal)) (x9 : (⟨S47, .f32⟩ : BufTy).Contents (Elt Ideal))
    (x10 : (⟨S4x64, .f32⟩ : BufTy).Contents (Elt Ideal)) :
    val_main_v190 (F := Ideal) x0 x1 x2 x3 x4 x5 x6 x7 x8 x9 x10 = Cert.Net.refNet x0 x1 x2 x3 x4 x5 x6 x7 x8 x9 x10 := by
  rw [ref_dec, ref_x4]; rfl

end Cert.RefValue

end
-- ==== Proof.RefValue.Run.lean ====
/-
  The reference run's result: every execution of the reference ends with its result array holding the reference
  network of the launch contents of the arguments.  The run's composed term is the last stage of the operation-by-
  operation reading, and that stage is the network.
-/
import proofs.«121059_j18107582120780_2_alg».proof.Proof.RefLegs
import proofs.«121059_j18107582120780_2_alg».proof.Proof.RefValue

noncomputable section

namespace Cert.RefValue

open Idealize.ShloMosaic Idealize.ShloMosaic.TcCoe Idealize.SL.Sem
open Cert.ReferenceIdeal Cert.ReferenceIdeal.Gen Cert.ReferenceIdeal.Read

/-- The reference run's result term is the reference network of the launch contents of the arguments. -/
theorem ref_run (m : (ℓ : Loc nD τ sig) → Buf (Elt Ideal) ℓ) (c : Dev nD) :
    Cert.ReferenceIdeal.Value.res_main_v190 (F := Ideal) m c
      = Cert.Net.refNet (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) :=
  (Cert.RefLink.val_main_v190_eq (F := Ideal) m c).trans (ref_out _ _ _ _ _ _ _ _ _ _ _)

end Cert.RefValue

end
-- ==== Proof.lean ====
/-
  The certificate's five claims.

  FRAMES.  @main of the kernel program is ten pipelined regions among stretches of host operations.  Each region's body is run
  once, symbolically, on whole staging buffers (its loads, its matrix products and pointwise arithmetic as one pure term per
  store, its one store per output), which gives the library's body obligation at every grid point; the regions' records and the
  host stretches then compose, item by item, into the run of @main, whose last thread state holds every buffer the program
  never writes — the eleven arguments among them — at its launch contents.  The same text serves the word-level program and
  its idealization: nothing in it looks at a float.  The reference program is host operations only; its run is read back
  operation by operation.

  PRESERVES.  The ideal pass rewrote nothing: the statement is `True`.

  ALGEBRAIC.  At the ideal instance both programs compute one function of the arguments.  The encoder, the projection, the
  layer update and the decoder are the same sums and pointwise operations on both sides, read index by index (a block of a
  region's output array is the stage's function of the same rows of its inputs; the blocks tile the rows).  The one
  rearrangement is in the aggregation over incoming edges: the reference weights each message by d[source]·d[target], the
  kernel scales the rows by d before the sum and the sum's rows by d after it.  The two agree on the extended reals because d
  — the inverse square root of a degree that counts at least the node's self-loop, or zero — is a nonnegative REAL, and a
  nonnegative real factor distributes over any finite sum of extended reals.  Finiteness of the inputs is never used.
-/
import proofs.«121059_j18107582120780_2_alg».proof.Defs
import proofs.«121059_j18107582120780_2_alg».proof.Proof.Gen.Kernel
import proofs.«121059_j18107582120780_2_alg».proof.Proof.Gen.KernelIdeal
import proofs.«121059_j18107582120780_2_alg».proof.Proof.Gen.ReferenceIdeal
import proofs.«121059_j18107582120780_2_alg».proof.Proof.Gen.Pre_finite_inputs
import proofs.«121059_j18107582120780_2_alg».proof.Proof.KB.Run
import proofs.«121059_j18107582120780_2_alg».proof.Proof.KI.Run
import proofs.«121059_j18107582120780_2_alg».proof.Proof.KV.KVal
import proofs.«121059_j18107582120780_2_alg».proof.Proof.NetEq
import proofs.«121059_j18107582120780_2_alg».proof.Proof.RefLegs
import proofs.«121059_j18107582120780_2_alg».proof.Proof.RefValue.Run
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the kernel's net of the (agreeing) argument arrays: the kernel by its
    run and the regions' values, the reference by its run read back and the equality of the two nets. -/
theorem algebraic : Cert.algebraic_KernelIdeal_ReferenceIdeal := by
  intro m ρ m' ρ' _ hagree
  refine ⟨fun c => Cert.Net.kNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KVal.out_val m c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.RefValue.ref_run m' c, e0, e1, e2, e3, e4, e5, e6, e7, e8, e9, e10]
    exact (Cert.Net.net_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
